-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x800000 : Shape := ⟨2, ![2, 800000]⟩
abbrev S800000x4 : Shape := ⟨2, ![800000, 4]⟩
abbrev S50000 : Shape := ⟨1, ![50000]⟩
abbrev S9x64 : Shape := ⟨2, ![9, 64]⟩
abbrev S64 : Shape := ⟨1, ![64]⟩
abbrev S4x16 : Shape := ⟨2, ![4, 16]⟩
abbrev S16 : Shape := ⟨1, ![16]⟩
abbrev S3x144x64 : Shape := ⟨3, ![3, 144, 64]⟩
abbrev S3x64 : Shape := ⟨2, ![3, 64]⟩
abbrev S3x64x64 : Shape := ⟨3, ![3, 64, 64]⟩
abbrev S3x64x192 : Shape := ⟨3, ![3, 64, 192]⟩
abbrev S3x192 : Shape := ⟨2, ![3, 192]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S9x64 : S_.BroadcastsInDim S9x64 (![] : Fin 0 → Fin S9x64.rank)
  reducesTo_S9x64_S_d0_1 : S9x64.ReducesTo [0, 1] S_
  h_S_ : 0 < S_.numel
  bcast_S_S64 : S_.BroadcastsInDim S64 (![] : Fin 0 → Fin S64.rank)
  reducesTo_S64_S_d0 : S64.ReducesTo [0] S_
  bcast_S_S4x16 : S_.BroadcastsInDim S4x16 (![] : Fin 0 → Fin S4x16.rank)
  reducesTo_S4x16_S_d0_1 : S4x16.ReducesTo [0, 1] S_
  bcast_S_S16 : S_.BroadcastsInDim S16 (![] : Fin 0 → Fin S16.rank)
  reducesTo_S16_S_d0 : S16.ReducesTo [0] S_
  bcast_S_S3x144x64 : S_.BroadcastsInDim S3x144x64 (![] : Fin 0 → Fin S3x144x64.rank)
  reducesTo_S3x144x64_S_d0_1_2 : S3x144x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64x192 : S_.BroadcastsInDim S3x64x192 (![] : Fin 0 → Fin S3x64x192.rank)
  reducesTo_S3x64x192_S_d0_1_2 : S3x64x192.ReducesTo [0, 1, 2] S_
  bcast_S_S3x192 : S_.BroadcastsInDim S3x192 (![] : Fin 0 → Fin S3x192.rank)
  reducesTo_S3x192_S_d0_1 : S3x192.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S128x1 .f32) (main_arg19 : FVec F S1 .f32) (main_v63 : IVec S_ 1) (main_v67 : IVec S_ 1) : IVec S_ 1 :=
  let main_v68 : IVec S_ 1 := andi main_v63 main_v67
  let main_v69 : FVec F S128x1 .f32 := Host.absf main_arg18
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg19
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg15 : FVec F S3x192 .f32) (main_arg16 : FVec F S64x128 .f32) (main_arg17 : FVec F S128 .f32) (main_arg18 : FVec F S128x1 .f32) (main_arg19 : FVec F S1 .f32) (main_v48 : IVec S_ 1) (main_v49 : FVec F S3x64x192 .f32) (main_v50 : FVec F S3x64x192 .f32) : IVec S_ 1 :=
  let main_v51 : IVec S3x64x192 1 := cmpf .olt main_v49 main_v50
  let main_c_19 : IVec S_ 1 := constantI S_ 1 1#1
  let main_v52 : IVec S_ 1 := (fun x v => Host.reduce IntOp.andi x v reducesTo_S3x64x192_S_d0_1_2 h_S_) main_v51 main_c_19
  let main_v53 : IVec S_ 1 := andi main_v48 main_v52
  let main_v54 : FVec F S3x192 .f32 := Host.absf main_arg15
  let main_cst_20 : FVec F S_ .f32 := constant S_ .f32 0x7F800000#32
  let main_v55 : FVec F S3x192 .f32 := broadcastInDim S3x192 ![] bcast_S_S3x192 main_cst_20
  let main_v56 : IVec S3x192 1 := cmpf .olt main_v54 main_v55
  let main_c_21 : IVec S_ 1 := constantI S_ 1 1#1
  let main_v57 : IVec S_ 1 := (fun x v => Host.reduce IntOp.andi x v reducesTo_S3x192_S_d0_1 h_S_) main_v56 main_c_21
  let main_v58 : IVec S_ 1 := andi main_v53 main_v57
  let main_v59 : FVec F S64x128 .f32 := Host.absf main_arg16
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg17
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg18 main_arg19 main_v63 main_v67

def fn_part2 {F : FTy → Type} [FloatOps F] (main_arg11 : FVec F S3x64 .f32) (main_arg12 : FVec F S3x64x192 .f32) (main_arg13 : FVec F S3x192 .f32) (main_arg14 : FVec F S3x64x192 .f32) (main_arg15 : FVec F S3x192 .f32) (main_arg16 : FVec F S64x128 .f32) (main_arg17 : FVec F S128 .f32) (main_arg18 : FVec F S128x1 .f32) (main_arg19 : FVec F S1 .f32) (main_v33 : IVec S_ 1) : IVec S_ 1 :=
  let main_v34 : FVec F S3x64 .f32 := Host.absf main_arg11
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64x192 .f32 := Host.absf main_arg12
  let main_cst_14 : FVec F S_ .f32 := constant S_ .f32 0x7F800000#32
  let main_v40 : FVec F S3x64x192 .f32 := broadcastInDim S3x64x192 ![] bcast_S_S3x64x192 main_cst_14
  let main_v41 : IVec S3x64x192 1 := cmpf .olt main_v39 main_v40
  let main_c_15 : IVec S_ 1 := constantI S_ 1 1#1
  let main_v42 : IVec S_ 1 := (fun x v => Host.reduce IntOp.andi x v reducesTo_S3x64x192_S_d0_1_2 h_S_) main_v41 main_c_15
  let main_v43 : IVec S_ 1 := andi main_v38 main_v42
  let main_v44 : FVec F S3x192 .f32 := Host.absf main_arg13
  let main_cst_16 : FVec F S_ .f32 := constant S_ .f32 0x7F800000#32
  let main_v45 : FVec F S3x192 .f32 := broadcastInDim S3x192 ![] bcast_S_S3x192 main_cst_16
  let main_v46 : IVec S3x192 1 := cmpf .olt main_v44 main_v45
  let main_c_17 : IVec S_ 1 := constantI S_ 1 1#1
  let main_v47 : IVec S_ 1 := (fun x v => Host.reduce IntOp.andi x v reducesTo_S3x192_S_d0_1 h_S_) main_v46 main_c_17
  let main_v48 : IVec S_ 1 := andi main_v43 main_v47
  let main_v49 : FVec F S3x64x192 .f32 := Host.absf main_arg14
  let main_cst_18 : FVec F S_ .f32 := constant S_ .f32 0x7F800000#32
  let main_v50 : FVec F S3x64x192 .f32 := broadcastInDim S3x64x192 ![] bcast_S_S3x64x192 main_cst_18
  fn_part3 (F := F) main_arg15 main_arg16 main_arg17 main_arg18 main_arg19 main_v48 main_v49 main_v50

def fn_part1 {F : FTy → Type} [FloatOps F] (main_arg8 : FVec F S3x144x64 .f32) (main_arg9 : FVec F S3x64 .f32) (main_arg10 : FVec F S3x64x64 .f32) (main_arg11 : FVec F S3x64 .f32) (main_arg12 : FVec F S3x64x192 .f32) (main_arg13 : FVec F S3x192 .f32) (main_arg14 : FVec F S3x64x192 .f32) (main_arg15 : FVec F S3x192 .f32) (main_arg16 : FVec F S64x128 .f32) (main_arg17 : FVec F S128 .f32) (main_arg18 : FVec F S128x1 .f32) (main_arg19 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S3x144x64 .f32 := Host.absf main_arg8
  let main_cst_6 : FVec F S_ .f32 := constant S_ .f32 0x7F800000#32
  let main_v20 : FVec F S3x144x64 .f32 := broadcastInDim S3x144x64 ![] bcast_S_S3x144x64 main_cst_6
  let main_v21 : IVec S3x144x64 1 := cmpf .olt main_v19 main_v20
  let main_c_7 : IVec S_ 1 := constantI S_ 1 1#1
  let main_v22 : IVec S_ 1 := (fun x v => Host.reduce IntOp.andi x v reducesTo_S3x144x64_S_d0_1_2 h_S_) main_v21 main_c_7
  let main_v23 : IVec S_ 1 := andi main_v18 main_v22
  let main_v24 : FVec F S3x64 .f32 := Host.absf main_arg9
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x64 .f32 := Host.absf main_arg10
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : IVec S50000x9 32) (main_arg1 : IVec S2x800000 32) (main_arg2 : IVec S800000x4 32) (main_arg3 : IVec S50000 32) (main_arg4 : FVec F S9x64 .f32) (main_arg5 : FVec F S64 .f32) (main_arg6 : FVec F S4x16 .f32) (main_arg7 : FVec F S16 .f32) (main_arg8 : FVec F S3x144x64 .f32) (main_arg9 : FVec F S3x64 .f32) (main_arg10 : FVec F S3x64x64 .f32) (main_arg11 : FVec F S3x64 .f32) (main_arg12 : FVec F S3x64x192 .f32) (main_arg13 : FVec F S3x192 .f32) (main_arg14 : FVec F S3x64x192 .f32) (main_arg15 : FVec F S3x192 .f32) (main_arg16 : FVec F S64x128 .f32) (main_arg17 : FVec F S128 .f32) (main_arg18 : FVec F S128x1 .f32) (main_arg19 : FVec F S1 .f32) : IVec S_ 1 :=
  let main_v0 : FVec F S9x64 .f32 := Host.absf main_arg4
  let main_cst : FVec F S_ .f32 := constant S_ .f32 0x7F800000#32
  let main_v1 : FVec F S9x64 .f32 := broadcastInDim S9x64 ![] bcast_S_S9x64 main_cst
  let main_v2 : IVec S9x64 1 := cmpf .olt main_v0 main_v1
  let main_c : IVec S_ 1 := constantI S_ 1 1#1
  let main_v3 : IVec S_ 1 := (fun x v => Host.reduce IntOp.andi x v reducesTo_S9x64_S_d0_1 h_S_) main_v2 main_c
  let main_v4 : FVec F S64 .f32 := Host.absf main_arg5
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S4x16 .f32 := Host.absf main_arg6
  let main_cst_2 : FVec F S_ .f32 := constant S_ .f32 0x7F800000#32
  let main_v10 : FVec F S4x16 .f32 := broadcastInDim S4x16 ![] bcast_S_S4x16 main_cst_2
  let main_v11 : IVec S4x16 1 := cmpf .olt main_v9 main_v10
  let main_c_3 : IVec S_ 1 := constantI S_ 1 1#1
  let main_v12 : IVec S_ 1 := (fun x v => Host.reduce IntOp.andi x v reducesTo_S4x16_S_d0_1 h_S_) main_v11 main_c_3
  let main_v13 : IVec S_ 1 := andi main_v8 main_v12
  let main_v14 : FVec F S16 .f32 := Host.absf main_arg7
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S50000x9 : Shape := ⟨2, ![50000, 9]⟩
abbrev S2x800000 : Shape := ⟨2, ![2, 800000]⟩
abbrev S800000x4 : Shape := ⟨2, ![800000, 4]⟩
abbrev S50000 : Shape := ⟨1, ![50000]⟩
abbrev S9x64 : Shape := ⟨2, ![9, 64]⟩
abbrev S64 : Shape := ⟨1, ![64]⟩
abbrev S4x16 : Shape := ⟨2, ![4, 16]⟩
abbrev S16 : Shape := ⟨1, ![16]⟩
abbrev S3x144x64 : Shape := ⟨3, ![3, 144, 64]⟩
abbrev S3x64 : Shape := ⟨2, ![3, 64]⟩
abbrev S3x64x64 : Shape := ⟨3, ![3, 64, 64]⟩
abbrev S3x64x192 : Shape := ⟨3, ![3, 64, 192]⟩
abbrev S3x192 : Shape := ⟨2, ![3, 192]⟩
abbrev S64x128 : Shape := ⟨2, ![64, 128]⟩
abbrev S128 : Shape := ⟨1, ![128]⟩
abbrev S128x1 : Shape := ⟨2, ![128, 1]⟩
abbrev S1 : Shape := ⟨1, ![1]⟩
abbrev S50000x64 : Shape := ⟨2, ![50000, 64]⟩
abbrev S1x64 : Shape := ⟨2, ![1, 64]⟩
abbrev S800000x16 : Shape := ⟨2, ![800000, 16]⟩
abbrev S1x16 : Shape := ⟨2, ![1, 16]⟩
abbrev S1x800000 : Shape := ⟨2, ![1, 800000]⟩
abbrev S800000 : Shape := ⟨1, ![800000]⟩
abbrev S800000x1 : Shape := ⟨2, ![800000, 1]⟩
abbrev S800000x2 : Shape := ⟨2, ![800000, 2]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S800000x128 : Shape := ⟨2, ![800000, 128]⟩
abbrev S1x128x64 : Shape := ⟨3, ![1, 128, 64]⟩
abbrev S128x64 : Shape := ⟨2, ![128, 64]⟩
abbrev S1x16x64 : Shape := ⟨3, ![1, 16, 64]⟩
abbrev S16x64 : Shape := ⟨2, ![16, 64]⟩
abbrev S1x64x64 : Shape := ⟨3, ![1, 64, 64]⟩
abbrev S64x64 : Shape := ⟨2, ![64, 64]⟩
abbrev S800000x64 : Shape := ⟨2, ![800000, 64]⟩
abbrev S8000x128 : Shape := ⟨2, ![8000, 128]⟩
abbrev S8000x16 : Shape := ⟨2, ![8000, 16]⟩
abbrev S8000x64 : Shape := ⟨2, ![8000, 64]⟩
abbrev S1x64x192 : Shape := ⟨3, ![1, 64, 192]⟩
abbrev S64x192 : Shape := ⟨2, ![64, 192]⟩
abbrev S1x192 : Shape := ⟨2, ![1, 192]⟩
abbrev S192 : Shape := ⟨1, ![192]⟩
abbrev S2000x64 : Shape := ⟨2, ![2000, 64]⟩
abbrev S2000x192 : Shape := ⟨2, ![2000, 192]⟩
abbrev S2048x64 : Shape := ⟨2, ![2048, 64]⟩
abbrev S50000x1 : Shape := ⟨2, ![50000, 1]⟩
abbrev S2048 : Shape := ⟨1, ![2048]⟩
abbrev S2048x1 : Shape := ⟨2, ![2048, 1]⟩
abbrev S2048x128 : Shape := ⟨2, ![2048, 128]⟩
abbrev S1x128 : Shape := ⟨2, ![1, 128]⟩
abbrev S1x1 : Shape := ⟨2, ![1, 1]⟩

abbrev nBuf : Space → Nat
  | .hbm => 189
  | .vmem => 63
  | .smem => 0
  | _ => 0

abbrev hbmTy0_0 (i : Nat) : BufTy := match i % 128 with
  | 0 => ⟨S50000x9, .i32⟩
  | 1 => ⟨S2x800000, .i32⟩
  | 2 => ⟨S800000x4, .i32⟩
  | 3 => ⟨S50000, .i32⟩
  | 4 => ⟨S9x64, .f32⟩
  | 5 => ⟨S64, .f32⟩
  | 6 => ⟨S4x16, .f32⟩
  | 7 => ⟨S16, .f32⟩
  | 8 => ⟨S3x144x64, .f32⟩
  | 9 => ⟨S3x64, .f32⟩
  | 10 => ⟨S3x64x64, .f32⟩
  | 11 => ⟨S3x64, .f32⟩
  | 12 => ⟨S3x64x192, .f32⟩
  | 13 => ⟨S3x192, .f32⟩
  | 14 => ⟨S3x64x192, .f32⟩
  | 15 => ⟨S3x192, .f32⟩
  | 16 => ⟨S64x128, .f32⟩
  | 17 => ⟨S128, .f32⟩
  | 18 => ⟨S128x1, .f32⟩
  | 19 => ⟨S1, .f32⟩
  | 20 => ⟨S50000x9, .f32⟩
  | 21 => ⟨S50000x64, .f32⟩
  | 22 => ⟨S1x64, .f32⟩
  | 23 => ⟨S50000x64, .f32⟩
  | 24 => ⟨S50000x64, .f32⟩
  | 25 => ⟨S800000x4, .f32⟩
  | 26 => ⟨S800000x16, .f32⟩
  | 27 => ⟨S1x16, .f32⟩
  | 28 => ⟨S800000x16, .f32⟩
  | 29 => ⟨S800000x16, .f32⟩
  | 30 => ⟨S800000x16, .bf16⟩
  | 31 => ⟨S1x800000, .i32⟩
  | 32 => ⟨S800000, .i32⟩
  | 33 => ⟨S1x800000, .i32⟩
  | 34 => ⟨S800000, .i32⟩
  | 35 => ⟨S800000x1, .i32⟩
  | 36 => ⟨S800000x1, .i32⟩
  | 37 => ⟨S800000x2, .i32⟩
  | 38 => ⟨S1600000, .i32⟩
  | 39 => ⟨S50000x64, .bf16⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .bf16⟩
  | 49 => ⟨S800000x128, .bf16⟩
  | 50 => ⟨S1x128x64, .f32⟩
  | 51 => ⟨S128x64, .f32⟩
  | 52 => ⟨S128x64, .bf16⟩
  | 53 => ⟨S1x16x64, .f32⟩
  | 54 => ⟨S16x64, .f32⟩
  | 55 => ⟨S16x64, .bf16⟩
  | 56 => ⟨S1x64, .f32⟩
  | 57 => ⟨S64, .f32⟩
  | 58 => ⟨S1x64x64, .f32⟩
  | 59 => ⟨S64x64, .f32⟩
  | 60 => ⟨S64x64, .bf16⟩
  | 61 => ⟨S1x64, .f32⟩
  | 62 => ⟨S64, .f32⟩
  | 63 => ⟨S800000x64, .bf16⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S1x64x192, .f32⟩
  | 70 => ⟨S64x192, .f32⟩
  | 71 => ⟨S64x192, .bf16⟩
  | 72 => ⟨S1x64x192, .f32⟩
  | 73 => ⟨S64x192, .f32⟩
  | 74 => ⟨S64x192, .bf16⟩
  | 75 => ⟨S1x192, .f32⟩
  | 76 => ⟨S192, .f32⟩
  | 77 => ⟨S1x192, .f32⟩
  | 78 => ⟨S192, .f32⟩
  | 79 => ⟨S50000x64, .f32⟩
  | 80 => ⟨S50000x64, .bf16⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x64, .bf16⟩
  | 90 => ⟨S800000x128, .bf16⟩
  | 91 => ⟨S1x128x64, .f32⟩
  | 92 => ⟨S128x64, .f32⟩
  | 93 => ⟨S128x64, .bf16⟩
  | 94 => ⟨S1x16x64, .f32⟩
  | 95 => ⟨S16x64, .f32⟩
  | 96 => ⟨S16x64, .bf16⟩
  | 97 => ⟨S1x64, .f32⟩
  | 98 => ⟨S64, .f32⟩
  | 99 => ⟨S1x64x64, .f32⟩
  | 100 => ⟨S64x64, .f32⟩
  | 101 => ⟨S64x64, .bf16⟩
  | 102 => ⟨S1x64, .f32⟩
  | 103 => ⟨S64, .f32⟩
  | 104 => ⟨S800000x64, .bf16⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S1x64x192, .f32⟩
  | 111 => ⟨S64x192, .f32⟩
  | 112 => ⟨S64x192, .bf16⟩
  | 113 => ⟨S1x64x192, .f32⟩
  | 114 => ⟨S64x192, .f32⟩
  | 115 => ⟨S64x192, .bf16⟩
  | 116 => ⟨S1x192, .f32⟩
  | 117 => ⟨S192, .f32⟩
  | 118 => ⟨S1x192, .f32⟩
  | 119 => ⟨S192, .f32⟩
  | 120 => ⟨S50000x64, .f32⟩
  | 121 => ⟨S50000x64, .bf16⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S50000x9, .i32⟩

abbrev hbmTy0_1 (i : Nat) : BufTy := match i % 128 with
  | 0 => ⟨S1600000, .i32⟩
  | 1 => ⟨S1600000x1, .i32⟩
  | 2 => ⟨S1600000x64, .bf16⟩
  | 3 => ⟨S800000x128, .bf16⟩
  | 4 => ⟨S1x128x64, .f32⟩
  | 5 => ⟨S128x64, .f32⟩
  | 6 => ⟨S128x64, .bf16⟩
  | 7 => ⟨S1x16x64, .f32⟩
  | 8 => ⟨S16x64, .f32⟩
  | 9 => ⟨S16x64, .bf16⟩
  | 10 => ⟨S1x64, .f32⟩
  | 11 => ⟨S64, .f32⟩
  | 12 => ⟨S1x64x64, .f32⟩
  | 13 => ⟨S64x64, .f32⟩
  | 14 => ⟨S64x64, .bf16⟩
  | 15 => ⟨S1x64, .f32⟩
  | 16 => ⟨S64, .f32⟩
  | 17 => ⟨S800000x64, .bf16⟩
  | 18 => ⟨S800000x64, .f32⟩
  | 19 => ⟨S_, .f32⟩
  | 20 => ⟨S50000x64, .f32⟩
  | 21 => ⟨S800000x1, .i32⟩
  | 22 => ⟨S50000x64, .f32⟩
  | 23 => ⟨S1x64x192, .f32⟩
  | 24 => ⟨S64x192, .f32⟩
  | 25 => ⟨S64x192, .bf16⟩
  | 26 => ⟨S1x64x192, .f32⟩
  | 27 => ⟨S64x192, .f32⟩
  | 28 => ⟨S64x192, .bf16⟩
  | 29 => ⟨S1x192, .f32⟩
  | 30 => ⟨S192, .f32⟩
  | 31 => ⟨S1x192, .f32⟩
  | 32 => ⟨S192, .f32⟩
  | 33 => ⟨S50000x64, .f32⟩
  | 34 => ⟨S_, .f32⟩
  | 35 => ⟨S2048x64, .f32⟩
  | 36 => ⟨S50000x1, .i32⟩
  | 37 => ⟨S2048x64, .f32⟩
  | 38 => ⟨S_, .f32⟩
  | 39 => ⟨S50000, .f32⟩
  | 40 => ⟨S_, .f32⟩
  | 41 => ⟨S2048, .f32⟩
  | 42 => ⟨S50000x1, .i32⟩
  | 43 => ⟨S2048, .f32⟩
  | 44 => ⟨S_, .f32⟩
  | 45 => ⟨S2048, .f32⟩
  | 46 => ⟨S2048, .f32⟩
  | 47 => ⟨S2048x1, .f32⟩
  | 48 => ⟨S2048x64, .f32⟩
  | 49 => ⟨S2048x64, .f32⟩
  | 50 => ⟨S2048x128, .f32⟩
  | 51 => ⟨S1x128, .f32⟩
  | 52 => ⟨S2048x128, .f32⟩
  | 53 => ⟨S2048x128, .f32⟩
  | 54 => ⟨S_, .f32⟩
  | 55 => ⟨S2048x128, .f32⟩
  | 56 => ⟨S2048x128, .f32⟩
  | 57 => ⟨S2048x1, .f32⟩
  | 58 => ⟨S1x1, .f32⟩
  | 59 => ⟨S2048x1, .f32⟩
  | 60 => ⟨S2048x1, .f32⟩
  | _ => ⟨S50000x9, .i32⟩

abbrev hbmTy (i : Nat) : BufTy := match i / 128 with
  | 0 => hbmTy0_0 i
  | 1 => hbmTy0_1 i
  | _ => ⟨S50000x9, .i32⟩

abbrev bufTy : (tb : Table) → Fin (tcTables nBuf tb) → BufTy
  | .hbm, ⟨i, _⟩ => hbmTy i
  | .local _ .vmem, ⟨0, _⟩ => ⟨S8000x128, .bf16⟩
  | .local _ .vmem, ⟨1, _⟩ => ⟨S8000x128, .bf16⟩
  | .local _ .vmem, ⟨2, _⟩ => ⟨S8000x16, .bf16⟩
  | .local _ .vmem, ⟨3, _⟩ => ⟨S8000x16, .bf16⟩
  | .local _ .vmem, ⟨4, _⟩ => ⟨S128x64, .bf16⟩
  | .local _ .vmem, ⟨5, _⟩ => ⟨S16x64, .bf16⟩
  | .local _ .vmem, ⟨6, _⟩ => ⟨S64, .f32⟩
  | .local _ .vmem, ⟨7, _⟩ => ⟨S64x64, .bf16⟩
  | .local _ .vmem, ⟨8, _⟩ => ⟨S64, .f32⟩
  | .local _ .vmem, ⟨9, _⟩ => ⟨S8000x64, .bf16⟩
  | .local _ .vmem, ⟨10, _⟩ => ⟨S8000x64, .bf16⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S64x192, .bf16⟩
  | .local _ .vmem, ⟨16, _⟩ => ⟨S192, .f32⟩
  | .local _ .vmem, ⟨17, _⟩ => ⟨S64x192, .bf16⟩
  | .local _ .vmem, ⟨18, _⟩ => ⟨S192, .f32⟩
  | .local _ .vmem, ⟨19, _⟩ => ⟨S2000x64, .f32⟩
  | .local _ .vmem, ⟨20, _⟩ => ⟨S2000x64, .f32⟩
  | .local _ .vmem, ⟨21, _⟩ => ⟨S8000x128, .bf16⟩
  | .local _ .vmem, ⟨22, _⟩ => ⟨S8000x128, .bf16⟩
  | .local _ .vmem, ⟨23, _⟩ => ⟨S8000x16, .bf16⟩
  | .local _ .vmem, ⟨24, _⟩ => ⟨S8000x16, .bf16⟩
  | .local _ .vmem, ⟨25, _⟩ => ⟨S128x64, .bf16⟩
  | .local _ .vmem, ⟨26, _⟩ => ⟨S16x64, .bf16⟩
  | .local _ .vmem, ⟨27, _⟩ => ⟨S64, .f32⟩
  | .local _ .vmem, ⟨28, _⟩ => ⟨S64x64, .bf16⟩
  | .local _ .vmem, ⟨29, _⟩ => ⟨S64, .f32⟩
  | .local _ .vmem, ⟨30, _⟩ => ⟨S8000x64, .bf16⟩
  | .local _ .vmem, ⟨31, _⟩ => ⟨S8000x64, .bf16⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S64x192, .bf16⟩
  | .local _ .vmem, ⟨37, _⟩ => ⟨S192, .f32⟩
  | .local _ .vmem, ⟨38, _⟩ => ⟨S64x192, .bf16⟩
  | .local _ .vmem, ⟨39, _⟩ => ⟨S192, .f32⟩
  | .local _ .vmem, ⟨40, _⟩ => ⟨S2000x64, .f32⟩
  | .local _ .vmem, ⟨41, _⟩ => ⟨S2000x64, .f32⟩
  | .local _ .vmem, ⟨42, _⟩ => ⟨S8000x128, .bf16⟩
  | .local _ .vmem, ⟨43, _⟩ => ⟨S8000x128, .bf16⟩
  | .local _ .vmem, ⟨44, _⟩ => ⟨S8000x16, .bf16⟩
  | .local _ .vmem, ⟨45, _⟩ => ⟨S8000x16, .bf16⟩
  | .local _ .vmem, ⟨46, _⟩ => ⟨S128x64, .bf16⟩
  | .local _ .vmem, ⟨47, _⟩ => ⟨S16x64, .bf16⟩
  | .local _ .vmem, ⟨48, _⟩ => ⟨S64, .f32⟩
  | .local _ .vmem, ⟨49, _⟩ => ⟨S64x64, .bf16⟩
  | .local _ .vmem, ⟨50, _⟩ => ⟨S64, .f32⟩
  | .local _ .vmem, ⟨51, _⟩ => ⟨S8000x64, .bf16⟩
  | .local _ .vmem, ⟨52, _⟩ => ⟨S8000x64, .bf16⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S64x192, .bf16⟩
  | .local _ .vmem, ⟨58, _⟩ => ⟨S192, .f32⟩
  | .local _ .vmem, ⟨59, _⟩ => ⟨S64x192, .bf16⟩
  | .local _ .vmem, ⟨60, _⟩ => ⟨S192, .f32⟩
  | .local _ .vmem, ⟨61, _⟩ => ⟨S2000x64, .f32⟩
  | .local _ .vmem, ⟨62, _⟩ => ⟨S2000x64, .f32⟩
  | _, _ => ⟨S50000x9, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_1 : Ref sig .tc := ⟨.hbm, 81, rfl⟩
abbrev main_v58 : Ref sig .tc := ⟨.hbm, 82, rfl⟩
abbrev main_v59 : Ref sig .tc := ⟨.hbm, 83, rfl⟩
abbrev main_c_2 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_3 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_4 : Ref sig .tc := ⟨.hbm, 122, rfl⟩
abbrev main_v96 : Ref sig .tc := ⟨.hbm, 123, rfl⟩
abbrev main_v97 : Ref sig .tc := ⟨.hbm, 124, rfl⟩
abbrev main_c_5 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_6 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_7 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_cst_8 : Ref sig .tc := ⟨.hbm, 166, rfl⟩
abbrev main_v136 : Ref sig .tc := ⟨.hbm, 167, rfl⟩
abbrev main_cst_9 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_10 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_call0_cst : Ref sig .tc := ⟨.hbm, 182, rfl⟩
abbrev main_call0_v0 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg7_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc5_stg6_0 : Ref sig .tc := ⟨.vmem, 61, rfl⟩
abbrev cc5_stg6_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem7_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem6_0 : DmaSem sig := 61
abbrev cc5_sem6_1 : DmaSem sig := 62

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x192 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x16 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x192 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x192 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x16 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16x64 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S8000x64 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x192 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x192 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S800000x16_0_1 : S1x16.BroadcastsInDim S800000x16 (![0, 1] : Fin 2 → Fin S800000x16.rank)
  bitsLt_bf16_f32 : FTy.bits .bf16 < FTy.bits .f32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  concatenates_S800000x1_S800000x1_S800000x2_d1 : Shape.Concatenates [S800000x1, S800000x1] S800000x2 1
  shapeCasts_S800000x2_S1600000 : S800000x2.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x64_S800000x128 : S1600000x64.ShapeCasts S800000x128
  slices_S3x144x64_S1x128x64_0_0_0 : S3x144x64.Slices ![0, 0, 0] S1x128x64
  shapeCasts_S1x128x64_S128x64 : S1x128x64.ShapeCasts S128x64
  slices_S3x144x64_S1x16x64_0_128_0 : S3x144x64.Slices ![0, 128, 0] S1x16x64
  shapeCasts_S1x16x64_S16x64 : S1x16x64.ShapeCasts S16x64
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8000x64_S8000x64_0_0 : ∀ a, (![0, 0] : Fin 2 → Nat) a + S8000x64.size a ≤ S8000x64.size a
  h_S8000x64 : 0 < S8000x64.numel
  packedbf16_S8000x64_S8000x64_0_0 : (Rect.unit (s := S8000x64) ![0, 0] S8000x64.size inb_S8000x64_S8000x64_0_0).PackedRows (EltTy.packing .bf16)
  bcast_S_S50000x64 : S_.BroadcastsInDim S50000x64 (![] : Fin 0 → Fin S50000x64.rank)
  slices_S3x64x192_S1x64x192_0_0_0 : S3x64x192.Slices ![0, 0, 0] S1x64x192
  shapeCasts_S1x64x192_S64x192 : S1x64x192.ShapeCasts S64x192
  slices_S3x192_S1x192_0_0 : S3x192.Slices ![0, 0] S1x192
  shapeCasts_S1x192_S192 : S1x192.ShapeCasts S192
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  inb_S64x192_S64x192_0_0 : ∀ a, (![0, 0] : Fin 2 → Nat) a + S64x192.size a ≤ S64x192.size a
  h_S64x192 : 0 < S64x192.numel
  shapeCasts_S64x192_S64x192 : S64x192.ShapeCasts S64x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  slices_S3x144x64_S1x128x64_1_0_0 : S3x144x64.Slices ![1, 0, 0] S1x128x64
  slices_S3x144x64_S1x16x64_1_128_0 : S3x144x64.Slices ![1, 128, 0] S1x16x64
  slices_S3x64_S1x64_1_0 : S3x64.Slices ![1, 0] S1x64
  slices_S3x64x64_S1x64x64_1_0_0 : S3x64x64.Slices ![1, 0, 0] S1x64x64
  slices_S3x64x192_S1x64x192_1_0_0 : S3x64x192.Slices ![1, 0, 0] S1x64x192
  slices_S3x192_S1x192_1_0 : S3x192.Slices ![1, 0] S1x192
  slices_S3x144x64_S1x128x64_2_0_0 : S3x144x64.Slices ![2, 0, 0] S1x128x64
  slices_S3x144x64_S1x16x64_2_128_0 : S3x144x64.Slices ![2, 128, 0] S1x16x64
  slices_S3x64_S1x64_2_0 : S3x64.Slices ![2, 0] S1x64
  slices_S3x64x64_S1x64x64_2_0_0 : S3x64x64.Slices ![2, 0, 0] S1x64x64
  slices_S3x64x192_S1x64x192_2_0_0 : S3x64x192.Slices ![2, 0, 0] S1x64x192
  slices_S3x192_S1x192_2_0 : S3x192.Slices ![2, 0] S1x192
  bcast_S_S2048x64 : S_.BroadcastsInDim S2048x64 (![] : Fin 0 → Fin S2048x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S50000x9_S9x64_S50000x64_1_0_0_1_n_n_wf : DotDims.WF S50000x9 S9x64 S50000x64 [1] [0] [0] [1] [] []
  dot_S800000x4_S4x16_S800000x16_1_0_0_1_n_n_wf : DotDims.WF S800000x4 S4x16 S800000x16 [1] [0] [0] [1] [] []
  gather_S50000x64_S1600000x1_S1600000x64_1_0_n_n_0_1_164_wf : GatherDims.WF S50000x64 S1600000x1 S1600000x64 [1] [0] [] [0] [] 1 ![1, 64]
  dot_S8000x128_S128x64_S8000x64_1_0_0_1_n_n_wf : DotDims.WF S8000x128 S128x64 S8000x64 [1] [0] [0] [1] [] []
  dot_S8000x16_S16x64_S8000x64_1_0_0_1_n_n_wf : DotDims.WF S8000x16 S16x64 S8000x64 [1] [0] [0] [1] [] []
  dot_S8000x64_S64x64_S8000x64_1_0_0_1_n_n_wf : DotDims.WF S8000x64 S64x64 S8000x64 [1] [0] [0] [1] [] []
  scatter_S50000x64_S800000x1_S800000x64_1_0_0_1_wf : ScatterDims.WF S50000x64 S800000x1 S800000x64 [1] [0] [0] 1
  dot_S2000x64_S64x192_S2000x192_1_0_0_1_n_n_wf : DotDims.WF S2000x64 S64x192 S2000x192 [1] [0] [0] [1] [] []
  scatter_S2048x64_S50000x1_S50000x64_1_0_0_1_wf : ScatterDims.WF S2048x64 S50000x1 S50000x64 [1] [0] [0] 1
  scatter_S2048_S50000x1_S50000_n_0_0_1_wf : ScatterDims.WF S2048 S50000x1 S50000 [] [0] [0] 1
  dot_S2048x64_S64x128_S2048x128_1_0_0_1_n_n_wf : DotDims.WF S2048x64 S64x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .bf16 = 32 ∨ (Rect.block (s := S800000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x16.size a ≤ S800000x16.size a
  hwx0_1 : ∀ i : grid0.Coords, EltTy.bits .bf16 = 32 ∨ (Rect.block (s := S800000x16) S8000x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .bf16 = 32 ∨ (Rect.block (s := S128x64) S128x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .bf16 = 32 ∨ (Rect.block (s := S16x64) S16x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x64.size a ≤ S800000x64.size a
  hwx0_7 : ∀ i : grid0.Coords, EltTy.bits .bf16 = 32 ∨ (Rect.block (s := S800000x64) S8000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .bf16 = 32 ∨ (Rect.block (s := S64x192) S64x192.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192.size a ≤ S192.size a
  hwx1_3 : ∀ i : grid1.Coords, EltTy.bits .f32 = 32 ∨ (Rect.block (s := S192) S192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x192.size a ≤ S64x192.size a
  hwx1_4 : ∀ i : grid1.Coords, EltTy.bits .bf16 = 32 ∨ (Rect.block (s := S64x192) S64x192.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S192.size a ≤ S192.size a
  hwx1_5 : ∀ i : grid1.Coords, EltTy.bits .f32 = 32 ∨ (Rect.block (s := S192) S192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .bf16 = 32 ∨ (Rect.block (s := S800000x128) S8000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x16.size a ≤ S800000x16.size a
  hwx2_1 : ∀ i : grid2.Coords, EltTy.bits .bf16 = 32 ∨ (Rect.block (s := S800000x16) S8000x16.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x64.size a ≤ S16x64.size a
  hwx2_3 : ∀ i : grid2.Coords, EltTy.bits .bf16 = 32 ∨ (Rect.block (s := S16x64) S16x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .bf16 = 32 ∨ (Rect.block (s := S64x64) S64x64.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x64.size a ≤ S800000x64.size a
  hwx2_7 : ∀ i : grid2.Coords, EltTy.bits .bf16 = 32 ∨ (Rect.block (s := S800000x64) S8000x64.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x192.size a ≤ S64x192.size a
  hwx3_2 : ∀ i : grid3.Coords, EltTy.bits .bf16 = 32 ∨ (Rect.block (s := S64x192) S64x192.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S192.size a ≤ S192.size a
  hwx3_3 : ∀ i : grid3.Coords, EltTy.bits .f32 = 32 ∨ (Rect.block (s := S192) S192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x192.size a ≤ S64x192.size a
  hwx3_4 : ∀ i : grid3.Coords, EltTy.bits .bf16 = 32 ∨ (Rect.block (s := S64x192) S64x192.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S192.size a ≤ S192.size a
  hwx3_5 : ∀ i : grid3.Coords, EltTy.bits .f32 = 32 ∨ (Rect.block (s := S192) S192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S50000x64.size a
  hwx3_6 : ∀ i : grid3.Coords, EltTy.bits .f32 = 32 ∨ (Rect.block (s := S50000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S800000x128.size a
  hwx4_0 : ∀ i : grid4.Coords, EltTy.bits .bf16 = 32 ∨ (Rect.block (s := S800000x128) S8000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x16.size a ≤ S800000x16.size a
  hwx4_1 : ∀ i : grid4.Coords, EltTy.bits .bf16 = 32 ∨ (Rect.block (s := S800000x16) S8000x16.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .bf16 = 32 ∨ (Rect.block (s := S128x64) S128x64.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x64.size a ≤ S16x64.size a
  hwx4_3 : ∀ i : grid4.Coords, EltTy.bits .bf16 = 32 ∨ (Rect.block (s := S16x64) S16x64.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .bf16 = 32 ∨ (Rect.block (s := S64x64) S64x64.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64.size a ≤ S64.size a
  hwx4_6 : ∀ i : grid4.Coords, EltTy.bits .f32 = 32 ∨ (Rect.block (s := S64) S64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8000x64.size a ≤ S800000x64.size a
  hwx4_7 : ∀ i : grid4.Coords, EltTy.bits .bf16 = 32 ∨ (Rect.block (s := S800000x64) S8000x64.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x192.size a ≤ S64x192.size a
  hwx5_2 : ∀ i : grid5.Coords, EltTy.bits .bf16 = 32 ∨ (Rect.block (s := S64x192) S64x192.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S192.size a ≤ S192.size a
  hwx5_3 : ∀ i : grid5.Coords, EltTy.bits .f32 = 32 ∨ (Rect.block (s := S192) S192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x192.size a ≤ S64x192.size a
  hwx5_4 : ∀ i : grid5.Coords, EltTy.bits .bf16 = 32 ∨ (Rect.block (s := S64x192) S64x192.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S192.size a ≤ S192.size a
  hwx5_5 : ∀ i : grid5.Coords, EltTy.bits .f32 = 32 ∨ (Rect.block (s := S192) S192.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S50000x64.size a
  hwx5_6 : ∀ i : grid5.Coords, EltTy.bits .f32 = 32 ∨ (Rect.block (s := S50000x64) S2000x64.size (cc5_transform_6 i) (hinb5_6 i)).WholeWords (EltTy.packing .f32)

variable [Facts₀]

def dot_S50000x9_S9x64_S50000x64_1_0_0_1_n_n : DotDims S50000x9 S9x64 S50000x64 where
  lhsContracting := [1]
  rhsContracting := [0]
  lhsNonContracting := [0]
  rhsNonContracting := [1]
  lhsBatch := []
  rhsBatch := []
  wf := dot_S50000x9_S9x64_S50000x64_1_0_0_1_n_n_wf
def dot_S800000x4_S4x16_S800000x16_1_0_0_1_n_n : DotDims S800000x4 S4x16 S800000x16 where
  lhsContracting := [1]
  rhsContracting := [0]
  lhsNonContracting := [0]
  rhsNonContracting := [1]
  lhsBatch := []
  rhsBatch := []
  wf := dot_S800000x4_S4x16_S800000x16_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf
def scatter_S2048x64_S50000x1_S50000x64_1_0_0_1 : ScatterDims S2048x64 S50000x1 S50000x64 where
  updateWindowDims := [1]
  insertedWindowDims := [0]
  scatterDimsToOperandDims := [0]
  indexVectorDim := 1
  wf := scatter_S2048x64_S50000x1_S50000x64_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v27) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S8000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v45) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S64x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v65) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S8000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S16x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v79) S8000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v83) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S64x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S64x192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v93) S192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v94) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v103) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S8000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v109) S16x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v116) S64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v117) S8000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v121) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v124) S64x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v129) S192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v127) S64x192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v132) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x9 : Shape := ⟨2, ![50000, 9]⟩
abbrev S2x800000 : Shape := ⟨2, ![2, 800000]⟩
abbrev S800000x4 : Shape := ⟨2, ![800000, 4]⟩
abbrev S50000 : Shape := ⟨1, ![50000]⟩
abbrev S9x64 : Shape := ⟨2, ![9, 64]⟩
abbrev S64 : Shape := ⟨1, ![64]⟩
abbrev S4x16 : Shape := ⟨2, ![4, 16]⟩
abbrev S16 : Shape := ⟨1, ![16]⟩
abbrev S3x144x64 : Shape := ⟨3, ![3, 144, 64]⟩
abbrev S3x64 : Shape := ⟨2, ![3, 64]⟩
abbrev S3x64x64 : Shape := ⟨3, ![3, 64, 64]⟩
abbrev S3x64x192 : Shape := ⟨3, ![3, 64, 192]⟩
abbrev S3x192 : Shape := ⟨2, ![3, 192]⟩
abbrev S64x128 : Shape := ⟨2, ![64, 128]⟩
abbrev S128 : Shape := ⟨1, ![128]⟩
abbrev S128x1 : Shape := ⟨2, ![128, 1]⟩
abbrev S1 : Shape := ⟨1, ![1]⟩
abbrev S50000x64 : Shape := ⟨2, ![50000, 64]⟩
abbrev S1x64 : Shape := ⟨2, ![1, 64]⟩
abbrev S800000x16 : Shape := ⟨2, ![800000, 16]⟩
abbrev S1x16 : Shape := ⟨2, ![1, 16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S1x144x64 : Shape := ⟨3, ![1, 144, 64]⟩
abbrev S144x64 : Shape := ⟨2, ![144, 64]⟩
abbrev S1x64x64 : Shape := ⟨3, ![1, 64, 64]⟩
abbrev S64x64 : Shape := ⟨2, ![64, 64]⟩
abbrev S1x64x192 : Shape := ⟨3, ![1, 64, 192]⟩
abbrev S64x192 : Shape := ⟨2, ![64, 192]⟩
abbrev S50000x192 : Shape := ⟨2, ![50000, 192]⟩
abbrev S1x192 : Shape := ⟨2, ![1, 192]⟩
abbrev S192 : Shape := ⟨1, ![192]⟩
abbrev S2048x64 : Shape := ⟨2, ![2048, 64]⟩
abbrev S50000x1 : Shape := ⟨2, ![50000, 1]⟩
abbrev S2048 : Shape := ⟨1, ![2048]⟩
abbrev S2048x1 : Shape := ⟨2, ![2048, 1]⟩
abbrev S2048x128 : Shape := ⟨2, ![2048, 128]⟩
abbrev S1x128 : Shape := ⟨2, ![1, 128]⟩
abbrev S1x1 : Shape := ⟨2, ![1, 1]⟩

abbrev nBuf : Space → Nat
  | .hbm => 343
  | .vmem => 0
  | .smem => 0
  | _ => 0

abbrev hbmTy0_0 (i : Nat) : BufTy := match i % 128 with
  | 0 => ⟨S50000x9, .i32⟩
  | 1 => ⟨S2x800000, .i32⟩
  | 2 => ⟨S800000x4, .i32⟩
  | 3 => ⟨S50000, .i32⟩
  | 4 => ⟨S9x64, .f32⟩
  | 5 => ⟨S64, .f32⟩
  | 6 => ⟨S4x16, .f32⟩
  | 7 => ⟨S16, .f32⟩
  | 8 => ⟨S3x144x64, .f32⟩
  | 9 => ⟨S3x64, .f32⟩
  | 10 => ⟨S3x64x64, .f32⟩
  | 11 => ⟨S3x64, .f32⟩
  | 12 => ⟨S3x64x192, .f32⟩
  | 13 => ⟨S3x192, .f32⟩
  | 14 => ⟨S3x64x192, .f32⟩
  | 15 => ⟨S3x192, .f32⟩
  | 16 => ⟨S64x128, .f32⟩
  | 17 => ⟨S128, .f32⟩
  | 18 => ⟨S128x1, .f32⟩
  | 19 => ⟨S1, .f32⟩
  | 20 => ⟨S50000x9, .f32⟩
  | 21 => ⟨S50000x64, .f32⟩
  | 22 => ⟨S1x64, .f32⟩
  | 23 => ⟨S50000x64, .f32⟩
  | 24 => ⟨S50000x64, .f32⟩
  | 25 => ⟨S800000x4, .f32⟩
  | 26 => ⟨S800000x16, .f32⟩
  | 27 => ⟨S1x16, .f32⟩
  | 28 => ⟨S800000x16, .f32⟩
  | 29 => ⟨S800000x16, .f32⟩
  | 30 => ⟨S1x800000, .i32⟩
  | 31 => ⟨S800000, .i32⟩
  | 32 => ⟨S1x800000, .i32⟩
  | 33 => ⟨S800000, .i32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S800000x144, .f32⟩
  | 53 => ⟨S1x144x64, .f32⟩
  | 54 => ⟨S144x64, .f32⟩
  | 55 => ⟨S800000x64, .f32⟩
  | 56 => ⟨S1x64, .f32⟩
  | 57 => ⟨S64, .f32⟩
  | 58 => ⟨S1x64, .f32⟩
  | 59 => ⟨S800000x64, .f32⟩
  | 60 => ⟨S800000x64, .f32⟩
  | 61 => ⟨S_, .f32⟩
  | 62 => ⟨S800000x64, .f32⟩
  | 63 => ⟨S800000x64, .f32⟩
  | 64 => ⟨S1x64x64, .f32⟩
  | 65 => ⟨S64x64, .f32⟩
  | 66 => ⟨S800000x64, .f32⟩
  | 67 => ⟨S1x64, .f32⟩
  | 68 => ⟨S64, .f32⟩
  | 69 => ⟨S1x64, .f32⟩
  | 70 => ⟨S800000x64, .f32⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S1x64x192, .f32⟩
  | 77 => ⟨S64x192, .f32⟩
  | 78 => ⟨S50000x192, .f32⟩
  | 79 => ⟨S1x192, .f32⟩
  | 80 => ⟨S192, .f32⟩
  | 81 => ⟨S1x192, .f32⟩
  | 82 => ⟨S50000x192, .f32⟩
  | 83 => ⟨S50000x192, .f32⟩
  | 84 => ⟨S1x64x192, .f32⟩
  | 85 => ⟨S64x192, .f32⟩
  | 86 => ⟨S50000x192, .f32⟩
  | 87 => ⟨S1x192, .f32⟩
  | 88 => ⟨S192, .f32⟩
  | 89 => ⟨S1x192, .f32⟩
  | 90 => ⟨S50000x192, .f32⟩
  | 91 => ⟨S50000x192, .f32⟩
  | 92 => ⟨S50000x64, .f32⟩
  | 93 => ⟨S50000x64, .f32⟩
  | 94 => ⟨S50000x64, .f32⟩
  | 95 => ⟨S50000x64, .f32⟩
  | 96 => ⟨S50000x64, .f32⟩
  | 97 => ⟨S50000x64, .f32⟩
  | 98 => ⟨S50000x64, .f32⟩
  | 99 => ⟨S50000x64, .f32⟩
  | 100 => ⟨S50000x64, .f32⟩
  | 101 => ⟨S_, .f32⟩
  | 102 => ⟨S50000x64, .f32⟩
  | 103 => ⟨S50000x64, .f32⟩
  | 104 => ⟨S_, .f32⟩
  | 105 => ⟨S50000x64, .f32⟩
  | 106 => ⟨S50000x64, .f32⟩
  | 107 => ⟨S50000x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x9, .i32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S800000x144, .f32⟩
  | 19 => ⟨S1x144x64, .f32⟩
  | 20 => ⟨S144x64, .f32⟩
  | 21 => ⟨S800000x64, .f32⟩
  | 22 => ⟨S1x64, .f32⟩
  | 23 => ⟨S64, .f32⟩
  | 24 => ⟨S1x64, .f32⟩
  | 25 => ⟨S800000x64, .f32⟩
  | 26 => ⟨S800000x64, .f32⟩
  | 27 => ⟨S_, .f32⟩
  | 28 => ⟨S800000x64, .f32⟩
  | 29 => ⟨S800000x64, .f32⟩
  | 30 => ⟨S1x64x64, .f32⟩
  | 31 => ⟨S64x64, .f32⟩
  | 32 => ⟨S800000x64, .f32⟩
  | 33 => ⟨S1x64, .f32⟩
  | 34 => ⟨S64, .f32⟩
  | 35 => ⟨S1x64, .f32⟩
  | 36 => ⟨S800000x64, .f32⟩
  | 37 => ⟨S800000x64, .f32⟩
  | 38 => ⟨S_, .f32⟩
  | 39 => ⟨S50000x64, .f32⟩
  | 40 => ⟨S800000x1, .i32⟩
  | 41 => ⟨S50000x64, .f32⟩
  | 42 => ⟨S1x64x192, .f32⟩
  | 43 => ⟨S64x192, .f32⟩
  | 44 => ⟨S50000x192, .f32⟩
  | 45 => ⟨S1x192, .f32⟩
  | 46 => ⟨S192, .f32⟩
  | 47 => ⟨S1x192, .f32⟩
  | 48 => ⟨S50000x192, .f32⟩
  | 49 => ⟨S50000x192, .f32⟩
  | 50 => ⟨S1x64x192, .f32⟩
  | 51 => ⟨S64x192, .f32⟩
  | 52 => ⟨S50000x192, .f32⟩
  | 53 => ⟨S1x192, .f32⟩
  | 54 => ⟨S192, .f32⟩
  | 55 => ⟨S1x192, .f32⟩
  | 56 => ⟨S50000x192, .f32⟩
  | 57 => ⟨S50000x192, .f32⟩
  | 58 => ⟨S50000x64, .f32⟩
  | 59 => ⟨S50000x64, .f32⟩
  | 60 => ⟨S50000x64, .f32⟩
  | 61 => ⟨S50000x64, .f32⟩
  | 62 => ⟨S50000x64, .f32⟩
  | 63 => ⟨S50000x64, .f32⟩
  | 64 => ⟨S50000x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S50000x64, .f32⟩
  | 84 => ⟨S50000x64, .f32⟩
  | 85 => ⟨S_, .f32⟩
  | 86 => ⟨S50000x64, .f32⟩
  | 87 => ⟨S50000x64, .f32⟩
  | 88 => ⟨S50000x64, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x64, .f32⟩
  | 112 => ⟨S800000x144, .f32⟩
  | 113 => ⟨S1x144x64, .f32⟩
  | 114 => ⟨S144x64, .f32⟩
  | 115 => ⟨S800000x64, .f32⟩
  | 116 => ⟨S1x64, .f32⟩
  | 117 => ⟨S64, .f32⟩
  | 118 => ⟨S1x64, .f32⟩
  | 119 => ⟨S800000x64, .f32⟩
  | 120 => ⟨S800000x64, .f32⟩
  | 121 => ⟨S_, .f32⟩
  | 122 => ⟨S800000x64, .f32⟩
  | 123 => ⟨S800000x64, .f32⟩
  | 124 => ⟨S1x64x64, .f32⟩
  | 125 => ⟨S64x64, .f32⟩
  | 126 => ⟨S800000x64, .f32⟩
  | 127 => ⟨S1x64, .f32⟩
  | _ => ⟨S50000x9, .i32⟩

abbrev hbmTy0_2 (i : Nat) : BufTy := match i % 128 with
  | 0 => ⟨S64, .f32⟩
  | 1 => ⟨S1x64, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S1x64x192, .f32⟩
  | 9 => ⟨S64x192, .f32⟩
  | 10 => ⟨S50000x192, .f32⟩
  | 11 => ⟨S1x192, .f32⟩
  | 12 => ⟨S192, .f32⟩
  | 13 => ⟨S1x192, .f32⟩
  | 14 => ⟨S50000x192, .f32⟩
  | 15 => ⟨S50000x192, .f32⟩
  | 16 => ⟨S1x64x192, .f32⟩
  | 17 => ⟨S64x192, .f32⟩
  | 18 => ⟨S50000x192, .f32⟩
  | 19 => ⟨S1x192, .f32⟩
  | 20 => ⟨S192, .f32⟩
  | 21 => ⟨S1x192, .f32⟩
  | 22 => ⟨S50000x192, .f32⟩
  | 23 => ⟨S50000x192, .f32⟩
  | 24 => ⟨S50000x64, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S50000x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S50000x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S50000x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S_, .f32⟩
  | 61 => ⟨S2048x64, .f32⟩
  | 62 => ⟨S50000x1, .i32⟩
  | 63 => ⟨S2048x64, .f32⟩
  | 64 => ⟨S_, .f32⟩
  | 65 => ⟨S50000, .f32⟩
  | 66 => ⟨S_, .f32⟩
  | 67 => ⟨S2048, .f32⟩
  | 68 => ⟨S50000x1, .i32⟩
  | 69 => ⟨S2048, .f32⟩
  | 70 => ⟨S_, .f32⟩
  | 71 => ⟨S2048, .f32⟩
  | 72 => ⟨S2048, .f32⟩
  | 73 => ⟨S2048x1, .f32⟩
  | 74 => ⟨S2048x64, .f32⟩
  | 75 => ⟨S2048x64, .f32⟩
  | 76 => ⟨S2048x128, .f32⟩
  | 77 => ⟨S1x128, .f32⟩
  | 78 => ⟨S2048x128, .f32⟩
  | 79 => ⟨S2048x128, .f32⟩
  | 80 => ⟨S_, .f32⟩
  | 81 => ⟨S2048x128, .f32⟩
  | 82 => ⟨S2048x128, .f32⟩
  | 83 => ⟨S2048x1, .f32⟩
  | 84 => ⟨S1x1, .f32⟩
  | 85 => ⟨S2048x1, .f32⟩
  | 86 => ⟨S2048x1, .f32⟩
  | _ => ⟨S50000x9, .i32⟩

abbrev hbmTy (i : Nat) : BufTy := match i / 128 with
  | 0 => hbmTy0_0 i
  | 1 => hbmTy0_1 i
  | 2 => hbmTy0_2 i
  | _ => ⟨S50000x9, .i32⟩

abbrev bufTy : (tb : Table) → Fin (tcTables nBuf tb) → BufTy
  | .hbm, ⟨i, _⟩ => hbmTy i
  | _, _ => ⟨S50000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call0_cst : Ref sig .tc := ⟨.hbm, 61, rfl⟩
abbrev main_call0_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_3 : Ref sig .tc := ⟨.hbm, 101, rfl⟩
abbrev main_v74 : Ref sig .tc := ⟨.hbm, 102, rfl⟩
abbrev main_v75 : Ref sig .tc := ⟨.hbm, 103, rfl⟩
abbrev main_cst_4 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_5 : Ref sig .tc := ⟨.hbm, 110, rfl⟩
abbrev main_v81 : Ref sig .tc := ⟨.hbm, 111, rfl⟩
abbrev main_v82 : Ref sig .tc := ⟨.hbm, 112, rfl⟩
abbrev main_cst_6 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_7 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call1_cst : Ref sig .tc := ⟨.hbm, 125, rfl⟩
abbrev main_call1_v0 : Ref sig .tc := ⟨.hbm, 126, rfl⟩
abbrev main_v93 : Ref sig .tc := ⟨.hbm, 127, rfl⟩
abbrev main_c_8 : Ref sig .tc := ⟨.hbm, 128, rfl⟩
abbrev main_v94 : Ref sig .tc := ⟨.hbm, 129, rfl⟩
abbrev main_v95 : Ref sig .tc := ⟨.hbm, 130, rfl⟩
abbrev main_c_9 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_c_10 : Ref sig .tc := ⟨.hbm, 137, rfl⟩
abbrev main_v101 : Ref sig .tc := ⟨.hbm, 138, rfl⟩
abbrev main_v102 : Ref sig .tc := ⟨.hbm, 139, rfl⟩
abbrev main_c_11 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_call2_cst : Ref sig .tc := ⟨.hbm, 155, rfl⟩
abbrev main_call2_v0 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_12 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_cst_13 : Ref sig .tc := ⟨.hbm, 195, rfl⟩
abbrev main_v154 : Ref sig .tc := ⟨.hbm, 196, rfl⟩
abbrev main_v155 : Ref sig .tc := ⟨.hbm, 197, rfl⟩
abbrev main_cst_14 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_15 : Ref sig .tc := ⟨.hbm, 204, rfl⟩
abbrev main_v161 : Ref sig .tc := ⟨.hbm, 205, rfl⟩
abbrev main_v162 : Ref sig .tc := ⟨.hbm, 206, rfl⟩
abbrev main_cst_16 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_17 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_call3_cst : Ref sig .tc := ⟨.hbm, 219, rfl⟩
abbrev main_call3_v0 : Ref sig .tc := ⟨.hbm, 220, rfl⟩
abbrev main_v173 : Ref sig .tc := ⟨.hbm, 221, rfl⟩
abbrev main_c_18 : Ref sig .tc := ⟨.hbm, 222, rfl⟩
abbrev main_v174 : Ref sig .tc := ⟨.hbm, 223, rfl⟩
abbrev main_v175 : Ref sig .tc := ⟨.hbm, 224, rfl⟩
abbrev main_c_19 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_c_20 : Ref sig .tc := ⟨.hbm, 231, rfl⟩
abbrev main_v181 : Ref sig .tc := ⟨.hbm, 232, rfl⟩
abbrev main_v182 : Ref sig .tc := ⟨.hbm, 233, rfl⟩
abbrev main_c_21 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_call4_cst : Ref sig .tc := ⟨.hbm, 249, rfl⟩
abbrev main_call4_v0 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_cst_22 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_v229 : Ref sig .tc := ⟨.hbm, 284, rfl⟩
abbrev main_v230 : Ref sig .tc := ⟨.hbm, 285, rfl⟩
abbrev main_v231 : Ref sig .tc := ⟨.hbm, 286, rfl⟩
abbrev main_v232 : Ref sig .tc := ⟨.hbm, 287, rfl⟩
abbrev main_v233 : Ref sig .tc := ⟨.hbm, 288, rfl⟩
abbrev main_cst_23 : Ref sig .tc := ⟨.hbm, 289, rfl⟩
abbrev main_v234 : Ref sig .tc := ⟨.hbm, 290, rfl⟩
abbrev main_v235 : Ref sig .tc := ⟨.hbm, 291, rfl⟩
abbrev main_cst_24 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_cst_25 : Ref sig .tc := ⟨.hbm, 298, rfl⟩
abbrev main_v241 : Ref sig .tc := ⟨.hbm, 299, rfl⟩
abbrev main_v242 : Ref sig .tc := ⟨.hbm, 300, rfl⟩
abbrev main_cst_26 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_cst_27 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_call5_cst : Ref sig .tc := ⟨.hbm, 313, rfl⟩
abbrev main_call5_v0 : Ref sig .tc := ⟨.hbm, 314, rfl⟩
abbrev main_v253 : Ref sig .tc := ⟨.hbm, 315, rfl⟩
abbrev main_cst_28 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_cst_29 : Ref sig .tc := ⟨.hbm, 320, rfl⟩
abbrev main_v257 : Ref sig .tc := ⟨.hbm, 321, rfl⟩
abbrev main_cst_30 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_cst_31 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_call6_cst : Ref sig .tc := ⟨.hbm, 336, rfl⟩
abbrev main_call6_v0 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S800000x16_0_1 : S1x16.BroadcastsInDim S800000x16 (![0, 1] : Fin 2 → Fin S800000x16.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  slices_S3x144x64_S1x144x64_0_0_0 : S3x144x64.Slices ![0, 0, 0] S1x144x64
  shapeCasts_S1x144x64_S144x64 : S1x144x64.ShapeCasts S144x64
  slices_S3x64_S1x64_0_0 : S3x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S3x64x64_S1x64x64_0_0_0 : S3x64x64.Slices ![0, 0, 0] S1x64x64
  shapeCasts_S1x64x64_S64x64 : S1x64x64.ShapeCasts S64x64
  bcast_S_S50000x64 : S_.BroadcastsInDim S50000x64 (![] : Fin 0 → Fin S50000x64.rank)
  slices_S3x64x192_S1x64x192_0_0_0 : S3x64x192.Slices ![0, 0, 0] S1x64x192
  shapeCasts_S1x64x192_S64x192 : S1x64x192.ShapeCasts S64x192
  slices_S3x192_S1x192_0_0 : S3x192.Slices ![0, 0] S1x192
  shapeCasts_S1x192_S192 : S1x192.ShapeCasts S192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  slices_S3x144x64_S1x144x64_1_0_0 : S3x144x64.Slices ![1, 0, 0] S1x144x64
  slices_S3x64_S1x64_1_0 : S3x64.Slices ![1, 0] S1x64
  slices_S3x64x64_S1x64x64_1_0_0 : S3x64x64.Slices ![1, 0, 0] S1x64x64
  slices_S3x64x192_S1x64x192_1_0_0 : S3x64x192.Slices ![1, 0, 0] S1x64x192
  slices_S3x192_S1x192_1_0 : S3x192.Slices ![1, 0] S1x192
  slices_S3x144x64_S1x144x64_2_0_0 : S3x144x64.Slices ![2, 0, 0] S1x144x64
  slices_S3x64_S1x64_2_0 : S3x64.Slices ![2, 0] S1x64
  slices_S3x64x64_S1x64x64_2_0_0 : S3x64x64.Slices ![2, 0, 0] S1x64x64
  slices_S3x64x192_S1x64x192_2_0_0 : S3x64x192.Slices ![2, 0, 0] S1x64x192
  slices_S3x192_S1x192_2_0 : S3x192.Slices ![2, 0] S1x192
  bcast_S_S2048x64 : S_.BroadcastsInDim S2048x64 (![] : Fin 0 → Fin S2048x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S50000x9_S9x64_S50000x64_1_0_0_1_n_n_wf : DotDims.WF S50000x9 S9x64 S50000x64 [1] [0] [0] [1] [] []
  dot_S800000x4_S4x16_S800000x16_1_0_0_1_n_n_wf : DotDims.WF S800000x4 S4x16 S800000x16 [1] [0] [0] [1] [] []
  gather_S50000x64_S800000x1_S800000x64_1_0_n_n_0_1_164_wf : GatherDims.WF S50000x64 S800000x1 S800000x64 [1] [0] [] [0] [] 1 ![1, 64]
  dot_S800000x144_S144x64_S800000x64_1_0_0_1_n_n_wf : DotDims.WF S800000x144 S144x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x192_S50000x192_1_0_0_1_n_n_wf : DotDims.WF S50000x64 S64x192 S50000x192 [1] [0] [0] [1] [] []
  scatter_S2048x64_S50000x1_S50000x64_1_0_0_1_wf : ScatterDims.WF S2048x64 S50000x1 S50000x64 [1] [0] [0] 1
  scatter_S2048_S50000x1_S50000_n_0_0_1_wf : ScatterDims.WF S2048 S50000x1 S50000 [] [0] [0] 1
  dot_S2048x64_S64x128_S2048x128_1_0_0_1_n_n_wf : DotDims.WF S2048x64 S64x128 S2048x128 [1] [0] [0] [1] [] []
  dot_S2048x128_S128x1_S2048x1_1_0_0_1_n_n_wf : DotDims.WF S2048x128 S128x1 S2048x1 [1] [0] [0] [1] [] []

variable [Facts₀]

def dot_S50000x9_S9x64_S50000x64_1_0_0_1_n_n : DotDims S50000x9 S9x64 S50000x64 where
  lhsContracting := [1]
  rhsContracting := [0]
  lhsNonContracting := [0]
  rhsNonContracting := [1]
  lhsBatch := []
  rhsBatch := []
  wf := dot_S50000x9_S9x64_S50000x64_1_0_0_1_n_n_wf
def dot_S800000x4_S4x16_S800000x16_1_0_0_1_n_n : DotDims S800000x4 S4x16 S800000x16 where
  lhsContracting := [1]
  rhsContracting := [0]
  lhsNonContracting := [0]
  rhsNonContracting := [1]
  lhsBatch := []
  rhsBatch := []
  wf := dot_S800000x4_S4x16_S800000x16_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x64_S800000x64_1_0_0_1_n_n : DotDims S800000x144 S144x64 S800000x64 where
  lhsContracting := [1]
  rhsContracting := [0]
  lhsNonContracting := [0]
  rhsNonContracting := [1]
  lhsBatch := []
  rhsBatch := []
  wf := dot_S800000x144_S144x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf
def scatter_S2048x64_S50000x1_S50000x64_1_0_0_1 : ScatterDims S2048x64 S50000x1 S50000x64 where
  updateWindowDims := [1]
  insertedWindowDims := [0]
  scatterDimsToOperandDims := [0]
  indexVectorDim := 1
  wf := scatter_S2048x64_S50000x1_S50000x64_1_0_0_1_wf
def scatter_S2048_S50000x1_S50000_n_0_0_1 : ScatterDims S2048 S50000x1 S50000 where
  updateWindowDims := []
  insertedWindowDims := [0]
  scatterDimsToOperandDims := [0]
  indexVectorDim := 1
  wf := scatter_S2048_S50000x1_S50000_n_0_0_1_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.RefOps.lean ====
/-
  The reference program's host operations, in program order, as five consecutive segments: the two encoders and the
  two rows of the edge list; layer 0; layer 1; layer 2; the readout. An outlined function's operations stand where
  it is called, over the call's own buffers. The program's line is the segments one after the other.
-/
import proofs.«148557_j77953656422434_2_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The two encoders and the two rows of the edge list (through the destinations). -/
abbrev seg0 : List (HloOp τ sig (Elt F)) :=
  [ unary main_arg0 main_v0 (sitofp .f32 : (⟨S50000x9, .i32⟩ : BufTy).Contents (Elt F) → (⟨S50000x9, .f32⟩ : BufTy).Contents (Elt F)),
    binary main_v0 main_arg4 main_v1 ((fun l r => Host.dotGeneral dot_S50000x9_S9x64_S50000x64_1_0_0_1_n_n none l r) : (⟨S50000x9, .f32⟩ : BufTy).Contents (Elt F) → (⟨S9x64, .f32⟩ : BufTy).Contents (Elt F) → (⟨S50000x64, .f32⟩ : BufTy).Contents (Elt F)),
    unary main_arg5 main_v2 (broadcastInDim S1x64 ![1] bcast_S64_S1x64_1 : (⟨S64, .f32⟩ : BufTy).Contents (Elt F) → (⟨S1x64, .f32⟩ : BufTy).Contents (Elt F)),
    unary main_v2 main_v3 (broadcastInDim S50000x64 ![0, 1] bcast_S1x64_S50000x64_0_1 : (⟨S1x64, .f32⟩ : BufTy).Contents (Elt F) → (⟨S50000x64, .f32⟩ : BufTy).Contents (Elt F)),
    binary main_v1 main_v3 main_v4 (addf : (⟨S50000x64, .f32⟩ : BufTy).Contents (Elt F) → (⟨S50000x64, .f32⟩ : BufTy).Contents (Elt F) → (⟨S50000x64, .f32⟩ : BufTy).Contents (Elt F)),
    unary main_arg2 main_v5 (sitofp .f32 : (⟨S800000x4, .i32⟩ : BufTy).Contents (Elt F) → (⟨S800000x4, .f32⟩ : BufTy).Contents (Elt F)),
    binary main_v5 main_arg6 main_v6 ((fun l r => Host.dotGeneral dot_S800000x4_S4x16_S800000x16_1_0_0_1_n_n none l r) : (⟨S800000x4, .f32⟩ : BufTy).Contents (Elt F) → (⟨S4x16, .f32⟩ : BufTy).Contents (Elt F) → (⟨S800000x16, .f32⟩ : BufTy).Contents (Elt F)),
    unary main_arg7 main_v7 (broadcastInDim S1x16 ![1] bcast_S16_S1x16_1 : (⟨S16, .f32⟩ : BufTy).Contents (Elt F) → (⟨S1x16, .f32⟩ : BufTy).Contents (Elt F)),
    unary main_v7 main_v8 (broadcastInDim S800000x16 ![0, 1] bcast_S1x16_S800000x16_0_1 : (⟨S1x16, .f32⟩ : BufTy).Contents (Elt F) → (⟨S800000x16, .f32⟩ : BufTy).Contents (Elt F)),
    binary main_v6 main_v8 main_v9 (addf : (⟨S800000x16, .f32⟩ : BufTy).Contents (Elt F) → (⟨S800000x16, .f32⟩ : BufTy).Contents (Elt F) → (⟨S800000x16, .f32⟩ : BufTy).Contents (Elt F)),
    unary main_arg1 main_v10 ((extractStridedSlice S1x800000 ![0, 0] · slices_S2x800000_S1x800000_0_0) : (⟨S2x800000, .i32⟩ : BufTy).Contents (Elt F) → (⟨S1x800000, .i32⟩ : BufTy).Contents (Elt F)),
    reshape main_v10 main_v11 rfl shapeCasts_S1x800000_S800000,
    unary main_arg1 main_v12 ((extractStridedSlice S1x800000 ![1, 0] · slices_S2x800000_S1x800000_1_0) : (⟨S2x800000, .i32⟩ : BufTy).Contents (Elt F) → (⟨S1x800000, .i32⟩ : BufTy).Contents (Elt F)),
    reshape main_v12 main_v13 rfl shapeCasts_S1x800000_S800000 ]

/-- Layer 0 (through the node states it leaves). -/
abbrev seg1 : List (HloOp τ sig (Elt F)) :=
  [ nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v11 main_v14 main_v15 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v16 (broadcastInDim S800000 ![] bcast_S_S800000 : (⟨S_, .i32⟩ : BufTy).Contents (Elt F) → (⟨S800000, .i32⟩ : BufTy).Contents (Elt F)),
    binary main_v11 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v11 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v4 main_v19 main_v20 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v21 (broadcastInDim S800000 ![] bcast_S_S800000 : (⟨S_, .i32⟩ : BufTy).Contents (Elt F) → (⟨S800000, .i32⟩ : BufTy).Contents (Elt F)),
    binary main_v13 main_v21 main_v22 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v23 (broadcastInDim S800000 ![] bcast_S_S800000 : (⟨S_, .i32⟩ : BufTy).Contents (Elt F) → (⟨S800000, .i32⟩ : BufTy).Contents (Elt F)),
    binary main_v13 main_v23 main_v24 (addi : (⟨S800000, .i32⟩ : BufTy).Contents (Elt F) → (⟨S800000, .i32⟩ : BufTy).Contents (Elt F) → (⟨S800000, .i32⟩ : BufTy).Contents (Elt F)),
    ternary main_v22 main_v24 main_v13 main_v25 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v25 main_v26 (broadcastInDim S800000x1 ![0] bcast_S800000_S800000x1_0 : (⟨S800000, .i32⟩ : BufTy).Contents (Elt F) → (⟨S800000x1, .i32⟩ : BufTy).Contents (Elt F)),
    binary main_v4 main_v26 main_v27 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v20, main_v27, main_v9] main_v28 (fun u => concatenate S800000x144 1 [⟨S800000x64, u 0⟩, ⟨S800000x64, u 1⟩, ⟨S800000x16, u 2⟩] concatenates_S800000x64_S800000x64_S800000x16_S800000x144_d1),
    unary main_arg8 main_v29 ((extractStridedSlice S1x144x64 ![0, 0, 0] · slices_S3x144x64_S1x144x64_0_0_0) : (⟨S3x144x64, .f32⟩ : BufTy).Contents (Elt F) → (⟨S1x144x64, .f32⟩ : BufTy).Contents (Elt F)),
    reshape main_v29 main_v30 rfl shapeCasts_S1x144x64_S144x64,
    binary main_v28 main_v30 main_v31 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg9 main_v32 ((extractStridedSlice S1x64 ![0, 0] · slices_S3x64_S1x64_0_0) : (⟨S3x64, .f32⟩ : BufTy).Contents (Elt F) → (⟨S1x64, .f32⟩ : BufTy).Contents (Elt F)),
    reshape main_v32 main_v33 rfl shapeCasts_S1x64_S64,
    unary main_v33 main_v34 (broadcastInDim S1x64 ![1] bcast_S64_S1x64_1 : (⟨S64, .f32⟩ : BufTy).Contents (Elt F) → (⟨S1x64, .f32⟩ : BufTy).Contents (Elt F)),
    unary main_v34 main_v35 (broadcastInDim S800000x64 ![0, 1] bcast_S1x64_S800000x64_0_1 : (⟨S1x64, .f32⟩ : BufTy).Contents (Elt F) → (⟨S800000x64, .f32⟩ : BufTy).Contents (Elt F)),
    binary main_v31 main_v35 main_v36 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v36) (TRef.of (T := ⟨S800000x64, .f32⟩) main_call0_v0) (TRef.of (T := ⟨S800000x64, .f32⟩) main_v37) maximumf,
    unary main_arg10 main_v38 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v38 main_v39 rfl shapeCasts_S1x64x64_S64x64,
    binary main_v37 main_v39 main_v40 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg11 main_v41 ((extractStridedSlice S1x64 ![0, 0] · slices_S3x64_S1x64_0_0) : (⟨S3x64, .f32⟩ : BufTy).Contents (Elt F) → (⟨S1x64, .f32⟩ : BufTy).Contents (Elt F)),
    reshape main_v41 main_v42 rfl shapeCasts_S1x64_S64,
    unary main_v42 main_v43 (broadcastInDim S1x64 ![1] bcast_S64_S1x64_1 : (⟨S64, .f32⟩ : BufTy).Contents (Elt F) → (⟨S1x64, .f32⟩ : BufTy).Contents (Elt F)),
    unary main_v43 main_v44 (broadcastInDim S800000x64 ![0, 1] bcast_S1x64_S800000x64_0_1 : (⟨S1x64, .f32⟩ : BufTy).Contents (Elt F) → (⟨S800000x64, .f32⟩ : BufTy).Contents (Elt F)),
    binary main_v40 main_v44 main_v45 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v46 (broadcastInDim S50000x64 ![] bcast_S_S50000x64 : (⟨S_, .f32⟩ : BufTy).Contents (Elt F) → (⟨S50000x64, .f32⟩ : BufTy).Contents (Elt F)),
    unary main_v13 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg12 main_v49 ((extractStridedSlice S1x64x192 ![0, 0, 0] · slices_S3x64x192_S1x64x192_0_0_0) : (⟨S3x64x192, .f32⟩ : BufTy).Contents (Elt F) → (⟨S1x64x192, .f32⟩ : BufTy).Contents (Elt F)),
    reshape main_v49 main_v50 rfl shapeCasts_S1x64x192_S64x192,
    binary main_v48 main_v50 main_v51 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg13 main_v52 ((extractStridedSlice S1x192 ![0, 0] · slices_S3x192_S1x192_0_0) : (⟨S3x192, .f32⟩ : BufTy).Contents (Elt F) → (⟨S1x192, .f32⟩ : BufTy).Contents (Elt F)),
    reshape main_v52 main_v53 rfl shapeCasts_S1x192_S192,
    unary main_v53 main_v54 (broadcastInDim S1x192 ![1] bcast_S192_S1x192_1 : (⟨S192, .f32⟩ : BufTy).Contents (Elt F) → (⟨S1x192, .f32⟩ : BufTy).Contents (Elt F)),
    unary main_v54 main_v55 (broadcastInDim S50000x192 ![0, 1] bcast_S1x192_S50000x192_0_1 : (⟨S1x192, .f32⟩ : BufTy).Contents (Elt F) → (⟨S50000x192, .f32⟩ : BufTy).Contents (Elt F)),
    binary main_v51 main_v55 main_v56 (addf : (⟨S50000x192, .f32⟩ : BufTy).Contents (Elt F) → (⟨S50000x192, .f32⟩ : BufTy).Contents (Elt F) → (⟨S50000x192, .f32⟩ : BufTy).Contents (Elt F)),
    unary main_arg14 main_v57 ((extractStridedSlice S1x64x192 ![0, 0, 0] · slices_S3x64x192_S1x64x192_0_0_0) : (⟨S3x64x192, .f32⟩ : BufTy).Contents (Elt F) → (⟨S1x64x192, .f32⟩ : BufTy).Contents (Elt F)),
    reshape main_v57 main_v58 rfl shapeCasts_S1x64x192_S64x192,
    binary main_v4 main_v58 main_v59 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg15 main_v60 ((extractStridedSlice S1x192 ![0, 0] · slices_S3x192_S1x192_0_0) : (⟨S3x192, .f32⟩ : BufTy).Contents (Elt F) → (⟨S1x192, .f32⟩ : BufTy).Contents (Elt F)),
    reshape main_v60 main_v61 rfl shapeCasts_S1x192_S192,
    unary main_v61 main_v62 (broadcastInDim S1x192 ![1] bcast_S192_S1x192_1 : (⟨S192, .f32⟩ : BufTy).Contents (Elt F) → (⟨S1x192, .f32⟩ : BufTy).Contents (Elt F)),
    unary main_v62 main_v63 (broadcastInDim S50000x192 ![0, 1] bcast_S1x192_S50000x192_0_1 : (⟨S1x192, .f32⟩ : BufTy).Contents (Elt F) → (⟨S50000x192, .f32⟩ : BufTy).Contents (Elt F)),
    binary main_v59 main_v63 main_v64 (addf : (⟨S50000x192, .f32⟩ : BufTy).Contents (Elt F) → (⟨S50000x192, .f32⟩ : BufTy).Contents (Elt F) → (⟨S50000x192, .f32⟩ : BufTy).Contents (Elt F)),
    unary main_v56 main_v65 ((extractStridedSlice S50000x64 ![0, 0] · slices_S50000x192_S50000x64_0_0) : (⟨S50000x192, .f32⟩ : BufTy).Contents (Elt F) → (⟨S50000x64, .f32⟩ : BufTy).Contents (Elt F)),
    unary main_v56 main_v66 ((extractStridedSlice S50000x64 ![0, 64] · slices_S50000x192_S50000x64_0_64) : (⟨S50000x192, .f32⟩ : BufTy).Contents (Elt F) → (⟨S50000x64, .f32⟩ : BufTy).Contents (Elt F)),
    unary main_v56 main_v67 ((extractStridedSlice S50000x64 ![0, 128] · slices_S50000x192_S50000x64_0_128) : (⟨S50000x192, .f32⟩ : BufTy).Contents (Elt F) → (⟨S50000x64, .f32⟩ : BufTy).Contents (Elt F)),
    unary main_v64 main_v68 ((extractStridedSlice S50000x64 ![0, 0] · slices_S50000x192_S50000x64_0_0) : (⟨S50000x192, .f32⟩ : BufTy).Contents (Elt F) → (⟨S50000x64, .f32⟩ : BufTy).Contents (Elt F)),
    unary main_v64 main_v69 ((extractStridedSlice S50000x64 ![0, 64] · slices_S50000x192_S50000x64_0_64) : (⟨S50000x192, .f32⟩ : BufTy).Contents (Elt F) → (⟨S50000x64, .f32⟩ : BufTy).Contents (Elt F)),
    unary main_v64 main_v70 ((extractStridedSlice S50000x64 ![0, 128] · slices_S50000x192_S50000x64_0_128) : (⟨S50000x192, .f32⟩ : BufTy).Contents (Elt F) → (⟨S50000x64, .f32⟩ : BufTy).Contents (Elt F)),
    binary main_v65 main_v68 main_v71 (addf : (⟨S50000x64, .f32⟩ : BufTy).Contents (Elt F) → (⟨S50000x64, .f32⟩ : BufTy).Contents (Elt F) → (⟨S50000x64, .f32⟩ : BufTy).Contents (Elt F)),
    unary main_v71 main_v72 (Host.negf : (⟨S50000x64, .f32⟩ : BufTy).Contents (Elt F) → (⟨S50000x64, .f32⟩ : BufTy).Contents (Elt F)),
    unary main_v72 main_v73 (Host.exp : (⟨S50000x64, .f32⟩ : BufTy).Contents (Elt F) → (⟨S50000x64, .f32⟩ : BufTy).Contents (Elt F)),
    nullary main_cst_3 (constant S_ .f32 0x3F800000#32),
    unary main_cst_3 main_v74 (broadcastInDim S50000x64 ![] bcast_S_S50000x64 : (⟨S_, .f32⟩ : BufTy).Contents (Elt F) → (⟨S50000x64, .f32⟩ : BufTy).Contents (Elt F)),
    binary main_v74 main_v73 main_v75 (addf : (⟨S50000x64, .f32⟩ : BufTy).Contents (Elt F) → (⟨S50000x64, .f32⟩ : BufTy).Contents (Elt F) → (⟨S50000x64, .f32⟩ : BufTy).Contents (Elt F)),
    nullary main_cst_4 (constant S_ .f32 0x3F800000#32),
    unary main_cst_4 main_v76 (broadcastInDim S50000x64 ![] bcast_S_S50000x64 : (⟨S_, .f32⟩ : BufTy).Contents (Elt F) → (⟨S50000x64, .f32⟩ : BufTy).Contents (Elt F)),
    binary main_v76 main_v75 main_v77 (Host.divf : (⟨S50000x64, .f32⟩ : BufTy).Contents (Elt F) → (⟨S50000x64, .f32⟩ : BufTy).Contents (Elt F) → (⟨S50000x64, .f32⟩ : BufTy).Contents (Elt F)),
    binary main_v66 main_v69 main_v78 (addf : (⟨S50000x64, .f32⟩ : BufTy).Contents (Elt F) → (⟨S50000x64, .f32⟩ : BufTy).Contents (Elt F) → (⟨S50000x64, .f32⟩ : BufTy).Contents (Elt F)),
    unary main_v78 main_v79 (Host.negf : (⟨S50000x64, .f32⟩ : BufTy).Contents (Elt F) → (⟨S50000x64, .f32⟩ : BufTy).Contents (Elt F)),
    unary main_v79 main_v80 (Host.exp : (⟨S50000x64, .f32⟩ : BufTy).Contents (Elt F) → (⟨S50000x64, .f32⟩ : BufTy).Contents (Elt F)),
    nullary main_cst_5 (constant S_ .f32 0x3F800000#32),
    unary main_cst_5 main_v81 (broadcastInDim S50000x64 ![] bcast_S_S50000x64 : (⟨S_, .f32⟩ : BufTy).Contents (Elt F) → (⟨S50000x64, .f32⟩ : BufTy).Contents (Elt F)),
    binary main_v81 main_v80 main_v82 (addf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3F800000#32),
    unary main_cst_6 main_v83 (broadcastInDim S50000x64 ![] bcast_S_S50000x64 : (⟨S_, .f32⟩ : BufTy).Contents (Elt F) → (⟨S50000x64, .f32⟩ : BufTy).Contents (Elt F)),
    binary main_v83 main_v82 main_v84 (Host.divf : (⟨S50000x64, .f32⟩ : BufTy).Contents (Elt F) → (⟨S50000x64, .f32⟩ : BufTy).Contents (Elt F) → (⟨S50000x64, .f32⟩ : BufTy).Contents (Elt F)),
    binary main_v77 main_v70 main_v85 (mulf : (⟨S50000x64, .f32⟩ : BufTy).Contents (Elt F) → (⟨S50000x64, .f32⟩ : BufTy).Contents (Elt F) → (⟨S50000x64, .f32⟩ : BufTy).Contents (Elt F)),
    binary main_v67 main_v85 main_v86 (addf : (⟨S50000x64, .f32⟩ : BufTy).Contents (Elt F) → (⟨S50000x64, .f32⟩ : BufTy).Contents (Elt F) → (⟨S50000x64, .f32⟩ : BufTy).Contents (Elt F)),
    unary main_v86 main_v87 (Host.tanh : (⟨S50000x64, .f32⟩ : BufTy).Contents (Elt F) → (⟨S50000x64, .f32⟩ : BufTy).Contents (Elt F)),
    nullary main_cst_7 (constant S_ .f32 0x3F800000#32),
    unary main_cst_7 main_v88 (broadcastInDim S50000x64 ![] bcast_S_S50000x64 : (⟨S_, .f32⟩ : BufTy).Contents (Elt F) → (⟨S50000x64, .f32⟩ : BufTy).Contents (Elt F)),
    binary main_v88 main_v84 main_v89 (subf : (⟨S50000x64, .f32⟩ : BufTy).Contents (Elt F) → (⟨S50000x64, .f32⟩ : BufTy).Contents (Elt F) → (⟨S50000x64, .f32⟩ : BufTy).Contents (Elt F)),
    binary main_v89 main_v87 main_v90 (mulf : (⟨S50000x64, .f32⟩ : BufTy).Contents (Elt F) → (⟨S50000x64, .f32⟩ : BufTy).Contents (Elt F) → (⟨S50000x64, .f32⟩ : BufTy).Contents (Elt F)),
    binary main_v84 main_v4 main_v91 (mulf : (⟨S50000x64, .f32⟩ : BufTy).Contents (Elt F) → (⟨S50000x64, .f32⟩ : BufTy).Contents (Elt F) → (⟨S50000x64, .f32⟩ : BufTy).Contents (Elt F)),
    binary main_v90 main_v91 main_v92 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v92) (TRef.of (T := ⟨S50000x64, .f32⟩) main_call1_v0) (TRef.of (T := ⟨S50000x64, .f32⟩) main_v93) maximumf ]

/-- Layer 1. -/
abbrev seg2 : List (HloOp τ sig (Elt F)) :=
  [ nullary main_c_8 (constantI S_ 32 0#32),
    unary main_c_8 main_v94 (broadcastInDim S800000 ![] bcast_S_S800000 : (⟨S_, .i32⟩ : BufTy).Contents (Elt F) → (⟨S800000, .i32⟩ : BufTy).Contents (Elt F)),
    binary main_v11 main_v94 main_v95 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v96 (broadcastInDim S800000 ![] bcast_S_S800000 : (⟨S_, .i32⟩ : BufTy).Contents (Elt F) → (⟨S800000, .i32⟩ : BufTy).Contents (Elt F)),
    binary main_v11 main_v96 main_v97 (addi : (⟨S800000, .i32⟩ : BufTy).Contents (Elt F) → (⟨S800000, .i32⟩ : BufTy).Contents (Elt F) → (⟨S800000, .i32⟩ : BufTy).Contents (Elt F)),
    ternary main_v95 main_v97 main_v11 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v98 main_v99 (broadcastInDim S800000x1 ![0] bcast_S800000_S800000x1_0 : (⟨S800000, .i32⟩ : BufTy).Contents (Elt F) → (⟨S800000x1, .i32⟩ : BufTy).Contents (Elt F)),
    binary main_v93 main_v99 main_v100 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_10 (constantI S_ 32 0#32),
    unary main_c_10 main_v101 (broadcastInDim S800000 ![] bcast_S_S800000 : (⟨S_, .i32⟩ : BufTy).Contents (Elt F) → (⟨S800000, .i32⟩ : BufTy).Contents (Elt F)),
    binary main_v13 main_v101 main_v102 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v103 (broadcastInDim S800000 ![] bcast_S_S800000 : (⟨S_, .i32⟩ : BufTy).Contents (Elt F) → (⟨S800000, .i32⟩ : BufTy).Contents (Elt F)),
    binary main_v13 main_v103 main_v104 (addi : (⟨S800000, .i32⟩ : BufTy).Contents (Elt F) → (⟨S800000, .i32⟩ : BufTy).Contents (Elt F) → (⟨S800000, .i32⟩ : BufTy).Contents (Elt F)),
    ternary main_v102 main_v104 main_v13 main_v105 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v105 main_v106 (broadcastInDim S800000x1 ![0] bcast_S800000_S800000x1_0 : (⟨S800000, .i32⟩ : BufTy).Contents (Elt F) → (⟨S800000x1, .i32⟩ : BufTy).Contents (Elt F)),
    binary main_v93 main_v106 main_v107 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v100, main_v107, main_v9] main_v108 (fun u => concatenate S800000x144 1 [⟨S800000x64, u 0⟩, ⟨S800000x64, u 1⟩, ⟨S800000x16, u 2⟩] concatenates_S800000x64_S800000x64_S800000x16_S800000x144_d1),
    unary main_arg8 main_v109 ((extractStridedSlice S1x144x64 ![1, 0, 0] · slices_S3x144x64_S1x144x64_1_0_0) : (⟨S3x144x64, .f32⟩ : BufTy).Contents (Elt F) → (⟨S1x144x64, .f32⟩ : BufTy).Contents (Elt F)),
    reshape main_v109 main_v110 rfl shapeCasts_S1x144x64_S144x64,
    binary main_v108 main_v110 main_v111 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg9 main_v112 ((extractStridedSlice S1x64 ![1, 0] · slices_S3x64_S1x64_1_0) : (⟨S3x64, .f32⟩ : BufTy).Contents (Elt F) → (⟨S1x64, .f32⟩ : BufTy).Contents (Elt F)),
    reshape main_v112 main_v113 rfl shapeCasts_S1x64_S64,
    unary main_v113 main_v114 (broadcastInDim S1x64 ![1] bcast_S64_S1x64_1 : (⟨S64, .f32⟩ : BufTy).Contents (Elt F) → (⟨S1x64, .f32⟩ : BufTy).Contents (Elt F)),
    unary main_v114 main_v115 (broadcastInDim S800000x64 ![0, 1] bcast_S1x64_S800000x64_0_1 : (⟨S1x64, .f32⟩ : BufTy).Contents (Elt F) → (⟨S800000x64, .f32⟩ : BufTy).Contents (Elt F)),
    binary main_v111 main_v115 main_v116 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v116) (TRef.of (T := ⟨S800000x64, .f32⟩) main_call2_v0) (TRef.of (T := ⟨S800000x64, .f32⟩) main_v117) maximumf,
    unary main_arg10 main_v118 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v118 main_v119 rfl shapeCasts_S1x64x64_S64x64,
    binary main_v117 main_v119 main_v120 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg11 main_v121 ((extractStridedSlice S1x64 ![1, 0] · slices_S3x64_S1x64_1_0) : (⟨S3x64, .f32⟩ : BufTy).Contents (Elt F) → (⟨S1x64, .f32⟩ : BufTy).Contents (Elt F)),
    reshape main_v121 main_v122 rfl shapeCasts_S1x64_S64,
    unary main_v122 main_v123 (broadcastInDim S1x64 ![1] bcast_S64_S1x64_1 : (⟨S64, .f32⟩ : BufTy).Contents (Elt F) → (⟨S1x64, .f32⟩ : BufTy).Contents (Elt F)),
    unary main_v123 main_v124 (broadcastInDim S800000x64 ![0, 1] bcast_S1x64_S800000x64_0_1 : (⟨S1x64, .f32⟩ : BufTy).Contents (Elt F) → (⟨S800000x64, .f32⟩ : BufTy).Contents (Elt F)),
    binary main_v120 main_v124 main_v125 (addf : (⟨S800000x64, .f32⟩ : BufTy).Contents (Elt F) → (⟨S800000x64, .f32⟩ : BufTy).Contents (Elt F) → (⟨S800000x64, .f32⟩ : BufTy).Contents (Elt F)),
    nullary main_cst_12 (constant S_ .f32 0x00000000#32),
    unary main_cst_12 main_v126 (broadcastInDim S50000x64 ![] bcast_S_S50000x64 : (⟨S_, .f32⟩ : BufTy).Contents (Elt F) → (⟨S50000x64, .f32⟩ : BufTy).Contents (Elt F)),
    unary main_v13 main_v127 (broadcastInDim S800000x1 ![0] bcast_S800000_S800000x1_0 : (⟨S800000, .i32⟩ : BufTy).Contents (Elt F) → (⟨S800000x1, .i32⟩ : BufTy).Contents (Elt F)),
    ternary main_v126 main_v127 main_v125 main_v128 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg12 main_v129 ((extractStridedSlice S1x64x192 ![1, 0, 0] · slices_S3x64x192_S1x64x192_1_0_0) : (⟨S3x64x192, .f32⟩ : BufTy).Contents (Elt F) → (⟨S1x64x192, .f32⟩ : BufTy).Contents (Elt F)),
    reshape main_v129 main_v130 rfl shapeCasts_S1x64x192_S64x192,
    binary main_v128 main_v130 main_v131 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg13 main_v132 ((extractStridedSlice S1x192 ![1, 0] · slices_S3x192_S1x192_1_0) : (⟨S3x192, .f32⟩ : BufTy).Contents (Elt F) → (⟨S1x192, .f32⟩ : BufTy).Contents (Elt F)),
    reshape main_v132 main_v133 rfl shapeCasts_S1x192_S192,
    unary main_v133 main_v134 (broadcastInDim S1x192 ![1] bcast_S192_S1x192_1 : (⟨S192, .f32⟩ : BufTy).Contents (Elt F) → (⟨S1x192, .f32⟩ : BufTy).Contents (Elt F)),
    unary main_v134 main_v135 (broadcastInDim S50000x192 ![0, 1] bcast_S1x192_S50000x192_0_1 : (⟨S1x192, .f32⟩ : BufTy).Contents (Elt F) → (⟨S50000x192, .f32⟩ : BufTy).Contents (Elt F)),
    binary main_v131 main_v135 main_v136 (addf : (⟨S50000x192, .f32⟩ : BufTy).Contents (Elt F) → (⟨S50000x192, .f32⟩ : BufTy).Contents (Elt F) → (⟨S50000x192, .f32⟩ : BufTy).Contents (Elt F)),
    unary main_arg14 main_v137 ((extractStridedSlice S1x64x192 ![1, 0, 0] · slices_S3x64x192_S1x64x192_1_0_0) : (⟨S3x64x192, .f32⟩ : BufTy).Contents (Elt F) → (⟨S1x64x192, .f32⟩ : BufTy).Contents (Elt F)),
    reshape main_v137 main_v138 rfl shapeCasts_S1x64x192_S64x192,
    binary main_v93 main_v138 main_v139 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg15 main_v140 ((extractStridedSlice S1x192 ![1, 0] · slices_S3x192_S1x192_1_0) : (⟨S3x192, .f32⟩ : BufTy).Contents (Elt F) → (⟨S1x192, .f32⟩ : BufTy).Contents (Elt F)),
    reshape main_v140 main_v141 rfl shapeCasts_S1x192_S192,
    unary main_v141 main_v142 (broadcastInDim S1x192 ![1] bcast_S192_S1x192_1 : (⟨S192, .f32⟩ : BufTy).Contents (Elt F) → (⟨S1x192, .f32⟩ : BufTy).Contents (Elt F)),
    unary main_v142 main_v143 (broadcastInDim S50000x192 ![0, 1] bcast_S1x192_S50000x192_0_1 : (⟨S1x192, .f32⟩ : BufTy).Contents (Elt F) → (⟨S50000x192, .f32⟩ : BufTy).Contents (Elt F)),
    binary main_v139 main_v143 main_v144 (addf : (⟨S50000x192, .f32⟩ : BufTy).Contents (Elt F) → (⟨S50000x192, .f32⟩ : BufTy).Contents (Elt F) → (⟨S50000x192, .f32⟩ : BufTy).Contents (Elt F)),
    unary main_v136 main_v145 ((extractStridedSlice S50000x64 ![0, 0] · slices_S50000x192_S50000x64_0_0) : (⟨S50000x192, .f32⟩ : BufTy).Contents (Elt F) → (⟨S50000x64, .f32⟩ : BufTy).Contents (Elt F)),
    unary main_v136 main_v146 ((extractStridedSlice S50000x64 ![0, 64] · slices_S50000x192_S50000x64_0_64) : (⟨S50000x192, .f32⟩ : BufTy).Contents (Elt F) → (⟨S50000x64, .f32⟩ : BufTy).Contents (Elt F)),
    unary main_v136 main_v147 ((extractStridedSlice S50000x64 ![0, 128] · slices_S50000x192_S50000x64_0_128) : (⟨S50000x192, .f32⟩ : BufTy).Contents (Elt F) → (⟨S50000x64, .f32⟩ : BufTy).Contents (Elt F)),
    unary main_v144 main_v148 ((extractStridedSlice S50000x64 ![0, 0] · slices_S50000x192_S50000x64_0_0) : (⟨S50000x192, .f32⟩ : BufTy).Contents (Elt F) → (⟨S50000x64, .f32⟩ : BufTy).Contents (Elt F)),
    unary main_v144 main_v149 ((extractStridedSlice S50000x64 ![0, 64] · slices_S50000x192_S50000x64_0_64) : (⟨S50000x192, .f32⟩ : BufTy).Contents (Elt F) → (⟨S50000x64, .f32⟩ : BufTy).Contents (Elt F)),
    unary main_v144 main_v150 ((extractStridedSlice S50000x64 ![0, 128] · slices_S50000x192_S50000x64_0_128) : (⟨S50000x192, .f32⟩ : BufTy).Contents (Elt F) → (⟨S50000x64, .f32⟩ : BufTy).Contents (Elt F)),
    binary main_v145 main_v148 main_v151 (addf : (⟨S50000x64, .f32⟩ : BufTy).Contents (Elt F) → (⟨S50000x64, .f32⟩ : BufTy).Contents (Elt F) → (⟨S50000x64, .f32⟩ : BufTy).Contents (Elt F)),
    unary main_v151 main_v152 (Host.negf : (⟨S50000x64, .f32⟩ : BufTy).Contents (Elt F) → (⟨S50000x64, .f32⟩ : BufTy).Contents (Elt F)),
    unary main_v152 main_v153 (Host.exp : (⟨S50000x64, .f32⟩ : BufTy).Contents (Elt F) → (⟨S50000x64, .f32⟩ : BufTy).Contents (Elt F)),
    nullary main_cst_13 (constant S_ .f32 0x3F800000#32),
    unary main_cst_13 main_v154 (broadcastInDim S50000x64 ![] bcast_S_S50000x64 : (⟨S_, .f32⟩ : BufTy).Contents (Elt F) → (⟨S50000x64, .f32⟩ : BufTy).Contents (Elt F)),
    binary main_v154 main_v153 main_v155 (addf : (⟨S50000x64, .f32⟩ : BufTy).Contents (Elt F) → (⟨S50000x64, .f32⟩ : BufTy).Contents (Elt F) → (⟨S50000x64, .f32⟩ : BufTy).Contents (Elt F)),
    nullary main_cst_14 (constant S_ .f32 0x3F800000#32),
    unary main_cst_14 main_v156 (broadcastInDim S50000x64 ![] bcast_S_S50000x64 : (⟨S_, .f32⟩ : BufTy).Contents (Elt F) → (⟨S50000x64, .f32⟩ : BufTy).Contents (Elt F)),
    binary main_v156 main_v155 main_v157 (Host.divf : (⟨S50000x64, .f32⟩ : BufTy).Contents (Elt F) → (⟨S50000x64, .f32⟩ : BufTy).Contents (Elt F) → (⟨S50000x64, .f32⟩ : BufTy).Contents (Elt F)),
    binary main_v146 main_v149 main_v158 (addf : (⟨S50000x64, .f32⟩ : BufTy).Contents (Elt F) → (⟨S50000x64, .f32⟩ : BufTy).Contents (Elt F) → (⟨S50000x64, .f32⟩ : BufTy).Contents (Elt F)),
    unary main_v158 main_v159 (Host.negf : (⟨S50000x64, .f32⟩ : BufTy).Contents (Elt F) → (⟨S50000x64, .f32⟩ : BufTy).Contents (Elt F)),
    unary main_v159 main_v160 (Host.exp : (⟨S50000x64, .f32⟩ : BufTy).Contents (Elt F) → (⟨S50000x64, .f32⟩ : BufTy).Contents (Elt F)),
    nullary main_cst_15 (constant S_ .f32 0x3F800000#32),
    unary main_cst_15 main_v161 (broadcastInDim S50000x64 ![] bcast_S_S50000x64 : (⟨S_, .f32⟩ : BufTy).Contents (Elt F) → (⟨S50000x64, .f32⟩ : BufTy).Contents (Elt F)),
    binary main_v161 main_v160 main_v162 (addf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x3F800000#32),
    unary main_cst_16 main_v163 (broadcastInDim S50000x64 ![] bcast_S_S50000x64 : (⟨S_, .f32⟩ : BufTy).Contents (Elt F) → (⟨S50000x64, .f32⟩ : BufTy).Contents (Elt F)),
    binary main_v163 main_v162 main_v164 (Host.divf : (⟨S50000x64, .f32⟩ : BufTy).Contents (Elt F) → (⟨S50000x64, .f32⟩ : BufTy).Contents (Elt F) → (⟨S50000x64, .f32⟩ : BufTy).Contents (Elt F)),
    binary main_v157 main_v150 main_v165 (mulf : (⟨S50000x64, .f32⟩ : BufTy).Contents (Elt F) → (⟨S50000x64, .f32⟩ : BufTy).Contents (Elt F) → (⟨S50000x64, .f32⟩ : BufTy).Contents (Elt F)),
    binary main_v147 main_v165 main_v166 (addf : (⟨S50000x64, .f32⟩ : BufTy).Contents (Elt F) → (⟨S50000x64, .f32⟩ : BufTy).Contents (Elt F) → (⟨S50000x64, .f32⟩ : BufTy).Contents (Elt F)),
    unary main_v166 main_v167 (Host.tanh : (⟨S50000x64, .f32⟩ : BufTy).Contents (Elt F) → (⟨S50000x64, .f32⟩ : BufTy).Contents (Elt F)),
    nullary main_cst_17 (constant S_ .f32 0x3F800000#32),
    unary main_cst_17 main_v168 (broadcastInDim S50000x64 ![] bcast_S_S50000x64 : (⟨S_, .f32⟩ : BufTy).Contents (Elt F) → (⟨S50000x64, .f32⟩ : BufTy).Contents (Elt F)),
    binary main_v168 main_v164 main_v169 (subf : (⟨S50000x64, .f32⟩ : BufTy).Contents (Elt F) → (⟨S50000x64, .f32⟩ : BufTy).Contents (Elt F) → (⟨S50000x64, .f32⟩ : BufTy).Contents (Elt F)),
    binary main_v169 main_v167 main_v170 (mulf : (⟨S50000x64, .f32⟩ : BufTy).Contents (Elt F) → (⟨S50000x64, .f32⟩ : BufTy).Contents (Elt F) → (⟨S50000x64, .f32⟩ : BufTy).Contents (Elt F)),
    binary main_v164 main_v93 main_v171 (mulf : (⟨S50000x64, .f32⟩ : BufTy).Contents (Elt F) → (⟨S50000x64, .f32⟩ : BufTy).Contents (Elt F) → (⟨S50000x64, .f32⟩ : BufTy).Contents (Elt F)),
    binary main_v170 main_v171 main_v172 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v172) (TRef.of (T := ⟨S50000x64, .f32⟩) main_call3_v0) (TRef.of (T := ⟨S50000x64, .f32⟩) main_v173) maximumf ]

/-- Layer 2. -/
abbrev seg3 : List (HloOp τ sig (Elt F)) :=
  [ nullary main_c_18 (constantI S_ 32 0#32),
    unary main_c_18 main_v174 (broadcastInDim S800000 ![] bcast_S_S800000 : (⟨S_, .i32⟩ : BufTy).Contents (Elt F) → (⟨S800000, .i32⟩ : BufTy).Contents (Elt F)),
    binary main_v11 main_v174 main_v175 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v176 (broadcastInDim S800000 ![] bcast_S_S800000 : (⟨S_, .i32⟩ : BufTy).Contents (Elt F) → (⟨S800000, .i32⟩ : BufTy).Contents (Elt F)),
    binary main_v11 main_v176 main_v177 (addi : (⟨S800000, .i32⟩ : BufTy).Contents (Elt F) → (⟨S800000, .i32⟩ : BufTy).Contents (Elt F) → (⟨S800000, .i32⟩ : BufTy).Contents (Elt F)),
    ternary main_v175 main_v177 main_v11 main_v178 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v178 main_v179 (broadcastInDim S800000x1 ![0] bcast_S800000_S800000x1_0 : (⟨S800000, .i32⟩ : BufTy).Contents (Elt F) → (⟨S800000x1, .i32⟩ : BufTy).Contents (Elt F)),
    binary main_v173 main_v179 main_v180 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_20 (constantI S_ 32 0#32),
    unary main_c_20 main_v181 (broadcastInDim S800000 ![] bcast_S_S800000 : (⟨S_, .i32⟩ : BufTy).Contents (Elt F) → (⟨S800000, .i32⟩ : BufTy).Contents (Elt F)),
    binary main_v13 main_v181 main_v182 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v183 (broadcastInDim S800000 ![] bcast_S_S800000 : (⟨S_, .i32⟩ : BufTy).Contents (Elt F) → (⟨S800000, .i32⟩ : BufTy).Contents (Elt F)),
    binary main_v13 main_v183 main_v184 (addi : (⟨S800000, .i32⟩ : BufTy).Contents (Elt F) → (⟨S800000, .i32⟩ : BufTy).Contents (Elt F) → (⟨S800000, .i32⟩ : BufTy).Contents (Elt F)),
    ternary main_v182 main_v184 main_v13 main_v185 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v185 main_v186 (broadcastInDim S800000x1 ![0] bcast_S800000_S800000x1_0 : (⟨S800000, .i32⟩ : BufTy).Contents (Elt F) → (⟨S800000x1, .i32⟩ : BufTy).Contents (Elt F)),
    binary main_v173 main_v186 main_v187 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v180, main_v187, main_v9] main_v188 (fun u => concatenate S800000x144 1 [⟨S800000x64, u 0⟩, ⟨S800000x64, u 1⟩, ⟨S800000x16, u 2⟩] concatenates_S800000x64_S800000x64_S800000x16_S800000x144_d1),
    unary main_arg8 main_v189 ((extractStridedSlice S1x144x64 ![2, 0, 0] · slices_S3x144x64_S1x144x64_2_0_0) : (⟨S3x144x64, .f32⟩ : BufTy).Contents (Elt F) → (⟨S1x144x64, .f32⟩ : BufTy).Contents (Elt F)),
    reshape main_v189 main_v190 rfl shapeCasts_S1x144x64_S144x64,
    binary main_v188 main_v190 main_v191 ((fun l r => Host.dotGeneral dot_S800000x144_S144x64_S800000x64_1_0_0_1_n_n none l r) : (⟨S800000x144, .f32⟩ : BufTy).Contents (Elt F) → (⟨S144x64, .f32⟩ : BufTy).Contents (Elt F) → (⟨S800000x64, .f32⟩ : BufTy).Contents (Elt F)),
    unary main_arg9 main_v192 ((extractStridedSlice S1x64 ![2, 0] · slices_S3x64_S1x64_2_0) : (⟨S3x64, .f32⟩ : BufTy).Contents (Elt F) → (⟨S1x64, .f32⟩ : BufTy).Contents (Elt F)),
    reshape main_v192 main_v193 rfl shapeCasts_S1x64_S64,
    unary main_v193 main_v194 (broadcastInDim S1x64 ![1] bcast_S64_S1x64_1 : (⟨S64, .f32⟩ : BufTy).Contents (Elt F) → (⟨S1x64, .f32⟩ : BufTy).Contents (Elt F)),
    unary main_v194 main_v195 (broadcastInDim S800000x64 ![0, 1] bcast_S1x64_S800000x64_0_1 : (⟨S1x64, .f32⟩ : BufTy).Contents (Elt F) → (⟨S800000x64, .f32⟩ : BufTy).Contents (Elt F)),
    binary main_v191 main_v195 main_v196 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x64, .f32⟩) main_call4_v0) (broadcastInDim S800000x64 ![] bcast_S_S800000x64),
    TRef.binary (TRef.of (T := ⟨S800000x64, .f32⟩) main_v196) (TRef.of (T := ⟨S800000x64, .f32⟩) main_call4_v0) (TRef.of (T := ⟨S800000x64, .f32⟩) main_v197) maximumf,
    unary main_arg10 main_v198 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v198 main_v199 rfl shapeCasts_S1x64x64_S64x64,
    binary main_v197 main_v199 main_v200 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg11 main_v201 ((extractStridedSlice S1x64 ![2, 0] · slices_S3x64_S1x64_2_0) : (⟨S3x64, .f32⟩ : BufTy).Contents (Elt F) → (⟨S1x64, .f32⟩ : BufTy).Contents (Elt F)),
    reshape main_v201 main_v202 rfl shapeCasts_S1x64_S64,
    unary main_v202 main_v203 (broadcastInDim S1x64 ![1] bcast_S64_S1x64_1 : (⟨S64, .f32⟩ : BufTy).Contents (Elt F) → (⟨S1x64, .f32⟩ : BufTy).Contents (Elt F)),
    unary main_v203 main_v204 (broadcastInDim S800000x64 ![0, 1] bcast_S1x64_S800000x64_0_1 : (⟨S1x64, .f32⟩ : BufTy).Contents (Elt F) → (⟨S800000x64, .f32⟩ : BufTy).Contents (Elt F)),
    binary main_v200 main_v204 main_v205 (addf : (⟨S800000x64, .f32⟩ : BufTy).Contents (Elt F) → (⟨S800000x64, .f32⟩ : BufTy).Contents (Elt F) → (⟨S800000x64, .f32⟩ : BufTy).Contents (Elt F)),
    nullary main_cst_22 (constant S_ .f32 0x00000000#32),
    unary main_cst_22 main_v206 (broadcastInDim S50000x64 ![] bcast_S_S50000x64 : (⟨S_, .f32⟩ : BufTy).Contents (Elt F) → (⟨S50000x64, .f32⟩ : BufTy).Contents (Elt F)),
    unary main_v13 main_v207 (broadcastInDim S800000x1 ![0] bcast_S800000_S800000x1_0 : (⟨S800000, .i32⟩ : BufTy).Contents (Elt F) → (⟨S800000x1, .i32⟩ : BufTy).Contents (Elt F)),
    ternary main_v206 main_v207 main_v205 main_v208 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg12 main_v209 ((extractStridedSlice S1x64x192 ![2, 0, 0] · slices_S3x64x192_S1x64x192_2_0_0) : (⟨S3x64x192, .f32⟩ : BufTy).Contents (Elt F) → (⟨S1x64x192, .f32⟩ : BufTy).Contents (Elt F)),
    reshape main_v209 main_v210 rfl shapeCasts_S1x64x192_S64x192,
    binary main_v208 main_v210 main_v211 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg13 main_v212 ((extractStridedSlice S1x192 ![2, 0] · slices_S3x192_S1x192_2_0) : (⟨S3x192, .f32⟩ : BufTy).Contents (Elt F) → (⟨S1x192, .f32⟩ : BufTy).Contents (Elt F)),
    reshape main_v212 main_v213 rfl shapeCasts_S1x192_S192,
    unary main_v213 main_v214 (broadcastInDim S1x192 ![1] bcast_S192_S1x192_1 : (⟨S192, .f32⟩ : BufTy).Contents (Elt F) → (⟨S1x192, .f32⟩ : BufTy).Contents (Elt F)),
    unary main_v214 main_v215 (broadcastInDim S50000x192 ![0, 1] bcast_S1x192_S50000x192_0_1 : (⟨S1x192, .f32⟩ : BufTy).Contents (Elt F) → (⟨S50000x192, .f32⟩ : BufTy).Contents (Elt F)),
    binary main_v211 main_v215 main_v216 (addf : (⟨S50000x192, .f32⟩ : BufTy).Contents (Elt F) → (⟨S50000x192, .f32⟩ : BufTy).Contents (Elt F) → (⟨S50000x192, .f32⟩ : BufTy).Contents (Elt F)),
    unary main_arg14 main_v217 ((extractStridedSlice S1x64x192 ![2, 0, 0] · slices_S3x64x192_S1x64x192_2_0_0) : (⟨S3x64x192, .f32⟩ : BufTy).Contents (Elt F) → (⟨S1x64x192, .f32⟩ : BufTy).Contents (Elt F)),
    reshape main_v217 main_v218 rfl shapeCasts_S1x64x192_S64x192,
    binary main_v173 main_v218 main_v219 ((fun l r => Host.dotGeneral dot_S50000x64_S64x192_S50000x192_1_0_0_1_n_n none l r) : (⟨S50000x64, .f32⟩ : BufTy).Contents (Elt F) → (⟨S64x192, .f32⟩ : BufTy).Contents (Elt F) → (⟨S50000x192, .f32⟩ : BufTy).Contents (Elt F)),
    unary main_arg15 main_v220 ((extractStridedSlice S1x192 ![2, 0] · slices_S3x192_S1x192_2_0) : (⟨S3x192, .f32⟩ : BufTy).Contents (Elt F) → (⟨S1x192, .f32⟩ : BufTy).Contents (Elt F)),
    reshape main_v220 main_v221 rfl shapeCasts_S1x192_S192,
    unary main_v221 main_v222 (broadcastInDim S1x192 ![1] bcast_S192_S1x192_1 : (⟨S192, .f32⟩ : BufTy).Contents (Elt F) → (⟨S1x192, .f32⟩ : BufTy).Contents (Elt F)),
    unary main_v222 main_v223 (broadcastInDim S50000x192 ![0, 1] bcast_S1x192_S50000x192_0_1 : (⟨S1x192, .f32⟩ : BufTy).Contents (Elt F) → (⟨S50000x192, .f32⟩ : BufTy).Contents (Elt F)),
    binary main_v219 main_v223 main_v224 (addf : (⟨S50000x192, .f32⟩ : BufTy).Contents (Elt F) → (⟨S50000x192, .f32⟩ : BufTy).Contents (Elt F) → (⟨S50000x192, .f32⟩ : BufTy).Contents (Elt F)),
    unary main_v216 main_v225 ((extractStridedSlice S50000x64 ![0, 0] · slices_S50000x192_S50000x64_0_0) : (⟨S50000x192, .f32⟩ : BufTy).Contents (Elt F) → (⟨S50000x64, .f32⟩ : BufTy).Contents (Elt F)),
    unary main_v216 main_v226 ((extractStridedSlice S50000x64 ![0, 64] · slices_S50000x192_S50000x64_0_64) : (⟨S50000x192, .f32⟩ : BufTy).Contents (Elt F) → (⟨S50000x64, .f32⟩ : BufTy).Contents (Elt F)),
    unary main_v216 main_v227 ((extractStridedSlice S50000x64 ![0, 128] · slices_S50000x192_S50000x64_0_128) : (⟨S50000x192, .f32⟩ : BufTy).Contents (Elt F) → (⟨S50000x64, .f32⟩ : BufTy).Contents (Elt F)),
    unary main_v224 main_v228 ((extractStridedSlice S50000x64 ![0, 0] · slices_S50000x192_S50000x64_0_0) : (⟨S50000x192, .f32⟩ : BufTy).Contents (Elt F) → (⟨S50000x64, .f32⟩ : BufTy).Contents (Elt F)),
    unary main_v224 main_v229 ((extractStridedSlice S50000x64 ![0, 64] · slices_S50000x192_S50000x64_0_64) : (⟨S50000x192, .f32⟩ : BufTy).Contents (Elt F) → (⟨S50000x64, .f32⟩ : BufTy).Contents (Elt F)),
    unary main_v224 main_v230 ((extractStridedSlice S50000x64 ![0, 128] · slices_S50000x192_S50000x64_0_128) : (⟨S50000x192, .f32⟩ : BufTy).Contents (Elt F) → (⟨S50000x64, .f32⟩ : BufTy).Contents (Elt F)),
    binary main_v225 main_v228 main_v231 (addf : (⟨S50000x64, .f32⟩ : BufTy).Contents (Elt F) → (⟨S50000x64, .f32⟩ : BufTy).Contents (Elt F) → (⟨S50000x64, .f32⟩ : BufTy).Contents (Elt F)),
    unary main_v231 main_v232 (Host.negf : (⟨S50000x64, .f32⟩ : BufTy).Contents (Elt F) → (⟨S50000x64, .f32⟩ : BufTy).Contents (Elt F)),
    unary main_v232 main_v233 (Host.exp : (⟨S50000x64, .f32⟩ : BufTy).Contents (Elt F) → (⟨S50000x64, .f32⟩ : BufTy).Contents (Elt F)),
    nullary main_cst_23 (constant S_ .f32 0x3F800000#32),
    unary main_cst_23 main_v234 (broadcastInDim S50000x64 ![] bcast_S_S50000x64 : (⟨S_, .f32⟩ : BufTy).Contents (Elt F) → (⟨S50000x64, .f32⟩ : BufTy).Contents (Elt F)),
    binary main_v234 main_v233 main_v235 (addf : (⟨S50000x64, .f32⟩ : BufTy).Contents (Elt F) → (⟨S50000x64, .f32⟩ : BufTy).Contents (Elt F) → (⟨S50000x64, .f32⟩ : BufTy).Contents (Elt F)),
    nullary main_cst_24 (constant S_ .f32 0x3F800000#32),
    unary main_cst_24 main_v236 (broadcastInDim S50000x64 ![] bcast_S_S50000x64 : (⟨S_, .f32⟩ : BufTy).Contents (Elt F) → (⟨S50000x64, .f32⟩ : BufTy).Contents (Elt F)),
    binary main_v236 main_v235 main_v237 (Host.divf : (⟨S50000x64, .f32⟩ : BufTy).Contents (Elt F) → (⟨S50000x64, .f32⟩ : BufTy).Contents (Elt F) → (⟨S50000x64, .f32⟩ : BufTy).Contents (Elt F)),
    binary main_v226 main_v229 main_v238 (addf : (⟨S50000x64, .f32⟩ : BufTy).Contents (Elt F) → (⟨S50000x64, .f32⟩ : BufTy).Contents (Elt F) → (⟨S50000x64, .f32⟩ : BufTy).Contents (Elt F)),
    unary main_v238 main_v239 (Host.negf : (⟨S50000x64, .f32⟩ : BufTy).Contents (Elt F) → (⟨S50000x64, .f32⟩ : BufTy).Contents (Elt F)),
    unary main_v239 main_v240 (Host.exp : (⟨S50000x64, .f32⟩ : BufTy).Contents (Elt F) → (⟨S50000x64, .f32⟩ : BufTy).Contents (Elt F)),
    nullary main_cst_25 (constant S_ .f32 0x3F800000#32),
    unary main_cst_25 main_v241 (broadcastInDim S50000x64 ![] bcast_S_S50000x64 : (⟨S_, .f32⟩ : BufTy).Contents (Elt F) → (⟨S50000x64, .f32⟩ : BufTy).Contents (Elt F)),
    binary main_v241 main_v240 main_v242 (addf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x3F800000#32),
    unary main_cst_26 main_v243 (broadcastInDim S50000x64 ![] bcast_S_S50000x64 : (⟨S_, .f32⟩ : BufTy).Contents (Elt F) → (⟨S50000x64, .f32⟩ : BufTy).Contents (Elt F)),
    binary main_v243 main_v242 main_v244 (Host.divf : (⟨S50000x64, .f32⟩ : BufTy).Contents (Elt F) → (⟨S50000x64, .f32⟩ : BufTy).Contents (Elt F) → (⟨S50000x64, .f32⟩ : BufTy).Contents (Elt F)),
    binary main_v237 main_v230 main_v245 (mulf : (⟨S50000x64, .f32⟩ : BufTy).Contents (Elt F) → (⟨S50000x64, .f32⟩ : BufTy).Contents (Elt F) → (⟨S50000x64, .f32⟩ : BufTy).Contents (Elt F)),
    binary main_v227 main_v245 main_v246 (addf : (⟨S50000x64, .f32⟩ : BufTy).Contents (Elt F) → (⟨S50000x64, .f32⟩ : BufTy).Contents (Elt F) → (⟨S50000x64, .f32⟩ : BufTy).Contents (Elt F)),
    unary main_v246 main_v247 (Host.tanh : (⟨S50000x64, .f32⟩ : BufTy).Contents (Elt F) → (⟨S50000x64, .f32⟩ : BufTy).Contents (Elt F)),
    nullary main_cst_27 (constant S_ .f32 0x3F800000#32),
    unary main_cst_27 main_v248 (broadcastInDim S50000x64 ![] bcast_S_S50000x64 : (⟨S_, .f32⟩ : BufTy).Contents (Elt F) → (⟨S50000x64, .f32⟩ : BufTy).Contents (Elt F)),
    binary main_v248 main_v244 main_v249 (subf : (⟨S50000x64, .f32⟩ : BufTy).Contents (Elt F) → (⟨S50000x64, .f32⟩ : BufTy).Contents (Elt F) → (⟨S50000x64, .f32⟩ : BufTy).Contents (Elt F)),
    binary main_v249 main_v247 main_v250 (mulf : (⟨S50000x64, .f32⟩ : BufTy).Contents (Elt F) → (⟨S50000x64, .f32⟩ : BufTy).Contents (Elt F) → (⟨S50000x64, .f32⟩ : BufTy).Contents (Elt F)),
    binary main_v244 main_v173 main_v251 (mulf : (⟨S50000x64, .f32⟩ : BufTy).Contents (Elt F) → (⟨S50000x64, .f32⟩ : BufTy).Contents (Elt F) → (⟨S50000x64, .f32⟩ : BufTy).Contents (Elt F)),
    binary main_v250 main_v251 main_v252 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v252) (TRef.of (T := ⟨S50000x64, .f32⟩) main_call5_v0) (TRef.of (T := ⟨S50000x64, .f32⟩) main_v253) maximumf ]

/-- The readout. -/
abbrev seg4 : List (HloOp τ sig (Elt F)) :=
  [ nullary main_cst_28 (constant S_ .f32 0x00000000#32),
    unary main_cst_28 main_v254 (broadcastInDim S2048x64 ![] bcast_S_S2048x64 : (⟨S_, .f32⟩ : BufTy).Contents (Elt F) → (⟨S2048x64, .f32⟩ : BufTy).Contents (Elt F)),
    unary main_arg3 main_v255 (broadcastInDim S50000x1 ![0] bcast_S50000_S50000x1_0 : (⟨S50000, .i32⟩ : BufTy).Contents (Elt F) → (⟨S50000x1, .i32⟩ : BufTy).Contents (Elt F)),
    ternary main_v254 main_v255 main_v253 main_v256 ((fun x i u => Host.scatterAdd scatter_S2048x64_S50000x1_S50000x64_1_0_0_1 x i u) : (⟨S2048x64, .f32⟩ : BufTy).Contents (Elt F) → (⟨S50000x1, .i32⟩ : BufTy).Contents (Elt F) → (⟨S50000x64, .f32⟩ : BufTy).Contents (Elt F) → (⟨S2048x64, .f32⟩ : BufTy).Contents (Elt F)),
    nullary main_cst_29 (constant S_ .f32 0x3F800000#32),
    unary main_cst_29 main_v257 (broadcastInDim S50000 ![] bcast_S_S50000 : (⟨S_, .f32⟩ : BufTy).Contents (Elt F) → (⟨S50000, .f32⟩ : BufTy).Contents (Elt F)),
    nullary main_cst_30 (constant S_ .f32 0x00000000#32),
    unary main_cst_30 main_v258 (broadcastInDim S2048 ![] bcast_S_S2048 : (⟨S_, .f32⟩ : BufTy).Contents (Elt F) → (⟨S2048, .f32⟩ : BufTy).Contents (Elt F)),
    unary main_arg3 main_v259 (broadcastInDim S50000x1 ![0] bcast_S50000_S50000x1_0 : (⟨S50000, .i32⟩ : BufTy).Contents (Elt F) → (⟨S50000x1, .i32⟩ : BufTy).Contents (Elt F)),
    ternary main_v258 main_v259 main_v257 main_v260 ((fun x i u => Host.scatterAdd scatter_S2048_S50000x1_S50000_n_0_0_1 x i u) : (⟨S2048, .f32⟩ : BufTy).Contents (Elt F) → (⟨S50000x1, .i32⟩ : BufTy).Contents (Elt F) → (⟨S50000, .f32⟩ : BufTy).Contents (Elt F) → (⟨S2048, .f32⟩ : BufTy).Contents (Elt F)),
    nullary main_cst_31 (constant S_ .f32 0x3F800000#32),
    unary main_cst_31 main_v261 (broadcastInDim S2048 ![] bcast_S_S2048 : (⟨S_, .f32⟩ : BufTy).Contents (Elt F) → (⟨S2048, .f32⟩ : BufTy).Contents (Elt F)),
    binary main_v260 main_v261 main_v262 (maximumf : (⟨S2048, .f32⟩ : BufTy).Contents (Elt F) → (⟨S2048, .f32⟩ : BufTy).Contents (Elt F) → (⟨S2048, .f32⟩ : BufTy).Contents (Elt F)),
    unary main_v262 main_v263 (broadcastInDim S2048x1 ![0] bcast_S2048_S2048x1_0 : (⟨S2048, .f32⟩ : BufTy).Contents (Elt F) → (⟨S2048x1, .f32⟩ : BufTy).Contents (Elt F)),
    unary main_v263 main_v264 (broadcastInDim S2048x64 ![0, 1] bcast_S2048x1_S2048x64_0_1 : (⟨S2048x1, .f32⟩ : BufTy).Contents (Elt F) → (⟨S2048x64, .f32⟩ : BufTy).Contents (Elt F)),
    binary main_v256 main_v264 main_v265 (Host.divf : (⟨S2048x64, .f32⟩ : BufTy).Contents (Elt F) → (⟨S2048x64, .f32⟩ : BufTy).Contents (Elt F) → (⟨S2048x64, .f32⟩ : BufTy).Contents (Elt F)),
    binary main_v265 main_arg16 main_v266 ((fun l r => Host.dotGeneral dot_S2048x64_S64x128_S2048x128_1_0_0_1_n_n none l r) : (⟨S2048x64, .f32⟩ : BufTy).Contents (Elt F) → (⟨S64x128, .f32⟩ : BufTy).Contents (Elt F) → (⟨S2048x128, .f32⟩ : BufTy).Contents (Elt F)),
    unary main_arg17 main_v267 (broadcastInDim S1x128 ![1] bcast_S128_S1x128_1 : (⟨S128, .f32⟩ : BufTy).Contents (Elt F) → (⟨S1x128, .f32⟩ : BufTy).Contents (Elt F)),
    unary main_v267 main_v268 (broadcastInDim S2048x128 ![0, 1] bcast_S1x128_S2048x128_0_1 : (⟨S1x128, .f32⟩ : BufTy).Contents (Elt F) → (⟨S2048x128, .f32⟩ : BufTy).Contents (Elt F)),
    binary main_v266 main_v268 main_v269 (addf : (⟨S2048x128, .f32⟩ : BufTy).Contents (Elt F) → (⟨S2048x128, .f32⟩ : BufTy).Contents (Elt F) → (⟨S2048x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S2048x128, .f32⟩) main_call6_v0) (broadcastInDim S2048x128 ![] bcast_S_S2048x128),
    TRef.binary (TRef.of (T := ⟨S2048x128, .f32⟩) main_v269) (TRef.of (T := ⟨S2048x128, .f32⟩) main_call6_v0) (TRef.of (T := ⟨S2048x128, .f32⟩) main_v270) maximumf,
    binary main_v270 main_arg18 main_v271 ((fun l r => Host.dotGeneral dot_S2048x128_S128x1_S2048x1_1_0_0_1_n_n none l r) : (⟨S2048x128, .f32⟩ : BufTy).Contents (Elt F) → (⟨S128x1, .f32⟩ : BufTy).Contents (Elt F) → (⟨S2048x1, .f32⟩ : BufTy).Contents (Elt F)),
    unary main_arg19 main_v272 (broadcastInDim S1x1 ![1] bcast_S1_S1x1_1 : (⟨S1, .f32⟩ : BufTy).Contents (Elt F) → (⟨S1x1, .f32⟩ : BufTy).Contents (Elt F)),
    unary main_v272 main_v273 (broadcastInDim S2048x1 ![0, 1] bcast_S1x1_S2048x1_0_1 : (⟨S1x1, .f32⟩ : BufTy).Contents (Elt F) → (⟨S2048x1, .f32⟩ : BufTy).Contents (Elt F)),
    binary main_v271 main_v273 main_v274 (addf : (⟨S2048x1, .f32⟩ : BufTy).Contents (Elt F) → (⟨S2048x1, .f32⟩ : BufTy).Contents (Elt F) → (⟨S2048x1, .f32⟩ : BufTy).Contents (Elt F)) ]

/-- @main's operations, in order. -/
abbrev ops : List (HloOp τ sig (Elt F)) := seg0 ++ (seg1 ++ (seg2 ++ (seg3 ++ seg4)))

end Cert.ReferenceIdeal.Value

end
-- ==== Proof.RefRun.lean ====
/-
  The reference program's run: @main is its host operations run in order, every operation touches TensorCore
  references only and allocates nothing, and no operation writes an argument; so from any memory with zero counters
  every weakly fair execution terminates with the result buffer at the fold of the operations over the launch
  contents and every argument as launched. The line is handled segment by segment: a fold over a concatenation is
  the second part's fold from the first part's.
-/
import proofs.«148557_j77953656422434_2_alg».proof.Proof.RefOps

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-! ## Folds and conjunctions over a concatenation -/

/-- The contents after two lines run one after the other: the second line's fold from the first line's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every entry of two lists holds of every entry of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- Closes `after ops V b = V b` for a literal line `ops` none of whose operations writes the literal buffer `b`: each
    operation's written buffer is told apart from `b` by deciding the references' inequality. -/
macro "line_keeps " ops:ident : tactic =>
  `(tactic| exact after_of_forall_not_mem _ _ (List.forall_iff_forall_mem.mp (by
      simp only [$ops:ident, List.Forall, nullary_writes, unary_writes, binary_writes, ternary_writes, quaternary_writes,
        reshape_writes, nary_writes, Finset.mem_singleton]
      repeat' apply And.intro
      all_goals exact devRef_ne_of_ne (by decide))))

variable {F : FTy → Type} [FloatOps F]

/-- The fold over the whole line, segment by segment. -/
theorem after_ops (X : Valuation τ sig (Elt F)) :
    after ops X = after seg4 (after seg3 (after seg2 (after seg1 (after seg0 X)))) := by
  show after (seg0 ++ (seg1 ++ (seg2 ++ (seg3 ++ seg4)))) X = _
  rw [after_append, after_append, after_append, after_append]

/-! ## The program is the line -/

set_option maxRecDepth 8192 in
set_option maxHeartbeats 4000000 in
/-- @main is the operations run in order. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and allocates nothing -/

theorem seg0_sub : (seg0 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., reshape_bufs_sub .., unary_bufs_sub .., reshape_bufs_sub ..⟩
theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub ..⟩
theorem seg2_sub : (seg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub ..⟩
theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., unary_bufs_sub .., binary_bufs_sub ..⟩
theorem seg4_sub : (seg4 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops_sub : (ops : List (HloOp τ sig (Elt F))).Forall fun op => op.bufs ⊆ tcRefs τ sig :=
  forall_append seg0_sub (forall_append seg1_sub (forall_append seg2_sub (forall_append seg3_sub seg4_sub)))

theorem seg0_fresh : (seg0 : List (HloOp τ sig (Elt F))).Forall fun op => op.fresh = ∅ := by
  simp only [List.Forall]; repeat' constructor
theorem seg1_fresh : (seg1 : List (HloOp τ sig (Elt F))).Forall fun op => op.fresh = ∅ := by
  simp only [List.Forall]; repeat' constructor
theorem seg2_fresh : (seg2 : List (HloOp τ sig (Elt F))).Forall fun op => op.fresh = ∅ := by
  simp only [List.Forall]; repeat' constructor
theorem seg3_fresh : (seg3 : List (HloOp τ sig (Elt F))).Forall fun op => op.fresh = ∅ := by
  simp only [List.Forall]; repeat' constructor
theorem seg4_fresh : (seg4 : List (HloOp τ sig (Elt F))).Forall fun op => op.fresh = ∅ := by
  simp only [List.Forall]; repeat' constructor
/-- No operation allocates a buffer. -/
theorem ops_fresh : (ops : List (HloOp τ sig (Elt F))).Forall fun op => op.fresh = ∅ :=
  forall_append seg0_fresh (forall_append seg1_fresh (forall_append seg2_fresh (forall_append seg3_fresh seg4_fresh)))

/-! ## No operation writes an argument -/

variable (X : Valuation τ sig (Elt F))

theorem seg0_keeps_arg0 : after seg0 X (Proc.devRef .tc main_arg0) = X (Proc.devRef .tc main_arg0) := by line_keeps seg0
theorem seg0_keeps_arg1 : after seg0 X (Proc.devRef .tc main_arg1) = X (Proc.devRef .tc main_arg1) := by line_keeps seg0
theorem seg0_keeps_arg2 : after seg0 X (Proc.devRef .tc main_arg2) = X (Proc.devRef .tc main_arg2) := by line_keeps seg0
theorem seg0_keeps_arg3 : after seg0 X (Proc.devRef .tc main_arg3) = X (Proc.devRef .tc main_arg3) := by line_keeps seg0
theorem seg0_keeps_arg4 : after seg0 X (Proc.devRef .tc main_arg4) = X (Proc.devRef .tc main_arg4) := by line_keeps seg0
theorem seg0_keeps_arg5 : after seg0 X (Proc.devRef .tc main_arg5) = X (Proc.devRef .tc main_arg5) := by line_keeps seg0
theorem seg0_keeps_arg6 : after seg0 X (Proc.devRef .tc main_arg6) = X (Proc.devRef .tc main_arg6) := by line_keeps seg0
theorem seg0_keeps_arg7 : after seg0 X (Proc.devRef .tc main_arg7) = X (Proc.devRef .tc main_arg7) := by line_keeps seg0
theorem seg0_keeps_arg8 : after seg0 X (Proc.devRef .tc main_arg8) = X (Proc.devRef .tc main_arg8) := by line_keeps seg0
theorem seg0_keeps_arg9 : after seg0 X (Proc.devRef .tc main_arg9) = X (Proc.devRef .tc main_arg9) := by line_keeps seg0
theorem seg0_keeps_arg10 : after seg0 X (Proc.devRef .tc main_arg10) = X (Proc.devRef .tc main_arg10) := by line_keeps seg0
theorem seg0_keeps_arg11 : after seg0 X (Proc.devRef .tc main_arg11) = X (Proc.devRef .tc main_arg11) := by line_keeps seg0
theorem seg0_keeps_arg12 : after seg0 X (Proc.devRef .tc main_arg12) = X (Proc.devRef .tc main_arg12) := by line_keeps seg0
theorem seg0_keeps_arg13 : after seg0 X (Proc.devRef .tc main_arg13) = X (Proc.devRef .tc main_arg13) := by line_keeps seg0
theorem seg0_keeps_arg14 : after seg0 X (Proc.devRef .tc main_arg14) = X (Proc.devRef .tc main_arg14) := by line_keeps seg0
theorem seg0_keeps_arg15 : after seg0 X (Proc.devRef .tc main_arg15) = X (Proc.devRef .tc main_arg15) := by line_keeps seg0
theorem seg0_keeps_arg16 : after seg0 X (Proc.devRef .tc main_arg16) = X (Proc.devRef .tc main_arg16) := by line_keeps seg0
theorem seg0_keeps_arg17 : after seg0 X (Proc.devRef .tc main_arg17) = X (Proc.devRef .tc main_arg17) := by line_keeps seg0
theorem seg0_keeps_arg18 : after seg0 X (Proc.devRef .tc main_arg18) = X (Proc.devRef .tc main_arg18) := by line_keeps seg0
theorem seg0_keeps_arg19 : after seg0 X (Proc.devRef .tc main_arg19) = X (Proc.devRef .tc main_arg19) := by line_keeps seg0
theorem seg1_keeps_arg0 : after seg1 X (Proc.devRef .tc main_arg0) = X (Proc.devRef .tc main_arg0) := by line_keeps seg1
theorem seg1_keeps_arg1 : after seg1 X (Proc.devRef .tc main_arg1) = X (Proc.devRef .tc main_arg1) := by line_keeps seg1
theorem seg1_keeps_arg2 : after seg1 X (Proc.devRef .tc main_arg2) = X (Proc.devRef .tc main_arg2) := by line_keeps seg1
theorem seg1_keeps_arg3 : after seg1 X (Proc.devRef .tc main_arg3) = X (Proc.devRef .tc main_arg3) := by line_keeps seg1
theorem seg1_keeps_arg4 : after seg1 X (Proc.devRef .tc main_arg4) = X (Proc.devRef .tc main_arg4) := by line_keeps seg1
theorem seg1_keeps_arg5 : after seg1 X (Proc.devRef .tc main_arg5) = X (Proc.devRef .tc main_arg5) := by line_keeps seg1
theorem seg1_keeps_arg6 : after seg1 X (Proc.devRef .tc main_arg6) = X (Proc.devRef .tc main_arg6) := by line_keeps seg1
theorem seg1_keeps_arg7 : after seg1 X (Proc.devRef .tc main_arg7) = X (Proc.devRef .tc main_arg7) := by line_keeps seg1
theorem seg1_keeps_arg8 : after seg1 X (Proc.devRef .tc main_arg8) = X (Proc.devRef .tc main_arg8) := by line_keeps seg1
theorem seg1_keeps_arg9 : after seg1 X (Proc.devRef .tc main_arg9) = X (Proc.devRef .tc main_arg9) := by line_keeps seg1
theorem seg1_keeps_arg10 : after seg1 X (Proc.devRef .tc main_arg10) = X (Proc.devRef .tc main_arg10) := by line_keeps seg1
theorem seg1_keeps_arg11 : after seg1 X (Proc.devRef .tc main_arg11) = X (Proc.devRef .tc main_arg11) := by line_keeps seg1
theorem seg1_keeps_arg12 : after seg1 X (Proc.devRef .tc main_arg12) = X (Proc.devRef .tc main_arg12) := by line_keeps seg1
theorem seg1_keeps_arg13 : after seg1 X (Proc.devRef .tc main_arg13) = X (Proc.devRef .tc main_arg13) := by line_keeps seg1
theorem seg1_keeps_arg14 : after seg1 X (Proc.devRef .tc main_arg14) = X (Proc.devRef .tc main_arg14) := by line_keeps seg1
theorem seg1_keeps_arg15 : after seg1 X (Proc.devRef .tc main_arg15) = X (Proc.devRef .tc main_arg15) := by line_keeps seg1
theorem seg1_keeps_arg16 : after seg1 X (Proc.devRef .tc main_arg16) = X (Proc.devRef .tc main_arg16) := by line_keeps seg1
theorem seg1_keeps_arg17 : after seg1 X (Proc.devRef .tc main_arg17) = X (Proc.devRef .tc main_arg17) := by line_keeps seg1
theorem seg1_keeps_arg18 : after seg1 X (Proc.devRef .tc main_arg18) = X (Proc.devRef .tc main_arg18) := by line_keeps seg1
theorem seg1_keeps_arg19 : after seg1 X (Proc.devRef .tc main_arg19) = X (Proc.devRef .tc main_arg19) := by line_keeps seg1
theorem seg2_keeps_arg0 : after seg2 X (Proc.devRef .tc main_arg0) = X (Proc.devRef .tc main_arg0) := by line_keeps seg2
theorem seg2_keeps_arg1 : after seg2 X (Proc.devRef .tc main_arg1) = X (Proc.devRef .tc main_arg1) := by line_keeps seg2
theorem seg2_keeps_arg2 : after seg2 X (Proc.devRef .tc main_arg2) = X (Proc.devRef .tc main_arg2) := by line_keeps seg2
theorem seg2_keeps_arg3 : after seg2 X (Proc.devRef .tc main_arg3) = X (Proc.devRef .tc main_arg3) := by line_keeps seg2
theorem seg2_keeps_arg4 : after seg2 X (Proc.devRef .tc main_arg4) = X (Proc.devRef .tc main_arg4) := by line_keeps seg2
theorem seg2_keeps_arg5 : after seg2 X (Proc.devRef .tc main_arg5) = X (Proc.devRef .tc main_arg5) := by line_keeps seg2
theorem seg2_keeps_arg6 : after seg2 X (Proc.devRef .tc main_arg6) = X (Proc.devRef .tc main_arg6) := by line_keeps seg2
theorem seg2_keeps_arg7 : after seg2 X (Proc.devRef .tc main_arg7) = X (Proc.devRef .tc main_arg7) := by line_keeps seg2
theorem seg2_keeps_arg8 : after seg2 X (Proc.devRef .tc main_arg8) = X (Proc.devRef .tc main_arg8) := by line_keeps seg2
theorem seg2_keeps_arg9 : after seg2 X (Proc.devRef .tc main_arg9) = X (Proc.devRef .tc main_arg9) := by line_keeps seg2
theorem seg2_keeps_arg10 : after seg2 X (Proc.devRef .tc main_arg10) = X (Proc.devRef .tc main_arg10) := by line_keeps seg2
theorem seg2_keeps_arg11 : after seg2 X (Proc.devRef .tc main_arg11) = X (Proc.devRef .tc main_arg11) := by line_keeps seg2
theorem seg2_keeps_arg12 : after seg2 X (Proc.devRef .tc main_arg12) = X (Proc.devRef .tc main_arg12) := by line_keeps seg2
theorem seg2_keeps_arg13 : after seg2 X (Proc.devRef .tc main_arg13) = X (Proc.devRef .tc main_arg13) := by line_keeps seg2
theorem seg2_keeps_arg14 : after seg2 X (Proc.devRef .tc main_arg14) = X (Proc.devRef .tc main_arg14) := by line_keeps seg2
theorem seg2_keeps_arg15 : after seg2 X (Proc.devRef .tc main_arg15) = X (Proc.devRef .tc main_arg15) := by line_keeps seg2
theorem seg2_keeps_arg16 : after seg2 X (Proc.devRef .tc main_arg16) = X (Proc.devRef .tc main_arg16) := by line_keeps seg2
theorem seg2_keeps_arg17 : after seg2 X (Proc.devRef .tc main_arg17) = X (Proc.devRef .tc main_arg17) := by line_keeps seg2
theorem seg2_keeps_arg18 : after seg2 X (Proc.devRef .tc main_arg18) = X (Proc.devRef .tc main_arg18) := by line_keeps seg2
theorem seg2_keeps_arg19 : after seg2 X (Proc.devRef .tc main_arg19) = X (Proc.devRef .tc main_arg19) := by line_keeps seg2
theorem seg3_keeps_arg0 : after seg3 X (Proc.devRef .tc main_arg0) = X (Proc.devRef .tc main_arg0) := by line_keeps seg3
theorem seg3_keeps_arg1 : after seg3 X (Proc.devRef .tc main_arg1) = X (Proc.devRef .tc main_arg1) := by line_keeps seg3
theorem seg3_keeps_arg2 : after seg3 X (Proc.devRef .tc main_arg2) = X (Proc.devRef .tc main_arg2) := by line_keeps seg3
theorem seg3_keeps_arg3 : after seg3 X (Proc.devRef .tc main_arg3) = X (Proc.devRef .tc main_arg3) := by line_keeps seg3
theorem seg3_keeps_arg4 : after seg3 X (Proc.devRef .tc main_arg4) = X (Proc.devRef .tc main_arg4) := by line_keeps seg3
theorem seg3_keeps_arg5 : after seg3 X (Proc.devRef .tc main_arg5) = X (Proc.devRef .tc main_arg5) := by line_keeps seg3
theorem seg3_keeps_arg6 : after seg3 X (Proc.devRef .tc main_arg6) = X (Proc.devRef .tc main_arg6) := by line_keeps seg3
theorem seg3_keeps_arg7 : after seg3 X (Proc.devRef .tc main_arg7) = X (Proc.devRef .tc main_arg7) := by line_keeps seg3
theorem seg3_keeps_arg8 : after seg3 X (Proc.devRef .tc main_arg8) = X (Proc.devRef .tc main_arg8) := by line_keeps seg3
theorem seg3_keeps_arg9 : after seg3 X (Proc.devRef .tc main_arg9) = X (Proc.devRef .tc main_arg9) := by line_keeps seg3
theorem seg3_keeps_arg10 : after seg3 X (Proc.devRef .tc main_arg10) = X (Proc.devRef .tc main_arg10) := by line_keeps seg3
theorem seg3_keeps_arg11 : after seg3 X (Proc.devRef .tc main_arg11) = X (Proc.devRef .tc main_arg11) := by line_keeps seg3
theorem seg3_keeps_arg12 : after seg3 X (Proc.devRef .tc main_arg12) = X (Proc.devRef .tc main_arg12) := by line_keeps seg3
theorem seg3_keeps_arg13 : after seg3 X (Proc.devRef .tc main_arg13) = X (Proc.devRef .tc main_arg13) := by line_keeps seg3
theorem seg3_keeps_arg14 : after seg3 X (Proc.devRef .tc main_arg14) = X (Proc.devRef .tc main_arg14) := by line_keeps seg3
theorem seg3_keeps_arg15 : after seg3 X (Proc.devRef .tc main_arg15) = X (Proc.devRef .tc main_arg15) := by line_keeps seg3
theorem seg3_keeps_arg16 : after seg3 X (Proc.devRef .tc main_arg16) = X (Proc.devRef .tc main_arg16) := by line_keeps seg3
theorem seg3_keeps_arg17 : after seg3 X (Proc.devRef .tc main_arg17) = X (Proc.devRef .tc main_arg17) := by line_keeps seg3
theorem seg3_keeps_arg18 : after seg3 X (Proc.devRef .tc main_arg18) = X (Proc.devRef .tc main_arg18) := by line_keeps seg3
theorem seg3_keeps_arg19 : after seg3 X (Proc.devRef .tc main_arg19) = X (Proc.devRef .tc main_arg19) := by line_keeps seg3
theorem seg4_keeps_arg0 : after seg4 X (Proc.devRef .tc main_arg0) = X (Proc.devRef .tc main_arg0) := by line_keeps seg4
theorem seg4_keeps_arg1 : after seg4 X (Proc.devRef .tc main_arg1) = X (Proc.devRef .tc main_arg1) := by line_keeps seg4
theorem seg4_keeps_arg2 : after seg4 X (Proc.devRef .tc main_arg2) = X (Proc.devRef .tc main_arg2) := by line_keeps seg4
theorem seg4_keeps_arg3 : after seg4 X (Proc.devRef .tc main_arg3) = X (Proc.devRef .tc main_arg3) := by line_keeps seg4
theorem seg4_keeps_arg4 : after seg4 X (Proc.devRef .tc main_arg4) = X (Proc.devRef .tc main_arg4) := by line_keeps seg4
theorem seg4_keeps_arg5 : after seg4 X (Proc.devRef .tc main_arg5) = X (Proc.devRef .tc main_arg5) := by line_keeps seg4
theorem seg4_keeps_arg6 : after seg4 X (Proc.devRef .tc main_arg6) = X (Proc.devRef .tc main_arg6) := by line_keeps seg4
theorem seg4_keeps_arg7 : after seg4 X (Proc.devRef .tc main_arg7) = X (Proc.devRef .tc main_arg7) := by line_keeps seg4
theorem seg4_keeps_arg8 : after seg4 X (Proc.devRef .tc main_arg8) = X (Proc.devRef .tc main_arg8) := by line_keeps seg4
theorem seg4_keeps_arg9 : after seg4 X (Proc.devRef .tc main_arg9) = X (Proc.devRef .tc main_arg9) := by line_keeps seg4
theorem seg4_keeps_arg10 : after seg4 X (Proc.devRef .tc main_arg10) = X (Proc.devRef .tc main_arg10) := by line_keeps seg4
theorem seg4_keeps_arg11 : after seg4 X (Proc.devRef .tc main_arg11) = X (Proc.devRef .tc main_arg11) := by line_keeps seg4
theorem seg4_keeps_arg12 : after seg4 X (Proc.devRef .tc main_arg12) = X (Proc.devRef .tc main_arg12) := by line_keeps seg4
theorem seg4_keeps_arg13 : after seg4 X (Proc.devRef .tc main_arg13) = X (Proc.devRef .tc main_arg13) := by line_keeps seg4
theorem seg4_keeps_arg14 : after seg4 X (Proc.devRef .tc main_arg14) = X (Proc.devRef .tc main_arg14) := by line_keeps seg4
theorem seg4_keeps_arg15 : after seg4 X (Proc.devRef .tc main_arg15) = X (Proc.devRef .tc main_arg15) := by line_keeps seg4
theorem seg4_keeps_arg16 : after seg4 X (Proc.devRef .tc main_arg16) = X (Proc.devRef .tc main_arg16) := by line_keeps seg4
theorem seg4_keeps_arg17 : after seg4 X (Proc.devRef .tc main_arg17) = X (Proc.devRef .tc main_arg17) := by line_keeps seg4
theorem seg4_keeps_arg18 : after seg4 X (Proc.devRef .tc main_arg18) = X (Proc.devRef .tc main_arg18) := by line_keeps seg4
theorem seg4_keeps_arg19 : after seg4 X (Proc.devRef .tc main_arg19) = X (Proc.devRef .tc main_arg19) := by line_keeps seg4

/-- Argument 0 is as it was after the whole line. -/
theorem kept_arg0 : after ops X (Proc.devRef .tc main_arg0) = X (Proc.devRef .tc main_arg0) := by
  rw [after_ops, seg4_keeps_arg0, seg3_keeps_arg0, seg2_keeps_arg0, seg1_keeps_arg0, seg0_keeps_arg0]
/-- Argument 1 is as it was after the whole line. -/
theorem kept_arg1 : after ops X (Proc.devRef .tc main_arg1) = X (Proc.devRef .tc main_arg1) := by
  rw [after_ops, seg4_keeps_arg1, seg3_keeps_arg1, seg2_keeps_arg1, seg1_keeps_arg1, seg0_keeps_arg1]
/-- Argument 2 is as it was after the whole line. -/
theorem kept_arg2 : after ops X (Proc.devRef .tc main_arg2) = X (Proc.devRef .tc main_arg2) := by
  rw [after_ops, seg4_keeps_arg2, seg3_keeps_arg2, seg2_keeps_arg2, seg1_keeps_arg2, seg0_keeps_arg2]
/-- Argument 3 is as it was after the whole line. -/
theorem kept_arg3 : after ops X (Proc.devRef .tc main_arg3) = X (Proc.devRef .tc main_arg3) := by
  rw [after_ops, seg4_keeps_arg3, seg3_keeps_arg3, seg2_keeps_arg3, seg1_keeps_arg3, seg0_keeps_arg3]
/-- Argument 4 is as it was after the whole line. -/
theorem kept_arg4 : after ops X (Proc.devRef .tc main_arg4) = X (Proc.devRef .tc main_arg4) := by
  rw [after_ops, seg4_keeps_arg4, seg3_keeps_arg4, seg2_keeps_arg4, seg1_keeps_arg4, seg0_keeps_arg4]
/-- Argument 5 is as it was after the whole line. -/
theorem kept_arg5 : after ops X (Proc.devRef .tc main_arg5) = X (Proc.devRef .tc main_arg5) := by
  rw [after_ops, seg4_keeps_arg5, seg3_keeps_arg5, seg2_keeps_arg5, seg1_keeps_arg5, seg0_keeps_arg5]
/-- Argument 6 is as it was after the whole line. -/
theorem kept_arg6 : after ops X (Proc.devRef .tc main_arg6) = X (Proc.devRef .tc main_arg6) := by
  rw [after_ops, seg4_keeps_arg6, seg3_keeps_arg6, seg2_keeps_arg6, seg1_keeps_arg6, seg0_keeps_arg6]
/-- Argument 7 is as it was after the whole line. -/
theorem kept_arg7 : after ops X (Proc.devRef .tc main_arg7) = X (Proc.devRef .tc main_arg7) := by
  rw [after_ops, seg4_keeps_arg7, seg3_keeps_arg7, seg2_keeps_arg7, seg1_keeps_arg7, seg0_keeps_arg7]
/-- Argument 8 is as it was after the whole line. -/
theorem kept_arg8 : after ops X (Proc.devRef .tc main_arg8) = X (Proc.devRef .tc main_arg8) := by
  rw [after_ops, seg4_keeps_arg8, seg3_keeps_arg8, seg2_keeps_arg8, seg1_keeps_arg8, seg0_keeps_arg8]
/-- Argument 9 is as it was after the whole line. -/
theorem kept_arg9 : after ops X (Proc.devRef .tc main_arg9) = X (Proc.devRef .tc main_arg9) := by
  rw [after_ops, seg4_keeps_arg9, seg3_keeps_arg9, seg2_keeps_arg9, seg1_keeps_arg9, seg0_keeps_arg9]
/-- Argument 10 is as it was after the whole line. -/
theorem kept_arg10 : after ops X (Proc.devRef .tc main_arg10) = X (Proc.devRef .tc main_arg10) := by
  rw [after_ops, seg4_keeps_arg10, seg3_keeps_arg10, seg2_keeps_arg10, seg1_keeps_arg10, seg0_keeps_arg10]
/-- Argument 11 is as it was after the whole line. -/
theorem kept_arg11 : after ops X (Proc.devRef .tc main_arg11) = X (Proc.devRef .tc main_arg11) := by
  rw [after_ops, seg4_keeps_arg11, seg3_keeps_arg11, seg2_keeps_arg11, seg1_keeps_arg11, seg0_keeps_arg11]
/-- Argument 12 is as it was after the whole line. -/
theorem kept_arg12 : after ops X (Proc.devRef .tc main_arg12) = X (Proc.devRef .tc main_arg12) := by
  rw [after_ops, seg4_keeps_arg12, seg3_keeps_arg12, seg2_keeps_arg12, seg1_keeps_arg12, seg0_keeps_arg12]
/-- Argument 13 is as it was after the whole line. -/
theorem kept_arg13 : after ops X (Proc.devRef .tc main_arg13) = X (Proc.devRef .tc main_arg13) := by
  rw [after_ops, seg4_keeps_arg13, seg3_keeps_arg13, seg2_keeps_arg13, seg1_keeps_arg13, seg0_keeps_arg13]
/-- Argument 14 is as it was after the whole line. -/
theorem kept_arg14 : after ops X (Proc.devRef .tc main_arg14) = X (Proc.devRef .tc main_arg14) := by
  rw [after_ops, seg4_keeps_arg14, seg3_keeps_arg14, seg2_keeps_arg14, seg1_keeps_arg14, seg0_keeps_arg14]
/-- Argument 15 is as it was after the whole line. -/
theorem kept_arg15 : after ops X (Proc.devRef .tc main_arg15) = X (Proc.devRef .tc main_arg15) := by
  rw [after_ops, seg4_keeps_arg15, seg3_keeps_arg15, seg2_keeps_arg15, seg1_keeps_arg15, seg0_keeps_arg15]
/-- Argument 16 is as it was after the whole line. -/
theorem kept_arg16 : after ops X (Proc.devRef .tc main_arg16) = X (Proc.devRef .tc main_arg16) := by
  rw [after_ops, seg4_keeps_arg16, seg3_keeps_arg16, seg2_keeps_arg16, seg1_keeps_arg16, seg0_keeps_arg16]
/-- Argument 17 is as it was after the whole line. -/
theorem kept_arg17 : after ops X (Proc.devRef .tc main_arg17) = X (Proc.devRef .tc main_arg17) := by
  rw [after_ops, seg4_keeps_arg17, seg3_keeps_arg17, seg2_keeps_arg17, seg1_keeps_arg17, seg0_keeps_arg17]
/-- Argument 18 is as it was after the whole line. -/
theorem kept_arg18 : after ops X (Proc.devRef .tc main_arg18) = X (Proc.devRef .tc main_arg18) := by
  rw [after_ops, seg4_keeps_arg18, seg3_keeps_arg18, seg2_keeps_arg18, seg1_keeps_arg18, seg0_keeps_arg18]
/-- Argument 19 is as it was after the whole line. -/
theorem kept_arg19 : after ops X (Proc.devRef .tc main_arg19) = X (Proc.devRef .tc main_arg19) := by
  rw [after_ops, seg4_keeps_arg19, seg3_keeps_arg19, seg2_keeps_arg19, seg1_keeps_arg19, seg0_keeps_arg19]

/-! ## The run -/

/-- On every device, for any float values, from any memory with zero counters: every weakly fair execution of
    @main terminates with the result at the operations' fold over the launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v274) = after (ops (F := F)) (launchContents m c) (Proc.devRef .tc main_v274)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨h c main_v274,
      (h c main_arg0).trans (kept_arg0 (launchContents m c)),
      (h c main_arg1).trans (kept_arg1 (launchContents m c)),
      (h c main_arg2).trans (kept_arg2 (launchContents m c)),
      (h c main_arg3).trans (kept_arg3 (launchContents m c)),
      (h c main_arg4).trans (kept_arg4 (launchContents m c)),
      (h c main_arg5).trans (kept_arg5 (launchContents m c)),
      (h c main_arg6).trans (kept_arg6 (launchContents m c)),
      (h c main_arg7).trans (kept_arg7 (launchContents m c)),
      (h c main_arg8).trans (kept_arg8 (launchContents m c)),
      (h c main_arg9).trans (kept_arg9 (launchContents m c)),
      (h c main_arg10).trans (kept_arg10 (launchContents m c)),
      (h c main_arg11).trans (kept_arg11 (launchContents m c)),
      (h c main_arg12).trans (kept_arg12 (launchContents m c)),
      (h c main_arg13).trans (kept_arg13 (launchContents m c)),
      (h c main_arg14).trans (kept_arg14 (launchContents m c)),
      (h c main_arg15).trans (kept_arg15 (launchContents m c)),
      (h c main_arg16).trans (kept_arg16 (launchContents m c)),
      (h c main_arg17).trans (kept_arg17 (launchContents m c)),
      (h c main_arg18).trans (kept_arg18 (launchContents m c)),
      (h c main_arg19).trans (kept_arg19 (launchContents m c))⟩)
    (run_seq scopedRefs_eq scopedSems_eq defs main (fun _ => ops) main_eq (fun _ => ops_sub) m ρ
      (fun _ op h => (List.forall_iff_forall_mem.mp ops_fresh) op h))

end Cert.ReferenceIdeal.Value

end
-- ==== Proof.Glue.lean ====
/-
  The host arithmetic of the two programs as named functions of whole arrays, so that a statement about a run can
  name what a stretch of host operations computes instead of spelling it. Namespace `K` follows the kernel's
  program: the node and edge encoders, the interleaved endpoint list (source and destination of every edge,
  alternating) with negative entries wrapped by the table height, the one gather of 2·E rows re-read as E rows of
  128 columns, the per-layer slices of the stacked weights (rows 0..127 and rows 128..143 of the first weight
  taken apart), the sum of the messages at each edge's destination, and the readout (mean over each graph, two
  affine maps with a relu between). Namespace `R` follows the reference: the same encoders, two gathers and a
  three-way concatenation, whole 144-row weights, the message network and the gated update as host operations.
-/
import proofs.«148557_j77953656422434_2_alg».proof.Proof.Gen.KernelIdeal
import proofs.«148557_j77953656422434_2_alg».proof.Proof.Gen.ReferenceIdeal

noncomputable section

namespace Cert.Net.K

open Idealize.ShloMosaic Cert.KernelIdeal Cert.KernelIdeal.Facts₀

variable {F : FTy → Type} [FloatOps F]

/-- `x · W + b` for the node features. -/
def nodeEnc (x : IVec S50000x9 32) (w : FVec F S9x64 .f32) (b : FVec F S64 .f32) : FVec F S50000x64 .f32 :=
  addf (Host.dotGeneral dot_S50000x9_S9x64_S50000x64_1_0_0_1_n_n none (sitofp .f32 x) w)
    (broadcastInDim S50000x64 ![0, 1] bcast_S1x64_S50000x64_0_1 (broadcastInDim S1x64 ![1] bcast_S64_S1x64_1 b))

/-- `ea · W + b` for the edge features. -/
def edgeEnc (ea : IVec S800000x4 32) (w : FVec F S4x16 .f32) (b : FVec F S16 .f32) : FVec F S800000x16 .f32 :=
  addf (Host.dotGeneral dot_S800000x4_S4x16_S800000x16_1_0_0_1_n_n none (sitofp .f32 ea) w)
    (broadcastInDim S800000x16 ![0, 1] bcast_S1x16_S800000x16_0_1 (broadcastInDim S1x16 ![1] bcast_S16_S1x16_1 b))

/-- Row 0 of the edge list: every edge's source. -/
def src (ei : IVec S2x800000 32) : IVec S800000 32 :=
  shapeCast S800000 (extractStridedSlice S1x800000 ![0, 0] ei slices_S2x800000_S1x800000_0_0) shapeCasts_S1x800000_S800000

/-- Row 1 of the edge list: every edge's destination. -/
def dst (ei : IVec S2x800000 32) : IVec S800000 32 :=
  shapeCast S800000 (extractStridedSlice S1x800000 ![1, 0] ei slices_S2x800000_S1x800000_1_0) shapeCasts_S1x800000_S800000

/-- Sources and destinations interleaved: entry `2 i` is edge `i`'s source, entry `2 i + 1` its destination. -/
def pair (ei : IVec S2x800000 32) : IVec S1600000 32 :=
  shapeCast S1600000
    (concatenate S800000x2 1
      [⟨S800000x1, broadcastInDim S800000x1 ![0] bcast_S800000_S800000x1_0 (src ei)⟩,
       ⟨S800000x1, broadcastInDim S800000x1 ![0] bcast_S800000_S800000x1_0 (dst ei)⟩]
      concatenates_S800000x1_S800000x1_S800000x2_d1)
    shapeCasts_S800000x2_S1600000

/-- The interleaved list as start indices: a negative entry wrapped by the table's 50000 rows. -/
def pairStart (ei : IVec S2x800000 32) : IVec S1600000x1 32 :=
  broadcastInDim S1600000x1 ![0] bcast_S1600000_S1600000x1_0
    (select (cmpi .slt (pair ei) (broadcastInDim S1600000 ![] bcast_S_S1600000 (constantI S_ 32 0#32)))
      (addi (pair ei) (broadcastInDim S1600000 ![] bcast_S_S1600000 (constantI S_ 32 50000#32))) (pair ei))

/-- Both endpoints' states of every edge side by side: one gather of 2·E rows read as E rows of 128 columns. -/
def gathered (h : FVec F S50000x64 .f32) (ei : IVec S2x800000 32) : FVec F S800000x128 .bf16 :=
  shapeCast S800000x128
    (Host.gather gather_S50000x64_S1600000x1_S1600000x64_1_0_n_n_0_1_164 (truncf .bf16 h bitsLt_bf16_f32) (pairStart ei))
    shapeCasts_S1600000x64_S800000x128

/-- Rows 0..127 of layer `l`'s first weight. -/
def wc (l : Nat) (hs : S3x144x64.Slices ![l, 0, 0] S1x128x64) (w : FVec F S3x144x64 .f32) : FVec F S128x64 .bf16 :=
  truncf .bf16 (shapeCast S128x64 (extractStridedSlice S1x128x64 ![l, 0, 0] w hs) shapeCasts_S1x128x64_S128x64) bitsLt_bf16_f32

/-- Rows 128..143 of layer `l`'s first weight. -/
def we (l : Nat) (hs : S3x144x64.Slices ![l, 128, 0] S1x16x64) (w : FVec F S3x144x64 .f32) : FVec F S16x64 .bf16 :=
  truncf .bf16 (shapeCast S16x64 (extractStridedSlice S1x16x64 ![l, 128, 0] w hs) shapeCasts_S1x16x64_S16x64) bitsLt_bf16_f32

/-- Row `l` of a stacked 64-wide bias. -/
def bias64 (l : Nat) (hs : S3x64.Slices ![l, 0] S1x64) (b : FVec F S3x64 .f32) : FVec F S64 .f32 :=
  shapeCast S64 (extractStridedSlice S1x64 ![l, 0] b hs) shapeCasts_S1x64_S64

/-- Layer `l`'s second weight. -/
def w1 (l : Nat) (hs : S3x64x64.Slices ![l, 0, 0] S1x64x64) (w : FVec F S3x64x64 .f32) : FVec F S64x64 .bf16 :=
  truncf .bf16 (shapeCast S64x64 (extractStridedSlice S1x64x64 ![l, 0, 0] w hs) shapeCasts_S1x64x64_S64x64) bitsLt_bf16_f32

/-- Layer `l`'s 64 × 192 gate weight. -/
def gateW (l : Nat) (hs : S3x64x192.Slices ![l, 0, 0] S1x64x192) (w : FVec F S3x64x192 .f32) : FVec F S64x192 .bf16 :=
  truncf .bf16 (shapeCast S64x192 (extractStridedSlice S1x64x192 ![l, 0, 0] w hs) shapeCasts_S1x64x192_S64x192) bitsLt_bf16_f32

/-- Row `l` of a stacked 192-wide bias. -/
def bias192 (l : Nat) (hs : S3x192.Slices ![l, 0] S1x192) (b : FVec F S3x192 .f32) : FVec F S192 .f32 :=
  shapeCast S192 (extractStridedSlice S1x192 ![l, 0] b hs) shapeCasts_S1x192_S192

/-- The messages summed at each edge's destination node. -/
def agg (d : IVec S800000 32) (msg : FVec F S800000x64 .bf16) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d) (extf .f32 msg bitsLt_bf16_f32)

/-- Mean of the node states over each graph (a graph with no node divides by one). -/
def pooled (batch : IVec S50000 32) (h : FVec F S50000x64 .f32) : FVec F S2048x64 .f32 :=
  Host.divf
    (Host.scatterAdd scatter_S2048x64_S50000x1_S50000x64_1_0_0_1
      (broadcastInDim S2048x64 ![] bcast_S_S2048x64 (constant S_ .f32 0x00000000#32))
      (broadcastInDim S50000x1 ![0] bcast_S50000_S50000x1_0 batch) h)
    (broadcastInDim S2048x64 ![0, 1] bcast_S2048x1_S2048x64_0_1
      (broadcastInDim S2048x1 ![0] bcast_S2048_S2048x1_0
        (maximumf
          (Host.scatterAdd scatter_S2048_S50000x1_S50000_n_0_0_1
            (broadcastInDim S2048 ![] bcast_S_S2048 (constant S_ .f32 0x00000000#32))
            (broadcastInDim S50000x1 ![0] bcast_S50000_S50000x1_0 batch)
            (broadcastInDim S50000 ![] bcast_S_S50000 (constant S_ .f32 0x3F800000#32)))
          (broadcastInDim S2048 ![] bcast_S_S2048 (constant S_ .f32 0x3F800000#32)))))

/-- The readout: `relu (pooled · r0W + r0b) · r1W + r1b`. -/
def readout (batch : IVec S50000 32) (r0W : FVec F S64x128 .f32) (r0b : FVec F S128 .f32) (r1W : FVec F S128x1 .f32)
    (r1b : FVec F S1 .f32) (h : FVec F S50000x64 .f32) : FVec F S2048x1 .f32 :=
  addf
    (Host.dotGeneral dot_S2048x128_S128x1_S2048x1_1_0_0_1_n_n none
      (maximumf
        (addf (Host.dotGeneral dot_S2048x64_S64x128_S2048x128_1_0_0_1_n_n none (pooled batch h) r0W)
          (broadcastInDim S2048x128 ![0, 1] bcast_S1x128_S2048x128_0_1 (broadcastInDim S1x128 ![1] bcast_S128_S1x128_1 r0b)))
        (broadcastInDim S2048x128 ![] bcast_S_S2048x128 (constant S_ .f32 0x00000000#32)))
      r1W)
    (broadcastInDim S2048x1 ![0, 1] bcast_S1x1_S2048x1_0_1 (broadcastInDim S1x1 ![1] bcast_S1_S1x1_1 r1b))

end Cert.Net.K

namespace Cert.Net.R

open Idealize.ShloMosaic Cert.ReferenceIdeal Cert.ReferenceIdeal.Facts₀

variable {F : FTy → Type} [FloatOps F]

/-- `x · W + b` for the node features. -/
def nodeEnc (x : IVec S50000x9 32) (w : FVec F S9x64 .f32) (b : FVec F S64 .f32) : FVec F S50000x64 .f32 :=
  addf (Host.dotGeneral dot_S50000x9_S9x64_S50000x64_1_0_0_1_n_n none (sitofp .f32 x) w)
    (broadcastInDim S50000x64 ![0, 1] bcast_S1x64_S50000x64_0_1 (broadcastInDim S1x64 ![1] bcast_S64_S1x64_1 b))

/-- `ea · W + b` for the edge features. -/
def edgeEnc (ea : IVec S800000x4 32) (w : FVec F S4x16 .f32) (b : FVec F S16 .f32) : FVec F S800000x16 .f32 :=
  addf (Host.dotGeneral dot_S800000x4_S4x16_S800000x16_1_0_0_1_n_n none (sitofp .f32 ea) w)
    (broadcastInDim S800000x16 ![0, 1] bcast_S1x16_S800000x16_0_1 (broadcastInDim S1x16 ![1] bcast_S16_S1x16_1 b))

/-- Row 0 of the edge list: every edge's source. -/
def src (ei : IVec S2x800000 32) : IVec S800000 32 :=
  shapeCast S800000 (extractStridedSlice S1x800000 ![0, 0] ei slices_S2x800000_S1x800000_0_0) shapeCasts_S1x800000_S800000

/-- Row 1 of the edge list: every edge's destination. -/
def dst (ei : IVec S2x800000 32) : IVec S800000 32 :=
  shapeCast S800000 (extractStridedSlice S1x800000 ![1, 0] ei slices_S2x800000_S1x800000_1_0) shapeCasts_S1x800000_S800000

/-- A list of node numbers as start indices: a negative entry wrapped by the table's 50000 rows. -/
def start (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The rows of `h` at a list of nodes. -/
def rowsAt (h : FVec F S50000x64 .f32) (v : IVec S800000 32) : FVec F S800000x64 .f32 :=
  Host.gather gather_S50000x64_S800000x1_S800000x64_1_0_n_n_0_1_164 h (start v)

/-- Source state, destination state and edge features of every edge, side by side. -/
def cat (h : FVec F S50000x64 .f32) (ei : IVec S2x800000 32) (e : FVec F S800000x16 .f32) : FVec F S800000x144 .f32 :=
  concatenate S800000x144 1 [⟨S800000x64, rowsAt h (src ei)⟩, ⟨S800000x64, rowsAt h (dst ei)⟩, ⟨S800000x16, e⟩]
    concatenates_S800000x64_S800000x64_S800000x16_S800000x144_d1

/-- Layer `l`'s first weight, all 144 rows. -/
def w0 (l : Nat) (hs : S3x144x64.Slices ![l, 0, 0] S1x144x64) (w : FVec F S3x144x64 .f32) : FVec F S144x64 .f32 :=
  shapeCast S144x64 (extractStridedSlice S1x144x64 ![l, 0, 0] w hs) shapeCasts_S1x144x64_S144x64

/-- Row `l` of a stacked 64-wide bias. -/
def bias64 (l : Nat) (hs : S3x64.Slices ![l, 0] S1x64) (b : FVec F S3x64 .f32) : FVec F S64 .f32 :=
  shapeCast S64 (extractStridedSlice S1x64 ![l, 0] b hs) shapeCasts_S1x64_S64

/-- Layer `l`'s second weight. -/
def w1 (l : Nat) (hs : S3x64x64.Slices ![l, 0, 0] S1x64x64) (w : FVec F S3x64x64 .f32) : FVec F S64x64 .f32 :=
  shapeCast S64x64 (extractStridedSlice S1x64x64 ![l, 0, 0] w hs) shapeCasts_S1x64x64_S64x64

/-- Layer `l`'s 64 × 192 gate weight. -/
def gateW (l : Nat) (hs : S3x64x192.Slices ![l, 0, 0] S1x64x192) (w : FVec F S3x64x192 .f32) : FVec F S64x192 .f32 :=
  shapeCast S64x192 (extractStridedSlice S1x64x192 ![l, 0, 0] w hs) shapeCasts_S1x64x192_S64x192

/-- Row `l` of a stacked 192-wide bias. -/
def bias192 (l : Nat) (hs : S3x192.Slices ![l, 0] S1x192) (b : FVec F S3x192 .f32) : FVec F S192 .f32 :=
  shapeCast S192 (extractStridedSlice S1x192 ![l, 0] b hs) shapeCasts_S1x192_S192

/-- The message network on the host: `relu (c · W0 + b0) · W1 + b1`. -/
def mlp (c : FVec F S800000x144 .f32) (W0 : FVec F S144x64 .f32) (b0 : FVec F S64 .f32) (W1 : FVec F S64x64 .f32)
    (b1 : FVec F S64 .f32) : FVec F S800000x64 .f32 :=
  addf
    (Host.dotGeneral dot_S800000x64_S64x64_S800000x64_1_0_0_1_n_n none
      (maximumf
        (addf (Host.dotGeneral dot_S800000x144_S144x64_S800000x64_1_0_0_1_n_n none c W0)
          (broadcastInDim S800000x64 ![0, 1] bcast_S1x64_S800000x64_0_1 (broadcastInDim S1x64 ![1] bcast_S64_S1x64_1 b0)))
        (broadcastInDim S800000x64 ![] bcast_S_S800000x64 (constant S_ .f32 0x00000000#32)))
      W1)
    (broadcastInDim S800000x64 ![0, 1] bcast_S1x64_S800000x64_0_1 (broadcastInDim S1x64 ![1] bcast_S64_S1x64_1 b1))

/-- The messages summed at each edge's destination node. -/
def agg (d : IVec S800000 32) (msg : FVec F S800000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 d) msg

/-- `x · W + b` into the 192 gate columns. -/
def gates (x : FVec F S50000x64 .f32) (w : FVec F S64x192 .f32) (b : FVec F S192 .f32) : FVec F S50000x192 .f32 :=
  addf (Host.dotGeneral dot_S50000x64_S64x192_S50000x192_1_0_0_1_n_n none x w)
    (broadcastInDim S50000x192 ![0, 1] bcast_S1x192_S50000x192_0_1 (broadcastInDim S1x192 ![1] bcast_S192_S1x192_1 b))

/-- The logistic function as the host spells it: `1 / (1 + exp (−x))`. -/
def sigm (x : FVec F S50000x64 .f32) : FVec F S50000x64 .f32 :=
  Host.divf (broadcastInDim S50000x64 ![] bcast_S_S50000x64 (constant S_ .f32 0x3F800000#32))
    (addf (broadcastInDim S50000x64 ![] bcast_S_S50000x64 (constant S_ .f32 0x3F800000#32)) (Host.exp (Host.negf x)))

/-- Columns 0..63, 64..127, 128..191 of the gate columns. -/
def blk0 (g : FVec F S50000x192 .f32) : FVec F S50000x64 .f32 := extractStridedSlice S50000x64 ![0, 0] g slices_S50000x192_S50000x64_0_0
def blk1 (g : FVec F S50000x192 .f32) : FVec F S50000x64 .f32 := extractStridedSlice S50000x64 ![0, 64] g slices_S50000x192_S50000x64_0_64
def blk2 (g : FVec F S50000x192 .f32) : FVec F S50000x64 .f32 := extractStridedSlice S50000x64 ![0, 128] g slices_S50000x192_S50000x64_0_128

/-- The gated update on the host, from the two gate arrays `gi`, `gh` and the old state. -/
def gruOf (gi gh : FVec F S50000x192 .f32) (h : FVec F S50000x64 .f32) : FVec F S50000x64 .f32 :=
  maximumf
    (addf
      (mulf (subf (broadcastInDim S50000x64 ![] bcast_S_S50000x64 (constant S_ .f32 0x3F800000#32)) (sigm (addf (blk1 gi) (blk1 gh))))
        (Host.tanh (addf (blk2 gi) (mulf (sigm (addf (blk0 gi) (blk0 gh))) (blk2 gh)))))
      (mulf (sigm (addf (blk1 gi) (blk1 gh))) h))
    (broadcastInDim S50000x64 ![] bcast_S_S50000x64 (constant S_ .f32 0x00000000#32))

/-- Mean of the node states over each graph (a graph with no node divides by one). -/
def pooled (batch : IVec S50000 32) (h : FVec F S50000x64 .f32) : FVec F S2048x64 .f32 :=
  Host.divf
    (Host.scatterAdd scatter_S2048x64_S50000x1_S50000x64_1_0_0_1
      (broadcastInDim S2048x64 ![] bcast_S_S2048x64 (constant S_ .f32 0x00000000#32))
      (broadcastInDim S50000x1 ![0] bcast_S50000_S50000x1_0 batch) h)
    (broadcastInDim S2048x64 ![0, 1] bcast_S2048x1_S2048x64_0_1
      (broadcastInDim S2048x1 ![0] bcast_S2048_S2048x1_0
        (maximumf
          (Host.scatterAdd scatter_S2048_S50000x1_S50000_n_0_0_1
            (broadcastInDim S2048 ![] bcast_S_S2048 (constant S_ .f32 0x00000000#32))
            (broadcastInDim S50000x1 ![0] bcast_S50000_S50000x1_0 batch)
            (broadcastInDim S50000 ![] bcast_S_S50000 (constant S_ .f32 0x3F800000#32)))
          (broadcastInDim S2048 ![] bcast_S_S2048 (constant S_ .f32 0x3F800000#32)))))

/-- The readout: `relu (pooled · r0W + r0b) · r1W + r1b`. -/
def readout (batch : IVec S50000 32) (r0W : FVec F S64x128 .f32) (r0b : FVec F S128 .f32) (r1W : FVec F S128x1 .f32)
    (r1b : FVec F S1 .f32) (h : FVec F S50000x64 .f32) : FVec F S2048x1 .f32 :=
  addf
    (Host.dotGeneral dot_S2048x128_S128x1_S2048x1_1_0_0_1_n_n none
      (maximumf
        (addf (Host.dotGeneral dot_S2048x64_S64x128_S2048x128_1_0_0_1_n_n none (pooled batch h) r0W)
          (broadcastInDim S2048x128 ![0, 1] bcast_S1x128_S2048x128_0_1 (broadcastInDim S1x128 ![1] bcast_S128_S1x128_1 r0b)))
        (broadcastInDim S2048x128 ![] bcast_S_S2048x128 (constant S_ .f32 0x00000000#32)))
      r1W)
    (broadcastInDim S2048x1 ![0, 1] bcast_S1x1_S2048x1_0_1 (broadcastInDim S1x1 ![1] bcast_S1_S1x1_1 r1b))

end Cert.Net.R

end
-- ==== Proof.RefTerm.lean ====
/-
  One layer of the reference as a function of the node states: the messages over `[h_s | h_d | e]` (two row
  gathers and a three-way concatenation, then the two-layer message network), their sum at every destination,
  and the gated update with its relu. The reference's result is the readout of three such layers applied to the
  encoded node features.
-/
import proofs.«148557_j77953656422434_2_alg».proof.Proof.Glue

noncomputable section

namespace Cert.Net.R

open Idealize.ShloMosaic Cert.ReferenceIdeal Cert.ReferenceIdeal.Facts₀

variable {F : FTy → Type} [FloatOps F]

/-- One layer of the reference from the state `h`: the messages over `[h_s | h_d | e]`, summed at each
    destination, then the gated update of `h`. -/
def layer (l : Nat) (s0 : S3x144x64.Slices ![l, 0, 0] S1x144x64) (sb : S3x64.Slices ![l, 0] S1x64)
    (s1 : S3x64x64.Slices ![l, 0, 0] S1x64x64) (sg : S3x64x192.Slices ![l, 0, 0] S1x64x192)
    (sB : S3x192.Slices ![l, 0] S1x192) (ei : IVec S2x800000 32) (e : FVec F S800000x16 .f32)
    (W0 : FVec F S3x144x64 .f32) (B0 : FVec F S3x64 .f32) (W1 : FVec F S3x64x64 .f32) (B1 : FVec F S3x64 .f32)
    (Wih : FVec F S3x64x192 .f32) (Bih : FVec F S3x192 .f32) (Whh : FVec F S3x64x192 .f32) (Bhh : FVec F S3x192 .f32)
    (h : FVec F S50000x64 .f32) : FVec F S50000x64 .f32 :=
  gruOf
    (gates (agg (dst ei) (mlp (cat h ei e) (w0 l s0 W0) (bias64 l sb B0) (w1 l s1 W1) (bias64 l sb B1)))
      (gateW l sg Wih) (bias192 l sB Bih))
    (gates h (gateW l sg Whh) (bias192 l sB Bhh)) h

end Cert.Net.R

end
-- ==== Proof.RefReads.lean ====
/-
  The reference's result read back in stages. The contents of the reference's result buffer after its line of host
  operations is the fold of the operations over the launch contents; the line is five consecutive segments — the
  two encoders and the edge list's two rows, the three layers, the readout — and each segment, read at the one
  buffer it hands on from ANY starting contents, is one of the named host functions of the reference's arithmetic
  applied to the starting contents of the buffers it reads. Between segments a buffer no operation writes keeps its
  contents. Composed, the result is the readout of three layers applied to the encoded node features, each a
  function of the launch contents of the arguments.
-/
import proofs.«148557_j77953656422434_2_alg».proof.Proof.RefRun
import proofs.«148557_j77953656422434_2_alg».proof.Proof.RefTerm
import proofs.«148557_j77953656422434_2_alg».proof.Proof.Glue
import Idealize.ShloMosaic.PureOps.Ideal

set_option maxRecDepth 16384

noncomputable section

namespace Cert.Net.RRun

open Idealize.ShloMosaic Idealize.ShloMosaic.TcCoe Idealize.ShloMosaic.StableHlo
open Cert.ReferenceIdeal Cert.ReferenceIdeal.Gen Cert.ReferenceIdeal.Value
open Cert.Net

variable {F : FTy → Type} [FloatOps F]

/-! ## The three-way concatenations' results; the simplifier pass -/

/-- Three arrays side by side along the columns: 64, 64 and 16 columns into 144. -/
def cat3 (x y : FVec F S800000x64 .f32) (z : FVec F S800000x16 .f32) : FVec F S800000x144 .f32 :=
  concatenate S800000x144 1 [⟨S800000x64, x⟩, ⟨S800000x64, y⟩, ⟨S800000x16, z⟩] concatenates_S800000x64_S800000x64_S800000x16_S800000x144_d1

/-- Layer 0's three-way concatenation: the result with each operand's contents at its own reference. -/
theorem cat0_result' (W : Valuation τ sig (Elt F)) :
    (nary ![main_v20, main_v27, main_v9] main_v28 (fun u => concatenate S800000x144 1 [⟨S800000x64, u 0⟩, ⟨S800000x64, u 1⟩, ⟨S800000x16, u 2⟩] concatenates_S800000x64_S800000x64_S800000x16_S800000x144_d1) : HloOp τ sig (Elt F)).result W (no_index (Proc.devRef .tc main_v28))
      = cat3 (W (Proc.devRef .tc main_v20)) (W (Proc.devRef .tc main_v27)) (W (Proc.devRef .tc main_v9)) :=
  (nary_result ..).trans rfl
/-- Layer 1's three-way concatenation: the result with each operand's contents at its own reference. -/
theorem cat1_result' (W : Valuation τ sig (Elt F)) :
    (nary ![main_v100, main_v107, main_v9] main_v108 (fun u => concatenate S800000x144 1 [⟨S800000x64, u 0⟩, ⟨S800000x64, u 1⟩, ⟨S800000x16, u 2⟩] concatenates_S800000x64_S800000x64_S800000x16_S800000x144_d1) : HloOp τ sig (Elt F)).result W (no_index (Proc.devRef .tc main_v108))
      = cat3 (W (Proc.devRef .tc main_v100)) (W (Proc.devRef .tc main_v107)) (W (Proc.devRef .tc main_v9)) :=
  (nary_result ..).trans rfl
/-- Layer 2's three-way concatenation: the result with each operand's contents at its own reference. -/
theorem cat2_result' (W : Valuation τ sig (Elt F)) :
    (nary ![main_v180, main_v187, main_v9] main_v188 (fun u => concatenate S800000x144 1 [⟨S800000x64, u 0⟩, ⟨S800000x64, u 1⟩, ⟨S800000x16, u 2⟩] concatenates_S800000x64_S800000x64_S800000x16_S800000x144_d1) : HloOp τ sig (Elt F)).result W (no_index (Proc.devRef .tc main_v188))
      = cat3 (W (Proc.devRef .tc main_v180)) (W (Proc.devRef .tc main_v187)) (W (Proc.devRef .tc main_v9)) :=
  (nary_result ..).trans rfl

/-- Computes `after ops X b` for a literal line `ops` and a literal buffer `b` in one simplifier pass: each operation's
    result at its own buffer is its function of its operands' contents, at any other buffer what was there. -/
macro "line_results" : tactic =>
  `(tactic| simp (disch := decide) only [after_cons, after_nil,
      nullary_result', unary_result', binary_result', ternary_result', quaternary_result', reshape_result',
      cat0_result', cat1_result', cat2_result',
      nullary_result_ne', unary_result_ne', binary_result_ne', ternary_result_ne', quaternary_result_ne', reshape_result_ne',
      nary_result_ne'])

/-! ## Each segment at the buffer it hands on, from any starting contents -/

variable (X : Valuation τ sig (Elt F))

/-- The encoded node features. -/
theorem seg0_v4 : after seg0 X (Proc.devRef .tc main_v4) = R.nodeEnc (X (Proc.devRef .tc main_arg0)) (X (Proc.devRef .tc main_arg4)) (X (Proc.devRef .tc main_arg5)) := by
  line_results
  rfl
/-- The encoded edge features. -/
theorem seg0_v9 : after seg0 X (Proc.devRef .tc main_v9) = R.edgeEnc (X (Proc.devRef .tc main_arg2)) (X (Proc.devRef .tc main_arg6)) (X (Proc.devRef .tc main_arg7)) := by
  line_results
  rfl
/-- Every edge's source. -/
theorem seg0_v11 : after seg0 X (Proc.devRef .tc main_v11) = R.src (X (Proc.devRef .tc main_arg1)) := by
  line_results
  rfl
/-- Every edge's destination. -/
theorem seg0_v13 : after seg0 X (Proc.devRef .tc main_v13) = R.dst (X (Proc.devRef .tc main_arg1)) := by
  line_results
  rfl

set_option maxHeartbeats 4000000 in
/-- Layer 0: from the sources, the destinations, the encoded edge features, the stacked weights and the node states it
    finds, the node states it leaves. -/
theorem seg1_v93 (ei : IVec S2x800000 32) (hs : X (Proc.devRef .tc main_v11) = R.src ei) (hd : X (Proc.devRef .tc main_v13) = R.dst ei) :
    after seg1 X (Proc.devRef .tc main_v93)
      = R.layer 0 slices_S3x144x64_S1x144x64_0_0_0 slices_S3x64_S1x64_0_0 slices_S3x64x64_S1x64x64_0_0_0 slices_S3x64x192_S1x64x192_0_0_0 slices_S3x192_S1x192_0_0 ei (X (Proc.devRef .tc main_v9))
          (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_v4)) := by
  line_results
  rw [hs, hd]
  rfl

set_option maxHeartbeats 4000000 in
/-- Layer 1: from the sources, the destinations, the encoded edge features, the stacked weights and the node states it
    finds, the node states it leaves. -/
theorem seg2_v173 (ei : IVec S2x800000 32) (hs : X (Proc.devRef .tc main_v11) = R.src ei) (hd : X (Proc.devRef .tc main_v13) = R.dst ei) :
    after seg2 X (Proc.devRef .tc main_v173)
      = R.layer 1 slices_S3x144x64_S1x144x64_1_0_0 slices_S3x64_S1x64_1_0 slices_S3x64x64_S1x64x64_1_0_0 slices_S3x64x192_S1x64x192_1_0_0 slices_S3x192_S1x192_1_0 ei (X (Proc.devRef .tc main_v9))
          (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_v93)) := by
  line_results
  rw [hs, hd]
  rfl

set_option maxHeartbeats 4000000 in
/-- Layer 2: from the sources, the destinations, the encoded edge features, the stacked weights and the node states it
    finds, the node states it leaves. -/
theorem seg3_v253 (ei : IVec S2x800000 32) (hs : X (Proc.devRef .tc main_v11) = R.src ei) (hd : X (Proc.devRef .tc main_v13) = R.dst ei) :
    after seg3 X (Proc.devRef .tc main_v253)
      = R.layer 2 slices_S3x144x64_S1x144x64_2_0_0 slices_S3x64_S1x64_2_0 slices_S3x64x64_S1x64x64_2_0_0 slices_S3x64x192_S1x64x192_2_0_0 slices_S3x192_S1x192_2_0 ei (X (Proc.devRef .tc main_v9))
          (X (Proc.devRef .tc main_arg8)) (X (Proc.devRef .tc main_arg9)) (X (Proc.devRef .tc main_arg10)) (X (Proc.devRef .tc main_arg11)) (X (Proc.devRef .tc main_arg12)) (X (Proc.devRef .tc main_arg13)) (X (Proc.devRef .tc main_arg14)) (X (Proc.devRef .tc main_arg15)) (X (Proc.devRef .tc main_v173)) := by
  line_results
  rw [hs, hd]
  rfl

set_option maxHeartbeats 1000000 in
/-- The readout of the node states it finds. -/
theorem seg4_v274 : after seg4 X (Proc.devRef .tc main_v274)
    = R.readout (X (Proc.devRef .tc main_arg3)) (X (Proc.devRef .tc main_arg16)) (X (Proc.devRef .tc main_arg17)) (X (Proc.devRef .tc main_arg18)) (X (Proc.devRef .tc main_arg19)) (X (Proc.devRef .tc main_v253)) := by
  line_results
  rfl

/-! ## The layers write neither the encoded edge features nor the edge list's rows -/

theorem seg1_keeps_v9 : after seg1 X (Proc.devRef .tc main_v9) = X (Proc.devRef .tc main_v9) := by line_keeps seg1
theorem seg1_keeps_v11 : after seg1 X (Proc.devRef .tc main_v11) = X (Proc.devRef .tc main_v11) := by line_keeps seg1
theorem seg1_keeps_v13 : after seg1 X (Proc.devRef .tc main_v13) = X (Proc.devRef .tc main_v13) := by line_keeps seg1
theorem seg2_keeps_v9 : after seg2 X (Proc.devRef .tc main_v9) = X (Proc.devRef .tc main_v9) := by line_keeps seg2
theorem seg2_keeps_v11 : after seg2 X (Proc.devRef .tc main_v11) = X (Proc.devRef .tc main_v11) := by line_keeps seg2
theorem seg2_keeps_v13 : after seg2 X (Proc.devRef .tc main_v13) = X (Proc.devRef .tc main_v13) := by line_keeps seg2

/-! ## The stages from the launch contents -/

section Value

variable (m : (ℓ : Loc nD τ sig) → Buf (Elt Ideal) ℓ) (c : Dev nD)

/-- Core `c`'s launch contents of argument 0: the node features. -/
abbrev a0 : IVec S50000x9 32 := m ((c.tc : Thread nD τ).loc main_arg0)
/-- Core `c`'s launch contents of argument 1: the edge list (row 0 the sources, row 1 the destinations). -/
abbrev a1 : IVec S2x800000 32 := m ((c.tc : Thread nD τ).loc main_arg1)
/-- Core `c`'s launch contents of argument 2: the edge features. -/
abbrev a2 : IVec S800000x4 32 := m ((c.tc : Thread nD τ).loc main_arg2)
/-- Core `c`'s launch contents of argument 3: the graph of every node. -/
abbrev a3 : IVec S50000 32 := m ((c.tc : Thread nD τ).loc main_arg3)
/-- Core `c`'s launch contents of argument 4: the node encoder's weight. -/
abbrev a4 : FVec Ideal S9x64 .f32 := m ((c.tc : Thread nD τ).loc main_arg4)
/-- Core `c`'s launch contents of argument 5: the node encoder's bias. -/
abbrev a5 : FVec Ideal S64 .f32 := m ((c.tc : Thread nD τ).loc main_arg5)
/-- Core `c`'s launch contents of argument 6: the edge encoder's weight. -/
abbrev a6 : FVec Ideal S4x16 .f32 := m ((c.tc : Thread nD τ).loc main_arg6)
/-- Core `c`'s launch contents of argument 7: the edge encoder's bias. -/
abbrev a7 : FVec Ideal S16 .f32 := m ((c.tc : Thread nD τ).loc main_arg7)
/-- Core `c`'s launch contents of argument 8: the three layers' first message weights, stacked. -/
abbrev a8 : FVec Ideal S3x144x64 .f32 := m ((c.tc : Thread nD τ).loc main_arg8)
/-- Core `c`'s launch contents of argument 9: the three layers' first message biases, stacked. -/
abbrev a9 : FVec Ideal S3x64 .f32 := m ((c.tc : Thread nD τ).loc main_arg9)
/-- Core `c`'s launch contents of argument 10: the three layers' second message weights, stacked. -/
abbrev a10 : FVec Ideal S3x64x64 .f32 := m ((c.tc : Thread nD τ).loc main_arg10)
/-- Core `c`'s launch contents of argument 11: the three layers' second message biases, stacked. -/
abbrev a11 : FVec Ideal S3x64 .f32 := m ((c.tc : Thread nD τ).loc main_arg11)
/-- Core `c`'s launch contents of argument 12: the three layers' input gate weights, stacked. -/
abbrev a12 : FVec Ideal S3x64x192 .f32 := m ((c.tc : Thread nD τ).loc main_arg12)
/-- Core `c`'s launch contents of argument 13: the three layers' input gate biases, stacked. -/
abbrev a13 : FVec Ideal S3x192 .f32 := m ((c.tc : Thread nD τ).loc main_arg13)
/-- Core `c`'s launch contents of argument 14: the three layers' state gate weights, stacked. -/
abbrev a14 : FVec Ideal S3x64x192 .f32 := m ((c.tc : Thread nD τ).loc main_arg14)
/-- Core `c`'s launch contents of argument 15: the three layers' state gate biases, stacked. -/
abbrev a15 : FVec Ideal S3x192 .f32 := m ((c.tc : Thread nD τ).loc main_arg15)
/-- Core `c`'s launch contents of argument 16: the readout's first weight. -/
abbrev a16 : FVec Ideal S64x128 .f32 := m ((c.tc : Thread nD τ).loc main_arg16)
/-- Core `c`'s launch contents of argument 17: the readout's first bias. -/
abbrev a17 : FVec Ideal S128 .f32 := m ((c.tc : Thread nD τ).loc main_arg17)
/-- Core `c`'s launch contents of argument 18: the readout's second weight. -/
abbrev a18 : FVec Ideal S128x1 .f32 := m ((c.tc : Thread nD τ).loc main_arg18)
/-- Core `c`'s launch contents of argument 19: the readout's second bias. -/
abbrev a19 : FVec Ideal S1 .f32 := m ((c.tc : Thread nD τ).loc main_arg19)

/-- The encoded edge features. -/
abbrev refE : FVec Ideal S800000x16 .f32 := R.edgeEnc (a2 m c) (a6 m c) (a7 m c)
/-- The node states before layer 0: the encoded node features. -/
abbrev refH0 : FVec Ideal S50000x64 .f32 := R.nodeEnc (a0 m c) (a4 m c) (a5 m c)
/-- The node states after layer 0. -/
abbrev refH1 : FVec Ideal S50000x64 .f32 :=
  R.layer 0 slices_S3x144x64_S1x144x64_0_0_0 slices_S3x64_S1x64_0_0 slices_S3x64x64_S1x64x64_0_0_0 slices_S3x64x192_S1x64x192_0_0_0 slices_S3x192_S1x192_0_0 (a1 m c) (refE m c)
    (a8 m c) (a9 m c) (a10 m c) (a11 m c) (a12 m c) (a13 m c) (a14 m c) (a15 m c) (refH0 m c)
/-- The node states after layer 1. -/
abbrev refH2 : FVec Ideal S50000x64 .f32 :=
  R.layer 1 slices_S3x144x64_S1x144x64_1_0_0 slices_S3x64_S1x64_1_0 slices_S3x64x64_S1x64x64_1_0_0 slices_S3x64x192_S1x64x192_1_0_0 slices_S3x192_S1x192_1_0 (a1 m c) (refE m c)
    (a8 m c) (a9 m c) (a10 m c) (a11 m c) (a12 m c) (a13 m c) (a14 m c) (a15 m c) (refH1 m c)
/-- The node states after layer 2. -/
abbrev refH3 : FVec Ideal S50000x64 .f32 :=
  R.layer 2 slices_S3x144x64_S1x144x64_2_0_0 slices_S3x64_S1x64_2_0 slices_S3x64x64_S1x64x64_2_0_0 slices_S3x64x192_S1x64x192_2_0_0 slices_S3x192_S1x192_2_0 (a1 m c) (refE m c)
    (a8 m c) (a9 m c) (a10 m c) (a11 m c) (a12 m c) (a13 m c) (a14 m c) (a15 m c) (refH2 m c)

/-- The contents after the first segment, after layer 0, after layer 1, after layer 2. -/
def V1 : Valuation τ sig (Elt Ideal) := after seg0 (launchContents m c)
def V2 : Valuation τ sig (Elt Ideal) := after seg1 (V1 m c)
def V3 : Valuation τ sig (Elt Ideal) := after seg2 (V2 m c)
def V4 : Valuation τ sig (Elt Ideal) := after seg3 (V3 m c)

/-! ### After the first segment -/

theorem V1_v4 : V1 m c (Proc.devRef .tc main_v4) = refH0 m c := by unfold V1; exact seg0_v4 _
theorem V1_v9 : V1 m c (Proc.devRef .tc main_v9) = refE m c := by unfold V1; exact seg0_v9 _
theorem V1_v11 : V1 m c (Proc.devRef .tc main_v11) = R.src (a1 m c) := by unfold V1; exact seg0_v11 _
theorem V1_v13 : V1 m c (Proc.devRef .tc main_v13) = R.dst (a1 m c) := by unfold V1; exact seg0_v13 _
theorem V1_arg3 : V1 m c (Proc.devRef .tc main_arg3) = a3 m c := by unfold V1; exact seg0_keeps_arg3 _
theorem V1_arg8 : V1 m c (Proc.devRef .tc main_arg8) = a8 m c := by unfold V1; exact seg0_keeps_arg8 _
theorem V1_arg9 : V1 m c (Proc.devRef .tc main_arg9) = a9 m c := by unfold V1; exact seg0_keeps_arg9 _
theorem V1_arg10 : V1 m c (Proc.devRef .tc main_arg10) = a10 m c := by unfold V1; exact seg0_keeps_arg10 _
theorem V1_arg11 : V1 m c (Proc.devRef .tc main_arg11) = a11 m c := by unfold V1; exact seg0_keeps_arg11 _
theorem V1_arg12 : V1 m c (Proc.devRef .tc main_arg12) = a12 m c := by unfold V1; exact seg0_keeps_arg12 _
theorem V1_arg13 : V1 m c (Proc.devRef .tc main_arg13) = a13 m c := by unfold V1; exact seg0_keeps_arg13 _
theorem V1_arg14 : V1 m c (Proc.devRef .tc main_arg14) = a14 m c := by unfold V1; exact seg0_keeps_arg14 _
theorem V1_arg15 : V1 m c (Proc.devRef .tc main_arg15) = a15 m c := by unfold V1; exact seg0_keeps_arg15 _
theorem V1_arg16 : V1 m c (Proc.devRef .tc main_arg16) = a16 m c := by unfold V1; exact seg0_keeps_arg16 _
theorem V1_arg17 : V1 m c (Proc.devRef .tc main_arg17) = a17 m c := by unfold V1; exact seg0_keeps_arg17 _
theorem V1_arg18 : V1 m c (Proc.devRef .tc main_arg18) = a18 m c := by unfold V1; exact seg0_keeps_arg18 _
theorem V1_arg19 : V1 m c (Proc.devRef .tc main_arg19) = a19 m c := by unfold V1; exact seg0_keeps_arg19 _

/-! ### After layer 0 -/

theorem V2_v93 : V2 m c (Proc.devRef .tc main_v93) = refH1 m c := by
  unfold V2
  rw [seg1_v93 (V1 m c) (a1 m c) (V1_v11 m c) (V1_v13 m c), V1_v9 m c, V1_arg8 m c, V1_arg9 m c, V1_arg10 m c, V1_arg11 m c, V1_arg12 m c, V1_arg13 m c, V1_arg14 m c, V1_arg15 m c, V1_v4 m c]
theorem V2_v9 : V2 m c (Proc.devRef .tc main_v9) = refE m c := by unfold V2; exact (seg1_keeps_v9 _).trans (V1_v9 m c)
theorem V2_v11 : V2 m c (Proc.devRef .tc main_v11) = R.src (a1 m c) := by unfold V2; exact (seg1_keeps_v11 _).trans (V1_v11 m c)
theorem V2_v13 : V2 m c (Proc.devRef .tc main_v13) = R.dst (a1 m c) := by unfold V2; exact (seg1_keeps_v13 _).trans (V1_v13 m c)
theorem V2_arg3 : V2 m c (Proc.devRef .tc main_arg3) = a3 m c := by unfold V2; exact (seg1_keeps_arg3 _).trans (V1_arg3 m c)
theorem V2_arg8 : V2 m c (Proc.devRef .tc main_arg8) = a8 m c := by unfold V2; exact (seg1_keeps_arg8 _).trans (V1_arg8 m c)
theorem V2_arg9 : V2 m c (Proc.devRef .tc main_arg9) = a9 m c := by unfold V2; exact (seg1_keeps_arg9 _).trans (V1_arg9 m c)
theorem V2_arg10 : V2 m c (Proc.devRef .tc main_arg10) = a10 m c := by unfold V2; exact (seg1_keeps_arg10 _).trans (V1_arg10 m c)
theorem V2_arg11 : V2 m c (Proc.devRef .tc main_arg11) = a11 m c := by unfold V2; exact (seg1_keeps_arg11 _).trans (V1_arg11 m c)
theorem V2_arg12 : V2 m c (Proc.devRef .tc main_arg12) = a12 m c := by unfold V2; exact (seg1_keeps_arg12 _).trans (V1_arg12 m c)
theorem V2_arg13 : V2 m c (Proc.devRef .tc main_arg13) = a13 m c := by unfold V2; exact (seg1_keeps_arg13 _).trans (V1_arg13 m c)
theorem V2_arg14 : V2 m c (Proc.devRef .tc main_arg14) = a14 m c := by unfold V2; exact (seg1_keeps_arg14 _).trans (V1_arg14 m c)
theorem V2_arg15 : V2 m c (Proc.devRef .tc main_arg15) = a15 m c := by unfold V2; exact (seg1_keeps_arg15 _).trans (V1_arg15 m c)
theorem V2_arg16 : V2 m c (Proc.devRef .tc main_arg16) = a16 m c := by unfold V2; exact (seg1_keeps_arg16 _).trans (V1_arg16 m c)
theorem V2_arg17 : V2 m c (Proc.devRef .tc main_arg17) = a17 m c := by unfold V2; exact (seg1_keeps_arg17 _).trans (V1_arg17 m c)
theorem V2_arg18 : V2 m c (Proc.devRef .tc main_arg18) = a18 m c := by unfold V2; exact (seg1_keeps_arg18 _).trans (V1_arg18 m c)
theorem V2_arg19 : V2 m c (Proc.devRef .tc main_arg19) = a19 m c := by unfold V2; exact (seg1_keeps_arg19 _).trans (V1_arg19 m c)

/-! ### After layer 1 -/

theorem V3_v173 : V3 m c (Proc.devRef .tc main_v173) = refH2 m c := by
  unfold V3
  rw [seg2_v173 (V2 m c) (a1 m c) (V2_v11 m c) (V2_v13 m c), V2_v9 m c, V2_arg8 m c, V2_arg9 m c, V2_arg10 m c, V2_arg11 m c, V2_arg12 m c, V2_arg13 m c, V2_arg14 m c, V2_arg15 m c, V2_v93 m c]
theorem V3_v9 : V3 m c (Proc.devRef .tc main_v9) = refE m c := by unfold V3; exact (seg2_keeps_v9 _).trans (V2_v9 m c)
theorem V3_v11 : V3 m c (Proc.devRef .tc main_v11) = R.src (a1 m c) := by unfold V3; exact (seg2_keeps_v11 _).trans (V2_v11 m c)
theorem V3_v13 : V3 m c (Proc.devRef .tc main_v13) = R.dst (a1 m c) := by unfold V3; exact (seg2_keeps_v13 _).trans (V2_v13 m c)
theorem V3_arg3 : V3 m c (Proc.devRef .tc main_arg3) = a3 m c := by unfold V3; exact (seg2_keeps_arg3 _).trans (V2_arg3 m c)
theorem V3_arg8 : V3 m c (Proc.devRef .tc main_arg8) = a8 m c := by unfold V3; exact (seg2_keeps_arg8 _).trans (V2_arg8 m c)
theorem V3_arg9 : V3 m c (Proc.devRef .tc main_arg9) = a9 m c := by unfold V3; exact (seg2_keeps_arg9 _).trans (V2_arg9 m c)
theorem V3_arg10 : V3 m c (Proc.devRef .tc main_arg10) = a10 m c := by unfold V3; exact (seg2_keeps_arg10 _).trans (V2_arg10 m c)
theorem V3_arg11 : V3 m c (Proc.devRef .tc main_arg11) = a11 m c := by unfold V3; exact (seg2_keeps_arg11 _).trans (V2_arg11 m c)
theorem V3_arg12 : V3 m c (Proc.devRef .tc main_arg12) = a12 m c := by unfold V3; exact (seg2_keeps_arg12 _).trans (V2_arg12 m c)
theorem V3_arg13 : V3 m c (Proc.devRef .tc main_arg13) = a13 m c := by unfold V3; exact (seg2_keeps_arg13 _).trans (V2_arg13 m c)
theorem V3_arg14 : V3 m c (Proc.devRef .tc main_arg14) = a14 m c := by unfold V3; exact (seg2_keeps_arg14 _).trans (V2_arg14 m c)
theorem V3_arg15 : V3 m c (Proc.devRef .tc main_arg15) = a15 m c := by unfold V3; exact (seg2_keeps_arg15 _).trans (V2_arg15 m c)
theorem V3_arg16 : V3 m c (Proc.devRef .tc main_arg16) = a16 m c := by unfold V3; exact (seg2_keeps_arg16 _).trans (V2_arg16 m c)
theorem V3_arg17 : V3 m c (Proc.devRef .tc main_arg17) = a17 m c := by unfold V3; exact (seg2_keeps_arg17 _).trans (V2_arg17 m c)
theorem V3_arg18 : V3 m c (Proc.devRef .tc main_arg18) = a18 m c := by unfold V3; exact (seg2_keeps_arg18 _).trans (V2_arg18 m c)
theorem V3_arg19 : V3 m c (Proc.devRef .tc main_arg19) = a19 m c := by unfold V3; exact (seg2_keeps_arg19 _).trans (V2_arg19 m c)

/-! ### After layer 2 -/

theorem V4_v253 : V4 m c (Proc.devRef .tc main_v253) = refH3 m c := by
  unfold V4
  rw [seg3_v253 (V3 m c) (a1 m c) (V3_v11 m c) (V3_v13 m c), V3_v9 m c, V3_arg8 m c, V3_arg9 m c, V3_arg10 m c, V3_arg11 m c, V3_arg12 m c, V3_arg13 m c, V3_arg14 m c, V3_arg15 m c, V3_v173 m c]
theorem V4_arg3 : V4 m c (Proc.devRef .tc main_arg3) = a3 m c := by unfold V4; exact (seg3_keeps_arg3 _).trans (V3_arg3 m c)
theorem V4_arg16 : V4 m c (Proc.devRef .tc main_arg16) = a16 m c := by unfold V4; exact (seg3_keeps_arg16 _).trans (V3_arg16 m c)
theorem V4_arg17 : V4 m c (Proc.devRef .tc main_arg17) = a17 m c := by unfold V4; exact (seg3_keeps_arg17 _).trans (V3_arg17 m c)
theorem V4_arg18 : V4 m c (Proc.devRef .tc main_arg18) = a18 m c := by unfold V4; exact (seg3_keeps_arg18 _).trans (V3_arg18 m c)
theorem V4_arg19 : V4 m c (Proc.devRef .tc main_arg19) = a19 m c := by unfold V4; exact (seg3_keeps_arg19 _).trans (V3_arg19 m c)

/-! ## The reference's result -/

/-- The contents of the reference's result buffer after its line: the readout of three layers applied to the encoded
    node features, every operand the launch contents of an argument. -/
theorem ref_value :
    after (Value.ops (F := Ideal)) (launchContents m c) (Proc.devRef .tc main_v274)
      = R.readout (a3 m c) (a16 m c) (a17 m c) (a18 m c) (a19 m c) (refH3 m c) := by
  rw [after_ops]
  show after seg4 (V4 m c) (Proc.devRef .tc main_v274) = _
  rw [seg4_v274 (V4 m c), V4_arg3 m c, V4_arg16 m c, V4_arg17 m c, V4_arg18 m c, V4_arg19 m c, V4_v253 m c]

end Value

end Cert.Net.RRun

end
-- ==== Proof.KernelRun.lean ====
/-
  The kernel's run with its result named: at the compiled mesh, from any memory with zero counters, every weakly
  fair execution of @main on the TensorCores terminates, and in every final state the result buffer holds the last
  boundary's contents at that buffer (the fold of the launch memory through @main's fifteen segments) while the
  twenty argument arrays are as launched. This is the library's launch theorem over the generated segments, with the
  same data the generated frame gives it; the only change is that the final reading keeps one more buffer.
-/
import proofs.«148557_j77953656422434_2_alg».proof.Proof.Gen.KernelIdeal.Frame
import Idealize.ShloMosaic.PureOps.Ideal

set_option maxRecDepth 16384

noncomputable section

namespace Cert.Net.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; in every final state the result buffer holds
    the contents the last boundary gives it, and every argument array is as launched. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v153) = Gen.W15 m ρ c (Proc.devRef .tc main_v153)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨(h c _ (mem_uc main_v153 (by decide))),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c)⟩)

end Cert.Net.KRun

end
-- ==== Proof.Spec.lean ====
/-
  The mathematics of one message-passing layer, stated index by index on the extended reals and free of any
  program: an affine map read at one entry (`lin`), the edge network in the two arrangements met here — the
  144-long contraction taken whole (`mlpWhole`) and taken as its first 128 and last 16 terms (`mlpSplit`) —,
  the gated update of a node's state (`gru`), and the one law that joins the two arrangements: a finite sum over
  144 positions is the sum over the first 128 plus the sum over the last 16, which on the extended reals needs
  only that addition is commutative and associative (no finiteness of the summands).
-/
import Idealize.ShloMosaic.PureOps.Ideal
import Idealize.ShloMosaic.Lib.ValueIdx

noncomputable section

open scoped BigOperators

namespace Cert.Net

open Idealize.ShloMosaic Idealize.ShloMosaic.ValueIdx

/-- A rank-2 array of extended reals. -/
abbrev A2 (a b : Nat) : Type := (⟨2, ![a, b]⟩ : Shape).Idx → EReal
/-- A rank-1 array of extended reals. -/
abbrev A1 (a : Nat) : Type := (⟨1, ![a]⟩ : Shape).Idx → EReal

/-- The two float literals of both programs, kept as words: zero and one. -/
abbrev zeroW : EReal := Ideal.ofBits .f32 0x00000000#32
abbrev oneW : EReal := Ideal.ofBits .f32 0x3F800000#32

/-- Entry `(p, r)` of `x · w + b`: row `p` of `x` against column `r` of `w`, plus the bias at `r`. -/
def lin {N K M : Nat} (x : A2 N K) (w : A2 K M) (b : A1 M) (p : Fin N) (r : Fin M) : EReal :=
  (∑ k : Fin K, x (ix2 p k) * w (ix2 k r)) + b (ix1 r)

/-- The edge network with the first contraction taken whole: `relu (cat · W0 + b0) · W1 + b1` at `(p, n)`. -/
def mlpWhole {E : Nat} (cat : A2 E 144) (W0 : A2 144 64) (b0 : A1 64) (W1 : A2 64 64) (b1 : A1 64)
    (p : Fin E) (n : Fin 64) : EReal :=
  (∑ j : Fin 64, max (lin cat W0 b0 p j) zeroW * W1 (ix2 j n)) + b1 (ix1 n)

/-- The edge network with the first contraction split as 128 + 16:
    `relu ((hsd · wc + e · we) + b0) · w1 + b1` at `(p, n)`. -/
def mlpSplit {E : Nat} (hsd : A2 E 128) (e : A2 E 16) (wc : A2 128 64) (we : A2 16 64) (b0 : A1 64)
    (w1 : A2 64 64) (b1 : A1 64) (p : Fin E) (n : Fin 64) : EReal :=
  (∑ j : Fin 64,
      max (((∑ k : Fin 128, hsd (ix2 p k) * wc (ix2 k j)) + (∑ k : Fin 16, e (ix2 p k) * we (ix2 k j))) + b0 (ix1 j)) zeroW
        * w1 (ix2 j n)) + b1 (ix1 n)

/-- The gated update at `(p, q)`: with `gi = agg · wih + bih` and `gh = h · whh + bhh` (192 columns each, in three
    blocks of 64: reset, update, candidate), `r = σ (gi_r + gh_r)`, `z = σ (gi_z + gh_z)`,
    `n = tanh (gi_n + r · gh_n)`, and the new state is `relu ((1 − z) · n + z · h)`. -/
def gru {N : Nat} (agg h : A2 N 64) (wih : A2 64 192) (bih : A1 192) (whh : A2 64 192) (bhh : A1 192)
    (p : Fin N) (q : Fin 64) : EReal :=
  max ((oneW - Ideal.logistic (lin agg wih bih p ⟨64 + q.val, by omega⟩ + lin h whh bhh p ⟨64 + q.val, by omega⟩))
        * Ideal.tanh (lin agg wih bih p ⟨128 + q.val, by omega⟩
            + Ideal.logistic (lin agg wih bih p ⟨q.val, by omega⟩ + lin h whh bhh p ⟨q.val, by omega⟩)
              * lin h whh bhh p ⟨128 + q.val, by omega⟩)
      + Ideal.logistic (lin agg wih bih p ⟨64 + q.val, by omega⟩ + lin h whh bhh p ⟨64 + q.val, by omega⟩) * h (ix2 p q))
    zeroW

/-- A sum over 144 positions is the sum over the first 128 plus the sum over the last 16. -/
theorem sum144 (g : Fin 144 → EReal) :
    ∑ k : Fin 144, g k = (∑ k : Fin 128, g ⟨k.val, by omega⟩) + ∑ k : Fin 16, g ⟨128 + k.val, by omega⟩ :=
  Fin.sum_univ_add (a := 128) (b := 16) g

/-- The two arrangements of the edge network agree wherever the concatenated input and weight restrict to the
    pieces: columns 0..127 of `cat` are `hsd`, columns 128..143 are `e`, rows 0..127 of `W0` are `wc`, rows
    128..143 are `we`. -/
theorem mlpSplit_eq_mlpWhole {E : Nat} (hsd : A2 E 128) (e : A2 E 16) (wc : A2 128 64) (we : A2 16 64) (b0 : A1 64)
    (w1 : A2 64 64) (b1 : A1 64) (cat : A2 E 144) (W0 : A2 144 64)
    (hlo : ∀ (p : Fin E) (k : Fin 128), cat (ix2 p ⟨k.val, by omega⟩) = hsd (ix2 p k))
    (hhi : ∀ (p : Fin E) (k : Fin 16), cat (ix2 p ⟨128 + k.val, by omega⟩) = e (ix2 p k))
    (hwc : ∀ (k : Fin 128) (j : Fin 64), W0 (ix2 ⟨k.val, by omega⟩ j) = wc (ix2 k j))
    (hwe : ∀ (k : Fin 16) (j : Fin 64), W0 (ix2 ⟨128 + k.val, by omega⟩ j) = we (ix2 k j))
    (p : Fin E) (n : Fin 64) :
    mlpSplit hsd e wc we b0 w1 b1 p n = mlpWhole cat W0 b0 w1 b1 p n := by
  unfold mlpSplit mlpWhole lin
  refine congrArg (· + b1 (ix1 n)) (Finset.sum_congr rfl fun j _ => ?_)
  rw [sum144 (fun k => cat (ix2 p k) * W0 (ix2 k j))]
  simp only [hlo, hhi, hwc, hwe]

end Cert.Net

end
-- ==== Proof.LibRowGather.lean ====
/-
  A ROW GATHER read at an index.

  `x[idx]` of a table `x : [N, C]` at a column of integers `idx : [P, 1]` (one start index per result row) is
  StableHLO's gather with offset axis 1, collapsed axis 0, start-index map [0], the index vector on axis 1 and
  slices of one whole row. Result entry `(p, q)` is the table's entry `(ρ p, q)`, where `ρ p` is the start index
  `idx[p, 0]` read as a signed integer and clamped into `[0, N − 1]` — the same row for every column `q`, and the same
  row whatever the table's width `C`. That last fact is what lets a product on the right be taken before or after
  the gather: `(X · W)[ρ p, q] = ∑ k, X[ρ p, k] · W[k, q]`.
-/
import Idealize.ShloMosaic.PureOps.Ideal
import Idealize.ShloMosaic.Lib.ValueIdx

noncomputable section

namespace Cert.RowGather

open Idealize.ShloMosaic Idealize.ShloMosaic.ValueIdx

/-- The row of an `N`-row table that result row `p`'s start index selects: the 32-bit word read signed and clamped
    into `[0, N − 1]`. It does not depend on the table's width. -/
def rowOf (N : Nat) (hN : 0 < N) {P : Nat} (idx : (⟨2, ![P, 1]⟩ : Shape).Idx → BitVec 32) (p : Fin P) : Fin N :=
  ⟨min (idx (ix2 p 0)).toInt.toNat (N - 1), by omega⟩

/-- The dimension numbers of a row gather from `[N, C]` by `[P, 1]` start indices into `[P, C]`; their conditions
    `wf` are decided on a program's literal shapes. -/
abbrev rowDims (N P C : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(p, q)`: the table at row `rowOf … p`, column `q`. -/
theorem gather_rows_apply {α : Type} {N P C : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ 32) (p : Fin P) (q : Fin C) :
    Host.gather (rowDims N P C wf) x idx (ix2 p q) = x (ix2 (rowOf N hN idx p) q) := by
  unfold Host.gather
  congr 1
  funext a
  refine Fin.ext ?_
  match a with
  | ⟨0, _⟩ =>
    show (rowDims N P C wf).start (ix2 p q) idx 0 + (rowDims N P C wf).batchCoord (ix2 p q) 0
      + (rowDims N P C wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P C wf).startIndexMap from List.mem_singleton.mpr rfl)]
    have hsi : (rowDims N P C wf).siIdx (ix2 p q) ⟨List.idxOf (0 : Fin 2) (rowDims N P C wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    show (rowDims N P C wf).start (ix2 p q) idx 1 + (rowDims N P C wf).batchCoord (ix2 p q) 1
      + (rowDims N P C wf).offCoord (ix2 p q) 1 = _
    rw [GatherDims.batchCoord_eq_zero _ _ _ List.not_mem_nil]
    unfold GatherDims.start
    have h10 : ¬ (1 : Fin 2) ∈ [(0 : Fin 2)] := fun h =>
      absurd (congrArg Fin.val (List.mem_singleton.mp h)) Nat.one_ne_zero
    rw [dif_neg (show ¬ (1 : Fin 2) ∈ (rowDims N P C wf).startIndexMap from h10)]
    unfold GatherDims.offCoord
    rw [dif_pos (show (1 : Fin 2) ∈ (rowDims N P C wf).sKept from
      (GatherDims.mem_sKept _ _).mpr ⟨h10, List.not_mem_nil⟩)]
    simp only [Nat.add_zero, Nat.zero_add]
    rfl

end Cert.RowGather

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.LibBridgeRead.lean ====
/-
  Host operations of a stacked-weight message network read at an index given by its coordinates.

  Each statement takes one host operation (or a short chain of them) at literal ranks and says which entry of the
  operand the entry at the named coordinates is:
    • a layer of a stack — the slice [1, a, B] of [L, A, B] at offsets (l, o, 0), its unit axis dropped — reads at (k, j)
      the stack at (l, o + k, j); likewise a row of a stack of vectors;
    • the maximum with the broadcast zero literal is the maximum with that literal;
    • three arrays laid side by side along axis 1 read, at a column, the piece that holds the column;
    • two columns laid side by side and flattened interleave their entries; a flat list broadcast to a column reads its entry;
    • 1600000 rows of 64 columns re-read as 800000 rows of 128 put rows 2 p and 2 p + 1 side by side in row p;
    • the wrap of a negative entry by a table height is one function of the 32-bit entry.
-/
import Idealize.ShloMosaic.PureOps.Ideal.Laws
import Idealize.ShloMosaic.Lib.Pipeline.Value
import Idealize.ShloMosaic.Lib.ValueIdx

noncomputable section

open scoped BigOperators

namespace Cert.BridgeRead

open Idealize.ShloMosaic Idealize.ShloMosaic.ValueIdx

variable {α : Type}

/-! ### A layer of a stack -/

/-- Rows o .. o + a − 1 of layer l of a stack [L, A, B]: the slice [1, a, B] at (l, o, 0) with the unit axis dropped reads
    at (k, j) the stack at (l, o + k, j). -/
theorem slice3_drop_apply {L A B a l o : Nat} (W : (⟨3, ![L, A, B]⟩ : Shape).Idx → α)
    (hs : (⟨3, ![L, A, B]⟩ : Shape).Slices ![l, o, 0] ⟨3, ![1, a, B]⟩)
    (hc : (⟨3, ![1, a, B]⟩ : Shape).ShapeCasts ⟨2, ![a, B]⟩) (hl : l < L) (k : Fin a) (ho : o + k.val < A) (j : Fin B) :
    shapeCast ⟨2, ![a, B]⟩ (extractStridedSlice ⟨3, ![1, a, B]⟩ ![l, o, 0] W hs) hc (ix2 k j)
      = W (ix3 ⟨l, hl⟩ ⟨o + k.val, ho⟩ j) := by
  refine (shapeCast_dropUnit_apply ![a, B] _ hc (ix2 k j)).trans ?_
  refine extractStridedSlice_apply ![l, o, 0] W hs _ _ fun ax => ?_
  match ax with
  | ⟨0, _⟩ => rfl
  | ⟨1, _⟩ => rfl
  | ⟨2, _⟩ => show j.val = 0 + j.val; omega

/-- Row l of a stack [L, B] of vectors: the slice [1, B] at (l, 0) with the unit axis dropped reads at j the stack at (l, j). -/
theorem slice2_drop_apply {L B l : Nat} (b : (⟨2, ![L, B]⟩ : Shape).Idx → α)
    (hs : (⟨2, ![L, B]⟩ : Shape).Slices ![l, 0] ⟨2, ![1, B]⟩)
    (hc : (⟨2, ![1, B]⟩ : Shape).ShapeCasts ⟨1, ![B]⟩) (hl : l < L) (j : Fin B) :
    shapeCast ⟨1, ![B]⟩ (extractStridedSlice ⟨2, ![1, B]⟩ ![l, 0] b hs) hc (ix1 j) = b (ix2 ⟨l, hl⟩ j) := by
  refine (shapeCast_dropUnit_apply ![B] _ hc (ix1 j)).trans ?_
  refine extractStridedSlice_apply ![l, 0] b hs _ _ fun ax => ?_
  match ax with
  | ⟨0, _⟩ => rfl
  | ⟨1, _⟩ => show j.val = 0 + j.val; omega

/-! ### Broadcasts -/

/-- A flat list broadcast to a column reads at (p, 0) its entry p. -/
theorem column_bcast_apply {P : Nat} (v : (⟨1, ![P]⟩ : Shape).Idx → α)
    (h : (⟨1, ![P]⟩ : Shape).BroadcastsInDim ⟨2, ![P, 1]⟩ (![0] : Fin 1 → Fin 2)) (p : Fin P) :
    broadcastInDim ⟨2, ![P, 1]⟩ ![0] h v (ix2 p 0) = v (ix1 p) := by
  refine broadcastInDim_apply _ h v (ix2 p 0) (ix1 p) fun ax => ?_
  match ax with
  | ⟨0, _⟩ =>
    show p.val = if P = 1 then 0 else p.val
    have := p.isLt
    split <;> omega

/-- The maximum with the broadcast of the zero literal, at an index. -/
theorem relu_apply {s : Shape} (x : FVec Ideal s .f32)
    (h0 : (⟨0, ![]⟩ : Shape).BroadcastsInDim s (![] : Fin 0 → Fin s.rank)) (i : s.Idx) :
    maximumf x (broadcastInDim s ![] h0 (constant (F := Ideal) ⟨0, ![]⟩ .f32 0x00000000#32)) i
      = max (x i) (Ideal.ofBits .f32 0x00000000#32) := rfl

/-! ### Pieces laid side by side -/

section Concat3
variable {E n₁ n₂ n₃ n : Nat} (x₁ : (⟨2, ![E, n₁]⟩ : Shape).Idx → α) (x₂ : (⟨2, ![E, n₂]⟩ : Shape).Idx → α)
  (x₃ : (⟨2, ![E, n₃]⟩ : Shape).Idx → α)
  (h : Shape.Concatenates [(⟨2, ![E, n₁]⟩ : Shape), ⟨2, ![E, n₂]⟩, ⟨2, ![E, n₃]⟩] ⟨2, ![E, n]⟩ 1)

/-- Three arrays side by side along axis 1, at a column of the first. -/
theorem concat3_apply_fst (p : Fin E) (c : Fin n) (hc : c.val < n₁) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₁ (ix2 p ⟨c.val, hc⟩) := by
  refine concatenate_apply_piece 1 [⟨⟨2, ![E, n₁]⟩, x₁⟩, ⟨⟨2, ![E, n₂]⟩, x₂⟩, ⟨⟨2, ![E, n₃]⟩, x₃⟩] h (ix2 p c) 0 (by show 0 < 3; omega) _ x₁ rfl rfl 0 rfl (ix2 p ⟨c.val, hc⟩) (fun b => ?_) ?_
  · match b with
    | ⟨0, _⟩ => exact fun _ => rfl
    | ⟨1, _⟩ => exact fun hne => absurd rfl hne
  · show 0 + c.val = c.val; omega

/-- Three arrays side by side along axis 1, at a column of the second. -/
theorem concat3_apply_snd (p : Fin E) (c : Fin n) (h1 : n₁ ≤ c.val) (h2 : c.val - n₁ < n₂) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₂ (ix2 p ⟨c.val - n₁, h2⟩) := by
  refine concatenate_apply_piece 1 [⟨⟨2, ![E, n₁]⟩, x₁⟩, ⟨⟨2, ![E, n₂]⟩, x₂⟩, ⟨⟨2, ![E, n₃]⟩, x₃⟩] h (ix2 p c) 1 (by show 1 < 3; omega) _ x₂ rfl rfl n₁ rfl (ix2 p ⟨c.val - n₁, h2⟩) (fun b => ?_) ?_
  · match b with
    | ⟨0, _⟩ => exact fun _ => rfl
    | ⟨1, _⟩ => exact fun hne => absurd rfl hne
  · show n₁ + (c.val - n₁) = c.val; omega

/-- Three arrays side by side along axis 1, at a column of the third. -/
theorem concat3_apply_trd (p : Fin E) (c : Fin n) (h1 : n₁ + n₂ ≤ c.val) (h2 : c.val - (n₁ + n₂) < n₃) :
    concatenate ⟨2, ![E, n]⟩ 1 [⟨⟨2, ![E, n₁]⟩, x₁⟩, ⟨⟨2, ![E, n₂]⟩, x₂⟩, ⟨⟨2, ![E, n₃]⟩, x₃⟩] h (ix2 p c)
      = x₃ (ix2 p ⟨c.val - (n₁ + n₂), h2⟩) := by
  refine concatenate_apply_piece 1 [⟨⟨2, ![E, n₁]⟩, x₁⟩, ⟨⟨2, ![E, n₂]⟩, x₂⟩, ⟨⟨2, ![E, n₃]⟩, x₃⟩] h (ix2 p c) 2 (by show 2 < 3; omega) _ x₃ rfl rfl (n₁ + n₂) rfl (ix2 p ⟨c.val - (n₁ + n₂), h2⟩) (fun b => ?_) ?_
  · match b with
    | ⟨0, _⟩ => exact fun _ => rfl
    | ⟨1, _⟩ => exact fun hne => absurd rfl hne
  · show n₁ + n₂ + (c.val - (n₁ + n₂)) = c.val; omega

end Concat3

/-! ### Two columns interleaved, and rows re-read in pairs -/

section Concat2
variable {E : Nat} (x₁ x₂ : (⟨2, ![E, 1]⟩ : Shape).Idx → α)
  (h : Shape.Concatenates [(⟨2, ![E, 1]⟩ : Shape), ⟨2, ![E, 1]⟩] ⟨2, ![E, 2]⟩ 1)

/-- Two columns side by side, at column 0: the first. -/
theorem concat2_cols_apply_fst (p : Fin E) :
    concatenate ⟨2, ![E, 2]⟩ 1 [⟨⟨2, ![E, 1]⟩, x₁⟩, ⟨⟨2, ![E, 1]⟩, x₂⟩] h (ix2 p 0) = x₁ (ix2 p 0) := by
  refine concatenate_apply_piece 1 [⟨⟨2, ![E, 1]⟩, x₁⟩, ⟨⟨2, ![E, 1]⟩, x₂⟩] h (ix2 p 0) 0 (by show 0 < 2; omega) _ x₁ rfl rfl 0 rfl
    (ix2 p 0) (fun b => ?_) rfl
  match b with
  | ⟨0, _⟩ => exact fun _ => rfl
  | ⟨1, _⟩ => exact fun hne => absurd rfl hne

/-- Two columns side by side, at column 1: the second. -/
theorem concat2_cols_apply_snd (p : Fin E) :
    concatenate ⟨2, ![E, 2]⟩ 1 [⟨⟨2, ![E, 1]⟩, x₁⟩, ⟨⟨2, ![E, 1]⟩, x₂⟩] h (ix2 p 1) = x₂ (ix2 p 0) := by
  refine concatenate_apply_piece 1 [⟨⟨2, ![E, 1]⟩, x₁⟩, ⟨⟨2, ![E, 1]⟩, x₂⟩] h (ix2 p 1) 1 (by show 1 < 2; omega) _ x₂ rfl rfl 1 rfl
    (ix2 p 0) (fun b => ?_) rfl
  match b with
  | ⟨0, _⟩ => exact fun _ => rfl
  | ⟨1, _⟩ => exact fun hne => absurd rfl hne

end Concat2

/-- An [800000, 2] array flattened: entry 2 p + c of the flat list is entry (p, c). -/
theorem reshape_interleave_apply (x : (⟨2, ![800000, 2]⟩ : Shape).Idx → α)
    (h : (⟨2, ![800000, 2]⟩ : Shape).ShapeCasts ⟨1, ![1600000]⟩) (p : Fin 800000) (c : Fin 2) :
    shapeCast ⟨1, ![1600000]⟩ x h (ix1 ⟨2 * p.val + c.val, by omega⟩) = x (ix2 p c) := by
  refine shapeCast_apply x h _ _ ?_
  rw [Shape.rowMajor_val_two, Shape.rowMajor_val_one]
  show p.val * 2 + c.val = 2 * p.val + c.val
  omega

/-- 1600000 rows of 64 columns re-read as 800000 rows of 128: entry (p, k) is row 2 p + k / 64, column k % 64. -/
theorem reshape_rowpairs_apply (x : (⟨2, ![1600000, 64]⟩ : Shape).Idx → α)
    (h : (⟨2, ![1600000, 64]⟩ : Shape).ShapeCasts ⟨2, ![800000, 128]⟩) (p : Fin 800000) (k : Fin 128) :
    shapeCast ⟨2, ![800000, 128]⟩ x h (ix2 p k)
      = x (ix2 ⟨2 * p.val + k.val / 64, by omega⟩ ⟨k.val % 64, by omega⟩) := by
  refine shapeCast_apply x h _ _ ?_
  rw [Shape.rowMajor_val_two, Shape.rowMajor_val_two]
  show (2 * p.val + k.val / 64) * 64 + k.val % 64 = p.val * 128 + k.val
  omega

/-! ### Start indices -/

/-- A start index as the host computes it from a node number: a negative 32-bit entry moved up by the table height. -/
def wrapW (N w : BitVec 32) : BitVec 32 := Scalar.select (IntOp.cmpi .slt w 0#32) (IntOp.addi w N) w

/-- The column of start indices made from a flat list of node numbers reads, at (p, 0), the wrap of entry p. -/
theorem start_apply {P : Nat} (N : BitVec 32) (v : IVec ⟨1, ![P]⟩ 32)
    (h0 : (⟨0, ![]⟩ : Shape).BroadcastsInDim ⟨1, ![P]⟩ (![] : Fin 0 → Fin 1))
    (hb : (⟨1, ![P]⟩ : Shape).BroadcastsInDim ⟨2, ![P, 1]⟩ (![0] : Fin 1 → Fin 2)) (p : Fin P) :
    broadcastInDim ⟨2, ![P, 1]⟩ ![0] hb
        (select (cmpi .slt v (broadcastInDim ⟨1, ![P]⟩ ![] h0 (constantI ⟨0, ![]⟩ 32 0#32)))
          (addi v (broadcastInDim ⟨1, ![P]⟩ ![] h0 (constantI ⟨0, ![]⟩ 32 N))) v) (ix2 p 0)
      = wrapW N (v (ix1 p)) :=
  column_bcast_apply _ hb p

end Cert.BridgeRead

end
-- ==== Proof.MlpBridge.lean ====
/-
  The message network on the host side, at the exact extended-real values: what the kernel's region is fed — both
  endpoints' states of every edge from ONE gather of the interleaved endpoint list, the edge features, and the
  first weight taken apart into its rows 0..127 and 128..143 — computes, through the split arrangement of the
  network, the same entry as the reference's host operations — two gathers, a three-way concatenation and one
  144-long contraction. The pieces: the reference's host network is the whole arrangement entry by entry; the
  concatenated input reads the source's row, the destination's row or the edge features according to the column;
  the kernel's gathered input reads the same rows, because row 2 p (2 p + 1) of the interleaved start indices is
  the same 32-bit word as row p of the source's (destination's) start indices; the two programs' weight slices read
  the same entries of the stacked weights; and the law that joins the two arrangements (Spec).
-/
import proofs.«148557_j77953656422434_2_alg».proof.Proof.Glue
import proofs.«148557_j77953656422434_2_alg».proof.Proof.Spec
import proofs.«148557_j77953656422434_2_alg».proof.Proof.LibRowGather
import proofs.«148557_j77953656422434_2_alg».proof.Proof.LibHostRead
import proofs.«148557_j77953656422434_2_alg».proof.Proof.LibBridgeRead

noncomputable section

open scoped BigOperators

namespace Cert.Net.Bridge

open Idealize.ShloMosaic Idealize.ShloMosaic.ValueIdx Cert.HostRead Cert.BridgeRead Cert.RowGather

/-- The node table has a row. -/
theorem rows_pos : 0 < 50000 := by decide

/-! ### The weights: both programs' slices read the stacked arrays at the same entries -/

/-- A layer that a [1, 128, 64] slice of the [3, 144, 64] stack names is one of the three. -/
theorem layer_lt (l : Nat) (hs : Cert.KernelIdeal.S3x144x64.Slices ![l, 0, 0] Cert.KernelIdeal.S1x128x64) : l < 3 :=
  hs.2 0

/-- Rows 0..127 of layer l's first weight, at (k, j). -/
theorem wc_apply (l : Nat) (hs : Cert.KernelIdeal.S3x144x64.Slices ![l, 0, 0] Cert.KernelIdeal.S1x128x64)
    (W0 : FVec Ideal Cert.KernelIdeal.S3x144x64 .f32) (hl : l < 3) (k : Fin 128) (j : Fin 64) :
    K.wc l hs W0 (ix2 k j) = W0 (ix3 ⟨l, hl⟩ ⟨k.val, by omega⟩ j) := by
  unfold K.wc
  show shapeCast Cert.KernelIdeal.S128x64 (extractStridedSlice Cert.KernelIdeal.S1x128x64 ![l, 0, 0] W0 hs)
    Cert.KernelIdeal.Facts₀.shapeCasts_S1x128x64_S128x64 (ix2 k j) = _
  refine (slice3_drop_apply W0 hs _ hl k (by omega) j).trans ?_
  exact congrArg W0 (congrArg (fun r => ix3 ⟨l, hl⟩ r j) (Fin.ext (Nat.zero_add _)))

/-- Rows 128..143 of layer l's first weight, at (k, j). -/
theorem we_apply (l : Nat) (hs : Cert.KernelIdeal.S3x144x64.Slices ![l, 128, 0] Cert.KernelIdeal.S1x16x64)
    (W0 : FVec Ideal Cert.KernelIdeal.S3x144x64 .f32) (hl : l < 3) (k : Fin 16) (j : Fin 64) :
    K.we l hs W0 (ix2 k j) = W0 (ix3 ⟨l, hl⟩ ⟨128 + k.val, by omega⟩ j) := by
  unfold K.we
  show shapeCast Cert.KernelIdeal.S16x64 (extractStridedSlice Cert.KernelIdeal.S1x16x64 ![l, 128, 0] W0 hs)
    Cert.KernelIdeal.Facts₀.shapeCasts_S1x16x64_S16x64 (ix2 k j) = _
  exact slice3_drop_apply W0 hs _ hl k (by omega) j

/-- All 144 rows of layer l's first weight, at (k, j). -/
theorem w0_apply (l : Nat) (hs : Cert.ReferenceIdeal.S3x144x64.Slices ![l, 0, 0] Cert.ReferenceIdeal.S1x144x64)
    (W0 : FVec Ideal Cert.ReferenceIdeal.S3x144x64 .f32) (hl : l < 3) (k : Fin 144) (j : Fin 64) :
    R.w0 l hs W0 (ix2 k j) = W0 (ix3 ⟨l, hl⟩ k j) := by
  unfold R.w0
  refine (slice3_drop_apply W0 hs _ hl k (by omega) j).trans ?_
  exact congrArg W0 (congrArg (fun r => ix3 ⟨l, hl⟩ r j) (Fin.ext (Nat.zero_add _)))

/-- The kernel's rows 0..127 are the reference's rows 0..127. -/
theorem wc_eq_w0 (l : Nat) (hk : Cert.KernelIdeal.S3x144x64.Slices ![l, 0, 0] Cert.KernelIdeal.S1x128x64)
    (hr : Cert.ReferenceIdeal.S3x144x64.Slices ![l, 0, 0] Cert.ReferenceIdeal.S1x144x64)
    (W0 : FVec Ideal Cert.KernelIdeal.S3x144x64 .f32) (k : Fin 128) (j : Fin 64) :
    K.wc l hk W0 (ix2 k j) = R.w0 l hr W0 (ix2 ⟨k.val, by omega⟩ j) :=
  (wc_apply l hk W0 (layer_lt l hk) k j).trans (w0_apply l hr W0 (layer_lt l hk) ⟨k.val, by omega⟩ j).symm

/-- The kernel's rows 128..143 are the reference's rows 128..143. -/
theorem we_eq_w0 (l : Nat) (hk0 : Cert.KernelIdeal.S3x144x64.Slices ![l, 0, 0] Cert.KernelIdeal.S1x128x64)
    (hk : Cert.KernelIdeal.S3x144x64.Slices ![l, 128, 0] Cert.KernelIdeal.S1x16x64)
    (hr : Cert.ReferenceIdeal.S3x144x64.Slices ![l, 0, 0] Cert.ReferenceIdeal.S1x144x64)
    (W0 : FVec Ideal Cert.KernelIdeal.S3x144x64 .f32) (k : Fin 16) (j : Fin 64) :
    K.we l hk W0 (ix2 k j) = R.w0 l hr W0 (ix2 ⟨128 + k.val, by omega⟩ j) :=
  (we_apply l hk W0 (layer_lt l hk0) k j).trans (w0_apply l hr W0 (layer_lt l hk0) ⟨128 + k.val, by omega⟩ j).symm

/-- Row l of a stacked bias: the two programs spell the same array. -/
theorem bias64_eq (l : Nat) (hk : Cert.KernelIdeal.S3x64.Slices ![l, 0] Cert.KernelIdeal.S1x64)
    (hr : Cert.ReferenceIdeal.S3x64.Slices ![l, 0] Cert.ReferenceIdeal.S1x64) (b : FVec Ideal Cert.KernelIdeal.S3x64 .f32) :
    K.bias64 l hk b = R.bias64 l hr b := rfl

/-- Layer l's second weight: the two programs spell the same array (a change of format is the identity). -/
theorem w1_eq (l : Nat) (hk : Cert.KernelIdeal.S3x64x64.Slices ![l, 0, 0] Cert.KernelIdeal.S1x64x64)
    (hr : Cert.ReferenceIdeal.S3x64x64.Slices ![l, 0, 0] Cert.ReferenceIdeal.S1x64x64)
    (w : FVec Ideal Cert.KernelIdeal.S3x64x64 .f32) : K.w1 l hk w = R.w1 l hr w := rfl

/-! ### The reference's host network is the whole arrangement -/

/-- relu (c · W0 + b0) · W1 + b1 as the host computes it, at (p, n). -/
theorem mlp_apply (c : FVec Ideal Cert.ReferenceIdeal.S800000x144 .f32) (W0 : FVec Ideal Cert.ReferenceIdeal.S144x64 .f32)
    (b0 : FVec Ideal Cert.ReferenceIdeal.S64 .f32) (W1 : FVec Ideal Cert.ReferenceIdeal.S64x64 .f32)
    (b1 : FVec Ideal Cert.ReferenceIdeal.S64 .f32) (p : Fin 800000) (n : Fin 64) :
    R.mlp c W0 b0 W1 b1 (ix2 p n) = Cert.Net.mlpWhole c W0 b0 W1 b1 p n := by
  unfold R.mlp Cert.Net.mlpWhole Cert.Net.lin
  refine congrArg₂ (· + ·) ((dotGeneral_ix2_apply _ rfl rfl rfl rfl rfl rfl none _ W1 p n).trans ?_)
    (bias_rows_apply _ _ b1 p n)
  refine Finset.sum_congr rfl fun j _ => congrArg (· * W1 (ix2 j n)) ?_
  exact congrArg₂ max
    (congrArg₂ (· + ·) (dotGeneral_ix2_apply _ rfl rfl rfl rfl rfl rfl none c W0 p j) (bias_rows_apply _ _ b0 p j))
    (scalar_bcast_apply _ _ (ix2 p j))

/-! ### The reference's input: source row, destination row, edge features -/

section Cat
variable (h : FVec Ideal Cert.ReferenceIdeal.S50000x64 .f32) (ei : IVec Cert.ReferenceIdeal.S2x800000 32)
  (e : FVec Ideal Cert.ReferenceIdeal.S800000x16 .f32) (p : Fin 800000)

/-- Columns 0..63 of the concatenated input: the source's state. -/
theorem cat_apply_src (c : Fin 144) (hc : c.val < 64) :
    R.cat h ei e (ix2 p c) = h (ix2 (rowOf 50000 rows_pos (R.start (R.src ei)) p) ⟨c.val, hc⟩) := by
  unfold R.cat
  refine (concat3_apply_fst _ _ _ _ p c hc).trans ?_
  unfold R.rowsAt
  exact gather_rows_apply rows_pos _ h (R.start (R.src ei)) p ⟨c.val, hc⟩

/-- Columns 64..127 of the concatenated input: the destination's state. -/
theorem cat_apply_dst (c : Fin 144) (h1 : 64 ≤ c.val) (h2 : c.val < 128) :
    R.cat h ei e (ix2 p c) = h (ix2 (rowOf 50000 rows_pos (R.start (R.dst ei)) p) ⟨c.val - 64, by omega⟩) := by
  unfold R.cat
  refine (concat3_apply_snd _ _ _ _ p c h1 (by omega)).trans ?_
  unfold R.rowsAt
  exact gather_rows_apply rows_pos _ h (R.start (R.dst ei)) p ⟨c.val - 64, by omega⟩

/-- Columns 128..143 of the concatenated input: the edge features. -/
theorem cat_apply_edge (c : Fin 144) (h1 : 128 ≤ c.val) :
    R.cat h ei e (ix2 p c) = e (ix2 p ⟨c.val - 128, by omega⟩) := by
  unfold R.cat
  exact concat3_apply_trd _ _ _ _ p c h1 (by omega)

end Cat

/-! ### The kernel's input: one gather of the interleaved endpoints, read in pairs of rows -/

/-- The two programs spell the same source and destination lists. -/
theorem src_eq (ei : IVec Cert.KernelIdeal.S2x800000 32) : K.src ei = R.src ei := rfl
theorem dst_eq (ei : IVec Cert.KernelIdeal.S2x800000 32) : K.dst ei = R.dst ei := rfl

/-- A start-index column made from a list of node numbers reads the wrap of the list's entry. -/
theorem start_row (v : IVec Cert.ReferenceIdeal.S800000 32) (p : Fin 800000) :
    R.start v (ix2 p 0) = wrapW 50000#32 (v (ix1 p)) := by
  unfold R.start
  exact start_apply 50000#32 v _ _ p

/-- The interleaved start indices read the wrap of the interleaved list's entry. -/
theorem pairStart_row (ei : IVec Cert.KernelIdeal.S2x800000 32) (q : Fin 1600000) :
    K.pairStart ei (ix2 q 0) = wrapW 50000#32 (K.pair ei (ix1 q)) := by
  unfold K.pairStart
  exact start_apply 50000#32 (K.pair ei) _ _ q

/-- Entry 2 p of the interleaved list is edge p's source. -/
theorem pair_even (ei : IVec Cert.KernelIdeal.S2x800000 32) (p : Fin 800000) :
    K.pair ei (ix1 ⟨2 * p.val, by omega⟩) = R.src ei (ix1 p) := by
  unfold K.pair
  refine (reshape_interleave_apply _ _ p 0).trans ?_
  refine (concat2_cols_apply_fst _ _ _ p).trans ?_
  exact column_bcast_apply (K.src ei) _ p

/-- Entry 2 p + 1 of the interleaved list is edge p's destination. -/
theorem pair_odd (ei : IVec Cert.KernelIdeal.S2x800000 32) (p : Fin 800000) :
    K.pair ei (ix1 ⟨2 * p.val + 1, by omega⟩) = R.dst ei (ix1 p) := by
  unfold K.pair
  refine (reshape_interleave_apply _ _ p 1).trans ?_
  refine (concat2_cols_apply_snd _ _ _ p).trans ?_
  exact column_bcast_apply (K.dst ei) _ p

/-- Rows whose start indices are the same word are the same row. -/
theorem rowOf_congr {N P P' : Nat} (hN : 0 < N) (idx : (⟨2, ![P, 1]⟩ : Shape).Idx → BitVec 32)
    (idx' : (⟨2, ![P', 1]⟩ : Shape).Idx → BitVec 32) (p : Fin P) (p' : Fin P') (hw : idx (ix2 p 0) = idx' (ix2 p' 0)) :
    rowOf N hN idx p = rowOf N hN idx' p' :=
  Fin.ext (congrArg (fun w : BitVec 32 => min w.toInt.toNat (N - 1)) hw)

/-- Row 2 p of the one gather is the row edge p's source selects. -/
theorem row_even (ei : IVec Cert.KernelIdeal.S2x800000 32) (p : Fin 800000) :
    rowOf 50000 rows_pos (K.pairStart ei) ⟨2 * p.val, by omega⟩ = rowOf 50000 rows_pos (R.start (R.src ei)) p :=
  rowOf_congr rows_pos _ _ _ _
    ((pairStart_row ei _).trans ((congrArg (wrapW 50000#32) (pair_even ei p)).trans (start_row (R.src ei) p).symm))

/-- Row 2 p + 1 of the one gather is the row edge p's destination selects. -/
theorem row_odd (ei : IVec Cert.KernelIdeal.S2x800000 32) (p : Fin 800000) :
    rowOf 50000 rows_pos (K.pairStart ei) ⟨2 * p.val + 1, by omega⟩ = rowOf 50000 rows_pos (R.start (R.dst ei)) p :=
  rowOf_congr rows_pos _ _ _ _
    ((pairStart_row ei _).trans ((congrArg (wrapW 50000#32) (pair_odd ei p)).trans (start_row (R.dst ei) p).symm))

section Gathered
variable (h : FVec Ideal Cert.KernelIdeal.S50000x64 .f32) (ei : IVec Cert.KernelIdeal.S2x800000 32) (p : Fin 800000)

/-- The gathered input at (p, c): the state at the row that entry 2 p + c / 64 of the interleaved list selects,
    column c % 64. -/
theorem gathered_apply (c : Fin 128) :
    K.gathered h ei (ix2 p c)
      = h (ix2 (rowOf 50000 rows_pos (K.pairStart ei) ⟨2 * p.val + c.val / 64, by omega⟩) ⟨c.val % 64, by omega⟩) := by
  unfold K.gathered
  refine (reshape_rowpairs_apply _ _ p c).trans ?_
  exact gather_rows_apply rows_pos _ _ (K.pairStart ei) _ _

/-- Columns 0..63 of the gathered input: the source's state. -/
theorem gathered_apply_src (c : Fin 128) (hc : c.val < 64) :
    K.gathered h ei (ix2 p c) = h (ix2 (rowOf 50000 rows_pos (R.start (R.src ei)) p) ⟨c.val, hc⟩) := by
  refine (gathered_apply h ei p c).trans (congrArg h (congrArg₂ ix2 ?_ (Fin.ext (Nat.mod_eq_of_lt hc))))
  refine (congrArg (rowOf 50000 rows_pos (K.pairStart ei)) (Fin.ext ?_)).trans (row_even ei p)
  show 2 * p.val + c.val / 64 = 2 * p.val
  omega

/-- Columns 64..127 of the gathered input: the destination's state. -/
theorem gathered_apply_dst (c : Fin 128) (h1 : 64 ≤ c.val) :
    K.gathered h ei (ix2 p c) = h (ix2 (rowOf 50000 rows_pos (R.start (R.dst ei)) p) ⟨c.val - 64, by omega⟩) := by
  refine (gathered_apply h ei p c).trans (congrArg h (congrArg₂ ix2 ?_ (Fin.ext ?_)))
  · refine (congrArg (rowOf 50000 rows_pos (K.pairStart ei)) (Fin.ext ?_)).trans (row_odd ei p)
    show 2 * p.val + c.val / 64 = 2 * p.val + 1
    omega
  · show c.val % 64 = c.val - 64
    omega

end Gathered

/-! ### The bridge -/

/-- The split arrangement over what the kernel's region is fed is the reference's host network over its
    concatenated input, entry by entry. -/
theorem mlp_bridge (l : Nat)
    (hk0 : Cert.KernelIdeal.S3x144x64.Slices ![l, 0, 0] Cert.KernelIdeal.S1x128x64)
    (hk1 : Cert.KernelIdeal.S3x144x64.Slices ![l, 128, 0] Cert.KernelIdeal.S1x16x64)
    (hkb : Cert.KernelIdeal.S3x64.Slices ![l, 0] Cert.KernelIdeal.S1x64)
    (hkw : Cert.KernelIdeal.S3x64x64.Slices ![l, 0, 0] Cert.KernelIdeal.S1x64x64)
    (hr0 : Cert.ReferenceIdeal.S3x144x64.Slices ![l, 0, 0] Cert.ReferenceIdeal.S1x144x64)
    (hrb : Cert.ReferenceIdeal.S3x64.Slices ![l, 0] Cert.ReferenceIdeal.S1x64)
    (hrw : Cert.ReferenceIdeal.S3x64x64.Slices ![l, 0, 0] Cert.ReferenceIdeal.S1x64x64)
    (h : FVec Ideal Cert.KernelIdeal.S50000x64 .f32) (ei : IVec Cert.KernelIdeal.S2x800000 32)
    (e : FVec Ideal Cert.KernelIdeal.S800000x16 .f32) (W0 : FVec Ideal Cert.KernelIdeal.S3x144x64 .f32)
    (B0 : FVec Ideal Cert.KernelIdeal.S3x64 .f32) (W1 : FVec Ideal Cert.KernelIdeal.S3x64x64 .f32)
    (B1 : FVec Ideal Cert.KernelIdeal.S3x64 .f32) (p : Fin 800000) (n : Fin 64) :
    Cert.Net.mlpSplit (K.gathered h ei) (truncf .bf16 e Cert.KernelIdeal.Facts₀.bitsLt_bf16_f32) (K.wc l hk0 W0)
        (K.we l hk1 W0) (K.bias64 l hkb B0) (K.w1 l hkw W1) (K.bias64 l hkb B1) p n
      = R.mlp (R.cat h ei e) (R.w0 l hr0 W0) (R.bias64 l hrb B0) (R.w1 l hrw W1) (R.bias64 l hrb B1) (ix2 p n) := by
  refine (Cert.Net.mlpSplit_eq_mlpWhole (K.gathered h ei) (truncf .bf16 e Cert.KernelIdeal.Facts₀.bitsLt_bf16_f32)
    (K.wc l hk0 W0) (K.we l hk1 W0) (K.bias64 l hkb B0) (K.w1 l hkw W1) (K.bias64 l hkb B1) (R.cat h ei e)
    (R.w0 l hr0 W0) (fun p k => ?_) (fun p k => ?_) (fun k j => ?_) (fun k j => ?_) p n).trans ?_
  · by_cases hk : k.val < 64
    · exact (cat_apply_src h ei e p ⟨k.val, by omega⟩ hk).trans (gathered_apply_src h ei p k hk).symm
    · exact (cat_apply_dst h ei e p ⟨k.val, by omega⟩ (Nat.le_of_not_lt hk) k.isLt).trans
        (gathered_apply_dst h ei p k (Nat.le_of_not_lt hk)).symm
  · refine (cat_apply_edge h ei e p ⟨128 + k.val, by omega⟩ (Nat.le_add_right 128 k.val)).trans ?_
    exact congrArg e (congrArg (ix2 p) (Fin.ext (Nat.add_sub_cancel_left 128 k.val)))
  · exact (wc_eq_w0 l hk0 hr0 W0 k j).symm
  · exact (we_eq_w0 l hk0 hk1 hr0 W0 k j).symm
  · exact (mlp_apply (R.cat h ei e) (R.w0 l hr0 W0) (R.bias64 l hrb B0) (R.w1 l hrw W1) (R.bias64 l hrb B1) p n).symm

end Cert.Net.Bridge

end
-- ==== Proof.GruBridge.lean ====
/-
  The gated update as the reference's host operations compute it is, entry by entry, the function `Cert.Net.gru`:
  the two gate arrays are affine maps read at an entry (`lin`), their three blocks of 64 columns are columns
  `q`, `64 + q`, `128 + q`, the host's `1 / (1 + exp (−x))` is the logistic function because the word of the float
  one denotes the real one, and the remaining operations act entry by entry.
-/
import proofs.«148557_j77953656422434_2_alg».proof.Proof.Glue
import proofs.«148557_j77953656422434_2_alg».proof.Proof.Spec
import proofs.«148557_j77953656422434_2_alg».proof.Proof.LibHostRead

noncomputable section

namespace Cert.Net.Bridge

open Idealize.ShloMosaic Idealize.ShloMosaic.ValueIdx Cert.ReferenceIdeal Cert.ReferenceIdeal.Facts₀ Cert.HostRead

/-- The gate array at `(p, r)` is the affine map read there. -/
theorem gates_apply (x : FVec Ideal S50000x64 .f32) (w : FVec Ideal S64x192 .f32) (b : FVec Ideal S192 .f32)
    (p : Fin 50000) (r : Fin 192) : R.gates x w b (ix2 p r) = Cert.Net.lin x w b p r := by
  unfold R.gates Cert.Net.lin
  exact congrArg₂ (· + ·) (dotGeneral_ix2_apply _ rfl rfl rfl rfl rfl rfl none x w p r)
    (bias_rows_apply bcast_S192_S1x192_1 bcast_S1x192_S50000x192_0_1 b p r)

/-- The host's spelling of the logistic function at an entry. -/
theorem sigm_apply (x : FVec Ideal S50000x64 .f32) (i : S50000x64.Idx) : R.sigm x i = Ideal.logistic (x i) := by
  unfold R.sigm Ideal.logistic
  show Ideal.div (broadcastInDim S50000x64 ![] bcast_S_S50000x64 (constant (F := Ideal) S_ .f32 0x3F800000#32) i)
      (broadcastInDim S50000x64 ![] bcast_S_S50000x64 (constant (F := Ideal) S_ .f32 0x3F800000#32) i + Ideal.exp (-(x i))) = _
  rw [scalar_bcast_apply]
  show Ideal.div (Ideal.ofBits .f32 0x3F800000#32) (Ideal.ofBits .f32 0x3F800000#32 + Ideal.exp (-(x i))) = _
  rw [ofBits_one_f32]

/-- The three blocks of 64 gate columns at `(p, q)`. -/
theorem blk0_apply (g : FVec Ideal S50000x192 .f32) (p : Fin 50000) (q : Fin 64) :
    R.blk0 g (ix2 p q) = g (ix2 p ⟨q.val, by omega⟩) := by
  unfold R.blk0
  refine (cols_apply 0 slices_S50000x192_S50000x64_0_0 g p q (by omega)).trans ?_
  exact congrArg g (congrArg (ix2 p) (Fin.ext (Nat.zero_add _)))
theorem blk1_apply (g : FVec Ideal S50000x192 .f32) (p : Fin 50000) (q : Fin 64) :
    R.blk1 g (ix2 p q) = g (ix2 p ⟨64 + q.val, by omega⟩) := by
  unfold R.blk1
  exact cols_apply 64 slices_S50000x192_S50000x64_0_64 g p q (by omega)
theorem blk2_apply (g : FVec Ideal S50000x192 .f32) (p : Fin 50000) (q : Fin 64) :
    R.blk2 g (ix2 p q) = g (ix2 p ⟨128 + q.val, by omega⟩) := by
  unfold R.blk2
  exact cols_apply 128 slices_S50000x192_S50000x64_0_128 g p q (by omega)

/-- The reference's gated update, entry by entry, is `Cert.Net.gru`. -/
theorem gru_bridge (agg h : FVec Ideal S50000x64 .f32) (wih whh : FVec Ideal S64x192 .f32) (bih bhh : FVec Ideal S192 .f32)
    (p : Fin 50000) (q : Fin 64) :
    R.gruOf (R.gates agg wih bih) (R.gates h whh bhh) h (ix2 p q) = Cert.Net.gru agg h wih bih whh bhh p q := by
  unfold R.gruOf Cert.Net.gru
  show max
      ((broadcastInDim S50000x64 ![] bcast_S_S50000x64 (constant (F := Ideal) S_ .f32 0x3F800000#32) (ix2 p q)
          - R.sigm (addf (R.blk1 (R.gates agg wih bih)) (R.blk1 (R.gates h whh bhh))) (ix2 p q))
        * Ideal.tanh (R.blk2 (R.gates agg wih bih) (ix2 p q)
            + R.sigm (addf (R.blk0 (R.gates agg wih bih)) (R.blk0 (R.gates h whh bhh))) (ix2 p q)
              * R.blk2 (R.gates h whh bhh) (ix2 p q))
        + R.sigm (addf (R.blk1 (R.gates agg wih bih)) (R.blk1 (R.gates h whh bhh))) (ix2 p q) * h (ix2 p q))
      (broadcastInDim S50000x64 ![] bcast_S_S50000x64 (constant (F := Ideal) S_ .f32 0x00000000#32) (ix2 p q)) = _
  rw [sigm_apply, sigm_apply, scalar_bcast_apply, scalar_bcast_apply]
  show max
      ((Cert.Net.oneW - Ideal.logistic (R.blk1 (R.gates agg wih bih) (ix2 p q) + R.blk1 (R.gates h whh bhh) (ix2 p q)))
        * Ideal.tanh (R.blk2 (R.gates agg wih bih) (ix2 p q)
            + Ideal.logistic (R.blk0 (R.gates agg wih bih) (ix2 p q) + R.blk0 (R.gates h whh bhh) (ix2 p q))
              * R.blk2 (R.gates h whh bhh) (ix2 p q))
        + Ideal.logistic (R.blk1 (R.gates agg wih bih) (ix2 p q) + R.blk1 (R.gates h whh bhh) (ix2 p q)) * h (ix2 p q))
      Cert.Net.zeroW = _
  rw [blk0_apply, blk0_apply, blk1_apply, blk1_apply, blk2_apply, blk2_apply]
  simp only [gates_apply]

end Cert.Net.Bridge

end
-- ==== Proof.AssembleLayer.lean ====
/-
  One message-passing layer is the same function of the node states in both programs. On the kernel's side a
  layer is: the edge network over the interleaved gather with the first weight taken apart (`mlpSplit`), the
  messages summed at each destination, and the gated update (`gru`) — what the two regions leave, entry by entry;
  on the reference's side it is `R.layer`. They agree because the split contraction is the whole one
  (`Bridge.mlp_bridge`), the sum at the destinations is the same host operation applied to equal messages, and
  the host's gated update is `gru` entry by entry (`Bridge.gru_bridge`).
-/
import proofs.«148557_j77953656422434_2_alg».proof.Proof.MlpBridge
import proofs.«148557_j77953656422434_2_alg».proof.Proof.GruBridge
import proofs.«148557_j77953656422434_2_alg».proof.Proof.RefTerm

noncomputable section

namespace Cert.Net.Asm

open Idealize.ShloMosaic Idealize.ShloMosaic.ValueIdx

section layer

variable (l : Nat)
  (hk0 : Cert.KernelIdeal.S3x144x64.Slices ![l, 0, 0] Cert.KernelIdeal.S1x128x64)
  (hk1 : Cert.KernelIdeal.S3x144x64.Slices ![l, 128, 0] Cert.KernelIdeal.S1x16x64)
  (hkb : Cert.KernelIdeal.S3x64.Slices ![l, 0] Cert.KernelIdeal.S1x64)
  (hkw : Cert.KernelIdeal.S3x64x64.Slices ![l, 0, 0] Cert.KernelIdeal.S1x64x64)
  (hkg : Cert.KernelIdeal.S3x64x192.Slices ![l, 0, 0] Cert.KernelIdeal.S1x64x192)
  (hkB : Cert.KernelIdeal.S3x192.Slices ![l, 0] Cert.KernelIdeal.S1x192)
  (hr0 : Cert.ReferenceIdeal.S3x144x64.Slices ![l, 0, 0] Cert.ReferenceIdeal.S1x144x64)
  (ei : IVec Cert.KernelIdeal.S2x800000 32) (e : FVec Ideal Cert.KernelIdeal.S800000x16 .f32)
  (W0 : FVec Ideal Cert.KernelIdeal.S3x144x64 .f32) (B0 : FVec Ideal Cert.KernelIdeal.S3x64 .f32)
  (W1 : FVec Ideal Cert.KernelIdeal.S3x64x64 .f32) (B1 : FVec Ideal Cert.KernelIdeal.S3x64 .f32)
  (Wih : FVec Ideal Cert.KernelIdeal.S3x64x192 .f32) (Bih : FVec Ideal Cert.KernelIdeal.S3x192 .f32)
  (Whh : FVec Ideal Cert.KernelIdeal.S3x64x192 .f32) (Bhh : FVec Ideal Cert.KernelIdeal.S3x192 .f32)

/-- The messages of one layer as the kernel's region leaves them, as a whole array. -/
def kMsg (h : FVec Ideal Cert.KernelIdeal.S50000x64 .f32) : FVec Ideal Cert.KernelIdeal.S800000x64 .bf16 :=
  fun j => mlpSplit (K.gathered h ei) (truncf .bf16 e Cert.KernelIdeal.Facts₀.bitsLt_bf16_f32) (K.wc l hk0 W0) (K.we l hk1 W0)
    (K.bias64 l hkb B0) (K.w1 l hkw W1) (K.bias64 l hkb B1) (j 0) (j 1)

/-- The node states after one layer on the kernel's side, as a whole array. -/
def kLayer (h : FVec Ideal Cert.KernelIdeal.S50000x64 .f32) : FVec Ideal Cert.KernelIdeal.S50000x64 .f32 :=
  fun i => gru (K.agg (K.dst ei) (kMsg l hk0 hk1 hkb hkw ei e W0 B0 W1 B1 h)) h (K.gateW l hkg Wih) (K.bias192 l hkB Bih)
    (K.gateW l hkg Whh) (K.bias192 l hkB Bhh) (i 0) (i 1)

/-- The kernel's messages are the reference's. -/
theorem kMsg_eq (h : FVec Ideal Cert.KernelIdeal.S50000x64 .f32) :
    kMsg l hk0 hk1 hkb hkw ei e W0 B0 W1 B1 h
      = R.mlp (R.cat h ei e) (R.w0 l hr0 W0) (R.bias64 l hkb B0) (R.w1 l hkw W1) (R.bias64 l hkb B1) := by
  funext j
  obtain ⟨p, n, rfl⟩ : ∃ (p : Fin 800000) (n : Fin 64), j = ix2 p n := ⟨j 0, j 1, eq_ix2 j⟩
  exact Bridge.mlp_bridge l hk0 hk1 hkb hkw hr0 hkb hkw h ei e W0 B0 W1 B1 p n

/-- One layer on the kernel's side is one layer of the reference. -/
theorem kLayer_eq (h : FVec Ideal Cert.KernelIdeal.S50000x64 .f32) :
    kLayer l hk0 hk1 hkb hkw hkg hkB ei e W0 B0 W1 B1 Wih Bih Whh Bhh h
      = R.layer l hr0 hkb hkw hkg hkB ei e W0 B0 W1 B1 Wih Bih Whh Bhh h := by
  funext i
  obtain ⟨p, q, rfl⟩ : ∃ (p : Fin 50000) (q : Fin 64), i = ix2 p q := ⟨i 0, i 1, eq_ix2 i⟩
  unfold kLayer R.layer
  rw [Bridge.gru_bridge, kMsg_eq l hk0 hk1 hkb hkw hr0]
  rfl

end layer

end Cert.Net.Asm

end
-- ==== Proof.KernelReads0.lean ====
/-
  What the first two regions of the kernel's program find at their entries, as named functions of the launch
  contents. The buffer contents at the boundaries of the program's segments are a fold of the launch memory through
  the segments; a buffer written by a stretch of host operations is read by computing the stretch at that buffer, a
  buffer no operation of a stretch writes keeps its contents across it, and across a region an output array holds
  what the region leaves, an input array what it held, every other buffer what it held. Read through these, each
  array a region stages is one of the host functions of the program's arithmetic applied to the launch contents of
  the arguments and to the earlier regions' outputs.
-/
import proofs.«148557_j77953656422434_2_alg».proof.Proof.Gen.KernelIdeal.Frame
import proofs.«148557_j77953656422434_2_alg».proof.Proof.Glue
import Idealize.ShloMosaic.PureOps.Ideal

set_option maxRecDepth 16384

noncomputable section

namespace Cert.Net.KRun

open Idealize.ShloMosaic Idealize.ShloMosaic.TcCoe Idealize.ShloMosaic.Tactic
open Idealize.ShloMosaic.Pipeline (Dat Cfg Window)
open Cert.KernelIdeal Cert.KernelIdeal.Gen
open Cert.Net

variable (m : (ℓ : Loc nD τ sig) → Buf (Elt Ideal) ℓ) (ρ : Dev nD → PrngReg) (c : Dev nD)

/-- Closes `after ops V b = V b` for a literal stretch `ops` none of whose operations writes the literal buffer `b`:
    each operation's written buffer is told apart from `b` by deciding the references' inequality. -/
macro "carried_across " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The launch contents of the arguments, and the regions' outputs -/

/-- Core `c`'s launch contents of argument 0: the node features. -/
abbrev arg0 : IVec S50000x9 32 := m ((c.tc : Thread nD τ).loc main_arg0)
/-- Core `c`'s launch contents of argument 1: the edge list (row 0 the sources, row 1 the destinations). -/
abbrev arg1 : IVec S2x800000 32 := m ((c.tc : Thread nD τ).loc main_arg1)
/-- Core `c`'s launch contents of argument 2: the edge features. -/
abbrev arg2 : IVec S800000x4 32 := m ((c.tc : Thread nD τ).loc main_arg2)
/-- Core `c`'s launch contents of argument 3: the graph of every node. -/
abbrev arg3 : IVec S50000 32 := m ((c.tc : Thread nD τ).loc main_arg3)
/-- Core `c`'s launch contents of argument 4: the node encoder's weight. -/
abbrev arg4 : FVec Ideal S9x64 .f32 := m ((c.tc : Thread nD τ).loc main_arg4)
/-- Core `c`'s launch contents of argument 5: the node encoder's bias. -/
abbrev arg5 : FVec Ideal S64 .f32 := m ((c.tc : Thread nD τ).loc main_arg5)
/-- Core `c`'s launch contents of argument 6: the edge encoder's weight. -/
abbrev arg6 : FVec Ideal S4x16 .f32 := m ((c.tc : Thread nD τ).loc main_arg6)
/-- Core `c`'s launch contents of argument 7: the edge encoder's bias. -/
abbrev arg7 : FVec Ideal S16 .f32 := m ((c.tc : Thread nD τ).loc main_arg7)
/-- Core `c`'s launch contents of argument 8: the three layers' first message weights, stacked. -/
abbrev arg8 : FVec Ideal S3x144x64 .f32 := m ((c.tc : Thread nD τ).loc main_arg8)
/-- Core `c`'s launch contents of argument 9: the three layers' first message biases, stacked. -/
abbrev arg9 : FVec Ideal S3x64 .f32 := m ((c.tc : Thread nD τ).loc main_arg9)
/-- Core `c`'s launch contents of argument 10: the three layers' second message weights, stacked. -/
abbrev arg10 : FVec Ideal S3x64x64 .f32 := m ((c.tc : Thread nD τ).loc main_arg10)
/-- Core `c`'s launch contents of argument 11: the three layers' second message biases, stacked. -/
abbrev arg11 : FVec Ideal S3x64 .f32 := m ((c.tc : Thread nD τ).loc main_arg11)
/-- Core `c`'s launch contents of argument 12: the three layers' input gate weights, stacked. -/
abbrev arg12 : FVec Ideal S3x64x192 .f32 := m ((c.tc : Thread nD τ).loc main_arg12)
/-- Core `c`'s launch contents of argument 13: the three layers' input gate biases, stacked. -/
abbrev arg13 : FVec Ideal S3x192 .f32 := m ((c.tc : Thread nD τ).loc main_arg13)
/-- Core `c`'s launch contents of argument 14: the three layers' state gate weights, stacked. -/
abbrev arg14 : FVec Ideal S3x64x192 .f32 := m ((c.tc : Thread nD τ).loc main_arg14)
/-- Core `c`'s launch contents of argument 15: the three layers' state gate biases, stacked. -/
abbrev arg15 : FVec Ideal S3x192 .f32 := m ((c.tc : Thread nD τ).loc main_arg15)
/-- Core `c`'s launch contents of argument 16: the readout's first weight. -/
abbrev arg16 : FVec Ideal S64x128 .f32 := m ((c.tc : Thread nD τ).loc main_arg16)
/-- Core `c`'s launch contents of argument 17: the readout's first bias. -/
abbrev arg17 : FVec Ideal S128 .f32 := m ((c.tc : Thread nD τ).loc main_arg17)
/-- Core `c`'s launch contents of argument 18: the readout's second weight. -/
abbrev arg18 : FVec Ideal S128x1 .f32 := m ((c.tc : Thread nD τ).loc main_arg18)
/-- Core `c`'s launch contents of argument 19: the readout's second bias. -/
abbrev arg19 : FVec Ideal S1 .f32 := m ((c.tc : Thread nD τ).loc main_arg19)

/-- The encoded node features: the node states before the first layer. -/
abbrev H0 : FVec Ideal S50000x64 .f32 := K.nodeEnc (arg0 m c) (arg4 m c) (arg5 m c)
/-- The encoded edge features. -/
abbrev E : FVec Ideal S800000x16 .f32 := K.edgeEnc (arg2 m c) (arg6 m c) (arg7 m c)

/-- What region 0 leaves in its output array: layer 0's messages. -/
abbrev R0 : FVec Ideal S800000x64 .bf16 := (dat0 (V1 m ρ) c).arrAt 7 cfg0.N
/-- What region 1 leaves in its output array: the node states after layer 0. -/
abbrev R1 : FVec Ideal S50000x64 .f32 := (dat1 (V3 m ρ) c).arrAt 6 cfg1.N
/-- What region 2 leaves in its output array: layer 1's messages. -/
abbrev R2 : FVec Ideal S800000x64 .bf16 := (dat2 (V5 m ρ) c).arrAt 7 cfg2.N
/-- What region 3 leaves in its output array: the node states after layer 1. -/
abbrev R3 : FVec Ideal S50000x64 .f32 := (dat3 (V7 m ρ) c).arrAt 6 cfg3.N
/-- What region 4 leaves in its output array: layer 2's messages. -/
abbrev R4 : FVec Ideal S800000x64 .bf16 := (dat4 (V9 m ρ) c).arrAt 7 cfg4.N
/-- What region 5 leaves in its output array: the node states after layer 2. -/
abbrev R5 : FVec Ideal S50000x64 .f32 := (dat5 (V11 m ρ) c).arrAt 6 cfg5.N

/-! ## The first stretch: what it makes from the launch contents -/

set_option maxHeartbeats 1000000 in
/-- The encoded node features. -/
theorem W1_v4 : W1 m ρ c (Proc.devRef .tc main_v4) = H0 m c := by
  show StableHlo.after hostOps0 (W0 m ρ c) (Proc.devRef .tc main_v4) = _
  after_results_simp
  rfl

set_option maxHeartbeats 1000000 in
/-- The encoded edge features, rounded to bf16. -/
theorem W1_v10 : W1 m ρ c (Proc.devRef .tc main_v10) = truncf .bf16 (E m c) Gen.bitsLt_bf16_f32 := by
  show StableHlo.after hostOps0 (W0 m ρ c) (Proc.devRef .tc main_v10) = _
  after_results_simp
  rfl

set_option maxHeartbeats 1000000 in
/-- Every edge's destination. -/
theorem W1_v14 : W1 m ρ c (Proc.devRef .tc main_v14) = K.dst (arg1 m c) := by
  show StableHlo.after hostOps0 (W0 m ρ c) (Proc.devRef .tc main_v14) = _
  after_results_simp
  rfl

set_option maxHeartbeats 1000000 in
/-- Sources and destinations interleaved. -/
theorem W1_v18 : W1 m ρ c (Proc.devRef .tc main_v18) = K.pair (arg1 m c) := by
  show StableHlo.after hostOps0 (W0 m ρ c) (Proc.devRef .tc main_v18) = _
  after_results_simp
  rfl

set_option maxHeartbeats 1000000 in
/-- Both endpoints' encoded features of every edge, side by side. -/
theorem W1_v27 : W1 m ρ c (Proc.devRef .tc main_v27) = K.gathered (H0 m c) (arg1 m c) := by
  show StableHlo.after hostOps0 (W0 m ρ c) (Proc.devRef .tc main_v27) = _
  after_results_simp
  rfl

set_option maxHeartbeats 1000000 in
/-- Rows 0..127 of layer 0's first message weight. -/
theorem W1_v30 : W1 m ρ c (Proc.devRef .tc main_v30) = K.wc 0 Gen.slices_S3x144x64_S1x128x64_0_0_0 (arg8 m c) := by
  show StableHlo.after hostOps0 (W0 m ρ c) (Proc.devRef .tc main_v30) = _
  after_results_simp
  rfl

set_option maxHeartbeats 1000000 in
/-- Rows 128..143 of layer 0's first message weight. -/
theorem W1_v33 : W1 m ρ c (Proc.devRef .tc main_v33) = K.we 0 Gen.slices_S3x144x64_S1x16x64_0_128_0 (arg8 m c) := by
  show StableHlo.after hostOps0 (W0 m ρ c) (Proc.devRef .tc main_v33) = _
  after_results_simp
  rfl

set_option maxHeartbeats 1000000 in
/-- Layer 0's first message bias. -/
theorem W1_v35 : W1 m ρ c (Proc.devRef .tc main_v35) = K.bias64 0 Gen.slices_S3x64_S1x64_0_0 (arg9 m c) := by
  show StableHlo.after hostOps0 (W0 m ρ c) (Proc.devRef .tc main_v35) = _
  after_results_simp
  rfl

set_option maxHeartbeats 1000000 in
/-- Layer 0's second message weight. -/
theorem W1_v38 : W1 m ρ c (Proc.devRef .tc main_v38) = K.w1 0 Gen.slices_S3x64x64_S1x64x64_0_0_0 (arg10 m c) := by
  show StableHlo.after hostOps0 (W0 m ρ c) (Proc.devRef .tc main_v38) = _
  after_results_simp
  rfl

set_option maxHeartbeats 1000000 in
/-- Layer 0's second message bias. -/
theorem W1_v40 : W1 m ρ c (Proc.devRef .tc main_v40) = K.bias64 0 Gen.slices_S3x64_S1x64_0_0 (arg11 m c) := by
  show StableHlo.after hostOps0 (W0 m ρ c) (Proc.devRef .tc main_v40) = _
  after_results_simp
  rfl

/-! ## What region 0 finds at its entry -/

theorem entry0_v27 : V1 m ρ c main_v27 = K.gathered (H0 m c) (arg1 m c) := W1_v27 m ρ c
theorem entry0_v10 : V1 m ρ c main_v10 = truncf .bf16 (E m c) Gen.bitsLt_bf16_f32 := W1_v10 m ρ c
theorem entry0_v30 : V1 m ρ c main_v30 = K.wc 0 Gen.slices_S3x144x64_S1x128x64_0_0_0 (arg8 m c) := W1_v30 m ρ c
theorem entry0_v33 : V1 m ρ c main_v33 = K.we 0 Gen.slices_S3x144x64_S1x16x64_0_128_0 (arg8 m c) := W1_v33 m ρ c
theorem entry0_v35 : V1 m ρ c main_v35 = K.bias64 0 Gen.slices_S3x64_S1x64_0_0 (arg9 m c) := W1_v35 m ρ c
theorem entry0_v38 : V1 m ρ c main_v38 = K.w1 0 Gen.slices_S3x64x64_S1x64x64_0_0_0 (arg10 m c) := W1_v38 m ρ c
theorem entry0_v40 : V1 m ρ c main_v40 = K.bias64 0 Gen.slices_S3x64_S1x64_0_0 (arg11 m c) := W1_v40 m ρ c

/-! ## Across region 0 -/

/-- Region 0's output array holds what the region leaves. -/
theorem W2_v41 : W2 m ρ c (Proc.devRef .tc main_v41) = R0 m ρ c := W2_arr m ρ c 7
/-- The encoded edge features are an input array of region 0: it keeps its contents. -/
theorem W2_v10 : W2 m ρ c (Proc.devRef .tc main_v10) = truncf .bf16 (E m c) Gen.bitsLt_bf16_f32 :=
  (W2_arr m ρ c 1).trans ((((dat0 (V1 m ρ) c).arrAt_in 1 rfl _).trans (A_eq0 (V1 m ρ) c 1)).trans (W1_v10 m ρ c))
/-- The encoded node features are no array of region 0. -/
theorem W2_v4 : W2 m ρ c (Proc.devRef .tc main_v4) = H0 m c := (W2_of_ne m ρ c main_v4 (by decide)).trans (W1_v4 m ρ c)
/-- The destinations are no array of region 0. -/
theorem W2_v14 : W2 m ρ c (Proc.devRef .tc main_v14) = K.dst (arg1 m c) := (W2_of_ne m ρ c main_v14 (by decide)).trans (W1_v14 m ρ c)
/-- The interleaved endpoints are no array of region 0. -/
theorem W2_v18 : W2 m ρ c (Proc.devRef .tc main_v18) = K.pair (arg1 m c) := (W2_of_ne m ρ c main_v18 (by decide)).trans (W1_v18 m ρ c)
/-- Argument 8 is as launched when region 0 is left. -/
theorem W2_arg8 : W2 m ρ c (Proc.devRef .tc main_arg8) = arg8 m c :=
  calc W2 m ρ c (Proc.devRef .tc main_arg8)
    _ = W1 m ρ c (Proc.devRef .tc main_arg8) := W2_of_ne m ρ c main_arg8 (by decide)
    _ = W0 m ρ c (Proc.devRef .tc main_arg8) := by carried_across hostOps0
    _ = arg8 m c := rfl
/-- Argument 9 is as launched when region 0 is left. -/
theorem W2_arg9 : W2 m ρ c (Proc.devRef .tc main_arg9) = arg9 m c :=
  calc W2 m ρ c (Proc.devRef .tc main_arg9)
    _ = W1 m ρ c (Proc.devRef .tc main_arg9) := W2_of_ne m ρ c main_arg9 (by decide)
    _ = W0 m ρ c (Proc.devRef .tc main_arg9) := by carried_across hostOps0
    _ = arg9 m c := rfl
/-- Argument 10 is as launched when region 0 is left. -/
theorem W2_arg10 : W2 m ρ c (Proc.devRef .tc main_arg10) = arg10 m c :=
  calc W2 m ρ c (Proc.devRef .tc main_arg10)
    _ = W1 m ρ c (Proc.devRef .tc main_arg10) := W2_of_ne m ρ c main_arg10 (by decide)
    _ = W0 m ρ c (Proc.devRef .tc main_arg10) := by carried_across hostOps0
    _ = arg10 m c := rfl
/-- Argument 11 is as launched when region 0 is left. -/
theorem W2_arg11 : W2 m ρ c (Proc.devRef .tc main_arg11) = arg11 m c :=
  calc W2 m ρ c (Proc.devRef .tc main_arg11)
    _ = W1 m ρ c (Proc.devRef .tc main_arg11) := W2_of_ne m ρ c main_arg11 (by decide)
    _ = W0 m ρ c (Proc.devRef .tc main_arg11) := by carried_across hostOps0
    _ = arg11 m c := rfl
/-- Argument 12 is as launched when region 0 is left. -/
theorem W2_arg12 : W2 m ρ c (Proc.devRef .tc main_arg12) = arg12 m c :=
  calc W2 m ρ c (Proc.devRef .tc main_arg12)
    _ = W1 m ρ c (Proc.devRef .tc main_arg12) := W2_of_ne m ρ c main_arg12 (by decide)
    _ = W0 m ρ c (Proc.devRef .tc main_arg12) := by carried_across hostOps0
    _ = arg12 m c := rfl
/-- Argument 13 is as launched when region 0 is left. -/
theorem W2_arg13 : W2 m ρ c (Proc.devRef .tc main_arg13) = arg13 m c :=
  calc W2 m ρ c (Proc.devRef .tc main_arg13)
    _ = W1 m ρ c (Proc.devRef .tc main_arg13) := W2_of_ne m ρ c main_arg13 (by decide)
    _ = W0 m ρ c (Proc.devRef .tc main_arg13) := by carried_across hostOps0
    _ = arg13 m c := rfl
/-- Argument 14 is as launched when region 0 is left. -/
theorem W2_arg14 : W2 m ρ c (Proc.devRef .tc main_arg14) = arg14 m c :=
  calc W2 m ρ c (Proc.devRef .tc main_arg14)
    _ = W1 m ρ c (Proc.devRef .tc main_arg14) := W2_of_ne m ρ c main_arg14 (by decide)
    _ = W0 m ρ c (Proc.devRef .tc main_arg14) := by carried_across hostOps0
    _ = arg14 m c := rfl
/-- Argument 15 is as launched when region 0 is left. -/
theorem W2_arg15 : W2 m ρ c (Proc.devRef .tc main_arg15) = arg15 m c :=
  calc W2 m ρ c (Proc.devRef .tc main_arg15)
    _ = W1 m ρ c (Proc.devRef .tc main_arg15) := W2_of_ne m ρ c main_arg15 (by decide)
    _ = W0 m ρ c (Proc.devRef .tc main_arg15) := by carried_across hostOps0
    _ = arg15 m c := rfl

/-! ## The second stretch: what it makes -/

/-- Layer 0's messages summed at each edge's destination. -/
theorem W3_v45 : W3 m ρ c (Proc.devRef .tc main_v45) = K.agg (K.dst (arg1 m c)) (R0 m ρ c) := by
  show StableHlo.after hostOps1 (W2 m ρ c) (Proc.devRef .tc main_v45) = _
  after_results
  rw [W2_v14 m ρ c, W2_v41 m ρ c]
  rfl

/-- Layer 0's input gate weight. -/
theorem W3_v48 : W3 m ρ c (Proc.devRef .tc main_v48) = K.gateW 0 Gen.slices_S3x64x192_S1x64x192_0_0_0 (arg12 m c) := by
  show StableHlo.after hostOps1 (W2 m ρ c) (Proc.devRef .tc main_v48) = _
  after_results
  rw [W2_arg12 m ρ c]
  rfl

/-- Layer 0's input gate bias. -/
theorem W3_v53 : W3 m ρ c (Proc.devRef .tc main_v53) = K.bias192 0 Gen.slices_S3x192_S1x192_0_0 (arg13 m c) := by
  show StableHlo.after hostOps1 (W2 m ρ c) (Proc.devRef .tc main_v53) = _
  after_results
  rw [W2_arg13 m ρ c]
  rfl

/-- Layer 0's state gate weight. -/
theorem W3_v51 : W3 m ρ c (Proc.devRef .tc main_v51) = K.gateW 0 Gen.slices_S3x64x192_S1x64x192_0_0_0 (arg14 m c) := by
  show StableHlo.after hostOps1 (W2 m ρ c) (Proc.devRef .tc main_v51) = _
  after_results
  rw [W2_arg14 m ρ c]
  rfl

/-- Layer 0's state gate bias. -/
theorem W3_v55 : W3 m ρ c (Proc.devRef .tc main_v55) = K.bias192 0 Gen.slices_S3x192_S1x192_0_0 (arg15 m c) := by
  show StableHlo.after hostOps1 (W2 m ρ c) (Proc.devRef .tc main_v55) = _
  after_results
  rw [W2_arg15 m ρ c]
  rfl

/-- The encoded node features are written by no operation of the second stretch. -/
theorem W3_v4 : W3 m ρ c (Proc.devRef .tc main_v4) = H0 m c :=
  calc W3 m ρ c (Proc.devRef .tc main_v4)
    _ = W2 m ρ c (Proc.devRef .tc main_v4) := by carried_across hostOps1
    _ = H0 m c := W2_v4 m ρ c

/-! ## What region 1 finds at its entry -/

theorem entry1_v45 : V3 m ρ c main_v45 = K.agg (K.dst (arg1 m c)) (R0 m ρ c) := W3_v45 m ρ c
theorem entry1_v4 : V3 m ρ c main_v4 = H0 m c := W3_v4 m ρ c
theorem entry1_v48 : V3 m ρ c main_v48 = K.gateW 0 Gen.slices_S3x64x192_S1x64x192_0_0_0 (arg12 m c) := W3_v48 m ρ c
theorem entry1_v53 : V3 m ρ c main_v53 = K.bias192 0 Gen.slices_S3x192_S1x192_0_0 (arg13 m c) := W3_v53 m ρ c
theorem entry1_v51 : V3 m ρ c main_v51 = K.gateW 0 Gen.slices_S3x64x192_S1x64x192_0_0_0 (arg14 m c) := W3_v51 m ρ c
theorem entry1_v55 : V3 m ρ c main_v55 = K.bias192 0 Gen.slices_S3x192_S1x192_0_0 (arg15 m c) := W3_v55 m ρ c

end Cert.Net.KRun

end
-- ==== Proof.KernelReads1.lean ====
/-
  What regions 2 and 3 of the kernel's program find at their entries, as named functions of the launch contents of the
  arguments and of the earlier regions' outputs: layer 1 repeats layer 0's two regions, with the node states layer 0
  left in place of the encoded node features and row 1 of every stacked weight.
-/
import proofs.«148557_j77953656422434_2_alg».proof.Proof.KernelReads0
import Idealize.ShloMosaic.PureOps.Ideal

set_option maxRecDepth 16384

noncomputable section

namespace Cert.Net.KRun

open Idealize.ShloMosaic Idealize.ShloMosaic.TcCoe Idealize.ShloMosaic.Tactic
open Idealize.ShloMosaic.Pipeline (Dat Cfg Window)
open Cert.KernelIdeal Cert.KernelIdeal.Gen
open Cert.Net

variable (m : (ℓ : Loc nD τ sig) → Buf (Elt Ideal) ℓ) (ρ : Dev nD → PrngReg) (c : Dev nD)

/-! # Layer 1

## At the exit of region 1 -/

/-- Region 1's output array holds what the region leaves. -/
theorem W4_v56 : W4 m ρ c (Proc.devRef .tc main_v56) = R1 m ρ c := W4_arr m ρ c 6
/-- Made by the first stretch; since then no operation has written it and no region has had it for an output. -/
theorem W4_v10 : W4 m ρ c (Proc.devRef .tc main_v10) = truncf .bf16 (E m c) Gen.bitsLt_bf16_f32 :=
  calc W4 m ρ c (Proc.devRef .tc main_v10)
    _ = W3 m ρ c (Proc.devRef .tc main_v10) := W4_of_ne m ρ c main_v10 (by decide)
    _ = W2 m ρ c (Proc.devRef .tc main_v10) := by carried_across hostOps1
    _ = truncf .bf16 (E m c) Gen.bitsLt_bf16_f32 := W2_v10 m ρ c
/-- Made by the first stretch; since then no operation has written it and no region has had it for an output. -/
theorem W4_v14 : W4 m ρ c (Proc.devRef .tc main_v14) = K.dst (arg1 m c) :=
  calc W4 m ρ c (Proc.devRef .tc main_v14)
    _ = W3 m ρ c (Proc.devRef .tc main_v14) := W4_of_ne m ρ c main_v14 (by decide)
    _ = W2 m ρ c (Proc.devRef .tc main_v14) := by carried_across hostOps1
    _ = K.dst (arg1 m c) := W2_v14 m ρ c
/-- Made by the first stretch; since then no operation has written it and no region has had it for an output. -/
theorem W4_v18 : W4 m ρ c (Proc.devRef .tc main_v18) = K.pair (arg1 m c) :=
  calc W4 m ρ c (Proc.devRef .tc main_v18)
    _ = W3 m ρ c (Proc.devRef .tc main_v18) := W4_of_ne m ρ c main_v18 (by decide)
    _ = W2 m ρ c (Proc.devRef .tc main_v18) := by carried_across hostOps1
    _ = K.pair (arg1 m c) := W2_v18 m ρ c
/-- Argument 8 is as launched at the exit of region 1. -/
theorem W4_arg8 : W4 m ρ c (Proc.devRef .tc main_arg8) = arg8 m c :=
  calc W4 m ρ c (Proc.devRef .tc main_arg8)
    _ = W3 m ρ c (Proc.devRef .tc main_arg8) := W4_of_ne m ρ c main_arg8 (by decide)
    _ = W2 m ρ c (Proc.devRef .tc main_arg8) := by carried_across hostOps1
    _ = arg8 m c := W2_arg8 m ρ c
/-- Argument 9 is as launched at the exit of region 1. -/
theorem W4_arg9 : W4 m ρ c (Proc.devRef .tc main_arg9) = arg9 m c :=
  calc W4 m ρ c (Proc.devRef .tc main_arg9)
    _ = W3 m ρ c (Proc.devRef .tc main_arg9) := W4_of_ne m ρ c main_arg9 (by decide)
    _ = W2 m ρ c (Proc.devRef .tc main_arg9) := by carried_across hostOps1
    _ = arg9 m c := W2_arg9 m ρ c
/-- Argument 10 is as launched at the exit of region 1. -/
theorem W4_arg10 : W4 m ρ c (Proc.devRef .tc main_arg10) = arg10 m c :=
  calc W4 m ρ c (Proc.devRef .tc main_arg10)
    _ = W3 m ρ c (Proc.devRef .tc main_arg10) := W4_of_ne m ρ c main_arg10 (by decide)
    _ = W2 m ρ c (Proc.devRef .tc main_arg10) := by carried_across hostOps1
    _ = arg10 m c := W2_arg10 m ρ c
/-- Argument 11 is as launched at the exit of region 1. -/
theorem W4_arg11 : W4 m ρ c (Proc.devRef .tc main_arg11) = arg11 m c :=
  calc W4 m ρ c (Proc.devRef .tc main_arg11)
    _ = W3 m ρ c (Proc.devRef .tc main_arg11) := W4_of_ne m ρ c main_arg11 (by decide)
    _ = W2 m ρ c (Proc.devRef .tc main_arg11) := by carried_across hostOps1
    _ = arg11 m c := W2_arg11 m ρ c

/-! ## The stretch before region 2 -/

set_option maxHeartbeats 1000000 in
/-- Both endpoints' states of every edge, side by side. -/
theorem W5_v65 : W5 m ρ c (Proc.devRef .tc main_v65) = K.gathered (R1 m ρ c) (arg1 m c) := by
  show StableHlo.after hostOps2 (W4 m ρ c) (Proc.devRef .tc main_v65) = _
  after_results_simp
  rw [W4_v56 m ρ c, W4_v18 m ρ c]
  rfl

set_option maxHeartbeats 1000000 in
/-- Rows 0..127 of layer 1's first message weight. -/
theorem W5_v68 : W5 m ρ c (Proc.devRef .tc main_v68) = K.wc 1 Gen.slices_S3x144x64_S1x128x64_1_0_0 (arg8 m c) := by
  show StableHlo.after hostOps2 (W4 m ρ c) (Proc.devRef .tc main_v68) = _
  after_results_simp
  rw [W4_arg8 m ρ c]
  rfl

set_option maxHeartbeats 1000000 in
/-- Rows 128..143 of layer 1's first message weight. -/
theorem W5_v71 : W5 m ρ c (Proc.devRef .tc main_v71) = K.we 1 Gen.slices_S3x144x64_S1x16x64_1_128_0 (arg8 m c) := by
  show StableHlo.after hostOps2 (W4 m ρ c) (Proc.devRef .tc main_v71) = _
  after_results_simp
  rw [W4_arg8 m ρ c]
  rfl

set_option maxHeartbeats 1000000 in
/-- Layer 1's first message bias. -/
theorem W5_v73 : W5 m ρ c (Proc.devRef .tc main_v73) = K.bias64 1 Gen.slices_S3x64_S1x64_1_0 (arg9 m c) := by
  show StableHlo.after hostOps2 (W4 m ρ c) (Proc.devRef .tc main_v73) = _
  after_results_simp
  rw [W4_arg9 m ρ c]
  rfl

set_option maxHeartbeats 1000000 in
/-- Layer 1's second message weight. -/
theorem W5_v76 : W5 m ρ c (Proc.devRef .tc main_v76) = K.w1 1 Gen.slices_S3x64x64_S1x64x64_1_0_0 (arg10 m c) := by
  show StableHlo.after hostOps2 (W4 m ρ c) (Proc.devRef .tc main_v76) = _
  after_results_simp
  rw [W4_arg10 m ρ c]
  rfl

set_option maxHeartbeats 1000000 in
/-- Layer 1's second message bias. -/
theorem W5_v78 : W5 m ρ c (Proc.devRef .tc main_v78) = K.bias64 1 Gen.slices_S3x64_S1x64_1_0 (arg11 m c) := by
  show StableHlo.after hostOps2 (W4 m ρ c) (Proc.devRef .tc main_v78) = _
  after_results_simp
  rw [W4_arg11 m ρ c]
  rfl

/-- The encoded edge features are written by no operation of this stretch. -/
theorem W5_v10 : W5 m ρ c (Proc.devRef .tc main_v10) = truncf .bf16 (E m c) Gen.bitsLt_bf16_f32 :=
  calc W5 m ρ c (Proc.devRef .tc main_v10)
    _ = W4 m ρ c (Proc.devRef .tc main_v10) := by carried_across hostOps2
    _ = truncf .bf16 (E m c) Gen.bitsLt_bf16_f32 := W4_v10 m ρ c

/-! ## What region 2 finds at its entry -/

theorem entry2_v65 : V5 m ρ c main_v65 = K.gathered (R1 m ρ c) (arg1 m c) := W5_v65 m ρ c
theorem entry2_v10 : V5 m ρ c main_v10 = truncf .bf16 (E m c) Gen.bitsLt_bf16_f32 := W5_v10 m ρ c
theorem entry2_v68 : V5 m ρ c main_v68 = K.wc 1 Gen.slices_S3x144x64_S1x128x64_1_0_0 (arg8 m c) := W5_v68 m ρ c
theorem entry2_v71 : V5 m ρ c main_v71 = K.we 1 Gen.slices_S3x144x64_S1x16x64_1_128_0 (arg8 m c) := W5_v71 m ρ c
theorem entry2_v73 : V5 m ρ c main_v73 = K.bias64 1 Gen.slices_S3x64_S1x64_1_0 (arg9 m c) := W5_v73 m ρ c
theorem entry2_v76 : V5 m ρ c main_v76 = K.w1 1 Gen.slices_S3x64x64_S1x64x64_1_0_0 (arg10 m c) := W5_v76 m ρ c
theorem entry2_v78 : V5 m ρ c main_v78 = K.bias64 1 Gen.slices_S3x64_S1x64_1_0 (arg11 m c) := W5_v78 m ρ c

/-! ## Across region 2 -/

/-- Region 2's output array holds what the region leaves. -/
theorem W6_v79 : W6 m ρ c (Proc.devRef .tc main_v79) = R2 m ρ c := W6_arr m ρ c 7
/-- The encoded edge features are an input array of region 2: it keeps its contents. -/
theorem W6_v10 : W6 m ρ c (Proc.devRef .tc main_v10) = truncf .bf16 (E m c) Gen.bitsLt_bf16_f32 :=
  (W6_arr m ρ c 1).trans ((((dat2 (V5 m ρ) c).arrAt_in 1 rfl _).trans (A_eq2 (V5 m ρ) c 1)).trans (W5_v10 m ρ c))
/-- Written by no operation of the stretch before region 2, and no array of the region. -/
theorem W6_v14 : W6 m ρ c (Proc.devRef .tc main_v14) = K.dst (arg1 m c) :=
  calc W6 m ρ c (Proc.devRef .tc main_v14)
    _ = W5 m ρ c (Proc.devRef .tc main_v14) := W6_of_ne m ρ c main_v14 (by decide)
    _ = W4 m ρ c (Proc.devRef .tc main_v14) := by carried_across hostOps2
    _ = K.dst (arg1 m c) := W4_v14 m ρ c
/-- Written by no operation of the stretch before region 2, and no array of the region. -/
theorem W6_v18 : W6 m ρ c (Proc.devRef .tc main_v18) = K.pair (arg1 m c) :=
  calc W6 m ρ c (Proc.devRef .tc main_v18)
    _ = W5 m ρ c (Proc.devRef .tc main_v18) := W6_of_ne m ρ c main_v18 (by decide)
    _ = W4 m ρ c (Proc.devRef .tc main_v18) := by carried_across hostOps2
    _ = K.pair (arg1 m c) := W4_v18 m ρ c
/-- Written by no operation of the stretch before region 2, and no array of the region. -/
theorem W6_v56 : W6 m ρ c (Proc.devRef .tc main_v56) = R1 m ρ c :=
  calc W6 m ρ c (Proc.devRef .tc main_v56)
    _ = W5 m ρ c (Proc.devRef .tc main_v56) := W6_of_ne m ρ c main_v56 (by decide)
    _ = W4 m ρ c (Proc.devRef .tc main_v56) := by carried_across hostOps2
    _ = R1 m ρ c := W4_v56 m ρ c
/-- Argument 8 is as launched when region 2 is left. -/
theorem W6_arg8 : W6 m ρ c (Proc.devRef .tc main_arg8) = arg8 m c :=
  calc W6 m ρ c (Proc.devRef .tc main_arg8)
    _ = W5 m ρ c (Proc.devRef .tc main_arg8) := W6_of_ne m ρ c main_arg8 (by decide)
    _ = W4 m ρ c (Proc.devRef .tc main_arg8) := by carried_across hostOps2
    _ = arg8 m c := W4_arg8 m ρ c
/-- Argument 9 is as launched when region 2 is left. -/
theorem W6_arg9 : W6 m ρ c (Proc.devRef .tc main_arg9) = arg9 m c :=
  calc W6 m ρ c (Proc.devRef .tc main_arg9)
    _ = W5 m ρ c (Proc.devRef .tc main_arg9) := W6_of_ne m ρ c main_arg9 (by decide)
    _ = W4 m ρ c (Proc.devRef .tc main_arg9) := by carried_across hostOps2
    _ = arg9 m c := W4_arg9 m ρ c
/-- Argument 10 is as launched when region 2 is left. -/
theorem W6_arg10 : W6 m ρ c (Proc.devRef .tc main_arg10) = arg10 m c :=
  calc W6 m ρ c (Proc.devRef .tc main_arg10)
    _ = W5 m ρ c (Proc.devRef .tc main_arg10) := W6_of_ne m ρ c main_arg10 (by decide)
    _ = W4 m ρ c (Proc.devRef .tc main_arg10) := by carried_across hostOps2
    _ = arg10 m c := W4_arg10 m ρ c
/-- Argument 11 is as launched when region 2 is left. -/
theorem W6_arg11 : W6 m ρ c (Proc.devRef .tc main_arg11) = arg11 m c :=
  calc W6 m ρ c (Proc.devRef .tc main_arg11)
    _ = W5 m ρ c (Proc.devRef .tc main_arg11) := W6_of_ne m ρ c main_arg11 (by decide)
    _ = W4 m ρ c (Proc.devRef .tc main_arg11) := by carried_across hostOps2
    _ = arg11 m c := W4_arg11 m ρ c
/-- Argument 12 is as launched when region 2 is left. -/
theorem W6_arg12 : W6 m ρ c (Proc.devRef .tc main_arg12) = arg12 m c :=
  calc W6 m ρ c (Proc.devRef .tc main_arg12)
    _ = W5 m ρ c (Proc.devRef .tc main_arg12) := W6_of_ne m ρ c main_arg12 (by decide)
    _ = W4 m ρ c (Proc.devRef .tc main_arg12) := by carried_across hostOps2
    _ = W3 m ρ c (Proc.devRef .tc main_arg12) := W4_of_ne m ρ c main_arg12 (by decide)
    _ = W2 m ρ c (Proc.devRef .tc main_arg12) := by carried_across hostOps1
    _ = arg12 m c := W2_arg12 m ρ c
/-- Argument 13 is as launched when region 2 is left. -/
theorem W6_arg13 : W6 m ρ c (Proc.devRef .tc main_arg13) = arg13 m c :=
  calc W6 m ρ c (Proc.devRef .tc main_arg13)
    _ = W5 m ρ c (Proc.devRef .tc main_arg13) := W6_of_ne m ρ c main_arg13 (by decide)
    _ = W4 m ρ c (Proc.devRef .tc main_arg13) := by carried_across hostOps2
    _ = W3 m ρ c (Proc.devRef .tc main_arg13) := W4_of_ne m ρ c main_arg13 (by decide)
    _ = W2 m ρ c (Proc.devRef .tc main_arg13) := by carried_across hostOps1
    _ = arg13 m c := W2_arg13 m ρ c
/-- Argument 14 is as launched when region 2 is left. -/
theorem W6_arg14 : W6 m ρ c (Proc.devRef .tc main_arg14) = arg14 m c :=
  calc W6 m ρ c (Proc.devRef .tc main_arg14)
    _ = W5 m ρ c (Proc.devRef .tc main_arg14) := W6_of_ne m ρ c main_arg14 (by decide)
    _ = W4 m ρ c (Proc.devRef .tc main_arg14) := by carried_across hostOps2
    _ = W3 m ρ c (Proc.devRef .tc main_arg14) := W4_of_ne m ρ c main_arg14 (by decide)
    _ = W2 m ρ c (Proc.devRef .tc main_arg14) := by carried_across hostOps1
    _ = arg14 m c := W2_arg14 m ρ c
/-- Argument 15 is as launched when region 2 is left. -/
theorem W6_arg15 : W6 m ρ c (Proc.devRef .tc main_arg15) = arg15 m c :=
  calc W6 m ρ c (Proc.devRef .tc main_arg15)
    _ = W5 m ρ c (Proc.devRef .tc main_arg15) := W6_of_ne m ρ c main_arg15 (by decide)
    _ = W4 m ρ c (Proc.devRef .tc main_arg15) := by carried_across hostOps2
    _ = W3 m ρ c (Proc.devRef .tc main_arg15) := W4_of_ne m ρ c main_arg15 (by decide)
    _ = W2 m ρ c (Proc.devRef .tc main_arg15) := by carried_across hostOps1
    _ = arg15 m c := W2_arg15 m ρ c

/-! ## The stretch before region 3 -/

/-- Layer 1's messages summed at each edge's destination. -/
theorem W7_v83 : W7 m ρ c (Proc.devRef .tc main_v83) = K.agg (K.dst (arg1 m c)) (R2 m ρ c) := by
  show StableHlo.after hostOps3 (W6 m ρ c) (Proc.devRef .tc main_v83) = _
  after_results
  rw [W6_v14 m ρ c, W6_v79 m ρ c]
  rfl

/-- Layer 1's input gate weight. -/
theorem W7_v86 : W7 m ρ c (Proc.devRef .tc main_v86) = K.gateW 1 Gen.slices_S3x64x192_S1x64x192_1_0_0 (arg12 m c) := by
  show StableHlo.after hostOps3 (W6 m ρ c) (Proc.devRef .tc main_v86) = _
  after_results
  rw [W6_arg12 m ρ c]
  rfl

/-- Layer 1's input gate bias. -/
theorem W7_v91 : W7 m ρ c (Proc.devRef .tc main_v91) = K.bias192 1 Gen.slices_S3x192_S1x192_1_0 (arg13 m c) := by
  show StableHlo.after hostOps3 (W6 m ρ c) (Proc.devRef .tc main_v91) = _
  after_results
  rw [W6_arg13 m ρ c]
  rfl

/-- Layer 1's state gate weight. -/
theorem W7_v89 : W7 m ρ c (Proc.devRef .tc main_v89) = K.gateW 1 Gen.slices_S3x64x192_S1x64x192_1_0_0 (arg14 m c) := by
  show StableHlo.after hostOps3 (W6 m ρ c) (Proc.devRef .tc main_v89) = _
  after_results
  rw [W6_arg14 m ρ c]
  rfl

/-- Layer 1's state gate bias. -/
theorem W7_v93 : W7 m ρ c (Proc.devRef .tc main_v93) = K.bias192 1 Gen.slices_S3x192_S1x192_1_0 (arg15 m c) := by
  show StableHlo.after hostOps3 (W6 m ρ c) (Proc.devRef .tc main_v93) = _
  after_results
  rw [W6_arg15 m ρ c]
  rfl

/-- The node states layer 0 left are written by no operation of this stretch. -/
theorem W7_v56 : W7 m ρ c (Proc.devRef .tc main_v56) = R1 m ρ c :=
  calc W7 m ρ c (Proc.devRef .tc main_v56)
    _ = W6 m ρ c (Proc.devRef .tc main_v56) := by carried_across hostOps3
    _ = R1 m ρ c := W6_v56 m ρ c

/-! ## What region 3 finds at its entry -/

theorem entry3_v83 : V7 m ρ c main_v83 = K.agg (K.dst (arg1 m c)) (R2 m ρ c) := W7_v83 m ρ c
theorem entry3_v56 : V7 m ρ c main_v56 = R1 m ρ c := W7_v56 m ρ c
theorem entry3_v86 : V7 m ρ c main_v86 = K.gateW 1 Gen.slices_S3x64x192_S1x64x192_1_0_0 (arg12 m c) := W7_v86 m ρ c
theorem entry3_v91 : V7 m ρ c main_v91 = K.bias192 1 Gen.slices_S3x192_S1x192_1_0 (arg13 m c) := W7_v91 m ρ c
theorem entry3_v89 : V7 m ρ c main_v89 = K.gateW 1 Gen.slices_S3x64x192_S1x64x192_1_0_0 (arg14 m c) := W7_v89 m ρ c
theorem entry3_v93 : V7 m ρ c main_v93 = K.bias192 1 Gen.slices_S3x192_S1x192_1_0 (arg15 m c) := W7_v93 m ρ c

end Cert.Net.KRun

end
-- ==== Proof.KernelReads2.lean ====
/-
  What regions 4 and 5 of the kernel's program find at their entries, as named functions of the launch contents of the
  arguments and of the earlier regions' outputs: layer 2 repeats layer 1's two regions, with the node states layer 1
  left and row 2 of every stacked weight. Last, region 5's output array at the region's exit.
-/
import proofs.«148557_j77953656422434_2_alg».proof.Proof.KernelReads1
import Idealize.ShloMosaic.PureOps.Ideal

set_option maxRecDepth 16384

noncomputable section

namespace Cert.Net.KRun

open Idealize.ShloMosaic Idealize.ShloMosaic.TcCoe Idealize.ShloMosaic.Tactic
open Idealize.ShloMosaic.Pipeline (Dat Cfg Window)
open Cert.KernelIdeal Cert.KernelIdeal.Gen
open Cert.Net

variable (m : (ℓ : Loc nD τ sig) → Buf (Elt Ideal) ℓ) (ρ : Dev nD → PrngReg) (c : Dev nD)

/-! # Layer 2

## At the exit of region 3 -/

/-- Region 3's output array holds what the region leaves. -/
theorem W8_v94 : W8 m ρ c (Proc.devRef .tc main_v94) = R3 m ρ c := W8_arr m ρ c 6
/-- Made by the first stretch; since then no operation has written it and no region has had it for an output. -/
theorem W8_v10 : W8 m ρ c (Proc.devRef .tc main_v10) = truncf .bf16 (E m c) Gen.bitsLt_bf16_f32 :=
  calc W8 m ρ c (Proc.devRef .tc main_v10)
    _ = W7 m ρ c (Proc.devRef .tc main_v10) := W8_of_ne m ρ c main_v10 (by decide)
    _ = W6 m ρ c (Proc.devRef .tc main_v10) := by carried_across hostOps3
    _ = truncf .bf16 (E m c) Gen.bitsLt_bf16_f32 := W6_v10 m ρ c
/-- Made by the first stretch; since then no operation has written it and no region has had it for an output. -/
theorem W8_v14 : W8 m ρ c (Proc.devRef .tc main_v14) = K.dst (arg1 m c) :=
  calc W8 m ρ c (Proc.devRef .tc main_v14)
    _ = W7 m ρ c (Proc.devRef .tc main_v14) := W8_of_ne m ρ c main_v14 (by decide)
    _ = W6 m ρ c (Proc.devRef .tc main_v14) := by carried_across hostOps3
    _ = K.dst (arg1 m c) := W6_v14 m ρ c
/-- Made by the first stretch; since then no operation has written it and no region has had it for an output. -/
theorem W8_v18 : W8 m ρ c (Proc.devRef .tc main_v18) = K.pair (arg1 m c) :=
  calc W8 m ρ c (Proc.devRef .tc main_v18)
    _ = W7 m ρ c (Proc.devRef .tc main_v18) := W8_of_ne m ρ c main_v18 (by decide)
    _ = W6 m ρ c (Proc.devRef .tc main_v18) := by carried_across hostOps3
    _ = K.pair (arg1 m c) := W6_v18 m ρ c
/-- Argument 8 is as launched at the exit of region 3. -/
theorem W8_arg8 : W8 m ρ c (Proc.devRef .tc main_arg8) = arg8 m c :=
  calc W8 m ρ c (Proc.devRef .tc main_arg8)
    _ = W7 m ρ c (Proc.devRef .tc main_arg8) := W8_of_ne m ρ c main_arg8 (by decide)
    _ = W6 m ρ c (Proc.devRef .tc main_arg8) := by carried_across hostOps3
    _ = arg8 m c := W6_arg8 m ρ c
/-- Argument 9 is as launched at the exit of region 3. -/
theorem W8_arg9 : W8 m ρ c (Proc.devRef .tc main_arg9) = arg9 m c :=
  calc W8 m ρ c (Proc.devRef .tc main_arg9)
    _ = W7 m ρ c (Proc.devRef .tc main_arg9) := W8_of_ne m ρ c main_arg9 (by decide)
    _ = W6 m ρ c (Proc.devRef .tc main_arg9) := by carried_across hostOps3
    _ = arg9 m c := W6_arg9 m ρ c
/-- Argument 10 is as launched at the exit of region 3. -/
theorem W8_arg10 : W8 m ρ c (Proc.devRef .tc main_arg10) = arg10 m c :=
  calc W8 m ρ c (Proc.devRef .tc main_arg10)
    _ = W7 m ρ c (Proc.devRef .tc main_arg10) := W8_of_ne m ρ c main_arg10 (by decide)
    _ = W6 m ρ c (Proc.devRef .tc main_arg10) := by carried_across hostOps3
    _ = arg10 m c := W6_arg10 m ρ c
/-- Argument 11 is as launched at the exit of region 3. -/
theorem W8_arg11 : W8 m ρ c (Proc.devRef .tc main_arg11) = arg11 m c :=
  calc W8 m ρ c (Proc.devRef .tc main_arg11)
    _ = W7 m ρ c (Proc.devRef .tc main_arg11) := W8_of_ne m ρ c main_arg11 (by decide)
    _ = W6 m ρ c (Proc.devRef .tc main_arg11) := by carried_across hostOps3
    _ = arg11 m c := W6_arg11 m ρ c

/-! ## The stretch before region 4 -/

set_option maxHeartbeats 1000000 in
/-- Both endpoints' states of every edge, side by side. -/
theorem W9_v103 : W9 m ρ c (Proc.devRef .tc main_v103) = K.gathered (R3 m ρ c) (arg1 m c) := by
  show StableHlo.after hostOps4 (W8 m ρ c) (Proc.devRef .tc main_v103) = _
  after_results_simp
  rw [W8_v94 m ρ c, W8_v18 m ρ c]
  rfl

set_option maxHeartbeats 1000000 in
/-- Rows 0..127 of layer 2's first message weight. -/
theorem W9_v106 : W9 m ρ c (Proc.devRef .tc main_v106) = K.wc 2 Gen.slices_S3x144x64_S1x128x64_2_0_0 (arg8 m c) := by
  show StableHlo.after hostOps4 (W8 m ρ c) (Proc.devRef .tc main_v106) = _
  after_results_simp
  rw [W8_arg8 m ρ c]
  rfl

set_option maxHeartbeats 1000000 in
/-- Rows 128..143 of layer 2's first message weight. -/
theorem W9_v109 : W9 m ρ c (Proc.devRef .tc main_v109) = K.we 2 Gen.slices_S3x144x64_S1x16x64_2_128_0 (arg8 m c) := by
  show StableHlo.after hostOps4 (W8 m ρ c) (Proc.devRef .tc main_v109) = _
  after_results_simp
  rw [W8_arg8 m ρ c]
  rfl

set_option maxHeartbeats 1000000 in
/-- Layer 2's first message bias. -/
theorem W9_v111 : W9 m ρ c (Proc.devRef .tc main_v111) = K.bias64 2 Gen.slices_S3x64_S1x64_2_0 (arg9 m c) := by
  show StableHlo.after hostOps4 (W8 m ρ c) (Proc.devRef .tc main_v111) = _
  after_results_simp
  rw [W8_arg9 m ρ c]
  rfl

set_option maxHeartbeats 1000000 in
/-- Layer 2's second message weight. -/
theorem W9_v114 : W9 m ρ c (Proc.devRef .tc main_v114) = K.w1 2 Gen.slices_S3x64x64_S1x64x64_2_0_0 (arg10 m c) := by
  show StableHlo.after hostOps4 (W8 m ρ c) (Proc.devRef .tc main_v114) = _
  after_results_simp
  rw [W8_arg10 m ρ c]
  rfl

set_option maxHeartbeats 1000000 in
/-- Layer 2's second message bias. -/
theorem W9_v116 : W9 m ρ c (Proc.devRef .tc main_v116) = K.bias64 2 Gen.slices_S3x64_S1x64_2_0 (arg11 m c) := by
  show StableHlo.after hostOps4 (W8 m ρ c) (Proc.devRef .tc main_v116) = _
  after_results_simp
  rw [W8_arg11 m ρ c]
  rfl

/-- The encoded edge features are written by no operation of this stretch. -/
theorem W9_v10 : W9 m ρ c (Proc.devRef .tc main_v10) = truncf .bf16 (E m c) Gen.bitsLt_bf16_f32 :=
  calc W9 m ρ c (Proc.devRef .tc main_v10)
    _ = W8 m ρ c (Proc.devRef .tc main_v10) := by carried_across hostOps4
    _ = truncf .bf16 (E m c) Gen.bitsLt_bf16_f32 := W8_v10 m ρ c

/-! ## What region 4 finds at its entry -/

theorem entry4_v103 : V9 m ρ c main_v103 = K.gathered (R3 m ρ c) (arg1 m c) := W9_v103 m ρ c
theorem entry4_v10 : V9 m ρ c main_v10 = truncf .bf16 (E m c) Gen.bitsLt_bf16_f32 := W9_v10 m ρ c
theorem entry4_v106 : V9 m ρ c main_v106 = K.wc 2 Gen.slices_S3x144x64_S1x128x64_2_0_0 (arg8 m c) := W9_v106 m ρ c
theorem entry4_v109 : V9 m ρ c main_v109 = K.we 2 Gen.slices_S3x144x64_S1x16x64_2_128_0 (arg8 m c) := W9_v109 m ρ c
theorem entry4_v111 : V9 m ρ c main_v111 = K.bias64 2 Gen.slices_S3x64_S1x64_2_0 (arg9 m c) := W9_v111 m ρ c
theorem entry4_v114 : V9 m ρ c main_v114 = K.w1 2 Gen.slices_S3x64x64_S1x64x64_2_0_0 (arg10 m c) := W9_v114 m ρ c
theorem entry4_v116 : V9 m ρ c main_v116 = K.bias64 2 Gen.slices_S3x64_S1x64_2_0 (arg11 m c) := W9_v116 m ρ c

/-! ## Across region 4 -/

/-- Region 4's output array holds what the region leaves. -/
theorem W10_v117 : W10 m ρ c (Proc.devRef .tc main_v117) = R4 m ρ c := W10_arr m ρ c 7
/-- The encoded edge features are an input array of region 4: it keeps its contents. -/
theorem W10_v10 : W10 m ρ c (Proc.devRef .tc main_v10) = truncf .bf16 (E m c) Gen.bitsLt_bf16_f32 :=
  (W10_arr m ρ c 1).trans ((((dat4 (V9 m ρ) c).arrAt_in 1 rfl _).trans (A_eq4 (V9 m ρ) c 1)).trans (W9_v10 m ρ c))
/-- Written by no operation of the stretch before region 4, and no array of the region. -/
theorem W10_v14 : W10 m ρ c (Proc.devRef .tc main_v14) = K.dst (arg1 m c) :=
  calc W10 m ρ c (Proc.devRef .tc main_v14)
    _ = W9 m ρ c (Proc.devRef .tc main_v14) := W10_of_ne m ρ c main_v14 (by decide)
    _ = W8 m ρ c (Proc.devRef .tc main_v14) := by carried_across hostOps4
    _ = K.dst (arg1 m c) := W8_v14 m ρ c
/-- Written by no operation of the stretch before region 4, and no array of the region. -/
theorem W10_v18 : W10 m ρ c (Proc.devRef .tc main_v18) = K.pair (arg1 m c) :=
  calc W10 m ρ c (Proc.devRef .tc main_v18)
    _ = W9 m ρ c (Proc.devRef .tc main_v18) := W10_of_ne m ρ c main_v18 (by decide)
    _ = W8 m ρ c (Proc.devRef .tc main_v18) := by carried_across hostOps4
    _ = K.pair (arg1 m c) := W8_v18 m ρ c
/-- Written by no operation of the stretch before region 4, and no array of the region. -/
theorem W10_v94 : W10 m ρ c (Proc.devRef .tc main_v94) = R3 m ρ c :=
  calc W10 m ρ c (Proc.devRef .tc main_v94)
    _ = W9 m ρ c (Proc.devRef .tc main_v94) := W10_of_ne m ρ c main_v94 (by decide)
    _ = W8 m ρ c (Proc.devRef .tc main_v94) := by carried_across hostOps4
    _ = R3 m ρ c := W8_v94 m ρ c
/-- Argument 8 is as launched when region 4 is left. -/
theorem W10_arg8 : W10 m ρ c (Proc.devRef .tc main_arg8) = arg8 m c :=
  calc W10 m ρ c (Proc.devRef .tc main_arg8)
    _ = W9 m ρ c (Proc.devRef .tc main_arg8) := W10_of_ne m ρ c main_arg8 (by decide)
    _ = W8 m ρ c (Proc.devRef .tc main_arg8) := by carried_across hostOps4
    _ = arg8 m c := W8_arg8 m ρ c
/-- Argument 9 is as launched when region 4 is left. -/
theorem W10_arg9 : W10 m ρ c (Proc.devRef .tc main_arg9) = arg9 m c :=
  calc W10 m ρ c (Proc.devRef .tc main_arg9)
    _ = W9 m ρ c (Proc.devRef .tc main_arg9) := W10_of_ne m ρ c main_arg9 (by decide)
    _ = W8 m ρ c (Proc.devRef .tc main_arg9) := by carried_across hostOps4
    _ = arg9 m c := W8_arg9 m ρ c
/-- Argument 10 is as launched when region 4 is left. -/
theorem W10_arg10 : W10 m ρ c (Proc.devRef .tc main_arg10) = arg10 m c :=
  calc W10 m ρ c (Proc.devRef .tc main_arg10)
    _ = W9 m ρ c (Proc.devRef .tc main_arg10) := W10_of_ne m ρ c main_arg10 (by decide)
    _ = W8 m ρ c (Proc.devRef .tc main_arg10) := by carried_across hostOps4
    _ = arg10 m c := W8_arg10 m ρ c
/-- Argument 11 is as launched when region 4 is left. -/
theorem W10_arg11 : W10 m ρ c (Proc.devRef .tc main_arg11) = arg11 m c :=
  calc W10 m ρ c (Proc.devRef .tc main_arg11)
    _ = W9 m ρ c (Proc.devRef .tc main_arg11) := W10_of_ne m ρ c main_arg11 (by decide)
    _ = W8 m ρ c (Proc.devRef .tc main_arg11) := by carried_across hostOps4
    _ = arg11 m c := W8_arg11 m ρ c
/-- Argument 12 is as launched when region 4 is left. -/
theorem W10_arg12 : W10 m ρ c (Proc.devRef .tc main_arg12) = arg12 m c :=
  calc W10 m ρ c (Proc.devRef .tc main_arg12)
    _ = W9 m ρ c (Proc.devRef .tc main_arg12) := W10_of_ne m ρ c main_arg12 (by decide)
    _ = W8 m ρ c (Proc.devRef .tc main_arg12) := by carried_across hostOps4
    _ = W7 m ρ c (Proc.devRef .tc main_arg12) := W8_of_ne m ρ c main_arg12 (by decide)
    _ = W6 m ρ c (Proc.devRef .tc main_arg12) := by carried_across hostOps3
    _ = arg12 m c := W6_arg12 m ρ c
/-- Argument 13 is as launched when region 4 is left. -/
theorem W10_arg13 : W10 m ρ c (Proc.devRef .tc main_arg13) = arg13 m c :=
  calc W10 m ρ c (Proc.devRef .tc main_arg13)
    _ = W9 m ρ c (Proc.devRef .tc main_arg13) := W10_of_ne m ρ c main_arg13 (by decide)
    _ = W8 m ρ c (Proc.devRef .tc main_arg13) := by carried_across hostOps4
    _ = W7 m ρ c (Proc.devRef .tc main_arg13) := W8_of_ne m ρ c main_arg13 (by decide)
    _ = W6 m ρ c (Proc.devRef .tc main_arg13) := by carried_across hostOps3
    _ = arg13 m c := W6_arg13 m ρ c
/-- Argument 14 is as launched when region 4 is left. -/
theorem W10_arg14 : W10 m ρ c (Proc.devRef .tc main_arg14) = arg14 m c :=
  calc W10 m ρ c (Proc.devRef .tc main_arg14)
    _ = W9 m ρ c (Proc.devRef .tc main_arg14) := W10_of_ne m ρ c main_arg14 (by decide)
    _ = W8 m ρ c (Proc.devRef .tc main_arg14) := by carried_across hostOps4
    _ = W7 m ρ c (Proc.devRef .tc main_arg14) := W8_of_ne m ρ c main_arg14 (by decide)
    _ = W6 m ρ c (Proc.devRef .tc main_arg14) := by carried_across hostOps3
    _ = arg14 m c := W6_arg14 m ρ c
/-- Argument 15 is as launched when region 4 is left. -/
theorem W10_arg15 : W10 m ρ c (Proc.devRef .tc main_arg15) = arg15 m c :=
  calc W10 m ρ c (Proc.devRef .tc main_arg15)
    _ = W9 m ρ c (Proc.devRef .tc main_arg15) := W10_of_ne m ρ c main_arg15 (by decide)
    _ = W8 m ρ c (Proc.devRef .tc main_arg15) := by carried_across hostOps4
    _ = W7 m ρ c (Proc.devRef .tc main_arg15) := W8_of_ne m ρ c main_arg15 (by decide)
    _ = W6 m ρ c (Proc.devRef .tc main_arg15) := by carried_across hostOps3
    _ = arg15 m c := W6_arg15 m ρ c

/-! ## The stretch before region 5 -/

/-- Layer 2's messages summed at each edge's destination. -/
theorem W11_v121 : W11 m ρ c (Proc.devRef .tc main_v121) = K.agg (K.dst (arg1 m c)) (R4 m ρ c) := by
  show StableHlo.after hostOps5 (W10 m ρ c) (Proc.devRef .tc main_v121) = _
  after_results
  rw [W10_v14 m ρ c, W10_v117 m ρ c]
  rfl

/-- Layer 2's input gate weight. -/
theorem W11_v124 : W11 m ρ c (Proc.devRef .tc main_v124) = K.gateW 2 Gen.slices_S3x64x192_S1x64x192_2_0_0 (arg12 m c) := by
  show StableHlo.after hostOps5 (W10 m ρ c) (Proc.devRef .tc main_v124) = _
  after_results
  rw [W10_arg12 m ρ c]
  rfl

/-- Layer 2's input gate bias. -/
theorem W11_v129 : W11 m ρ c (Proc.devRef .tc main_v129) = K.bias192 2 Gen.slices_S3x192_S1x192_2_0 (arg13 m c) := by
  show StableHlo.after hostOps5 (W10 m ρ c) (Proc.devRef .tc main_v129) = _
  after_results
  rw [W10_arg13 m ρ c]
  rfl

/-- Layer 2's state gate weight. -/
theorem W11_v127 : W11 m ρ c (Proc.devRef .tc main_v127) = K.gateW 2 Gen.slices_S3x64x192_S1x64x192_2_0_0 (arg14 m c) := by
  show StableHlo.after hostOps5 (W10 m ρ c) (Proc.devRef .tc main_v127) = _
  after_results
  rw [W10_arg14 m ρ c]
  rfl

/-- Layer 2's state gate bias. -/
theorem W11_v131 : W11 m ρ c (Proc.devRef .tc main_v131) = K.bias192 2 Gen.slices_S3x192_S1x192_2_0 (arg15 m c) := by
  show StableHlo.after hostOps5 (W10 m ρ c) (Proc.devRef .tc main_v131) = _
  after_results
  rw [W10_arg15 m ρ c]
  rfl

/-- The node states layer 1 left are written by no operation of this stretch. -/
theorem W11_v94 : W11 m ρ c (Proc.devRef .tc main_v94) = R3 m ρ c :=
  calc W11 m ρ c (Proc.devRef .tc main_v94)
    _ = W10 m ρ c (Proc.devRef .tc main_v94) := by carried_across hostOps5
    _ = R3 m ρ c := W10_v94 m ρ c

/-! ## What region 5 finds at its entry -/

theorem entry5_v121 : V11 m ρ c main_v121 = K.agg (K.dst (arg1 m c)) (R4 m ρ c) := W11_v121 m ρ c
theorem entry5_v94 : V11 m ρ c main_v94 = R3 m ρ c := W11_v94 m ρ c
theorem entry5_v124 : V11 m ρ c main_v124 = K.gateW 2 Gen.slices_S3x64x192_S1x64x192_2_0_0 (arg12 m c) := W11_v124 m ρ c
theorem entry5_v129 : V11 m ρ c main_v129 = K.bias192 2 Gen.slices_S3x192_S1x192_2_0 (arg13 m c) := W11_v129 m ρ c
theorem entry5_v127 : V11 m ρ c main_v127 = K.gateW 2 Gen.slices_S3x64x192_S1x64x192_2_0_0 (arg14 m c) := W11_v127 m ρ c
theorem entry5_v131 : V11 m ρ c main_v131 = K.bias192 2 Gen.slices_S3x192_S1x192_2_0 (arg15 m c) := W11_v131 m ρ c

/-! ## At the exit of region 5 -/

/-- Region 5's output array holds what the region leaves. -/
theorem W12_v132 : W12 m ρ c (Proc.devRef .tc main_v132) = R5 m ρ c := W12_arr m ρ c 6

end Cert.Net.KRun

end
-- ==== Proof.KernelReads.lean ====
/-
  What every region of the kernel's program finds at its entry, read through the program's segments: layer 0
  (KernelReads0), layer 1 (KernelReads1), layer 2 and what the readout starts from (KernelReads2).
-/
import proofs.«148557_j77953656422434_2_alg».proof.Proof.KernelReads0
import proofs.«148557_j77953656422434_2_alg».proof.Proof.KernelReads1
import proofs.«148557_j77953656422434_2_alg».proof.Proof.KernelReads2
-- ==== Proof.KernelReadsB.lean ====
/-
  What the program's result buffer holds at the end, as a named function of the launch contents and of the node states
  the last region leaves. After region 5 three short stretches of host operations remain: the mean of the node states
  over each graph and the first affine map of the readout; the maximum with zero; the second affine map. Each reads
  its operands where the stretch before left them, the readout's weights, biases and graph assignment are as launched
  (no operation of these stretches writes an argument, and every argument is as launched at the end), and composed they
  are the readout.
-/
import proofs.«148557_j77953656422434_2_alg».proof.Proof.Gen.KernelIdeal.Frame
import proofs.«148557_j77953656422434_2_alg».proof.Proof.Glue
import proofs.«148557_j77953656422434_2_alg».proof.Proof.KernelReads2
import Idealize.ShloMosaic.PureOps.Ideal

set_option maxRecDepth 16384

noncomputable section

namespace Cert.Net.KRun

open Idealize.ShloMosaic Idealize.ShloMosaic.TcCoe Idealize.ShloMosaic.Tactic
open Idealize.ShloMosaic.Pipeline (Dat Cfg Window)
open Cert.KernelIdeal Cert.KernelIdeal.Gen
open Cert.Net

variable (m : (ℓ : Loc nD τ sig) → Buf (Elt Ideal) ℓ) (ρ : Dev nD → PrngReg) (c : Dev nD)

/-! ## The readout's arguments at the boundaries where the tail reads them

Each argument array is as launched at the program's end; no operation of the three closing stretches writes it, so it
is as launched where they begin. -/

/-- The graph of every node, when region 5 is left. -/
theorem W12_arg3 : W12 m ρ c (Proc.devRef .tc main_arg3) = arg3 m c :=
  calc W12 m ρ c (Proc.devRef .tc main_arg3)
    _ = W13 m ρ c (Proc.devRef .tc main_arg3) := Eq.symm (by carried_across hostOps6)
    _ = W14 m ρ c (Proc.devRef .tc main_arg3) := Eq.symm (by carried_across hostOps6_1)
    _ = W15 m ρ c (Proc.devRef .tc main_arg3) := Eq.symm (by carried_across hostOps6_2)
    _ = arg3 m c := W15_main_arg3 m ρ c
/-- The readout's first weight, when region 5 is left. -/
theorem W12_arg16 : W12 m ρ c (Proc.devRef .tc main_arg16) = arg16 m c :=
  calc W12 m ρ c (Proc.devRef .tc main_arg16)
    _ = W13 m ρ c (Proc.devRef .tc main_arg16) := Eq.symm (by carried_across hostOps6)
    _ = W14 m ρ c (Proc.devRef .tc main_arg16) := Eq.symm (by carried_across hostOps6_1)
    _ = W15 m ρ c (Proc.devRef .tc main_arg16) := Eq.symm (by carried_across hostOps6_2)
    _ = arg16 m c := W15_main_arg16 m ρ c
/-- The readout's first bias, when region 5 is left. -/
theorem W12_arg17 : W12 m ρ c (Proc.devRef .tc main_arg17) = arg17 m c :=
  calc W12 m ρ c (Proc.devRef .tc main_arg17)
    _ = W13 m ρ c (Proc.devRef .tc main_arg17) := Eq.symm (by carried_across hostOps6)
    _ = W14 m ρ c (Proc.devRef .tc main_arg17) := Eq.symm (by carried_across hostOps6_1)
    _ = W15 m ρ c (Proc.devRef .tc main_arg17) := Eq.symm (by carried_across hostOps6_2)
    _ = arg17 m c := W15_main_arg17 m ρ c
/-- The readout's second weight, before the last stretch. -/
theorem W14_arg18 : W14 m ρ c (Proc.devRef .tc main_arg18) = arg18 m c :=
  calc W14 m ρ c (Proc.devRef .tc main_arg18)
    _ = W15 m ρ c (Proc.devRef .tc main_arg18) := Eq.symm (by carried_across hostOps6_2)
    _ = arg18 m c := W15_main_arg18 m ρ c
/-- The readout's second bias, before the last stretch. -/
theorem W14_arg19 : W14 m ρ c (Proc.devRef .tc main_arg19) = arg19 m c :=
  calc W14 m ρ c (Proc.devRef .tc main_arg19)
    _ = W15 m ρ c (Proc.devRef .tc main_arg19) := Eq.symm (by carried_across hostOps6_2)
    _ = arg19 m c := W15_main_arg19 m ρ c

/-! ## The three closing stretches -/

/-- The readout's hidden layer before its relu: the per-graph means times the first weight, plus the first bias. -/
abbrev hidden (batch : IVec S50000 32) (r0W : FVec Ideal S64x128 .f32) (r0b : FVec Ideal S128 .f32)
    (h : FVec Ideal S50000x64 .f32) : FVec Ideal S2048x128 .f32 :=
  addf (Host.dotGeneral dot_S2048x64_S64x128_S2048x128_1_0_0_1_n_n none (K.pooled batch h) r0W)
    (broadcastInDim S2048x128 ![0, 1] Gen.bcast_S1x128_S2048x128_0_1 (broadcastInDim S1x128 ![1] Gen.bcast_S128_S1x128_1 r0b))

set_option maxHeartbeats 1000000 in
/-- The first closing stretch pools the final node states over each graph and applies the first affine map. -/
theorem W13_v148 : W13 m ρ c (Proc.devRef .tc main_v148)
    = hidden (arg3 m c) (arg16 m c) (arg17 m c) (R5 m ρ c) := by
  show StableHlo.after hostOps6 (W12 m ρ c) (Proc.devRef .tc main_v148) = _
  after_results
  rw [W12_arg3 m ρ c, W12_arg16 m ρ c, W12_arg17 m ρ c, W12_arr m ρ c 6]
  rfl

set_option maxHeartbeats 1000000 in
/-- The outlined relu over any contents at its entry: the maximum with zero of what the buffer of the hidden layer holds. -/
theorem relu_stretch (X : Valuation τ sig (Elt Ideal)) (H : FVec Ideal S2048x128 .f32)
    (hX : X (Proc.devRef .tc main_v148) = H) :
    StableHlo.after hostOps6_1 X (Proc.devRef .tc main_v149)
      = maximumf H (broadcastInDim S2048x128 ![] Gen.bcast_S_S2048x128 (constant (F := Ideal) S_ .f32 0x00000000#32)) := by
  subst hX
  after_results_simp
  rfl

set_option maxHeartbeats 1000000 in
/-- The last stretch over any contents at its entry: the second affine map of what it finds. -/
theorem last_stretch (X : Valuation τ sig (Elt Ideal)) (A : FVec Ideal S2048x128 .f32) (r1W : FVec Ideal S128x1 .f32)
    (r1b : FVec Ideal S1 .f32) (hA : X (Proc.devRef .tc main_v149) = A) (hW : X (Proc.devRef .tc main_arg18) = r1W)
    (hb : X (Proc.devRef .tc main_arg19) = r1b) :
    StableHlo.after hostOps6_2 X (Proc.devRef .tc main_v153)
      = addf (Host.dotGeneral dot_S2048x128_S128x1_S2048x1_1_0_0_1_n_n none A r1W)
          (broadcastInDim S2048x1 ![0, 1] Gen.bcast_S1x1_S2048x1_0_1 (broadcastInDim S1x1 ![1] Gen.bcast_S1_S1x1_1 r1b)) := by
  subst hA hW hb
  after_results_simp

/-- After the outlined relu the hidden layer's buffer holds its maximum with zero. -/
theorem W14_v149 : W14 m ρ c (Proc.devRef .tc main_v149)
    = maximumf (hidden (arg3 m c) (arg16 m c) (arg17 m c) (R5 m ρ c))
        (broadcastInDim S2048x128 ![] Gen.bcast_S_S2048x128 (constant (F := Ideal) S_ .f32 0x00000000#32)) :=
  relu_stretch (W13 m ρ c) _ (W13_v148 m ρ c)

/-- THE RESULT: the program's result buffer ends holding the readout of the node states region 5 leaves — their mean
    over each graph, an affine map, the maximum with zero, a second affine map — with the readout's weights, biases and
    graph assignment as launched. -/
theorem result_v153 : W15 m ρ c (Proc.devRef .tc main_v153)
    = K.readout (arg3 m c) (arg16 m c) (arg17 m c) (arg18 m c) (arg19 m c) (R5 m ρ c) :=
  last_stretch (W14 m ρ c) _ _ _ (W14_v149 m ρ c) (W14_arg18 m ρ c) (W14_arg19 m ρ c)

end Cert.Net.KRun

end
-- ==== Proof.LibMatmulRead.lean ====
/-
  A matrix product and a transpose read entry by entry.

  Three facts about rank-2 arrays of extended reals, each stated at an index given by its two coordinates:
    • the transpose of an `[a, b]` array reads, at `(q, p)`, the operand at `(p, q)`;
    • a matrix product that contracts the second axis of an `[a, k]` array with the first axis of a `[k, b]`
      array, started from the zero accumulator, reads at `(p, q)` the sum over `d` of the left operand at
      `(p, d)` times the right operand at `(d, q)`;
    • so the product of an `[a, k]` array with the TRANSPOSE of a `[b, k]` array reads at `(p, q)` the inner
      product of row `p` of the first with row `q` of the second.
  The record of dimension numbers is any one whose six axis lists are the plain product's; at a literal record each
  of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- The transpose of an `[a, b]` array reads, at `(q, p)`, the operand at `(p, q)`. -/
theorem transpose_ab_ba_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun ax => by
    match ax with
    | ⟨0, _⟩ => rfl
    | ⟨1, _⟩ => rfl

/-- A product contracting the second axis of the left operand with the first axis of the right one, from the zero
    accumulator, read at `(p, q)`: the sum over the contracted coordinate. -/
theorem matmul_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    matmul D prec x w (constant (F := Ideal) ⟨2, ![a, b]⟩ .f32 0x00000000#32) (ix2 p q)
      = ∑ d : Fin k, x (ix2 p d) * w (ix2 d q) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- The product of an `[a, k]` array with the transpose of a `[b, k]` array, from the zero accumulator, read at
    `(p, q)`: the inner product of row `p` of the first with row `q` of the second. -/
theorem matmul_transpose_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![b, k]⟩ φ₂)
    (h : (⟨2, ![b, k]⟩ : Shape).Transposes [1, 0] ⟨2, ![k, b]⟩) (p : Fin a) (q : Fin b) :
    matmul D prec x (transpose ⟨2, ![k, b]⟩ [1, 0] w h) (constant (F := Ideal) ⟨2, ![a, b]⟩ .f32 0x00000000#32) (ix2 p q)
      = ∑ d : Fin k, x (ix2 p d) * w (ix2 q d) :=
  (matmul_ix2_apply D hlc hrc hln hrn hlb hrb prec x _ p q).trans
    (Finset.sum_congr rfl fun d _ => congrArg (x (ix2 p d) * ·) (transpose_ab_ba_apply w h d q))

end Idealize.ShloMosaic.ValueIdx
-- ==== Proof.MlpPayload.lean ====
/-
  What one run of the edge network's body leaves at one entry of its output block.

  The body reads a block of 8000 edges — the gathered node states `hsd` [8000, 128] and the edge features `e` [8000, 16] —
  and the five weights and biases whole, and stores one [8000, 64] block. Read at row r and column n, the stored value is
  `Cert.Net.mlpSplit` of the seven operands at (r, n): the 144-long first contraction arrives already split as 128 + 16.
  The three regions that run this body run the same text, so the statement is made once, for the first copy, and the other
  two copies are the first by unfolding. Last, the one fact about `mlpSplit` that carries a block to its array: the result
  at a row reads the two edge-indexed operands only on that row.
-/
import proofs.«148557_j77953656422434_2_alg».proof.Proof.Gen.KernelIdeal.Skeleton
import proofs.«148557_j77953656422434_2_alg».proof.Proof.Spec
import proofs.«148557_j77953656422434_2_alg».proof.Proof.LibMatmulRead
import Idealize.ShloMosaic.Lib.Pipeline.Value
import Idealize.ShloMosaic.Lib.ValueIdx
import Idealize.ShloMosaic.Lib.ValueLayout

noncomputable section

open scoped BigOperators

namespace Cert.Net.MlpPay

open Idealize.ShloMosaic Idealize.ShloMosaic.ValueIdx Cert.KernelIdeal Cert.KernelIdeal.Gen

/-- The three regions run one body: the second and third copies of the payload are the first. -/
theorem k2_pay1_eq {F : FTy → Type} [FloatOps F] : @k2_pay1 F _ = @k0_pay1 F _ := rfl
theorem k4_pay1_eq {F : FTy → Type} [FloatOps F] : @k4_pay1 F _ = @k0_pay1 F _ := rfl

/-- A bias row: a [64] vector cast to [1, 64] and broadcast over the 8000 rows of a block reads, at (r, n), the
    vector at n. -/
theorem biasRow_apply (b : Vec Ideal S64 .f32) (h1 : S64.ShapeCasts S64) (h2 : S64.ShapeCasts S1x64)
    (h3 : S1x64.Broadcasts S8000x64) (r : Fin 8000) (n : Fin 64) :
    broadcastTo S8000x64 (shapeCast S1x64 (shapeCast S64 b h1) h2) h3 (ix2 r n) = b (ix1 n) := by
  rw [shapeCast_self]
  exact (broadcastTo_1b_ab_apply _ h3 r n).trans (shapeCast_a_1a_apply b h2 0 n)

/-- THE BODY'S RESULT AT ONE ENTRY. On a block of 8000 edges the body computes, at row r and column n, the edge
    network in its split arrangement: the two first-layer products (128 and 16 terms) added, the first bias added,
    the maximum with zero taken, the second-layer product (64 terms) and the second bias. The format changes are the
    identity on the extended reals, the casts of a shape to itself are the identity, and each product from the zero
    accumulator is the sum over the contracted coordinate. -/
theorem pay_apply (x0 : Vec Ideal S8000x128 .bf16) (x1 : Vec Ideal S8000x16 .bf16) (x2 : Vec Ideal S128x64 .bf16)
    (x3 : Vec Ideal S16x64 .bf16) (x4 : Vec Ideal S64 .f32) (x5 : Vec Ideal S64x64 .bf16) (x6 : Vec Ideal S64 .f32)
    (r : Fin 8000) (n : Fin 64) :
    k0_pay1 (F := Ideal) x0 x1 x4 x6 x2 x3 x5 (ix2 r n) = Cert.Net.mlpSplit (E := 8000) x0 x1 x2 x3 x4 x5 x6 r n := by
  unfold k0_pay1 Cert.Net.mlpSplit
  refine congrArg₂ (· + ·) ?_ (biasRow_apply x6 _ _ _ r n)
  refine (matmul_ix2_apply _ rfl rfl rfl rfl rfl rfl none _ _ r n).trans (Finset.sum_congr rfl fun j _ => ?_)
  refine congrArg₂ (· * ·) ?_ (congrFun (shapeCast_self x5 _) (ix2 j n))
  refine congrArg₂ max ?_ rfl
  refine congrArg₂ (· + ·) (congrArg₂ (· + ·) ?_ ?_) (biasRow_apply x4 _ _ _ r j)
  · refine (matmul_ix2_apply _ rfl rfl rfl rfl rfl rfl none _ _ r j).trans (Finset.sum_congr rfl fun k _ => ?_)
    exact congrArg₂ (· * ·) (congrFun (shapeCast_self x0 _) (ix2 r k)) (congrFun (shapeCast_self x2 _) (ix2 k j))
  · refine (matmul_ix2_apply _ rfl rfl rfl rfl rfl rfl none _ _ r j).trans (Finset.sum_congr rfl fun k _ => ?_)
    exact congrArg₂ (· * ·) (congrFun (shapeCast_self x1 _) (ix2 r k)) (congrFun (shapeCast_self x3 _) (ix2 k j))

/-- The edge network at a row depends on the two edge-indexed operands only through that row: if row r of one pair of
    operands is row p of another pair, and the weights and biases agree, the two results at (r, n) and (p, n) agree. -/
theorem mlpSplit_row {B E : Nat} (hsd' : Cert.Net.A2 B 128) (e' : Cert.Net.A2 B 16) (hsd : Cert.Net.A2 E 128) (e : Cert.Net.A2 E 16)
    (wc' wc : Cert.Net.A2 128 64) (we' we : Cert.Net.A2 16 64) (b0' b0 : Cert.Net.A1 64) (w1' w1 : Cert.Net.A2 64 64)
    (b1' b1 : Cert.Net.A1 64) (r : Fin B) (p : Fin E)
    (h0 : ∀ k : Fin 128, hsd' (ix2 r k) = hsd (ix2 p k)) (h1 : ∀ k : Fin 16, e' (ix2 r k) = e (ix2 p k))
    (hwc : wc' = wc) (hwe : we' = we) (hb0 : b0' = b0) (hw1 : w1' = w1) (hb1 : b1' = b1) (n : Fin 64) :
    Cert.Net.mlpSplit hsd' e' wc' we' b0' w1' b1' r n = Cert.Net.mlpSplit hsd e wc we b0 w1 b1 p n := by
  subst hwc hwe hb0 hw1 hb1
  unfold Cert.Net.mlpSplit
  simp only [h0, h1]

end Cert.Net.MlpPay

end
-- ==== Proof.MlpRegion0.lean ====
/-
  The array the first run of the edge network leaves, entry by entry.

  The region sweeps the 800000 edges in 100 blocks of 8000. At block t it reads rows 8000 t … 8000 t + 7999 of the
  gathered node states and of the edge features, reads the five weights and biases whole, and writes rows
  8000 t … 8000 t + 7999 of the output. So what each block writes is the restriction to those rows of ONE function of the
  seven arrays — `Cert.Net.mlpSplit` at (p, n) —, the blocks cover every row (row p lies in block p / 8000), and the
  array ends holding that function.
-/
import proofs.«148557_j77953656422434_2_alg».proof.Proof.Gen.KernelIdeal.Frame
import proofs.«148557_j77953656422434_2_alg».proof.Proof.Spec
import proofs.«148557_j77953656422434_2_alg».proof.Proof.LibMatmulRead
import proofs.«148557_j77953656422434_2_alg».proof.Proof.MlpPayload
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.Net.Mlp0

open Idealize.ShloMosaic.ValueIdx Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The edge network over all 800000 edges, of the seven arrays as the region finds them. -/
abbrev whole (c : Dev nD) : S800000x64.Idx → EReal := fun i =>
  Cert.Net.mlpSplit (V c main_v27) (V c main_v10) (V c main_v30) (V c main_v33) (V c main_v35) (V c main_v38) (V c main_v40) (i 0) (i 1)

/-- Where each window's block sits at grid point t, decided once over the 100 points: the two edge-indexed inputs and the
    output are at block-row t, the five weights and biases at their one block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- Row r of the gathered-states block at point t is row 8000 t + r of the array. -/
theorem hsdBlock_apply (c : Dev nD) (t : Fin cfg0.N) (r : Fin 8000) (k : Fin 128) (p : Fin 800000)
    (hp : p.val = 8000 * t.val + r.val) :
    (iblk0 V c 0 t : Vec Ideal S8000x128 .bf16) (ix2 r k) = (V c main_v27 : S800000x128.Idx → EReal) (ix2 p k) := by
  obtain ⟨e0, e1, -⟩ := blockIndex t
  show V c main_v27 (((cfg0.win 0).blk t).view.emb (ix2 r k)) = V c main_v27 (ix2 p k)
  refine congrArg (V c main_v27) (funext fun a => Fin.ext ?_)
  match a with
  | ⟨0, _⟩ => show win0_0.index t (0 : Fin 2) * 8000 + 1 * r.val = p.val; omega
  | ⟨1, _⟩ => show win0_0.index t (1 : Fin 2) * 128 + 1 * k.val = k.val; omega

/-- Row r of the edge-features block at point t is row 8000 t + r of the array. -/
theorem eBlock_apply (c : Dev nD) (t : Fin cfg0.N) (r : Fin 8000) (k : Fin 16) (p : Fin 800000)
    (hp : p.val = 8000 * t.val + r.val) :
    (iblk0 V c 1 t : Vec Ideal S8000x16 .bf16) (ix2 r k) = (V c main_v10 : S800000x16.Idx → EReal) (ix2 p k) := by
  obtain ⟨-, -, e0, e1, -⟩ := blockIndex t
  show V c main_v10 (((cfg0.win 1).blk t).view.emb (ix2 r k)) = V c main_v10 (ix2 p k)
  refine congrArg (V c main_v10) (funext fun a => Fin.ext ?_)
  match a with
  | ⟨0, _⟩ => show win0_1.index t (0 : Fin 2) * 8000 + 1 * r.val = p.val; omega
  | ⟨1, _⟩ => show win0_1.index t (1 : Fin 2) * 16 + 1 * k.val = k.val; omega

/-- The first-layer weight for the gathered states is read whole at every point. -/
theorem wcBlock (c : Dev nD) (t : Fin cfg0.N) :
    (iblk0 V c 2 t : Vec Ideal S128x64 .bf16) = (V c main_v30 : S128x64.Idx → EReal) := by
  obtain ⟨-, -, -, -, e0, e1, -⟩ := blockIndex t
  funext y
  show V c main_v30 (((cfg0.win 2).blk t).view.emb y) = V c main_v30 y
  refine congrArg (V c main_v30) (funext fun a => Fin.ext ?_)
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- The first-layer weight for the edge features is read whole at every point. -/
theorem weBlock (c : Dev nD) (t : Fin cfg0.N) :
    (iblk0 V c 3 t : Vec Ideal S16x64 .bf16) = (V c main_v33 : S16x64.Idx → EReal) := by
  obtain ⟨-, -, -, -, -, -, e0, e1, -⟩ := blockIndex t
  funext y
  show V c main_v33 (((cfg0.win 3).blk t).view.emb y) = V c main_v33 y
  refine congrArg (V c main_v33) (funext fun a => Fin.ext ?_)
  match a with
  | ⟨0, _⟩ => show win0_3.index t (0 : Fin 2) * 16 + 1 * (y 0).val = (y 0).val; omega
  | ⟨1, _⟩ => show win0_3.index t (1 : Fin 2) * 64 + 1 * (y 1).val = (y 1).val; omega

/-- The first bias is read whole at every point. -/
theorem b0Block (c : Dev nD) (t : Fin cfg0.N) :
    (iblk0 V c 4 t : Vec Ideal S64 .f32) = (V c main_v35 : S64.Idx → EReal) := by
  obtain ⟨-, -, -, -, -, -, -, -, e0, -⟩ := blockIndex t
  funext y
  show V c main_v35 (((cfg0.win 4).blk t).view.emb y) = V c main_v35 y
  refine congrArg (V c main_v35) (funext fun a => Fin.ext ?_)
  match a with
  | ⟨0, _⟩ => show win0_4.index t (0 : Fin 1) * 64 + 1 * (y 0).val = (y 0).val; omega

/-- The second-layer weight is read whole at every point. -/
theorem w1Block (c : Dev nD) (t : Fin cfg0.N) :
    (iblk0 V c 5 t : Vec Ideal S64x64 .bf16) = (V c main_v38 : S64x64.Idx → EReal) := by
  obtain ⟨-, -, -, -, -, -, -, -, -, e0, e1, -⟩ := blockIndex t
  funext y
  show V c main_v38 (((cfg0.win 5).blk t).view.emb y) = V c main_v38 y
  refine congrArg (V c main_v38) (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- The second bias is read whole at every point. -/
theorem b1Block (c : Dev nD) (t : Fin cfg0.N) :
    (iblk0 V c 6 t : Vec Ideal S64 .f32) = (V c main_v40 : S64.Idx → EReal) := by
  obtain ⟨-, -, -, -, -, -, -, -, -, -, -, e0, -⟩ := blockIndex t
  funext y
  show V c main_v40 (((cfg0.win 6).blk t).view.emb y) = V c main_v40 y
  refine congrArg (V c main_v40) (funext fun a => Fin.ext ?_)
  match a with
  | ⟨0, _⟩ => show win0_6.index t (0 : Fin 1) * 64 + 1 * (y 0).val = (y 0).val; omega

/-- Entry (r, n) of the output's block at point t sits in the array at (8000 t + r, n). -/
theorem outBlock_emb (t : Fin cfg0.N) (r : Fin 8000) (n : Fin 64) (p : Fin 800000)
    (hp : p.val = 8000 * t.val + r.val) :
    ((cfg0.win 7).blk t).view.emb (ix2 r n) = (ix2 p n : S800000x64.Idx) := by
  obtain ⟨-, -, -, -, -, -, -, -, -, -, -, -, e0, e1⟩ := blockIndex t
  refine funext fun a => Fin.ext ?_
  match a with
  | ⟨0, _⟩ => show win0_7.index t (0 : Fin 2) * 8000 + 1 * r.val = p.val; omega
  | ⟨1, _⟩ => show win0_7.index t (1 : Fin 2) * 64 + 1 * n.val = n.val; omega

/-- An index of the output array is in point t's block iff each coordinate is in the block's range on its axis. -/
theorem mem_block (t : Fin cfg0.N) (i : S800000x64.Idx) :
    i ∈ ((cfg0.win 7).blk t).view.set ↔ ∀ a : Fin 2, win0_7.index t a * S8000x64.size a ≤ (i a).val ∧ (i a).val < win0_7.index t a * S8000x64.size a + S8000x64.size a := by
  show i ∈ ((View.whole main_v41).slice (win0_7.rect t)).set ↔ _
  rw [View.set_slice_whole, Rect.mem_set_unit]
  exact Iff.rfl

/-- Every row is written: row p lies in the block of point p / 8000. -/
theorem rows_covered (i : S800000x64.Idx) :
    ∃ t : Fin cfg0.N, (cfg0.win 7).flush t = true ∧ i ∈ ((cfg0.win 7).blk t).view.set := by
  have hN : cfg0.N = 100 := by decide
  have h0 : (i 0).val < 800000 := (i 0).isLt
  have h1 : (i 1).val < 64 := (i 1).isLt
  obtain ⟨t, ht⟩ : ∃ t : Fin cfg0.N, t.val = (i 0).val / 8000 := ⟨⟨(i 0).val / 8000, by rw [hN]; omega⟩, rfl⟩
  obtain ⟨-, -, -, -, -, -, -, -, -, -, -, -, e0, e1⟩ := blockIndex t
  refine ⟨t, flush0_7 t, ?_⟩
  rw [mem_block]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 64 ≤ (i 1).val ∧ (i 1).val < win0_7.index t (1 : Fin 2) * 64 + 64; omega

/-- WHAT POINT t WRITES BACK is block t of the edge network over the whole arrays: the body's one store leaves its
    payload, the payload at (r, n) is the network of the loaded blocks at (r, n), row r of the two edge-indexed blocks
    is row 8000 t + r of their arrays, the weights and biases are read whole, and entry (r, n) of the output's block sits
    at (8000 t + r, n). -/
theorem writtenBlock (c : Dev nD) (t : Fin cfg0.N) :
    (dat0 (F := Ideal) V c).flushed 7 t = ((cfg0.win 7).blk t).view.read (Elt Ideal) (whole V c) := by
  show (cfg0.win 7).cut (grid0.coords t) ((dat0 (F := Ideal) V c).after 7 t) = _
  rw [after0_7]
  unfold out0_7
  rw [View.canon_unit_zero zeros2]
  simp only [View.ld_unit_zero (S := S8000x128) zeros2, View.ld_unit_zero (S := S8000x16) zeros2,
    View.ld_unit_zero (S := S128x64) zeros2, View.ld_unit_zero (S := S16x64) zeros2,
    View.ld_unit_zero (S := S64x64) zeros2, View.ld_unit_zero (S := S64) zeros1]
  funext j
  obtain ⟨r, n, rfl⟩ : ∃ (r : Fin 8000) (n : Fin 64), j = ix2 r n := ⟨j 0, j 1, eq_ix2 j⟩
  have hN : cfg0.N = 100 := by decide
  have ht : t.val < 100 := lt_of_lt_of_eq t.isLt hN
  obtain ⟨p, hp⟩ : ∃ p : Fin 800000, p.val = 8000 * t.val + r.val := ⟨⟨8000 * t.val + r.val, by omega⟩, rfl⟩
  show k0_pay1 (F := Ideal) (iblk0 V c 0 t) (iblk0 V c 1 t) (iblk0 V c 4 t) (iblk0 V c 6 t) (iblk0 V c 2 t)
      (iblk0 V c 3 t) (iblk0 V c 5 t) (ix2 r n) = whole V c (((cfg0.win 7).blk t).view.emb (ix2 r n))
  refine (MlpPay.pay_apply (iblk0 V c 0 t) (iblk0 V c 1 t) (iblk0 V c 2 t) (iblk0 V c 3 t) (iblk0 V c 4 t)
    (iblk0 V c 5 t) (iblk0 V c 6 t) r n).trans ?_
  refine Eq.trans ?_ (congrArg (whole V c) (outBlock_emb t r n p hp)).symm
  exact MlpPay.mlpSplit_row (iblk0 V c 0 t) (iblk0 V c 1 t) (V c main_v27) (V c main_v10)
    (iblk0 V c 2 t) (V c main_v30) (iblk0 V c 3 t) (V c main_v33) (iblk0 V c 4 t) (V c main_v35)
    (iblk0 V c 5 t) (V c main_v38) (iblk0 V c 6 t) (V c main_v40) r p
    (fun k => hsdBlock_apply V c t r k p hp) (fun k => eBlock_apply V c t r k p hp)
    (wcBlock V c t) (weBlock V c t) (b0Block V c t) (w1Block V c t) (b1Block V c t) n

/-- THE ARRAY the region leaves: at edge p and column n, the edge network of the seven arrays as the region found
    them. The 100 blocks are restrictions of one function and cover the array. -/
theorem final (c : Dev nD) (p : Fin 800000) (n : Fin 64) :
    ((dat0 (F := Ideal) V c).arrAt 7 cfg0.N : S800000x64.Idx → EReal) (ix2 p n)
      = Cert.Net.mlpSplit (V c main_v27) (V c main_v10) (V c main_v30) (V c main_v33) (V c main_v35) (V c main_v38)
          (V c main_v40) p n :=
  congrFun ((dat0 (F := Ideal) V c).arrAt_eq_of_cover 7 (whole V c) (fun t _ => writtenBlock V c t) rows_covered)
    (ix2 p n)

end Cert.Net.Mlp0

end
-- ==== Proof.MlpRegion2.lean ====
/-
  The array the second run of the edge network leaves, entry by entry.

  The region sweeps the 800000 edges in 100 blocks of 8000. At block t it reads rows 8000 t … 8000 t + 7999 of the
  gathered node states and of the edge features, reads the five weights and biases whole, and writes rows
  8000 t … 8000 t + 7999 of the output. So what each block writes is the restriction to those rows of ONE function of the
  seven arrays — `Cert.Net.mlpSplit` at (p, n) —, the blocks cover every row (row p lies in block p / 8000), and the
  array ends holding that function.
-/
import proofs.«148557_j77953656422434_2_alg».proof.Proof.Gen.KernelIdeal.Frame
import proofs.«148557_j77953656422434_2_alg».proof.Proof.Spec
import proofs.«148557_j77953656422434_2_alg».proof.Proof.LibMatmulRead
import proofs.«148557_j77953656422434_2_alg».proof.Proof.MlpPayload
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.Net.Mlp2

open Idealize.ShloMosaic.ValueIdx Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The edge network over all 800000 edges, of the seven arrays as the region finds them. -/
abbrev whole (c : Dev nD) : S800000x64.Idx → EReal := fun i =>
  Cert.Net.mlpSplit (V c main_v65) (V c main_v10) (V c main_v68) (V c main_v71) (V c main_v73) (V c main_v76) (V c main_v78) (i 0) (i 1)

/-- Where each window's block sits at grid point t, decided once over the 100 points: the two edge-indexed inputs and the
    output are at block-row t, the five weights and biases at their one block. -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-- Row r of the gathered-states block at point t is row 8000 t + r of the array. -/
theorem hsdBlock_apply (c : Dev nD) (t : Fin cfg2.N) (r : Fin 8000) (k : Fin 128) (p : Fin 800000)
    (hp : p.val = 8000 * t.val + r.val) :
    (iblk2 V c 0 t : Vec Ideal S8000x128 .bf16) (ix2 r k) = (V c main_v65 : S800000x128.Idx → EReal) (ix2 p k) := by
  obtain ⟨e0, e1, -⟩ := blockIndex t
  show V c main_v65 (((cfg2.win 0).blk t).view.emb (ix2 r k)) = V c main_v65 (ix2 p k)
  refine congrArg (V c main_v65) (funext fun a => Fin.ext ?_)
  match a with
  | ⟨0, _⟩ => show win2_0.index t (0 : Fin 2) * 8000 + 1 * r.val = p.val; omega
  | ⟨1, _⟩ => show win2_0.index t (1 : Fin 2) * 128 + 1 * k.val = k.val; omega

/-- Row r of the edge-features block at point t is row 8000 t + r of the array. -/
theorem eBlock_apply (c : Dev nD) (t : Fin cfg2.N) (r : Fin 8000) (k : Fin 16) (p : Fin 800000)
    (hp : p.val = 8000 * t.val + r.val) :
    (iblk2 V c 1 t : Vec Ideal S8000x16 .bf16) (ix2 r k) = (V c main_v10 : S800000x16.Idx → EReal) (ix2 p k) := by
  obtain ⟨-, -, e0, e1, -⟩ := blockIndex t
  show V c main_v10 (((cfg2.win 1).blk t).view.emb (ix2 r k)) = V c main_v10 (ix2 p k)
  refine congrArg (V c main_v10) (funext fun a => Fin.ext ?_)
  match a with
  | ⟨0, _⟩ => show win2_1.index t (0 : Fin 2) * 8000 + 1 * r.val = p.val; omega
  | ⟨1, _⟩ => show win2_1.index t (1 : Fin 2) * 16 + 1 * k.val = k.val; omega

/-- The first-layer weight for the gathered states is read whole at every point. -/
theorem wcBlock (c : Dev nD) (t : Fin cfg2.N) :
    (iblk2 V c 2 t : Vec Ideal S128x64 .bf16) = (V c main_v68 : S128x64.Idx → EReal) := by
  obtain ⟨-, -, -, -, e0, e1, -⟩ := blockIndex t
  funext y
  show V c main_v68 (((cfg2.win 2).blk t).view.emb y) = V c main_v68 y
  refine congrArg (V c main_v68) (funext fun a => Fin.ext ?_)
  match a with
  | ⟨0, _⟩ => show win2_2.index t (0 : Fin 2) * 128 + 1 * (y 0).val = (y 0).val; omega
  | ⟨1, _⟩ => show win2_2.index t (1 : Fin 2) * 64 + 1 * (y 1).val = (y 1).val; omega

/-- The first-layer weight for the edge features is read whole at every point. -/
theorem weBlock (c : Dev nD) (t : Fin cfg2.N) :
    (iblk2 V c 3 t : Vec Ideal S16x64 .bf16) = (V c main_v71 : S16x64.Idx → EReal) := by
  obtain ⟨-, -, -, -, -, -, e0, e1, -⟩ := blockIndex t
  funext y
  show V c main_v71 (((cfg2.win 3).blk t).view.emb y) = V c main_v71 y
  refine congrArg (V c main_v71) (funext fun a => Fin.ext ?_)
  match a with
  | ⟨0, _⟩ => show win2_3.index t (0 : Fin 2) * 16 + 1 * (y 0).val = (y 0).val; omega
  | ⟨1, _⟩ => show win2_3.index t (1 : Fin 2) * 64 + 1 * (y 1).val = (y 1).val; omega

/-- The first bias is read whole at every point. -/
theorem b0Block (c : Dev nD) (t : Fin cfg2.N) :
    (iblk2 V c 4 t : Vec Ideal S64 .f32) = (V c main_v73 : S64.Idx → EReal) := by
  obtain ⟨-, -, -, -, -, -, -, -, e0, -⟩ := blockIndex t
  funext y
  show V c main_v73 (((cfg2.win 4).blk t).view.emb y) = V c main_v73 y
  refine congrArg (V c main_v73) (funext fun a => Fin.ext ?_)
  match a with
  | ⟨0, _⟩ => show win2_4.index t (0 : Fin 1) * 64 + 1 * (y 0).val = (y 0).val; omega

/-- The second-layer weight is read whole at every point. -/
theorem w1Block (c : Dev nD) (t : Fin cfg2.N) :
    (iblk2 V c 5 t : Vec Ideal S64x64 .bf16) = (V c main_v76 : S64x64.Idx → EReal) := by
  obtain ⟨-, -, -, -, -, -, -, -, -, e0, e1, -⟩ := blockIndex t
  funext y
  show V c main_v76 (((cfg2.win 5).blk t).view.emb y) = V c main_v76 y
  refine congrArg (V c main_v76) (funext fun a => Fin.ext ?_)
  match a with
  | ⟨0, _⟩ => show win2_5.index t (0 : Fin 2) * 64 + 1 * (y 0).val = (y 0).val; omega
  | ⟨1, _⟩ => show win2_5.index t (1 : Fin 2) * 64 + 1 * (y 1).val = (y 1).val; omega

/-- The second bias is read whole at every point. -/
theorem b1Block (c : Dev nD) (t : Fin cfg2.N) :
    (iblk2 V c 6 t : Vec Ideal S64 .f32) = (V c main_v78 : S64.Idx → EReal) := by
  obtain ⟨-, -, -, -, -, -, -, -, -, -, -, e0, -⟩ := blockIndex t
  funext y
  show V c main_v78 (((cfg2.win 6).blk t).view.emb y) = V c main_v78 y
  refine congrArg (V c main_v78) (funext fun a => Fin.ext ?_)
  match a with
  | ⟨0, _⟩ => show win2_6.index t (0 : Fin 1) * 64 + 1 * (y 0).val = (y 0).val; omega

/-- Entry (r, n) of the output's block at point t sits in the array at (8000 t + r, n). -/
theorem outBlock_emb (t : Fin cfg2.N) (r : Fin 8000) (n : Fin 64) (p : Fin 800000)
    (hp : p.val = 8000 * t.val + r.val) :
    ((cfg2.win 7).blk t).view.emb (ix2 r n) = (ix2 p n : S800000x64.Idx) := by
  obtain ⟨-, -, -, -, -, -, -, -, -, -, -, -, e0, e1⟩ := blockIndex t
  refine funext fun a => Fin.ext ?_
  match a with
  | ⟨0, _⟩ => show win2_7.index t (0 : Fin 2) * 8000 + 1 * r.val = p.val; omega
  | ⟨1, _⟩ => show win2_7.index t (1 : Fin 2) * 64 + 1 * n.val = n.val; omega

/-- An index of the output array is in point t's block iff each coordinate is in the block's range on its axis. -/
theorem mem_block (t : Fin cfg2.N) (i : S800000x64.Idx) :
    i ∈ ((cfg2.win 7).blk t).view.set ↔ ∀ a : Fin 2, win2_7.index t a * S8000x64.size a ≤ (i a).val ∧ (i a).val < win2_7.index t a * S8000x64.size a + S8000x64.size a := by
  show i ∈ ((View.whole main_v79).slice (win2_7.rect t)).set ↔ _
  rw [View.set_slice_whole, Rect.mem_set_unit]
  exact Iff.rfl

/-- Every row is written: row p lies in the block of point p / 8000. -/
theorem rows_covered (i : S800000x64.Idx) :
    ∃ t : Fin cfg2.N, (cfg2.win 7).flush t = true ∧ i ∈ ((cfg2.win 7).blk t).view.set := by
  have hN : cfg2.N = 100 := by decide
  have h0 : (i 0).val < 800000 := (i 0).isLt
  have h1 : (i 1).val < 64 := (i 1).isLt
  obtain ⟨t, ht⟩ : ∃ t : Fin cfg2.N, t.val = (i 0).val / 8000 := ⟨⟨(i 0).val / 8000, by rw [hN]; omega⟩, rfl⟩
  obtain ⟨-, -, -, -, -, -, -, -, -, -, -, -, e0, e1⟩ := blockIndex t
  refine ⟨t, flush2_7 t, ?_⟩
  rw [mem_block]
  intro a
  match a with
  | ⟨0, _⟩ => show win2_7.index t (0 : Fin 2) * 8000 ≤ (i 0).val ∧ (i 0).val < win2_7.index t (0 : Fin 2) * 8000 + 8000; omega
  | ⟨1, _⟩ => show win2_7.index t (1 : Fin 2) * 64 ≤ (i 1).val ∧ (i 1).val < win2_7.index t (1 : Fin 2) * 64 + 64; omega

/-- WHAT POINT t WRITES BACK is block t of the edge network over the whole arrays: the body's one store leaves its
    payload, the payload at (r, n) is the network of the loaded blocks at (r, n), row r of the two edge-indexed blocks
    is row 8000 t + r of their arrays, the weights and biases are read whole, and entry (r, n) of the output's block sits
    at (8000 t + r, n). -/
theorem writtenBlock (c : Dev nD) (t : Fin cfg2.N) :
    (dat2 (F := Ideal) V c).flushed 7 t = ((cfg2.win 7).blk t).view.read (Elt Ideal) (whole V c) := by
  show (cfg2.win 7).cut (grid2.coords t) ((dat2 (F := Ideal) V c).after 7 t) = _
  rw [after2_7]
  unfold out2_7
  rw [View.canon_unit_zero zeros2]
  simp only [View.ld_unit_zero (S := S8000x128) zeros2, View.ld_unit_zero (S := S8000x16) zeros2,
    View.ld_unit_zero (S := S128x64) zeros2, View.ld_unit_zero (S := S16x64) zeros2,
    View.ld_unit_zero (S := S64x64) zeros2, View.ld_unit_zero (S := S64) zeros1]
  funext j
  obtain ⟨r, n, rfl⟩ : ∃ (r : Fin 8000) (n : Fin 64), j = ix2 r n := ⟨j 0, j 1, eq_ix2 j⟩
  have hN : cfg2.N = 100 := by decide
  have ht : t.val < 100 := lt_of_lt_of_eq t.isLt hN
  obtain ⟨p, hp⟩ : ∃ p : Fin 800000, p.val = 8000 * t.val + r.val := ⟨⟨8000 * t.val + r.val, by omega⟩, rfl⟩
  show k2_pay1 (F := Ideal) (iblk2 V c 0 t) (iblk2 V c 1 t) (iblk2 V c 4 t) (iblk2 V c 6 t) (iblk2 V c 2 t)
      (iblk2 V c 3 t) (iblk2 V c 5 t) (ix2 r n) = whole V c (((cfg2.win 7).blk t).view.emb (ix2 r n))
  refine (MlpPay.pay_apply (iblk2 V c 0 t) (iblk2 V c 1 t) (iblk2 V c 2 t) (iblk2 V c 3 t) (iblk2 V c 4 t)
    (iblk2 V c 5 t) (iblk2 V c 6 t) r n).trans ?_
  refine Eq.trans ?_ (congrArg (whole V c) (outBlock_emb t r n p hp)).symm
  exact MlpPay.mlpSplit_row (iblk2 V c 0 t) (iblk2 V c 1 t) (V c main_v65) (V c main_v10)
    (iblk2 V c 2 t) (V c main_v68) (iblk2 V c 3 t) (V c main_v71) (iblk2 V c 4 t) (V c main_v73)
    (iblk2 V c 5 t) (V c main_v76) (iblk2 V c 6 t) (V c main_v78) r p
    (fun k => hsdBlock_apply V c t r k p hp) (fun k => eBlock_apply V c t r k p hp)
    (wcBlock V c t) (weBlock V c t) (b0Block V c t) (w1Block V c t) (b1Block V c t) n

/-- THE ARRAY the region leaves: at edge p and column n, the edge network of the seven arrays as the region found
    them. The 100 blocks are restrictions of one function and cover the array. -/
theorem final (c : Dev nD) (p : Fin 800000) (n : Fin 64) :
    ((dat2 (F := Ideal) V c).arrAt 7 cfg2.N : S800000x64.Idx → EReal) (ix2 p n)
      = Cert.Net.mlpSplit (V c main_v65) (V c main_v10) (V c main_v68) (V c main_v71) (V c main_v73) (V c main_v76)
          (V c main_v78) p n :=
  congrFun ((dat2 (F := Ideal) V c).arrAt_eq_of_cover 7 (whole V c) (fun t _ => writtenBlock V c t) rows_covered)
    (ix2 p n)

end Cert.Net.Mlp2

end
-- ==== Proof.MlpRegion4.lean ====
/-
  The array the third run of the edge network leaves, entry by entry.

  The region sweeps the 800000 edges in 100 blocks of 8000. At block t it reads rows 8000 t … 8000 t + 7999 of the
  gathered node states and of the edge features, reads the five weights and biases whole, and writes rows
  8000 t … 8000 t + 7999 of the output. So what each block writes is the restriction to those rows of ONE function of the
  seven arrays — `Cert.Net.mlpSplit` at (p, n) —, the blocks cover every row (row p lies in block p / 8000), and the
  array ends holding that function.
-/
import proofs.«148557_j77953656422434_2_alg».proof.Proof.Gen.KernelIdeal.Frame
import proofs.«148557_j77953656422434_2_alg».proof.Proof.Spec
import proofs.«148557_j77953656422434_2_alg».proof.Proof.LibMatmulRead
import proofs.«148557_j77953656422434_2_alg».proof.Proof.MlpPayload
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.Net.Mlp4

open Idealize.ShloMosaic.ValueIdx Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The edge network over all 800000 edges, of the seven arrays as the region finds them. -/
abbrev whole (c : Dev nD) : S800000x64.Idx → EReal := fun i =>
  Cert.Net.mlpSplit (V c main_v103) (V c main_v10) (V c main_v106) (V c main_v109) (V c main_v111) (V c main_v114) (V c main_v116) (i 0) (i 1)

/-- Where each window's block sits at grid point t, decided once over the 100 points: the two edge-indexed inputs and the
    output are at block-row t, the five weights and biases at their one block. -/
theorem blockIndex : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

/-- Row r of the gathered-states block at point t is row 8000 t + r of the array. -/
theorem hsdBlock_apply (c : Dev nD) (t : Fin cfg4.N) (r : Fin 8000) (k : Fin 128) (p : Fin 800000)
    (hp : p.val = 8000 * t.val + r.val) :
    (iblk4 V c 0 t : Vec Ideal S8000x128 .bf16) (ix2 r k) = (V c main_v103 : S800000x128.Idx → EReal) (ix2 p k) := by
  obtain ⟨e0, e1, -⟩ := blockIndex t
  show V c main_v103 (((cfg4.win 0).blk t).view.emb (ix2 r k)) = V c main_v103 (ix2 p k)
  refine congrArg (V c main_v103) (funext fun a => Fin.ext ?_)
  match a with
  | ⟨0, _⟩ => show win4_0.index t (0 : Fin 2) * 8000 + 1 * r.val = p.val; omega
  | ⟨1, _⟩ => show win4_0.index t (1 : Fin 2) * 128 + 1 * k.val = k.val; omega

/-- Row r of the edge-features block at point t is row 8000 t + r of the array. -/
theorem eBlock_apply (c : Dev nD) (t : Fin cfg4.N) (r : Fin 8000) (k : Fin 16) (p : Fin 800000)
    (hp : p.val = 8000 * t.val + r.val) :
    (iblk4 V c 1 t : Vec Ideal S8000x16 .bf16) (ix2 r k) = (V c main_v10 : S800000x16.Idx → EReal) (ix2 p k) := by
  obtain ⟨-, -, e0, e1, -⟩ := blockIndex t
  show V c main_v10 (((cfg4.win 1).blk t).view.emb (ix2 r k)) = V c main_v10 (ix2 p k)
  refine congrArg (V c main_v10) (funext fun a => Fin.ext ?_)
  match a with
  | ⟨0, _⟩ => show win4_1.index t (0 : Fin 2) * 8000 + 1 * r.val = p.val; omega
  | ⟨1, _⟩ => show win4_1.index t (1 : Fin 2) * 16 + 1 * k.val = k.val; omega

/-- The first-layer weight for the gathered states is read whole at every point. -/
theorem wcBlock (c : Dev nD) (t : Fin cfg4.N) :
    (iblk4 V c 2 t : Vec Ideal S128x64 .bf16) = (V c main_v106 : S128x64.Idx → EReal) := by
  obtain ⟨-, -, -, -, e0, e1, -⟩ := blockIndex t
  funext y
  show V c main_v106 (((cfg4.win 2).blk t).view.emb y) = V c main_v106 y
  refine congrArg (V c main_v106) (funext fun a => Fin.ext ?_)
  match a with
  | ⟨0, _⟩ => show win4_2.index t (0 : Fin 2) * 128 + 1 * (y 0).val = (y 0).val; omega
  | ⟨1, _⟩ => show win4_2.index t (1 : Fin 2) * 64 + 1 * (y 1).val = (y 1).val; omega

/-- The first-layer weight for the edge features is read whole at every point. -/
theorem weBlock (c : Dev nD) (t : Fin cfg4.N) :
    (iblk4 V c 3 t : Vec Ideal S16x64 .bf16) = (V c main_v109 : S16x64.Idx → EReal) := by
  obtain ⟨-, -, -, -, -, -, e0, e1, -⟩ := blockIndex t
  funext y
  show V c main_v109 (((cfg4.win 3).blk t).view.emb y) = V c main_v109 y
  refine congrArg (V c main_v109) (funext fun a => Fin.ext ?_)
  match a with
  | ⟨0, _⟩ => show win4_3.index t (0 : Fin 2) * 16 + 1 * (y 0).val = (y 0).val; omega
  | ⟨1, _⟩ => show win4_3.index t (1 : Fin 2) * 64 + 1 * (y 1).val = (y 1).val; omega

/-- The first bias is read whole at every point. -/
theorem b0Block (c : Dev nD) (t : Fin cfg4.N) :
    (iblk4 V c 4 t : Vec Ideal S64 .f32) = (V c main_v111 : S64.Idx → EReal) := by
  obtain ⟨-, -, -, -, -, -, -, -, e0, -⟩ := blockIndex t
  funext y
  show V c main_v111 (((cfg4.win 4).blk t).view.emb y) = V c main_v111 y
  refine congrArg (V c main_v111) (funext fun a => Fin.ext ?_)
  match a with
  | ⟨0, _⟩ => show win4_4.index t (0 : Fin 1) * 64 + 1 * (y 0).val = (y 0).val; omega

/-- The second-layer weight is read whole at every point. -/
theorem w1Block (c : Dev nD) (t : Fin cfg4.N) :
    (iblk4 V c 5 t : Vec Ideal S64x64 .bf16) = (V c main_v114 : S64x64.Idx → EReal) := by
  obtain ⟨-, -, -, -, -, -, -, -, -, e0, e1, -⟩ := blockIndex t
  funext y
  show V c main_v114 (((cfg4.win 5).blk t).view.emb y) = V c main_v114 y
  refine congrArg (V c main_v114) (funext fun a => Fin.ext ?_)
  match a with
  | ⟨0, _⟩ => show win4_5.index t (0 : Fin 2) * 64 + 1 * (y 0).val = (y 0).val; omega
  | ⟨1, _⟩ => show win4_5.index t (1 : Fin 2) * 64 + 1 * (y 1).val = (y 1).val; omega

/-- The second bias is read whole at every point. -/
theorem b1Block (c : Dev nD) (t : Fin cfg4.N) :
    (iblk4 V c 6 t : Vec Ideal S64 .f32) = (V c main_v116 : S64.Idx → EReal) := by
  obtain ⟨-, -, -, -, -, -, -, -, -, -, -, e0, -⟩ := blockIndex t
  funext y
  show V c main_v116 (((cfg4.win 6).blk t).view.emb y) = V c main_v116 y
  refine congrArg (V c main_v116) (funext fun a => Fin.ext ?_)
  match a with
  | ⟨0, _⟩ => show win4_6.index t (0 : Fin 1) * 64 + 1 * (y 0).val = (y 0).val; omega

/-- Entry (r, n) of the output's block at point t sits in the array at (8000 t + r, n). -/
theorem outBlock_emb (t : Fin cfg4.N) (r : Fin 8000) (n : Fin 64) (p : Fin 800000)
    (hp : p.val = 8000 * t.val + r.val) :
    ((cfg4.win 7).blk t).view.emb (ix2 r n) = (ix2 p n : S800000x64.Idx) := by
  obtain ⟨-, -, -, -, -, -, -, -, -, -, -, -, e0, e1⟩ := blockIndex t
  refine funext fun a => Fin.ext ?_
  match a with
  | ⟨0, _⟩ => show win4_7.index t (0 : Fin 2) * 8000 + 1 * r.val = p.val; omega
  | ⟨1, _⟩ => show win4_7.index t (1 : Fin 2) * 64 + 1 * n.val = n.val; omega

/-- An index of the output array is in point t's block iff each coordinate is in the block's range on its axis. -/
theorem mem_block (t : Fin cfg4.N) (i : S800000x64.Idx) :
    i ∈ ((cfg4.win 7).blk t).view.set ↔ ∀ a : Fin 2, win4_7.index t a * S8000x64.size a ≤ (i a).val ∧ (i a).val < win4_7.index t a * S8000x64.size a + S8000x64.size a := by
  show i ∈ ((View.whole main_v117).slice (win4_7.rect t)).set ↔ _
  rw [View.set_slice_whole, Rect.mem_set_unit]
  exact Iff.rfl

/-- Every row is written: row p lies in the block of point p / 8000. -/
theorem rows_covered (i : S800000x64.Idx) :
    ∃ t : Fin cfg4.N, (cfg4.win 7).flush t = true ∧ i ∈ ((cfg4.win 7).blk t).view.set := by
  have hN : cfg4.N = 100 := by decide
  have h0 : (i 0).val < 800000 := (i 0).isLt
  have h1 : (i 1).val < 64 := (i 1).isLt
  obtain ⟨t, ht⟩ : ∃ t : Fin cfg4.N, t.val = (i 0).val / 8000 := ⟨⟨(i 0).val / 8000, by rw [hN]; omega⟩, rfl⟩
  obtain ⟨-, -, -, -, -, -, -, -, -, -, -, -, e0, e1⟩ := blockIndex t
  refine ⟨t, flush4_7 t, ?_⟩
  rw [mem_block]
  intro a
  match a with
  | ⟨0, _⟩ => show win4_7.index t (0 : Fin 2) * 8000 ≤ (i 0).val ∧ (i 0).val < win4_7.index t (0 : Fin 2) * 8000 + 8000; omega
  | ⟨1, _⟩ => show win4_7.index t (1 : Fin 2) * 64 ≤ (i 1).val ∧ (i 1).val < win4_7.index t (1 : Fin 2) * 64 + 64; omega

/-- WHAT POINT t WRITES BACK is block t of the edge network over the whole arrays: the body's one store leaves its
    payload, the payload at (r, n) is the network of the loaded blocks at (r, n), row r of the two edge-indexed blocks
    is row 8000 t + r of their arrays, the weights and biases are read whole, and entry (r, n) of the output's block sits
    at (8000 t + r, n). -/
theorem writtenBlock (c : Dev nD) (t : Fin cfg4.N) :
    (dat4 (F := Ideal) V c).flushed 7 t = ((cfg4.win 7).blk t).view.read (Elt Ideal) (whole V c) := by
  show (cfg4.win 7).cut (grid4.coords t) ((dat4 (F := Ideal) V c).after 7 t) = _
  rw [after4_7]
  unfold out4_7
  rw [View.canon_unit_zero zeros2]
  simp only [View.ld_unit_zero (S := S8000x128) zeros2, View.ld_unit_zero (S := S8000x16) zeros2,
    View.ld_unit_zero (S := S128x64) zeros2, View.ld_unit_zero (S := S16x64) zeros2,
    View.ld_unit_zero (S := S64x64) zeros2, View.ld_unit_zero (S := S64) zeros1]
  funext j
  obtain ⟨r, n, rfl⟩ : ∃ (r : Fin 8000) (n : Fin 64), j = ix2 r n := ⟨j 0, j 1, eq_ix2 j⟩
  have hN : cfg4.N = 100 := by decide
  have ht : t.val < 100 := lt_of_lt_of_eq t.isLt hN
  obtain ⟨p, hp⟩ : ∃ p : Fin 800000, p.val = 8000 * t.val + r.val := ⟨⟨8000 * t.val + r.val, by omega⟩, rfl⟩
  show k4_pay1 (F := Ideal) (iblk4 V c 0 t) (iblk4 V c 1 t) (iblk4 V c 4 t) (iblk4 V c 6 t) (iblk4 V c 2 t)
      (iblk4 V c 3 t) (iblk4 V c 5 t) (ix2 r n) = whole V c (((cfg4.win 7).blk t).view.emb (ix2 r n))
  refine (MlpPay.pay_apply (iblk4 V c 0 t) (iblk4 V c 1 t) (iblk4 V c 2 t) (iblk4 V c 3 t) (iblk4 V c 4 t)
    (iblk4 V c 5 t) (iblk4 V c 6 t) r n).trans ?_
  refine Eq.trans ?_ (congrArg (whole V c) (outBlock_emb t r n p hp)).symm
  exact MlpPay.mlpSplit_row (iblk4 V c 0 t) (iblk4 V c 1 t) (V c main_v103) (V c main_v10)
    (iblk4 V c 2 t) (V c main_v106) (iblk4 V c 3 t) (V c main_v109) (iblk4 V c 4 t) (V c main_v111)
    (iblk4 V c 5 t) (V c main_v114) (iblk4 V c 6 t) (V c main_v116) r p
    (fun k => hsdBlock_apply V c t r k p hp) (fun k => eBlock_apply V c t r k p hp)
    (wcBlock V c t) (weBlock V c t) (b0Block V c t) (w1Block V c t) (b1Block V c t) n

/-- THE ARRAY the region leaves: at edge p and column n, the edge network of the seven arrays as the region found
    them. The 100 blocks are restrictions of one function and cover the array. -/
theorem final (c : Dev nD) (p : Fin 800000) (n : Fin 64) :
    ((dat4 (F := Ideal) V c).arrAt 7 cfg4.N : S800000x64.Idx → EReal) (ix2 p n)
      = Cert.Net.mlpSplit (V c main_v103) (V c main_v10) (V c main_v106) (V c main_v109) (V c main_v111) (V c main_v114)
          (V c main_v116) p n :=
  congrFun ((dat4 (F := Ideal) V c).arrAt_eq_of_cover 7 (whole V c) (fun t _ => writtenBlock V c t) rows_covered)
    (ix2 p n)

end Cert.Net.Mlp4

end
-- ==== Proof.GruPayload.lean ====
/-
  The gated update of one block of rows, read entry by entry.

  The value one grid point stores is a chain of whole-block operations on the point's two row blocks (the
  aggregated messages and the node states), the two weight matrices and the two bias rows: two matrix products
  into 192 columns with a bias row added, three column blocks of 64 taken from each, two logistic gates, a
  hyperbolic tangent, and a maximum with zero. Read at row `r` and column `q` it is `Cert.Net.gru` of the same six
  arrays at `(r, q)`, the blocks having 2000 rows.
-/
import proofs.«148557_j77953656422434_2_alg».proof.Proof.Gen.KernelIdeal.Skeleton
import proofs.«148557_j77953656422434_2_alg».proof.Proof.Spec
import proofs.«148557_j77953656422434_2_alg».proof.Proof.LibMatmulRead
import Idealize.ShloMosaic.PureOps.Ideal
import Idealize.ShloMosaic.Lib.Pipeline.Value
import Idealize.ShloMosaic.Lib.ValueIdx

noncomputable section

namespace Cert.Net.GruPay

open Idealize.ShloMosaic Idealize.ShloMosaic.ValueIdx Cert.KernelIdeal Cert.KernelIdeal.Gen

/-- A bias row of 192 entries, viewed as one row and repeated down 2000 rows, reads at `(r, k)` its entry `k`. -/
theorem biasRows_apply (b : FVec Ideal S192 .f32) (r : Fin 2000) (k : Fin 192) :
    broadcastTo S2000x192 (shapeCast S1x192 (shapeCast S192 b shapeCasts_S192_S192) shapeCasts_S192_S1x192)
        broadcasts_S1x192_S2000x192 (ix2 r k)
      = b (ix1 k) := by
  rw [shapeCast_self]
  refine (broadcastTo_apply _ broadcasts_S1x192_S2000x192 (ix2 r k) (ix2 (0 : Fin 1) k) fun a => ?_).trans ?_
  · match a with
    | ⟨0, _⟩ => rfl
    | ⟨1, _⟩ => rfl
  · refine (shapeCast_addUnit_apply ![192] b shapeCasts_S192_S1x192 (ix2 (0 : Fin 1) k)).trans ?_
    exact congrArg b (funext fun a => by match a with | ⟨0, _⟩ => rfl)

/-- One entry of a gate pre-activation: the block's row `r` against column `k` of the weights, plus the bias at `k`. -/
theorem gates_apply (x : FVec Ideal S2000x64 .f32) (w : FVec Ideal S64x192 .bf16) (b : FVec Ideal S192 .f32)
    (r : Fin 2000) (k : Fin 192) :
    addf (matmul dot_S2000x64_S64x192_S2000x192_1_0_0_1_n_n none
            (truncf .bf16 x bitsLt_bf16_f32)
            (shapeCast S64x192 w shapeCasts_S64x192_S64x192) (constant (F := Ideal) S2000x192 .f32 0x00000000#32))
        (broadcastTo S2000x192 (shapeCast S1x192 (shapeCast S192 b shapeCasts_S192_S192) shapeCasts_S192_S1x192)
          broadcasts_S1x192_S2000x192) (ix2 r k)
      = Cert.Net.lin x w b r k := by
  rw [shapeCast_self]
  unfold Cert.Net.lin
  refine congrArg₂ (· + ·) ?_ (biasRows_apply b r k)
  exact matmul_ix2_apply dot_S2000x64_S64x192_S2000x192_1_0_0_1_n_n rfl rfl rfl rfl rfl rfl none _ w r k

/-- The column block at offset 0 of a 192-column array reads, at `(r, q)`, column `q`. -/
theorem cols0_apply (g : FVec Ideal S2000x192 .f32) (r : Fin 2000) (q : Fin 64) :
    extractStridedSlice S2000x64 ![0, 0] g slices_S2000x192_o0_0_S2000x64 (ix2 r q)
      = g (ix2 r ⟨q.val, by omega⟩) :=
  extractStridedSlice_apply _ g _ (ix2 r q) (ix2 r ⟨q.val, by omega⟩) fun a => by
    match a with
    | ⟨0, _⟩ => exact (Nat.zero_add _).symm
    | ⟨1, _⟩ => exact (Nat.zero_add _).symm

/-- The column block at offset 64 reads, at `(r, q)`, column `64 + q`. -/
theorem cols64_apply (g : FVec Ideal S2000x192 .f32) (r : Fin 2000) (q : Fin 64) :
    extractStridedSlice S2000x64 ![0, 64] g slices_S2000x192_o0_64_S2000x64 (ix2 r q)
      = g (ix2 r ⟨64 + q.val, by omega⟩) :=
  extractStridedSlice_apply _ g _ (ix2 r q) (ix2 r ⟨64 + q.val, by omega⟩) fun a => by
    match a with
    | ⟨0, _⟩ => exact (Nat.zero_add _).symm
    | ⟨1, _⟩ => rfl

/-- The column block at offset 128 reads, at `(r, q)`, column `128 + q`. -/
theorem cols128_apply (g : FVec Ideal S2000x192 .f32) (r : Fin 2000) (q : Fin 64) :
    extractStridedSlice S2000x64 ![0, 128] g slices_S2000x192_o0_128_S2000x64 (ix2 r q)
      = g (ix2 r ⟨128 + q.val, by omega⟩) :=
  extractStridedSlice_apply _ g _ (ix2 r q) (ix2 r ⟨128 + q.val, by omega⟩) fun a => by
    match a with
    | ⟨0, _⟩ => exact (Nat.zero_add _).symm
    | ⟨1, _⟩ => rfl

/-- The gates of two 192-column pre-activations `gi`, `gh` and the state block `h`, read at `(r, q)`. -/
theorem update_apply (gi gh : FVec Ideal S2000x192 .f32) (h : FVec Ideal S2000x64 .f32) (r : Fin 2000) (q : Fin 64) :
    maximumf
        (addf
          (mulf
            (subf (broadcast S2000x64 (Scalar.ofBits (F := Ideal) .f32 0x3F800000#32))
              (logistic (addf (extractStridedSlice S2000x64 ![0, 64] gi slices_S2000x192_o0_64_S2000x64)
                (extractStridedSlice S2000x64 ![0, 64] gh slices_S2000x192_o0_64_S2000x64))))
            (tanh (addf (extractStridedSlice S2000x64 ![0, 128] gi slices_S2000x192_o0_128_S2000x64)
              (mulf
                (logistic (addf (extractStridedSlice S2000x64 ![0, 0] gi slices_S2000x192_o0_0_S2000x64)
                  (extractStridedSlice S2000x64 ![0, 0] gh slices_S2000x192_o0_0_S2000x64)))
                (extractStridedSlice S2000x64 ![0, 128] gh slices_S2000x192_o0_128_S2000x64)))))
          (mulf
            (logistic (addf (extractStridedSlice S2000x64 ![0, 64] gi slices_S2000x192_o0_64_S2000x64)
              (extractStridedSlice S2000x64 ![0, 64] gh slices_S2000x192_o0_64_S2000x64)))
            h))
        (broadcast S2000x64 (Scalar.ofBits (F := Ideal) .f32 0x00000000#32)) (ix2 r q)
      = max ((Cert.Net.oneW - Ideal.logistic (gi (ix2 r ⟨64 + q.val, by omega⟩) + gh (ix2 r ⟨64 + q.val, by omega⟩)))
              * Ideal.tanh (gi (ix2 r ⟨128 + q.val, by omega⟩)
                  + Ideal.logistic (gi (ix2 r ⟨q.val, by omega⟩) + gh (ix2 r ⟨q.val, by omega⟩))
                    * gh (ix2 r ⟨128 + q.val, by omega⟩))
            + Ideal.logistic (gi (ix2 r ⟨64 + q.val, by omega⟩) + gh (ix2 r ⟨64 + q.val, by omega⟩)) * h (ix2 r q))
          Cert.Net.zeroW := by
  show max ((_ - Ideal.logistic (extractStridedSlice S2000x64 ![0, 64] gi slices_S2000x192_o0_64_S2000x64 (ix2 r q)
                  + extractStridedSlice S2000x64 ![0, 64] gh slices_S2000x192_o0_64_S2000x64 (ix2 r q)))
              * Ideal.tanh (extractStridedSlice S2000x64 ![0, 128] gi slices_S2000x192_o0_128_S2000x64 (ix2 r q)
                  + Ideal.logistic (extractStridedSlice S2000x64 ![0, 0] gi slices_S2000x192_o0_0_S2000x64 (ix2 r q)
                      + extractStridedSlice S2000x64 ![0, 0] gh slices_S2000x192_o0_0_S2000x64 (ix2 r q))
                    * extractStridedSlice S2000x64 ![0, 128] gh slices_S2000x192_o0_128_S2000x64 (ix2 r q))
            + Ideal.logistic (extractStridedSlice S2000x64 ![0, 64] gi slices_S2000x192_o0_64_S2000x64 (ix2 r q)
                  + extractStridedSlice S2000x64 ![0, 64] gh slices_S2000x192_o0_64_S2000x64 (ix2 r q)) * h (ix2 r q))
          _ = _
  rw [cols0_apply, cols0_apply, cols64_apply, cols64_apply, cols128_apply, cols128_apply]
  rfl

/-- THE STORED BLOCK AT AN ENTRY: the value one grid point computes from its blocks `agg`, `h` (2000 rows each), the
    weights `wih`, `whh` and the bias rows `bih`, `bhh`, read at `(r, q)`, is the gated update of those arrays there. -/
theorem pay_apply (agg h : Vec Ideal S2000x64 .f32) (wih : Vec Ideal S64x192 .bf16) (bih : Vec Ideal S192 .f32)
    (whh : Vec Ideal S64x192 .bf16) (bhh : Vec Ideal S192 .f32) (r : Fin 2000) (q : Fin 64) :
    k1_pay1 (F := Ideal) agg h bih bhh wih whh (ix2 r q) = Cert.Net.gru (N := 2000) agg h wih bih whh bhh r q := by
  unfold k1_pay1
  refine (update_apply _ _ _ r q).trans ?_
  rw [shapeCast_self agg, shapeCast_self h]
  unfold Cert.Net.gru
  simp only [gates_apply]

/-- The same, at an index given whole: its two coordinates are the row and the column. -/
theorem pay_apply_idx (agg h : Vec Ideal S2000x64 .f32) (wih : Vec Ideal S64x192 .bf16) (bih : Vec Ideal S192 .f32)
    (whh : Vec Ideal S64x192 .bf16) (bhh : Vec Ideal S192 .f32) (y : S2000x64.Idx) :
    k1_pay1 (F := Ideal) agg h bih bhh wih whh y = Cert.Net.gru (N := 2000) agg h wih bih whh bhh (y 0) (y 1) :=
  (congrArg (k1_pay1 (F := Ideal) agg h bih bhh wih whh) (eq_ix2 y)).trans (pay_apply agg h wih bih whh bhh (y 0) (y 1))

/-- The gated update at `(r, q)` reads row `r` of the two row arrays and all of the weights and biases: two sets of
    arrays that agree there give the same value, whatever their numbers of rows. -/
theorem gru_congr {M N : Nat} (a h : Cert.Net.A2 M 64) (A H : Cert.Net.A2 N 64) (wih Wih whh Whh : Cert.Net.A2 64 192)
    (bih Bih bhh Bhh : Cert.Net.A1 192) (r : Fin M) (p : Fin N) (q : Fin 64)
    (ha : ∀ k : Fin 64, a (ix2 r k) = A (ix2 p k)) (hh : ∀ k : Fin 64, h (ix2 r k) = H (ix2 p k))
    (hwi : ∀ (d : Fin 64) (k : Fin 192), wih (ix2 d k) = Wih (ix2 d k))
    (hwh : ∀ (d : Fin 64) (k : Fin 192), whh (ix2 d k) = Whh (ix2 d k))
    (hbi : ∀ k : Fin 192, bih (ix1 k) = Bih (ix1 k)) (hbh : ∀ k : Fin 192, bhh (ix1 k) = Bhh (ix1 k)) :
    Cert.Net.gru a h wih bih whh bhh r q = Cert.Net.gru A H Wih Bih Whh Bhh p q := by
  unfold Cert.Net.gru Cert.Net.lin
  simp only [ha, hh, hwi, hwh, hbi, hbh]

/-- Two zero offsets, as the constant function. -/
theorem zeros2 : (![0, 0] : Fin 2 → Nat) = fun _ => 0 :=
  funext fun a => by match a with | ⟨0, _⟩ => rfl | ⟨1, _⟩ => rfl

/-- One zero offset, as the constant function. -/
theorem zeros1 : (![0] : Fin 1 → Nat) = fun _ => 0 :=
  funext fun a => by match a with | ⟨0, _⟩ => rfl

/-- The second and third gated-update regions compute the same function of their blocks as the first. -/
theorem k3_pay1_eq : k3_pay1 (F := Ideal) = k1_pay1 (F := Ideal) := rfl
theorem k5_pay1_eq : k5_pay1 (F := Ideal) = k1_pay1 (F := Ideal) := rfl

end Cert.Net.GruPay

end
-- ==== Proof.GruRegion1.lean ====
/-
  The array the first gated-update region leaves.

  The region runs over 25 grid points; point `t` reads rows `2000 t … 2000 t + 1999` of the aggregated messages and of
  the node states, the whole of the two weight matrices and of the two bias rows, and writes back rows
  `2000 t … 2000 t + 1999` of the new states. What it writes back is, entry by entry, the gated update of the six
  arrays as the region finds them; the 25 row blocks cover the 50000 rows, so the whole array ends at that function.
-/
import proofs.«148557_j77953656422434_2_alg».proof.Proof.Gen.KernelIdeal.Frame
import proofs.«148557_j77953656422434_2_alg».proof.Proof.Spec
import proofs.«148557_j77953656422434_2_alg».proof.Proof.LibMatmulRead
import proofs.«148557_j77953656422434_2_alg».proof.Proof.GruPayload
import Idealize.ShloMosaic.Lib.Pipeline.Value
import Idealize.ShloMosaic.Lib.ValueIdx

noncomputable section

namespace Cert.Net.Gru1

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The grid has 25 points. -/
theorem points : cfg1.N = 25 := by decide

/-- The block index of each window at each point, decided over the grid: the two row inputs and the output are at
    block-row `t`, the weights and biases at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What the region's output array ends holding: the gated update of the six arrays the region reads, as it finds
    them, entry by entry. -/
def G (c : Dev nD) : S50000x64.Idx → EReal := fun i =>
  Cert.Net.gru (V c main_v45 : S50000x64.Idx → EReal) (V c main_v4 : S50000x64.Idx → EReal)
    (V c main_v48 : S64x192.Idx → EReal) (V c main_v53 : S192.Idx → EReal)
    (V c main_v51 : S64x192.Idx → EReal) (V c main_v55 : S192.Idx → EReal) (i 0) (i 1)

/-- Row `r` of the aggregated-message block at point `t` is row `2000 t + r` of the array. -/
theorem agg_blk (c : Dev nD) (t : Fin cfg1.N) (r : Fin 2000) (k : Fin 64) (p : Fin 50000)
    (hp : p.val = 2000 * t.val + r.val) :
    (iblk1 V c 0 t : Vec Ideal S2000x64 .f32) (ix2 r k) = (V c main_v45 : S50000x64.Idx → EReal) (ix2 p k) := by
  obtain ⟨e0, e1, -⟩ := idx_facts t
  unfold iblk1
  rw [View.read_apply]
  show (V c main_v45 : S50000x64.Idx → EReal) _ = (V c main_v45 : S50000x64.Idx → EReal) _
  refine congrArg (V c main_v45 : S50000x64.Idx → EReal) (funext fun a => Fin.ext ?_)
  match a with
  | ⟨0, _⟩ => show win1_0.index t (0 : Fin 2) * 2000 + 1 * r.val = p.val; rw [e0, hp]; omega
  | ⟨1, _⟩ => show win1_0.index t (1 : Fin 2) * 64 + 1 * k.val = k.val; rw [e1]; omega

/-- Row `r` of the state block at point `t` is row `2000 t + r` of the array. -/
theorem h_blk (c : Dev nD) (t : Fin cfg1.N) (r : Fin 2000) (k : Fin 64) (p : Fin 50000)
    (hp : p.val = 2000 * t.val + r.val) :
    (iblk1 V c 1 t : Vec Ideal S2000x64 .f32) (ix2 r k) = (V c main_v4 : S50000x64.Idx → EReal) (ix2 p k) := by
  obtain ⟨-, -, e0, e1, -⟩ := idx_facts t
  unfold iblk1
  rw [View.read_apply]
  show (V c main_v4 : S50000x64.Idx → EReal) _ = (V c main_v4 : S50000x64.Idx → EReal) _
  refine congrArg (V c main_v4 : S50000x64.Idx → EReal) (funext fun a => Fin.ext ?_)
  match a with
  | ⟨0, _⟩ => show win1_1.index t (0 : Fin 2) * 2000 + 1 * r.val = p.val; rw [e0, hp]; omega
  | ⟨1, _⟩ => show win1_1.index t (1 : Fin 2) * 64 + 1 * k.val = k.val; rw [e1]; omega

/-- The input-weight block at every point is the whole matrix. -/
theorem wih_blk (c : Dev nD) (t : Fin cfg1.N) (d : Fin 64) (k : Fin 192) :
    (iblk1 V c 2 t : Vec Ideal S64x192 .bf16) (ix2 d k) = (V c main_v48 : S64x192.Idx → EReal) (ix2 d k) := by
  obtain ⟨-, -, -, -, e0, e1, -⟩ := idx_facts t
  unfold iblk1
  rw [View.read_apply]
  show (V c main_v48 : S64x192.Idx → EReal) _ = (V c main_v48 : S64x192.Idx → EReal) _
  refine congrArg (V c main_v48 : S64x192.Idx → EReal) (funext fun a => Fin.ext ?_)
  match a with
  | ⟨0, _⟩ => show win1_2.index t (0 : Fin 2) * 64 + 1 * d.val = d.val; rw [e0]; omega
  | ⟨1, _⟩ => show win1_2.index t (1 : Fin 2) * 192 + 1 * k.val = k.val; rw [e1]; omega

/-- The input-bias block at every point is the whole row. -/
theorem bih_blk (c : Dev nD) (t : Fin cfg1.N) (k : Fin 192) :
    (iblk1 V c 3 t : Vec Ideal S192 .f32) (ix1 k) = (V c main_v53 : S192.Idx → EReal) (ix1 k) := by
  obtain ⟨-, -, -, -, -, -, e0, -⟩ := idx_facts t
  unfold iblk1
  rw [View.read_apply]
  show (V c main_v53 : S192.Idx → EReal) _ = (V c main_v53 : S192.Idx → EReal) _
  refine congrArg (V c main_v53 : S192.Idx → EReal) (funext fun a => Fin.ext ?_)
  match a with
  | ⟨0, _⟩ => show win1_3.index t (0 : Fin 1) * 192 + 1 * k.val = k.val; rw [e0]; omega

/-- The state-weight block at every point is the whole matrix. -/
theorem whh_blk (c : Dev nD) (t : Fin cfg1.N) (d : Fin 64) (k : Fin 192) :
    (iblk1 V c 4 t : Vec Ideal S64x192 .bf16) (ix2 d k) = (V c main_v51 : S64x192.Idx → EReal) (ix2 d k) := by
  obtain ⟨-, -, -, -, -, -, -, e0, e1, -⟩ := idx_facts t
  unfold iblk1
  rw [View.read_apply]
  show (V c main_v51 : S64x192.Idx → EReal) _ = (V c main_v51 : S64x192.Idx → EReal) _
  refine congrArg (V c main_v51 : S64x192.Idx → EReal) (funext fun a => Fin.ext ?_)
  match a with
  | ⟨0, _⟩ => show win1_4.index t (0 : Fin 2) * 64 + 1 * d.val = d.val; rw [e0]; omega
  | ⟨1, _⟩ => show win1_4.index t (1 : Fin 2) * 192 + 1 * k.val = k.val; rw [e1]; omega

/-- The state-bias block at every point is the whole row. -/
theorem bhh_blk (c : Dev nD) (t : Fin cfg1.N) (k : Fin 192) :
    (iblk1 V c 5 t : Vec Ideal S192 .f32) (ix1 k) = (V c main_v55 : S192.Idx → EReal) (ix1 k) := by
  obtain ⟨-, -, -, -, -, -, -, -, -, e0, -⟩ := idx_facts t
  unfold iblk1
  rw [View.read_apply]
  show (V c main_v55 : S192.Idx → EReal) _ = (V c main_v55 : S192.Idx → EReal) _
  refine congrArg (V c main_v55 : S192.Idx → EReal) (funext fun a => Fin.ext ?_)
  match a with
  | ⟨0, _⟩ => show win1_5.index t (0 : Fin 1) * 192 + 1 * k.val = k.val; rw [e0]; omega

/-- Entry `(r, q)` of the output block at point `t` sits in the array at row `2000 t + r`, column `q`. -/
theorem out_emb (t : Fin cfg1.N) (r : Fin 2000) (q : Fin 64) (p : Fin 50000) (hp : p.val = 2000 * t.val + r.val) :
    (((cfg1.win 6).blk t).view.emb (ix2 r q) : S50000x64.Idx) = ix2 p q := by
  obtain ⟨-, -, -, -, -, -, -, -, -, -, e0, e1⟩ := idx_facts t
  refine funext fun a => Fin.ext ?_
  match a with
  | ⟨0, _⟩ => show win1_6.index t (0 : Fin 2) * 2000 + 1 * r.val = p.val; rw [e0, hp]; omega
  | ⟨1, _⟩ => show win1_6.index t (1 : Fin 2) * 64 + 1 * q.val = q.val; rw [e1]; omega

/-- What point `t` stores, at an entry of its block, is `G` at the entry's place in the array. -/
theorem blk_entry (c : Dev nD) (t : Fin cfg1.N) (j : S2000x64.Idx) :
    k1_pay1 (F := Ideal) (iblk1 V c 0 t) (iblk1 V c 1 t) (iblk1 V c 3 t) (iblk1 V c 5 t) (iblk1 V c 2 t)
        (iblk1 V c 4 t) j
      = G V c (((cfg1.win 6).blk t).view.emb j) := by
  obtain ⟨r, q, rfl⟩ : ∃ (r : Fin 2000) (q : Fin 64), j = ix2 r q := ⟨j 0, j 1, eq_ix2 j⟩
  have ht : t.val < 25 := lt_of_lt_of_eq t.isLt points
  obtain ⟨p, hp⟩ : ∃ p : Fin 50000, p.val = 2000 * t.val + r.val := ⟨⟨2000 * t.val + r.val, by omega⟩, rfl⟩
  rw [out_emb t r q p hp]
  refine (GruPay.pay_apply (iblk1 V c 0 t) (iblk1 V c 1 t) (iblk1 V c 2 t) (iblk1 V c 3 t) (iblk1 V c 4 t)
    (iblk1 V c 5 t) r q).trans ?_
  exact GruPay.gru_congr (iblk1 V c 0 t) (iblk1 V c 1 t) (V c main_v45) (V c main_v4) (iblk1 V c 2 t) (V c main_v48)
    (iblk1 V c 4 t) (V c main_v51) (iblk1 V c 3 t) (V c main_v53) (iblk1 V c 5 t) (V c main_v55) r p q
    (fun k => agg_blk V c t r k p hp) (fun k => h_blk V c t r k p hp) (fun d k => wih_blk V c t d k)
    (fun d k => whh_blk V c t d k) (fun k => bih_blk V c t k) (fun k => bhh_blk V c t k)

/-- WHAT POINT `t` WRITES BACK is block `t` of `G`. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 (F := Ideal) V c).after 6 t) = _
  rw [after1_6]
  unfold out1_6
  rw [View.canon_unit_zero GruPay.zeros2]
  simp only [View.ld_unit_zero (S := S2000x64) GruPay.zeros2, View.ld_unit_zero (S := S64x192) GruPay.zeros2,
    View.ld_unit_zero (S := S192) GruPay.zeros1]
  funext j
  exact blk_entry V c t j

/-- An index of the array is in point `t`'s block iff each coordinate is in the block's range on its axis. -/
theorem mem_blk (t : Fin cfg1.N) (i : S50000x64.Idx) :
    i ∈ ((cfg1.win 6).blk t).view.set
      ↔ ∀ a : Fin 2, win1_6.index t a * S2000x64.size a ≤ (i a).val
          ∧ (i a).val < win1_6.index t a * S2000x64.size a + S2000x64.size a := by
  show i ∈ ((View.whole main_v56).slice (win1_6.rect t)).set ↔ _
  rw [View.set_slice_whole, Rect.mem_set_unit]
  exact Iff.rfl

/-- Row `p` lies in the block of point `p / 2000`: the 25 row blocks cover the array. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ : ∃ t : Fin cfg1.N, t.val = (i 0).val / 2000 :=
    ⟨⟨(i 0).val / 2000, by rw [points]; omega⟩, rfl⟩
  obtain ⟨-, -, -, -, -, -, -, -, -, -, e0, e1⟩ := idx_facts t
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 64 ≤ (i 1).val ∧ (i 1).val < win1_6.index t (1 : Fin 2) * 64 + 64
    rw [e1]; omega

/-- THE ARRAY after the region: `G`. -/
theorem final_arr (c : Dev nD) : (dat1 (F := Ideal) V c).arrAt 6 cfg1.N = G V c :=
  (dat1 (F := Ideal) V c).arrAt_eq_of_cover 6 (G V c) (fun t _ => flushed_eq V c t) cover

/-- THE ARRAY after the region, entry by entry: the gated update of the six arrays the region reads. -/
theorem final (c : Dev nD) (p : Fin 50000) (q : Fin 64) :
    ((dat1 (F := Ideal) V c).arrAt 6 cfg1.N : S50000x64.Idx → EReal) (ix2 p q)
      = Cert.Net.gru (V c main_v45) (V c main_v4) (V c main_v48) (V c main_v53) (V c main_v51)
          (V c main_v55) p q := by
  rw [final_arr V c]
  rfl

end Cert.Net.Gru1

end
-- ==== Proof.GruRegion3.lean ====
/-
  The array the second gated-update region leaves.

  The region runs over 25 grid points; point `t` reads rows `2000 t … 2000 t + 1999` of the aggregated messages and of
  the node states, the whole of the two weight matrices and of the two bias rows, and writes back rows
  `2000 t … 2000 t + 1999` of the new states. What it writes back is, entry by entry, the gated update of the six
  arrays as the region finds them; the 25 row blocks cover the 50000 rows, so the whole array ends at that function.
-/
import proofs.«148557_j77953656422434_2_alg».proof.Proof.Gen.KernelIdeal.Frame
import proofs.«148557_j77953656422434_2_alg».proof.Proof.Spec
import proofs.«148557_j77953656422434_2_alg».proof.Proof.LibMatmulRead
import proofs.«148557_j77953656422434_2_alg».proof.Proof.GruPayload
import Idealize.ShloMosaic.Lib.Pipeline.Value
import Idealize.ShloMosaic.Lib.ValueIdx

noncomputable section

namespace Cert.Net.Gru3

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The grid has 25 points. -/
theorem points : cfg3.N = 25 := by decide

/-- The block index of each window at each point, decided over the grid: the two row inputs and the output are at
    block-row `t`, the weights and biases at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

/-- What the region's output array ends holding: the gated update of the six arrays the region reads, as it finds
    them, entry by entry. -/
def G (c : Dev nD) : S50000x64.Idx → EReal := fun i =>
  Cert.Net.gru (V c main_v83 : S50000x64.Idx → EReal) (V c main_v56 : S50000x64.Idx → EReal)
    (V c main_v86 : S64x192.Idx → EReal) (V c main_v91 : S192.Idx → EReal)
    (V c main_v89 : S64x192.Idx → EReal) (V c main_v93 : S192.Idx → EReal) (i 0) (i 1)

/-- Row `r` of the aggregated-message block at point `t` is row `2000 t + r` of the array. -/
theorem agg_blk (c : Dev nD) (t : Fin cfg3.N) (r : Fin 2000) (k : Fin 64) (p : Fin 50000)
    (hp : p.val = 2000 * t.val + r.val) :
    (iblk3 V c 0 t : Vec Ideal S2000x64 .f32) (ix2 r k) = (V c main_v83 : S50000x64.Idx → EReal) (ix2 p k) := by
  obtain ⟨e0, e1, -⟩ := idx_facts t
  unfold iblk3
  rw [View.read_apply]
  show (V c main_v83 : S50000x64.Idx → EReal) _ = (V c main_v83 : S50000x64.Idx → EReal) _
  refine congrArg (V c main_v83 : S50000x64.Idx → EReal) (funext fun a => Fin.ext ?_)
  match a with
  | ⟨0, _⟩ => show win3_0.index t (0 : Fin 2) * 2000 + 1 * r.val = p.val; rw [e0, hp]; omega
  | ⟨1, _⟩ => show win3_0.index t (1 : Fin 2) * 64 + 1 * k.val = k.val; rw [e1]; omega

/-- Row `r` of the state block at point `t` is row `2000 t + r` of the array. -/
theorem h_blk (c : Dev nD) (t : Fin cfg3.N) (r : Fin 2000) (k : Fin 64) (p : Fin 50000)
    (hp : p.val = 2000 * t.val + r.val) :
    (iblk3 V c 1 t : Vec Ideal S2000x64 .f32) (ix2 r k) = (V c main_v56 : S50000x64.Idx → EReal) (ix2 p k) := by
  obtain ⟨-, -, e0, e1, -⟩ := idx_facts t
  unfold iblk3
  rw [View.read_apply]
  show (V c main_v56 : S50000x64.Idx → EReal) _ = (V c main_v56 : S50000x64.Idx → EReal) _
  refine congrArg (V c main_v56 : S50000x64.Idx → EReal) (funext fun a => Fin.ext ?_)
  match a with
  | ⟨0, _⟩ => show win3_1.index t (0 : Fin 2) * 2000 + 1 * r.val = p.val; rw [e0, hp]; omega
  | ⟨1, _⟩ => show win3_1.index t (1 : Fin 2) * 64 + 1 * k.val = k.val; rw [e1]; omega

/-- The input-weight block at every point is the whole matrix. -/
theorem wih_blk (c : Dev nD) (t : Fin cfg3.N) (d : Fin 64) (k : Fin 192) :
    (iblk3 V c 2 t : Vec Ideal S64x192 .bf16) (ix2 d k) = (V c main_v86 : S64x192.Idx → EReal) (ix2 d k) := by
  obtain ⟨-, -, -, -, e0, e1, -⟩ := idx_facts t
  unfold iblk3
  rw [View.read_apply]
  show (V c main_v86 : S64x192.Idx → EReal) _ = (V c main_v86 : S64x192.Idx → EReal) _
  refine congrArg (V c main_v86 : S64x192.Idx → EReal) (funext fun a => Fin.ext ?_)
  match a with
  | ⟨0, _⟩ => show win3_2.index t (0 : Fin 2) * 64 + 1 * d.val = d.val; rw [e0]; omega
  | ⟨1, _⟩ => show win3_2.index t (1 : Fin 2) * 192 + 1 * k.val = k.val; rw [e1]; omega

/-- The input-bias block at every point is the whole row. -/
theorem bih_blk (c : Dev nD) (t : Fin cfg3.N) (k : Fin 192) :
    (iblk3 V c 3 t : Vec Ideal S192 .f32) (ix1 k) = (V c main_v91 : S192.Idx → EReal) (ix1 k) := by
  obtain ⟨-, -, -, -, -, -, e0, -⟩ := idx_facts t
  unfold iblk3
  rw [View.read_apply]
  show (V c main_v91 : S192.Idx → EReal) _ = (V c main_v91 : S192.Idx → EReal) _
  refine congrArg (V c main_v91 : S192.Idx → EReal) (funext fun a => Fin.ext ?_)
  match a with
  | ⟨0, _⟩ => show win3_3.index t (0 : Fin 1) * 192 + 1 * k.val = k.val; rw [e0]; omega

/-- The state-weight block at every point is the whole matrix. -/
theorem whh_blk (c : Dev nD) (t : Fin cfg3.N) (d : Fin 64) (k : Fin 192) :
    (iblk3 V c 4 t : Vec Ideal S64x192 .bf16) (ix2 d k) = (V c main_v89 : S64x192.Idx → EReal) (ix2 d k) := by
  obtain ⟨-, -, -, -, -, -, -, e0, e1, -⟩ := idx_facts t
  unfold iblk3
  rw [View.read_apply]
  show (V c main_v89 : S64x192.Idx → EReal) _ = (V c main_v89 : S64x192.Idx → EReal) _
  refine congrArg (V c main_v89 : S64x192.Idx → EReal) (funext fun a => Fin.ext ?_)
  match a with
  | ⟨0, _⟩ => show win3_4.index t (0 : Fin 2) * 64 + 1 * d.val = d.val; rw [e0]; omega
  | ⟨1, _⟩ => show win3_4.index t (1 : Fin 2) * 192 + 1 * k.val = k.val; rw [e1]; omega

/-- The state-bias block at every point is the whole row. -/
theorem bhh_blk (c : Dev nD) (t : Fin cfg3.N) (k : Fin 192) :
    (iblk3 V c 5 t : Vec Ideal S192 .f32) (ix1 k) = (V c main_v93 : S192.Idx → EReal) (ix1 k) := by
  obtain ⟨-, -, -, -, -, -, -, -, -, e0, -⟩ := idx_facts t
  unfold iblk3
  rw [View.read_apply]
  show (V c main_v93 : S192.Idx → EReal) _ = (V c main_v93 : S192.Idx → EReal) _
  refine congrArg (V c main_v93 : S192.Idx → EReal) (funext fun a => Fin.ext ?_)
  match a with
  | ⟨0, _⟩ => show win3_5.index t (0 : Fin 1) * 192 + 1 * k.val = k.val; rw [e0]; omega

/-- Entry `(r, q)` of the output block at point `t` sits in the array at row `2000 t + r`, column `q`. -/
theorem out_emb (t : Fin cfg3.N) (r : Fin 2000) (q : Fin 64) (p : Fin 50000) (hp : p.val = 2000 * t.val + r.val) :
    (((cfg3.win 6).blk t).view.emb (ix2 r q) : S50000x64.Idx) = ix2 p q := by
  obtain ⟨-, -, -, -, -, -, -, -, -, -, e0, e1⟩ := idx_facts t
  refine funext fun a => Fin.ext ?_
  match a with
  | ⟨0, _⟩ => show win3_6.index t (0 : Fin 2) * 2000 + 1 * r.val = p.val; rw [e0, hp]; omega
  | ⟨1, _⟩ => show win3_6.index t (1 : Fin 2) * 64 + 1 * q.val = q.val; rw [e1]; omega

/-- What point `t` stores, at an entry of its block, is `G` at the entry's place in the array. -/
theorem blk_entry (c : Dev nD) (t : Fin cfg3.N) (j : S2000x64.Idx) :
    k3_pay1 (F := Ideal) (iblk3 V c 0 t) (iblk3 V c 1 t) (iblk3 V c 3 t) (iblk3 V c 5 t) (iblk3 V c 2 t)
        (iblk3 V c 4 t) j
      = G V c (((cfg3.win 6).blk t).view.emb j) := by
  obtain ⟨r, q, rfl⟩ : ∃ (r : Fin 2000) (q : Fin 64), j = ix2 r q := ⟨j 0, j 1, eq_ix2 j⟩
  have ht : t.val < 25 := lt_of_lt_of_eq t.isLt points
  obtain ⟨p, hp⟩ : ∃ p : Fin 50000, p.val = 2000 * t.val + r.val := ⟨⟨2000 * t.val + r.val, by omega⟩, rfl⟩
  rw [out_emb t r q p hp]
  rw [GruPay.k3_pay1_eq]
  refine (GruPay.pay_apply (iblk3 V c 0 t) (iblk3 V c 1 t) (iblk3 V c 2 t) (iblk3 V c 3 t) (iblk3 V c 4 t)
    (iblk3 V c 5 t) r q).trans ?_
  exact GruPay.gru_congr (iblk3 V c 0 t) (iblk3 V c 1 t) (V c main_v83) (V c main_v56) (iblk3 V c 2 t) (V c main_v86)
    (iblk3 V c 4 t) (V c main_v89) (iblk3 V c 3 t) (V c main_v91) (iblk3 V c 5 t) (V c main_v93) r p q
    (fun k => agg_blk V c t r k p hp) (fun k => h_blk V c t r k p hp) (fun d k => wih_blk V c t d k)
    (fun d k => whh_blk V c t d k) (fun k => bih_blk V c t k) (fun k => bhh_blk V c t k)

/-- WHAT POINT `t` WRITES BACK is block `t` of `G`. -/
theorem flushed_eq (c : Dev nD) (t : Fin cfg3.N) :
    (dat3 (F := Ideal) V c).flushed 6 t = ((cfg3.win 6).blk t).view.read (Elt Ideal) (G V c) := by
  show (cfg3.win 6).cut (grid3.coords t) ((dat3 (F := Ideal) V c).after 6 t) = _
  rw [after3_6]
  unfold out3_6
  rw [View.canon_unit_zero GruPay.zeros2]
  simp only [View.ld_unit_zero (S := S2000x64) GruPay.zeros2, View.ld_unit_zero (S := S64x192) GruPay.zeros2,
    View.ld_unit_zero (S := S192) GruPay.zeros1]
  funext j
  exact blk_entry V c t j

/-- An index of the array is in point `t`'s block iff each coordinate is in the block's range on its axis. -/
theorem mem_blk (t : Fin cfg3.N) (i : S50000x64.Idx) :
    i ∈ ((cfg3.win 6).blk t).view.set
      ↔ ∀ a : Fin 2, win3_6.index t a * S2000x64.size a ≤ (i a).val
          ∧ (i a).val < win3_6.index t a * S2000x64.size a + S2000x64.size a := by
  show i ∈ ((View.whole main_v94).slice (win3_6.rect t)).set ↔ _
  rw [View.set_slice_whole, Rect.mem_set_unit]
  exact Iff.rfl

/-- Row `p` lies in the block of point `p / 2000`: the 25 row blocks cover the array. -/
theorem cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  obtain ⟨t, ht⟩ : ∃ t : Fin cfg3.N, t.val = (i 0).val / 2000 :=
    ⟨⟨(i 0).val / 2000, by rw [points]; omega⟩, rfl⟩
  obtain ⟨-, -, -, -, -, -, -, -, -, -, e0, e1⟩ := idx_facts t
  refine ⟨t, flush3_6 t, ?_⟩
  rw [mem_blk]
  intro a
  match a with
  | ⟨0, _⟩ =>
    show win3_6.index t (0 : Fin 2) * 2000 ≤ (i 0).val ∧ (i 0).val < win3_6.index t (0 : Fin 2) * 2000 + 2000
    rw [e0, ht]; omega
  | ⟨1, _⟩ =>
    show win3_6.index t (1 : Fin 2) * 64 ≤ (i 1).val ∧ (i 1).val < win3_6.index t (1 : Fin 2) * 64 + 64
    rw [e1]; omega

/-- THE ARRAY after the region: `G`. -/
theorem final_arr (c : Dev nD) : (dat3 (F := Ideal) V c).arrAt 6 cfg3.N = G V c :=
  (dat3 (F := Ideal) V c).arrAt_eq_of_cover 6 (G V c) (fun t _ => flushed_eq V c t) cover

/-- THE ARRAY after the region, entry by entry: the gated update of the six arrays the region reads. -/
theorem final (c : Dev nD) (p : Fin 50000) (q : Fin 64) :
    ((dat3 (F := Ideal) V c).arrAt 6 cfg3.N : S50000x64.Idx → EReal) (ix2 p q)
      = Cert.Net.gru (V c main_v83) (V c main_v56) (V c main_v86) (V c main_v91) (V c main_v89)
          (V c main_v93) p q := by
  rw [final_arr V c]
  rfl

end Cert.Net.Gru3

end
-- ==== Proof.GruRegion5.lean ====
/-
  The array the third gated-update region leaves.

  The region runs over 25 grid points; point `t` reads rows `2000 t … 2000 t + 1999` of the aggregated messages and of
  the node states, the whole of the two weight matrices and of the two bias rows, and writes back rows
  `2000 t … 2000 t + 1999` of the new states. What it writes back is, entry by entry, the gated update of the six
  arrays as the region finds them; the 25 row blocks cover the 50000 rows, so the whole array ends at that function.
-/
import proofs.«148557_j77953656422434_2_alg».proof.Proof.Gen.KernelIdeal.Frame
import proofs.«148557_j77953656422434_2_alg».proof.Proof.Spec
import proofs.«148557_j77953656422434_2_alg».proof.Proof.LibMatmulRead
import proofs.«148557_j77953656422434_2_alg».proof.Proof.GruPayload
import Idealize.ShloMosaic.Lib.Pipeline.Value
import Idealize.ShloMosaic.Lib.ValueIdx

noncomputable section

namespace Cert.Net.Gru5

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The grid has 25 points. -/
theorem points : cfg5.N = 25 := by decide

/-- The block index of each window at each point, decided over the grid: the two row inputs and the output are at
    block-row `t`, the weights and biases at block 0. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- What the region's output array ends holding: the gated update of the six arrays the region reads, as it finds
    them, entry by entry. -/
def G (c : Dev nD) : S50000x64.Idx → EReal := fun i =>
  Cert.Net.gru (V c main_v121 : S50000x64.Idx → EReal) (V c main_v94 : S50000x64.Idx → EReal)
    (V c main_v124 : S64x192.Idx → EReal) (V c main_v129 : S192.Idx → EReal)
    (V c main_v127 : S64x192.Idx → EReal) (V c main_v131 : S192.Idx → EReal) (i 0) (i 1)

/-- Row `r` of the aggregated-message block at point `t` is row `2000 t + r` of the array. -/
theorem agg_blk (c : Dev nD) (t : Fin cfg5.N) (r : Fin 2000) (k : Fin 64) (p : Fin 50000)
    (hp : p.val = 2000 * t.val + r.val) :
    (iblk5 V c 0 t : Vec Ideal S2000x64 .f32) (ix2 r k) = (V c main_v121 : S50000x64.Idx → EReal) (ix2 p k) := by
  obtain ⟨e0, e1, -⟩ := idx_facts t
  unfold iblk5
  rw [View.read_apply]
  show (V c main_v121 : S50000x64.Idx → EReal) _ = (V c main_v121 : S50000x64.Idx → EReal) _
  refine congrArg (V c main_v121 : S50000x64.Idx → EReal) (funext fun a => Fin.ext ?_)
  match a with
  | ⟨0, _⟩ => show win5_0.index t (0 : Fin 2) * 2000 + 1 * r.val = p.val; rw [e0, hp]; omega
  | ⟨1, _⟩ => show win5_0.index t (1 : Fin 2) * 64 + 1 * k.val = k.val; rw [e1]; omega

/-- Row `r` of the state block at point `t` is row `2000 t + r` of the array. -/
theorem h_blk (c : Dev nD) (t : Fin cfg5.N) (r : Fin 2000) (k : Fin 64) (p : Fin 50000)
    (hp : p.val = 2000 * t.val + r.val) :
    (iblk5 V c 1 t : Vec Ideal S2000x64 .f32) (ix2 r k) = (V c main_v94 : S50000x64.Idx → EReal) (ix2 p k) := by
  obtain ⟨-, -, e0, e1, -⟩ := idx_facts t
  unfold iblk5
  rw [View.read_apply]
  show (V c main_v94 : S50000x64.Idx → EReal) _ = (V c main_v94 : S50000x64.Idx → EReal) _
  refine congrArg (V c main_v94 : S50000x64.Idx → EReal) (funext fun a => Fin.ext ?_)
  match a with
  | ⟨0, _⟩ => show win5_1.index t (0 : Fin 2) * 2000 + 1 * r.val = p.val; rw [e0, hp]; omega
  | ⟨1, _⟩ => show win5_1.index t (1 : Fin 2) * 64 + 1 * k.val = k.val; rw [e1]; omega

/-- The input-weight block at every point is the whole matrix. -/
theorem wih_blk (c : Dev nD) (t : Fin cfg5.N) (d : Fin 64) (k : Fin 192) :
    (iblk5 V c 2 t : Vec Ideal S64x192 .bf16) (ix2 d k) = (V c main_v124 : S64x192.Idx → EReal) (ix2 d k) := by
  obtain ⟨-, -, -, -, e0, e1, -⟩ := idx_facts t
  unfold iblk5
  rw [View.read_apply]
  show (V c main_v124 : S64x192.Idx → EReal) _ = (V c main_v124 : S64x192.Idx → EReal) _
  refine congrArg (V c main_v124 : S64x192.Idx → EReal) (funext fun a => Fin.ext ?_)
  match a with
  | ⟨0, _⟩ => show win5_2.index t (0 : Fin 2) * 64 + 1 * d.val = d.val; rw [e0]; omega
  | ⟨1, _⟩ => show win5_2.index t (1 : Fin 2) * 192 + 1 * k.val = k.val; rw [e1]; omega

/-- The input-bias block at every point is the whole row. -/
theorem bih_blk (c : Dev nD) (t : Fin cfg5.N) (k : Fin 192) :
    (iblk5 V c 3 t : Vec Ideal S192 .f32) (ix1 k) = (V c main_v129 : S192.Idx → EReal) (ix1 k) := by
  obtain ⟨-, -, -, -, -, -, e0, -⟩ := idx_facts t
  unfold iblk5
  rw [View.read_apply]
  show (V c main_v129 : S192.Idx → EReal) _ = (V c main_v129 : S192.Idx → EReal) _
  refine congrArg (V c main_v129 : S192.Idx → EReal) (funext fun a => Fin.ext ?_)
  match a with
  | ⟨0, _⟩ => show win5_3.index t (0 : Fin 1) * 192 + 1 * k.val = k.val; rw [e0]; omega

/-- The state-weight block at every point is the whole matrix. -/
theorem whh_blk (c : Dev nD) (t : Fin cfg5.N) (d : Fin 64) (k : Fin 192) :
    (iblk5 V c 4 t : Vec Ideal S64x192 .bf16) (ix2 d k) = (V c main_v127 : S64x192.Idx → EReal) (ix2 d k) := by
  obtain ⟨-, -, -, -, -, -, -, e0, e1, -⟩ := idx_facts t
  unfold iblk5
  rw [View.read_apply]
  show (V c main_v127 : S64x192.Idx → EReal) _ = (V c main_v127 : S64x192.Idx → EReal) _
  refine congrArg (V c main_v127 : S64x192.Idx → EReal) (funext fun a => Fin.ext ?_)
  match a with
  | ⟨0, _⟩ => show win5_4.index t (0 : Fin 2) * 64 + 1 * d.val = d.val; rw [e0]; omega
  | ⟨1, _⟩ => show win5_4.index t (1 : Fin 2) * 192 + 1 * k.val = k.val; rw [e1]; omega

/-- The state-bias block at every point is the whole row. -/
theorem bhh_blk (c : Dev nD) (t : Fin cfg5.N) (k : Fin 192) :
    (iblk5 V c 5 t : Vec Ideal S192 .f32) (ix1 k) = (V c main_v131 : S192.Idx → EReal) (ix1 k) := by
  obtain ⟨-, -, -, -, -, -, -, -, -, e0, -⟩ := idx_facts t
  unfold iblk5
  rw [View.read_apply]
  show (V c main_v131 : S192.Idx → EReal) _ = (V c main_v131 : S192.Idx → EReal) _
  refine congrArg (V c main_v131 : S192.Idx → EReal) (funext fun a => Fin.ext ?_)
  match a with
  | ⟨0, _⟩ => show win5_5.index t (0 : Fin 1) * 192 + 1 * k.val = k.val; rw [e0]; omega

/-- Entry `(r, q)` of the output block at point `t` sits in the array at row `2000 t + r`, column `q`. -/
theorem out_emb (t : Fin cfg5.N) (r : Fin 2000) (q : Fin 64) (p : Fin 50000) (hp : p.val = 2000 * t.val + r.val) :
    (((cfg5.win 6).blk t).view.emb (ix2 r q) : S50000x64.Idx) = ix2 p q := by
  obtain ⟨-, -, -, -, -, -, -, -, -, -, e0, e1⟩ := idx_facts t
  refine funext fun a => Fin.ext ?_
  match a with
  | ⟨0, _⟩ => show win5_6.index t (0 : Fin 2) * 2000 + 1 * r.val = p.val; rw [e0, hp]; omega
  | ⟨1, _⟩ => show win5_6.index t (1 : Fin 2) * 64 + 1 * q.val = q.val; rw [e1]; omega

/-- What point `t` stores, at an entry of its block, is `G` at the entry's place in the array. -/
theorem blk_entry (c : Dev nD) (t : Fin cfg5.N) (j : S2000x64.Idx) :
    k5_pay1 (F := Ideal) (iblk5 V c 0 t) (iblk5 V c 1 t) (iblk5 V c 3 t) (iblk5 V c 5 t) (iblk5 V c 2 t)
        (iblk5 V c 4 t) j
      = G V c (((cfg5.win 6).blk t).view.emb j) := by
  obtain ⟨r, q, rfl⟩ : ∃ (r : Fin 2000) (q : Fin 64), j = ix2 r q := ⟨j 0, j 1, eq_ix2 j⟩
  have ht : t.val < 25 := lt_of_lt_of_eq t.isLt points
  obtain ⟨p, hp⟩ : ∃ p : Fin 50000, p.val = 2000 * t.val + r.val := ⟨⟨2000 * t.val + r.val, by omega⟩, rfl⟩
  rw [out_emb t r q p hp]
  rw [GruPay.k5_pay1_eq]
  refine (GruPay.pay_apply (iblk5 V c 0 t) (iblk5 V c 1 t) (iblk5 V c 2 t) (iblk5 V c 3 t) (iblk5 V c 4 t)
    (iblk5 V c 5 t) r q).trans ?_
  exact GruPay.gru_congr (iblk5 V c 0 t) (iblk5 V c 1 t) (V c main_v121) (V c main_v94) (iblk5 V c 2 t) (V c main_v124)
    (iblk5 V c 4 t) (V c main_v127) (iblk5 V c 3 t) (V c main_v129) (iblk5 V c 5 t) (V c main_v131) r p q
    (fun k => agg_blk V c t r k p hp) (fun k => h_blk V c t r k p hp) (fun d k => wih_blk V c t d k)
    (fun d k => whh_blk V c t d k) (fun k => bih_blk V c t k) (fun k => bhh_blk V c t k)

/-- WHAT POINT `t` WRITES BACK is block `t` of `G`. -/
theorem flushed_eq (c : Dev nD) (t : Fin cfg5.N) :
    (dat5 (F := Ideal) V c).flushed 6 t = ((cfg5.win 6).blk t).view.read (Elt Ideal) (G V c) := by
  show (cfg5.win 6).cut (grid5.coords t) ((dat5 (F := Ideal) V c).after 6 t) = _
  rw [after5_6]
  unfold out5_6
  rw [View.canon_unit_zero GruPay.zeros2]
  simp only [View.ld_unit_zero (S := S2000x64) GruPay.zeros2, View.ld_unit_zero (S := S64x192) GruPay.zeros2,
    View.ld_unit_zero (S := S192) GruPay.zeros1]
  funext j
  exact blk_entry V c t j

/-- An index of the array is in point `t`'s block iff each coordinate is in the block's range on its axis. -/
theorem mem_blk (t : Fin cfg5.N) (i : S50000x64.Idx) :
    i ∈ ((cfg5.win 6).blk t).view.set
      ↔ ∀ a : Fin 2, win5_6.index t a * S2000x64.size a ≤ (i a).val
          ∧ (i a).val < win5_6.index t a * S2000x64.size a + S2000x64.size a := by
  show i ∈ ((View.whole main_v132).slice (win5_6.rect t)).set ↔ _
  rw [View.set_slice_whole, Rect.mem_set_unit]
  exact Iff.rfl

/-- Row `p` lies in the block of point `p / 2000`: the 25 row blocks cover the array. -/
theorem cover (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  obtain ⟨t, ht⟩ : ∃ t : Fin cfg5.N, t.val = (i 0).val / 2000 :=
    ⟨⟨(i 0).val / 2000, by rw [points]; omega⟩, rfl⟩
  obtain ⟨-, -, -, -, -, -, -, -, -, -, e0, e1⟩ := idx_facts t
  refine ⟨t, flush5_6 t, ?_⟩
  rw [mem_blk]
  intro a
  match a with
  | ⟨0, _⟩ =>
    show win5_6.index t (0 : Fin 2) * 2000 ≤ (i 0).val ∧ (i 0).val < win5_6.index t (0 : Fin 2) * 2000 + 2000
    rw [e0, ht]; omega
  | ⟨1, _⟩ =>
    show win5_6.index t (1 : Fin 2) * 64 ≤ (i 1).val ∧ (i 1).val < win5_6.index t (1 : Fin 2) * 64 + 64
    rw [e1]; omega

/-- THE ARRAY after the region: `G`. -/
theorem final_arr (c : Dev nD) : (dat5 (F := Ideal) V c).arrAt 6 cfg5.N = G V c :=
  (dat5 (F := Ideal) V c).arrAt_eq_of_cover 6 (G V c) (fun t _ => flushed_eq V c t) cover

/-- THE ARRAY after the region, entry by entry: the gated update of the six arrays the region reads. -/
theorem final (c : Dev nD) (p : Fin 50000) (q : Fin 64) :
    ((dat5 (F := Ideal) V c).arrAt 6 cfg5.N : S50000x64.Idx → EReal) (ix2 p q)
      = Cert.Net.gru (V c main_v121) (V c main_v94) (V c main_v124) (V c main_v129) (V c main_v127)
          (V c main_v131) p q := by
  rw [final_arr V c]
  rfl

end Cert.Net.Gru5

end
-- ==== Proof.AssembleRun.lean ====
/-
  The kernel's result is the reference's. Region by region, what a region leaves is the entry-by-entry function
  of what it finds (the region lemmas), what it finds is the host arithmetic of the stretch before it applied to
  what the regions before left (the boundary reads); composing them, the node states after each layer are
  `kLayer` of the states before, hence `R.layer` of them, and the readout is the same host arithmetic on both
  sides. So the buffer the kernel returns holds the reference's composed value at the same arguments.
-/
import proofs.«148557_j77953656422434_2_alg».proof.Proof.AssembleLayer
import proofs.«148557_j77953656422434_2_alg».proof.Proof.KernelReads
import proofs.«148557_j77953656422434_2_alg».proof.Proof.KernelReadsB
import proofs.«148557_j77953656422434_2_alg».proof.Proof.MlpRegion0
import proofs.«148557_j77953656422434_2_alg».proof.Proof.MlpRegion2
import proofs.«148557_j77953656422434_2_alg».proof.Proof.MlpRegion4
import proofs.«148557_j77953656422434_2_alg».proof.Proof.GruRegion1
import proofs.«148557_j77953656422434_2_alg».proof.Proof.GruRegion3
import proofs.«148557_j77953656422434_2_alg».proof.Proof.GruRegion5

set_option maxRecDepth 16384

noncomputable section

namespace Cert.Net.Asm

open Idealize.ShloMosaic Idealize.ShloMosaic.ValueIdx Cert.KernelIdeal Cert.KernelIdeal.Gen Cert.Net.KRun

variable (m : (ℓ : Loc nD τ sig) → Buf (Elt Ideal) ℓ) (ρ : Dev nD → PrngReg) (c : Dev nD)

/-- Layer 0's messages, as region 0 leaves them. -/
theorem R0_eq : R0 m ρ c = kMsg 0 Gen.slices_S3x144x64_S1x128x64_0_0_0 Gen.slices_S3x144x64_S1x16x64_0_128_0 Gen.slices_S3x64_S1x64_0_0 Gen.slices_S3x64x64_S1x64x64_0_0_0 (arg1 m c) (E m c) (arg8 m c) (arg9 m c) (arg10 m c) (arg11 m c) (H0 m c) := by
  funext j
  obtain ⟨p, n, rfl⟩ : ∃ (p : Fin 800000) (n : Fin 64), j = ix2 p n := ⟨j 0, j 1, eq_ix2 j⟩
  refine (Mlp0.final (V1 m ρ) c p n).trans ?_
  rw [entry0_v27, entry0_v10, entry0_v30, entry0_v33, entry0_v35, entry0_v38, entry0_v40]
  rfl

/-- The node states after layer 0, as region 1 leaves them. -/
theorem R1_eq : R1 m ρ c = kLayer 0 Gen.slices_S3x144x64_S1x128x64_0_0_0 Gen.slices_S3x144x64_S1x16x64_0_128_0 Gen.slices_S3x64_S1x64_0_0 Gen.slices_S3x64x64_S1x64x64_0_0_0 Gen.slices_S3x64x192_S1x64x192_0_0_0 Gen.slices_S3x192_S1x192_0_0 (arg1 m c) (E m c) (arg8 m c) (arg9 m c) (arg10 m c) (arg11 m c) (arg12 m c) (arg13 m c) (arg14 m c) (arg15 m c) (H0 m c) := by
  funext i
  obtain ⟨p, q, rfl⟩ : ∃ (p : Fin 50000) (q : Fin 64), i = ix2 p q := ⟨i 0, i 1, eq_ix2 i⟩
  refine (Gru1.final (V3 m ρ) c p q).trans ?_
  rw [entry1_v45, entry1_v4, entry1_v48, entry1_v53, entry1_v51, entry1_v55, R0_eq]
  rfl

/-- Layer 1's messages, as region 2 leaves them. -/
theorem R2_eq : R2 m ρ c = kMsg 1 Gen.slices_S3x144x64_S1x128x64_1_0_0 Gen.slices_S3x144x64_S1x16x64_1_128_0 Gen.slices_S3x64_S1x64_1_0 Gen.slices_S3x64x64_S1x64x64_1_0_0 (arg1 m c) (E m c) (arg8 m c) (arg9 m c) (arg10 m c) (arg11 m c) (R1 m ρ c) := by
  funext j
  obtain ⟨p, n, rfl⟩ : ∃ (p : Fin 800000) (n : Fin 64), j = ix2 p n := ⟨j 0, j 1, eq_ix2 j⟩
  refine (Mlp2.final (V5 m ρ) c p n).trans ?_
  rw [entry2_v65, entry2_v10, entry2_v68, entry2_v71, entry2_v73, entry2_v76, entry2_v78]
  rfl

/-- The node states after layer 1, as region 3 leaves them. -/
theorem R3_eq : R3 m ρ c = kLayer 1 Gen.slices_S3x144x64_S1x128x64_1_0_0 Gen.slices_S3x144x64_S1x16x64_1_128_0 Gen.slices_S3x64_S1x64_1_0 Gen.slices_S3x64x64_S1x64x64_1_0_0 Gen.slices_S3x64x192_S1x64x192_1_0_0 Gen.slices_S3x192_S1x192_1_0 (arg1 m c) (E m c) (arg8 m c) (arg9 m c) (arg10 m c) (arg11 m c) (arg12 m c) (arg13 m c) (arg14 m c) (arg15 m c) (R1 m ρ c) := by
  funext i
  obtain ⟨p, q, rfl⟩ : ∃ (p : Fin 50000) (q : Fin 64), i = ix2 p q := ⟨i 0, i 1, eq_ix2 i⟩
  refine (Gru3.final (V7 m ρ) c p q).trans ?_
  rw [entry3_v83, entry3_v56, entry3_v86, entry3_v91, entry3_v89, entry3_v93, R2_eq]
  rfl

/-- Layer 2's messages, as region 4 leaves them. -/
theorem R4_eq : R4 m ρ c = kMsg 2 Gen.slices_S3x144x64_S1x128x64_2_0_0 Gen.slices_S3x144x64_S1x16x64_2_128_0 Gen.slices_S3x64_S1x64_2_0 Gen.slices_S3x64x64_S1x64x64_2_0_0 (arg1 m c) (E m c) (arg8 m c) (arg9 m c) (arg10 m c) (arg11 m c) (R3 m ρ c) := by
  funext j
  obtain ⟨p, n, rfl⟩ : ∃ (p : Fin 800000) (n : Fin 64), j = ix2 p n := ⟨j 0, j 1, eq_ix2 j⟩
  refine (Mlp4.final (V9 m ρ) c p n).trans ?_
  rw [entry4_v103, entry4_v10, entry4_v106, entry4_v109, entry4_v111, entry4_v114, entry4_v116]
  rfl

/-- The node states after layer 2, as region 5 leaves them. -/
theorem R5_eq : R5 m ρ c = kLayer 2 Gen.slices_S3x144x64_S1x128x64_2_0_0 Gen.slices_S3x144x64_S1x16x64_2_128_0 Gen.slices_S3x64_S1x64_2_0 Gen.slices_S3x64x64_S1x64x64_2_0_0 Gen.slices_S3x64x192_S1x64x192_2_0_0 Gen.slices_S3x192_S1x192_2_0 (arg1 m c) (E m c) (arg8 m c) (arg9 m c) (arg10 m c) (arg11 m c) (arg12 m c) (arg13 m c) (arg14 m c) (arg15 m c) (R3 m ρ c) := by
  funext i
  obtain ⟨p, q, rfl⟩ : ∃ (p : Fin 50000) (q : Fin 64), i = ix2 p q := ⟨i 0, i 1, eq_ix2 i⟩
  refine (Gru5.final (V11 m ρ) c p q).trans ?_
  rw [entry5_v121, entry5_v94, entry5_v124, entry5_v129, entry5_v127, entry5_v131, R4_eq]
  rfl

/-- The buffer the kernel returns holds the readout of three reference layers applied to the encoded node
    features, at the kernel's own arguments. -/
theorem value_eq :
    (W15 m ρ c (Proc.devRef .tc main_v153) : FVec Ideal ⟨2, ![2048, 1]⟩ .f32)
      = R.readout (arg3 m c) (arg16 m c) (arg17 m c) (arg18 m c) (arg19 m c)
          (R.layer 2 Cert.ReferenceIdeal.Facts₀.slices_S3x144x64_S1x144x64_2_0_0 Gen.slices_S3x64_S1x64_2_0 Gen.slices_S3x64x64_S1x64x64_2_0_0 Gen.slices_S3x64x192_S1x64x192_2_0_0 Gen.slices_S3x192_S1x192_2_0 (arg1 m c) (R.edgeEnc (arg2 m c) (arg6 m c) (arg7 m c)) (arg8 m c) (arg9 m c) (arg10 m c) (arg11 m c) (arg12 m c) (arg13 m c) (arg14 m c) (arg15 m c)
            (R.layer 1 Cert.ReferenceIdeal.Facts₀.slices_S3x144x64_S1x144x64_1_0_0 Gen.slices_S3x64_S1x64_1_0 Gen.slices_S3x64x64_S1x64x64_1_0_0 Gen.slices_S3x64x192_S1x64x192_1_0_0 Gen.slices_S3x192_S1x192_1_0 (arg1 m c) (R.edgeEnc (arg2 m c) (arg6 m c) (arg7 m c)) (arg8 m c) (arg9 m c) (arg10 m c) (arg11 m c) (arg12 m c) (arg13 m c) (arg14 m c) (arg15 m c)
            (R.layer 0 Cert.ReferenceIdeal.Facts₀.slices_S3x144x64_S1x144x64_0_0_0 Gen.slices_S3x64_S1x64_0_0 Gen.slices_S3x64x64_S1x64x64_0_0_0 Gen.slices_S3x64x192_S1x64x192_0_0_0 Gen.slices_S3x192_S1x192_0_0 (arg1 m c) (R.edgeEnc (arg2 m c) (arg6 m c) (arg7 m c)) (arg8 m c) (arg9 m c) (arg10 m c) (arg11 m c) (arg12 m c) (arg13 m c) (arg14 m c) (arg15 m c)
            (R.nodeEnc (arg0 m c) (arg4 m c) (arg5 m c))))) := by
  refine (result_v153 m ρ c).trans ?_
  rw [R5_eq, R3_eq, R1_eq]
  rw [kLayer_eq 2 _ _ _ _ _ _ Cert.ReferenceIdeal.Facts₀.slices_S3x144x64_S1x144x64_2_0_0, kLayer_eq 1 _ _ _ _ _ _ Cert.ReferenceIdeal.Facts₀.slices_S3x144x64_S1x144x64_1_0_0, kLayer_eq 0 _ _ _ _ _ _ Cert.ReferenceIdeal.Facts₀.slices_S3x144x64_S1x144x64_0_0_0]
  rfl

end Cert.Net.Asm

end
-- ==== Proof.lean ====
/-
  A three-layer message-passing network on a graph of 50000 nodes and 800000 edges, computed twice: by a program
  whose edge network and gated node update run as six tiled regions (the edge network fed one interleaved gather
  of both endpoints and the first weight taken apart as rows 0..127 and 128..143), and by a reference that
  gathers the two endpoints separately, concatenates them with the edge features and contracts all 144 columns at
  once. On the extended reals the two are one function of the arguments: a change of float format is the
  identity; a sum over 144 positions is the sum over the first 128 plus the sum over the last 16 (addition is
  commutative and associative, no finiteness is used); the logistic function is 1 / (1 + exp (−x)) by definition;
  the gathers read the same rows; the sums at the destinations, the pooling and the readout are the same host
  arithmetic on equal operands.
  The three frames are the generated ones (the reference's is its run over its list of host operations, with the result dropped); the
  idealization rewrote nothing, so there is nothing to preserve; the algebraic claim takes the kernel's run with
  its result buffer named and the reference's run read back stage by stage, and joins their results by `Cert.Net.Asm.value_eq`.
-/
import proofs.«148557_j77953656422434_2_alg».proof.Defs
import proofs.«148557_j77953656422434_2_alg».proof.Proof.Gen.Kernel
import proofs.«148557_j77953656422434_2_alg».proof.Proof.Gen.Kernel.Skeleton
import proofs.«148557_j77953656422434_2_alg».proof.Proof.Gen.Kernel.Launch
import proofs.«148557_j77953656422434_2_alg».proof.Proof.Gen.Kernel.Points
import proofs.«148557_j77953656422434_2_alg».proof.Proof.Gen.Kernel.Frame
import proofs.«148557_j77953656422434_2_alg».proof.Proof.Gen.KernelIdeal
import proofs.«148557_j77953656422434_2_alg».proof.Proof.Gen.KernelIdeal.Skeleton
import proofs.«148557_j77953656422434_2_alg».proof.Proof.Gen.KernelIdeal.Launch
import proofs.«148557_j77953656422434_2_alg».proof.Proof.Gen.KernelIdeal.Points
import proofs.«148557_j77953656422434_2_alg».proof.Proof.Gen.KernelIdeal.Frame
import proofs.«148557_j77953656422434_2_alg».proof.Proof.Gen.ReferenceIdeal
import proofs.«148557_j77953656422434_2_alg».proof.Proof.Gen.Pre_finite_inputs
import proofs.«148557_j77953656422434_2_alg».proof.Proof.RefRun
import proofs.«148557_j77953656422434_2_alg».proof.Proof.RefReads
import proofs.«148557_j77953656422434_2_alg».proof.Proof.KernelRun
import proofs.«148557_j77953656422434_2_alg».proof.Proof.AssembleRun
import Idealize.ShloMosaic.Adequacy
import Idealize.ShloMosaic.Init

noncomputable section

namespace Cert.Proof

open Idealize.ShloMosaic Idealize.SL.Sem

/-- The word-level program's frame: generated whole. -/
theorem frame_kernel : Cert.frame_Kernel := fun m ρ _ => Cert.Kernel.Gen.frame m ρ

/-- The idealized program's frame: generated whole. -/
theorem frame_kernelIdeal : Cert.frame_KernelIdeal := fun m ρ _ => Cert.KernelIdeal.Gen.frame m ρ

/-- The reference's frame: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the kernel's returned
    buffer holds the reference's composed value at the kernel's arguments, which are the reference's. -/
theorem algebraic : Cert.algebraic_KernelIdeal_ReferenceIdeal := by
  intro m ρ m' ρ' _ hagree
  refine ⟨fun c => Cert.KernelIdeal.Gen.W15 m ρ c (Proc.devRef .tc Cert.KernelIdeal.main_v153), Cert.Net.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.Net.RRun.ref_value m' c]
  obtain ⟨e0, e1, e2, e3, e4, e5, e6, e7, e8, e9, e10, e11, e12, e13, e14, e15, e16, e17, e18, e19⟩ := hagree c
  simp only [Cert.Net.RRun.refH3, Cert.Net.RRun.refH2, Cert.Net.RRun.refH1, Cert.Net.RRun.refH0, Cert.Net.RRun.refE, Cert.Net.RRun.a0, Cert.Net.RRun.a1, Cert.Net.RRun.a2, Cert.Net.RRun.a3, Cert.Net.RRun.a4, Cert.Net.RRun.a5, Cert.Net.RRun.a6, Cert.Net.RRun.a7, Cert.Net.RRun.a8, Cert.Net.RRun.a9, Cert.Net.RRun.a10, Cert.Net.RRun.a11, Cert.Net.RRun.a12, Cert.Net.RRun.a13, Cert.Net.RRun.a14, Cert.Net.RRun.a15, Cert.Net.RRun.a16, Cert.Net.RRun.a17, Cert.Net.RRun.a18, Cert.Net.RRun.a19]
  rw [e0, e1, e2, e3, e4, e5, e6, e7, e8, e9, e10, e11, e12, e13, e14, e15, e16, e17, e18, e19]
  exact (Cert.Net.Asm.value_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
